-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x128 : Shape := ⟨3, ![128, 1024, 128]⟩
abbrev S128x1024 : Shape := ⟨2, ![128, 1024]⟩
abbrev S512x256 : Shape := ⟨2, ![512, 256]⟩
abbrev S512x128 : Shape := ⟨2, ![512, 128]⟩
abbrev S512 : Shape := ⟨1, ![512]⟩
abbrev S1x256 : Shape := ⟨2, ![1, 256]⟩
abbrev S1 : Shape := ⟨1, ![1]⟩
abbrev S_ : Shape := ⟨0, ![]⟩
abbrev S128 : Shape := ⟨1, ![128]⟩

class Facts : Prop where
  bcast_S_S128x1024x128 : S_.BroadcastsInDim S128x1024x128 (![] : Fin 0 → Fin S128x1024x128.rank)
  reducesTo_S128x1024x128_S_d0_1_2 : S128x1024x128.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  reducesTo_S128x1024_S128_d1 : S128x1024.ReducesTo [1] S128
  reducesTo_S128_S_d0 : S128.ReducesTo [0] S_

variable [Facts]

def fn_part2 {F : FTy → Type} [FloatOps F] (main_arg1 : IVec S128x1024 1) (main_arg8 : FVec F S1 .f32) (main_arg9 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 1 := constantI S_ 1 0#1
  let main_v44 : IVec S128 1 := (fun x v => Host.reduce IntOp.ori x v reducesTo_S128x1024_S128_d1 h_S_) main_arg1 main_c_16
  let main_c_17 : IVec S_ 1 := constantI S_ 1 1#1
  let main_v45 : IVec S_ 1 := (fun x v => Host.reduce IntOp.andi x v reducesTo_S128_S_d0 h_S_) main_v44 main_c_17
  let main_v46 : IVec S_ 1 := andi main_v43 main_v45
  main_v46

def fn_part1 {F : FTy → Type} [FloatOps F] (main_arg1 : IVec S128x1024 1) (main_arg5 : FVec F S512 .f32) (main_arg6 : FVec F S1x256 .f32) (main_arg7 : FVec F S1 .f32) (main_arg8 : FVec F S1 .f32) (main_arg9 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_v33

def fn {F : FTy → Type} [FloatOps F] (main_arg0 : FVec F S128x1024x128 .f32) (main_arg1 : IVec S128x1024 1) (main_arg2 : FVec F S512x256 .f32) (main_arg3 : FVec F S512x128 .f32) (main_arg4 : FVec F S512 .f32) (main_arg5 : FVec F S512 .f32) (main_arg6 : FVec F S1x256 .f32) (main_arg7 : FVec F S1 .f32) (main_arg8 : FVec F S1 .f32) (main_arg9 : FVec F S1 .f32) : IVec S_ 1 :=
  let main_v0 : FVec F S128x1024x128 .f32 := Host.absf main_arg0
  let main_cst : FVec F S_ .f32 := constant S_ .f32 0x7F800000#32
  let main_v1 : FVec F S128x1024x128 .f32 := broadcastInDim S128x1024x128 ![] bcast_S_S128x1024x128 main_cst
  let main_v2 : IVec S128x1024x128 1 := cmpf .olt main_v0 main_v1
  let main_c : IVec S_ 1 := constantI S_ 1 1#1
  let main_v3 : IVec S_ 1 := (fun x v => Host.reduce IntOp.andi x v reducesTo_S128x1024x128_S_d0_1_2 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_arg9 main_v13 main_v16
-- ==== Kernel.lean ====
abbrev S128x1024x128 : Shape := ⟨3, ![128, 1024, 128]⟩
abbrev S128x1024 : Shape := ⟨2, ![128, 1024]⟩
abbrev S512x256 : Shape := ⟨2, ![512, 256]⟩
abbrev S512x128 : Shape := ⟨2, ![512, 128]⟩
abbrev S512 : Shape := ⟨1, ![512]⟩
abbrev S1x256 : Shape := ⟨2, ![1, 256]⟩
abbrev S1 : Shape := ⟨1, ![1]⟩
abbrev S256x512 : Shape := ⟨2, ![256, 512]⟩
abbrev S128x512 : Shape := ⟨2, ![128, 512]⟩
abbrev S1x512 : Shape := ⟨2, ![1, 512]⟩
abbrev S256x1 : Shape := ⟨2, ![256, 1]⟩
abbrev S1x1 : Shape := ⟨2, ![1, 1]⟩
abbrev S128x1 : Shape := ⟨2, ![128, 1]⟩
abbrev S16x1024x128 : Shape := ⟨3, ![16, 1024, 128]⟩
abbrev S16x1024 : Shape := ⟨2, ![16, 1024]⟩
abbrev S16x1 : Shape := ⟨2, ![16, 1]⟩
abbrev S16x256 : Shape := ⟨2, ![16, 256]⟩
abbrev S16x128 : Shape := ⟨2, ![16, 128]⟩
abbrev S16x512 : Shape := ⟨2, ![16, 512]⟩
abbrev S16x1x128 : Shape := ⟨3, ![16, 1, 128]⟩
abbrev S16 : Shape := ⟨1, ![16]⟩
abbrev S16x1024x1 : Shape := ⟨3, ![16, 1024, 1]⟩

abbrev nBuf : Space → Nat
  | .hbm => 24
  | .vmem => 11
  | .smem => 0
  | _ => 0

abbrev bufTy : (tb : Table) → Fin (tcTables nBuf tb) → BufTy
  | .hbm, ⟨0, _⟩ => ⟨S128x1024x128, .f32⟩
  | .hbm, ⟨1, _⟩ => ⟨S128x1024, .i1⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S1x256, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S128x1024, .f32⟩
  | .hbm, ⟨11, _⟩ => ⟨S256x512, .f32⟩
  | .hbm, ⟨12, _⟩ => ⟨S128x512, .f32⟩
  | .hbm, ⟨13, _⟩ => ⟨S512, .f32⟩
  | .hbm, ⟨14, _⟩ => ⟨S1x512, .f32⟩
  | .hbm, ⟨15, _⟩ => ⟨S256x1, .f32⟩
  | .hbm, ⟨16, _⟩ => ⟨S1x1, .f32⟩
  | .hbm, ⟨17, _⟩ => ⟨S128x1, .f32⟩
  | .hbm, ⟨18, _⟩ => ⟨S1x1, .f32⟩
  | .hbm, ⟨19, _⟩ => ⟨S128x1, .f32⟩
  | .hbm, ⟨20, _⟩ => ⟨S128x1, .f32⟩
  | .hbm, ⟨21, _⟩ => ⟨S1x1, .f32⟩
  | .hbm, ⟨22, _⟩ => ⟨S128x1, .f32⟩
  | .hbm, ⟨23, _⟩ => ⟨S128x1, .f32⟩
  | .local _ .vmem, ⟨0, _⟩ => ⟨S16x1024x128, .f32⟩
  | .local _ .vmem, ⟨1, _⟩ => ⟨S16x1024x128, .f32⟩
  | .local _ .vmem, ⟨2, _⟩ => ⟨S16x1024, .f32⟩
  | .local _ .vmem, ⟨3, _⟩ => ⟨S16x1024, .f32⟩
  | .local _ .vmem, ⟨4, _⟩ => ⟨S256x512, .f32⟩
  | .local _ .vmem, ⟨5, _⟩ => ⟨S128x512, .f32⟩
  | .local _ .vmem, ⟨6, _⟩ => ⟨S1x512, .f32⟩
  | .local _ .vmem, ⟨7, _⟩ => ⟨S256x1, .f32⟩
  | .local _ .vmem, ⟨8, _⟩ => ⟨S1x1, .f32⟩
  | .local _ .vmem, ⟨9, _⟩ => ⟨S16x1, .f32⟩
  | .local _ .vmem, ⟨10, _⟩ => ⟨S16x1, .f32⟩
  | _, _ => ⟨S128x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x256_S256x512_1_0 : S512x256.Transposes [1, 0] S256x512
  transposes_S512x128_S128x512_1_0 : S512x128.Transposes [1, 0] S128x512
  bcast_S512_S1x512_1 : S512.BroadcastsInDim S1x512 (![1] : Fin 1 → Fin S1x512.rank)
  transposes_S1x256_S256x1_1_0 : S1x256.Transposes [1, 0] S256x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  inb_S16x1024x128_S16x1024x128_0_0_0 : ∀ a, (![0, 0, 0] : Fin 3 → Nat) a + S16x1024x128.size a ≤ S16x1024x128.size a
  h_S16x1024x128 : 0 < S16x1024x128.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  broadcasts_S1x512_S16x512 : S1x512.Broadcasts S16x512
  slices_S16x512_o0_0_S16x128 : S16x512.Slices ![0, 0] S16x128
  slices_S16x512_o0_128_S16x128 : S16x512.Slices ![0, 128] S16x128
  slices_S16x512_o0_256_S16x128 : S16x512.Slices ![0, 256] S16x128
  slices_S16x512_o0_384_S16x128 : S16x512.Slices ![0, 384] S16x128
  shapeCasts_S16x128_S16x1x128 : S16x128.ShapeCasts S16x1x128
  broadcasts_S16x1x128_S16x1024x128 : S16x1x128.Broadcasts S16x1024x128
  reduces_S16x1024x128_S16x1024 : S16x1024x128.Reduces [2] S16x1024
  reduces_S16x1024_S16 : S16x1024.Reduces [1] S16
  shapeCasts_S16_S16x1 : S16.ShapeCasts S16x1
  broadcasts_S16x1_S16x1024 : S16x1.Broadcasts S16x1024
  shapeCasts_S16x1024_S16x1024x1 : S16x1024.ShapeCasts S16x1024x1
  broadcasts_S16x1024x1_S16x1024x128 : S16x1024x1.Broadcasts S16x1024x128
  reduces_S16x1024x128_S16x128 : S16x1024x128.Reduces [1] S16x128
  concatenates_S16x128_S16x128_S16x256_d1 : Shape.Concatenates [S16x128, S16x128] S16x256 1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16x1 : S1x1.Broadcasts S16x1
  inb_S16x1_S16x1_0_0 : ∀ a, (![0, 0] : Fin 2 → Nat) a + S16x1.size a ≤ S16x1.size a
  h_S16x1 : 0 < S16x1.numel
  dot_S16x256_S256x512_S16x512_1_0_0_1_n_n_wf : DotDims.WF S16x256 S256x512 S16x512 [1] [0] [0] [1] [] []
  dot_S16x128_S128x512_S16x512_1_0_0_1_n_n_wf : DotDims.WF S16x128 S128x512 S16x512 [1] [0] [0] [1] [] []
  dot_S16x256_S256x1_S16x1_1_0_0_1_n_n_wf : DotDims.WF S16x256 S256x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x128.size a ≤ S128x1024x128.size a
  hwx0_0 : ∀ i : grid0.Coords, EltTy.bits .f32 = 32 ∨ (Rect.block (s := S128x1024x128) S16x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S128x1024.size a
  hwx0_1 : ∀ i : grid0.Coords, EltTy.bits .f32 = 32 ∨ (Rect.block (s := S128x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S128x1.size a
  hwx0_7 : ∀ i : grid0.Coords, EltTy.bits .f32 = 32 ∨ (Rect.block (s := S128x1) S16x1.size (cc0_transform_7 i) (hinb0_7 i)).WholeWords (EltTy.packing .f32)

variable [Facts₀]

def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x128_S128x512_S16x512_1_0_0_1_n_n : DotDims S16x128 S128x512 S16x512 where
  lhsContracting := [1]
  rhsContracting := [0]
  lhsNonContracting := [0]
  rhsNonContracting := [1]
  lhsBatch := []
  rhsBatch := []
  wf := dot_S16x128_S128x512_S16x512_1_0_0_1_n_n_wf
def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf

abbrev win0_0 : Pipeline.Window sig grid0 :=
  Pipeline.Window.ofSpec (Memref.whole main_arg0) S16x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7) S16x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x1024x128 : Shape := ⟨3, ![128, 1024, 128]⟩
abbrev S128x1024 : Shape := ⟨2, ![128, 1024]⟩
abbrev S512x256 : Shape := ⟨2, ![512, 256]⟩
abbrev S512x128 : Shape := ⟨2, ![512, 128]⟩
abbrev S512 : Shape := ⟨1, ![512]⟩
abbrev S1x256 : Shape := ⟨2, ![1, 256]⟩
abbrev S1 : Shape := ⟨1, ![1]⟩
abbrev S_ : Shape := ⟨0, ![]⟩
abbrev S128x256 : Shape := ⟨2, ![128, 256]⟩
abbrev S128x128 : Shape := ⟨2, ![128, 128]⟩
abbrev S256x512 : Shape := ⟨2, ![256, 512]⟩
abbrev S128x512 : Shape := ⟨2, ![128, 512]⟩
abbrev S1x512 : Shape := ⟨2, ![1, 512]⟩
abbrev S128x1x128 : Shape := ⟨3, ![128, 1, 128]⟩
abbrev S128 : Shape := ⟨1, ![128]⟩
abbrev S128x1 : Shape := ⟨2, ![128, 1]⟩
abbrev S128x1024x1 : Shape := ⟨3, ![128, 1024, 1]⟩
abbrev S256x1 : Shape := ⟨2, ![256, 1]⟩
abbrev S1x1 : Shape := ⟨2, ![1, 1]⟩

abbrev nBuf : Space → Nat
  | .hbm => 253
  | .vmem => 0
  | .smem => 0
  | _ => 0

abbrev hbmTy0_0 (i : Nat) : BufTy := match i % 128 with
  | 0 => ⟨S128x1024x128, .f32⟩
  | 1 => ⟨S128x1024, .i1⟩
  | 2 => ⟨S512x256, .f32⟩
  | 3 => ⟨S512x128, .f32⟩
  | 4 => ⟨S512, .f32⟩
  | 5 => ⟨S512, .f32⟩
  | 6 => ⟨S1x256, .f32⟩
  | 7 => ⟨S1, .f32⟩
  | 8 => ⟨S1, .f32⟩
  | 9 => ⟨S1, .f32⟩
  | 10 => ⟨S128x1024, .f32⟩
  | 11 => ⟨S_, .f32⟩
  | 12 => ⟨S128x256, .f32⟩
  | 13 => ⟨S_, .f32⟩
  | 14 => ⟨S128x128, .f32⟩
  | 15 => ⟨S_, .f32⟩
  | 16 => ⟨S128x128, .f32⟩
  | 17 => ⟨S256x512, .f32⟩
  | 18 => ⟨S128x512, .f32⟩
  | 19 => ⟨S1x512, .f32⟩
  | 20 => ⟨S128x512, .f32⟩
  | 21 => ⟨S128x512, .f32⟩
  | 22 => ⟨S128x512, .f32⟩
  | 23 => ⟨S128x512, .f32⟩
  | 24 => ⟨S128x512, .f32⟩
  | 25 => ⟨S1x512, .f32⟩
  | 26 => ⟨S128x512, .f32⟩
  | 27 => ⟨S128x512, .f32⟩
  | 28 => ⟨S128x128, .f32⟩
  | 29 => ⟨S128x128, .f32⟩
  | 30 => ⟨S128x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .f32⟩
  | 37 => ⟨S_, .f32⟩
  | 38 => ⟨S128x128, .f32⟩
  | 39 => ⟨S128x128, .f32⟩
  | 40 => ⟨S128x128, .f32⟩
  | 41 => ⟨S128x128, .f32⟩
  | 42 => ⟨S_, .f32⟩
  | 43 => ⟨S128x128, .f32⟩
  | 44 => ⟨S128x128, .f32⟩
  | 45 => ⟨S_, .f32⟩
  | 46 => ⟨S128x128, .f32⟩
  | 47 => ⟨S128x128, .f32⟩
  | 48 => ⟨S128x128, .f32⟩
  | 49 => ⟨S128x128, .f32⟩
  | 50 => ⟨S128x128, .f32⟩
  | 51 => ⟨S_, .f32⟩
  | 52 => ⟨S128x128, .f32⟩
  | 53 => ⟨S128x128, .f32⟩
  | 54 => ⟨S_, .f32⟩
  | 55 => ⟨S128x128, .f32⟩
  | 56 => ⟨S128x128, .f32⟩
  | 57 => ⟨S128x128, .f32⟩
  | 58 => ⟨S128x128, .f32⟩
  | 59 => ⟨S128x128, .f32⟩
  | 60 => ⟨S128x128, .f32⟩
  | 61 => ⟨S128x128, .f32⟩
  | 62 => ⟨S128x1x128, .f32⟩
  | 63 => ⟨S128x1024x128, .f32⟩
  | 64 => ⟨S128x1024x128, .f32⟩
  | 65 => ⟨S_, .f32⟩
  | 66 => ⟨S128x1024, .f32⟩
  | 67 => ⟨S_, .f32⟩
  | 68 => ⟨S_, .f32⟩
  | 69 => ⟨S128x1024, .f32⟩
  | 70 => ⟨S128x1024, .f32⟩
  | 71 => ⟨S_, .f32⟩
  | 72 => ⟨S128, .f32⟩
  | 73 => ⟨S128x1, .f32⟩
  | 74 => ⟨S128x1024, .f32⟩
  | 75 => ⟨S128x1024, .f32⟩
  | 76 => ⟨S128x1024, .f32⟩
  | 77 => ⟨S128x1024, .f32⟩
  | 78 => ⟨S_, .f32⟩
  | 79 => ⟨S128, .f32⟩
  | 80 => ⟨S128x1, .f32⟩
  | 81 => ⟨S128x1024, .f32⟩
  | 82 => ⟨S128x1024, .f32⟩
  | 83 => ⟨S128x1024x1, .f32⟩
  | 84 => ⟨S128x1024x128, .f32⟩
  | 85 => ⟨S128x1024x128, .f32⟩
  | 86 => ⟨S128x1024x1, .f32⟩
  | 87 => ⟨S128x1024x128, .f32⟩
  | 88 => ⟨S128x1024x128, .f32⟩
  | 89 => ⟨S_, .f32⟩
  | 90 => ⟨S128x128, .f32⟩
  | 91 => ⟨S128x256, .f32⟩
  | 92 => ⟨S256x512, .f32⟩
  | 93 => ⟨S128x512, .f32⟩
  | 94 => ⟨S1x512, .f32⟩
  | 95 => ⟨S128x512, .f32⟩
  | 96 => ⟨S128x512, .f32⟩
  | 97 => ⟨S128x512, .f32⟩
  | 98 => ⟨S128x512, .f32⟩
  | 99 => ⟨S128x512, .f32⟩
  | 100 => ⟨S1x512, .f32⟩
  | 101 => ⟨S128x512, .f32⟩
  | 102 => ⟨S128x512, .f32⟩
  | 103 => ⟨S128x128, .f32⟩
  | 104 => ⟨S128x128, .f32⟩
  | 105 => ⟨S128x128, .f32⟩
  | 106 => ⟨S128x128, .f32⟩
  | 107 => ⟨S128x128, .f32⟩
  | 108 => ⟨S128x128, .f32⟩
  | 109 => ⟨S_, .f32⟩
  | 110 => ⟨S128x128, .f32⟩
  | 111 => ⟨S128x128, .f32⟩
  | 112 => ⟨S_, .f32⟩
  | 113 => ⟨S128x128, .f32⟩
  | 114 => ⟨S128x128, .f32⟩
  | 115 => ⟨S128x128, .f32⟩
  | 116 => ⟨S128x128, .f32⟩
  | 117 => ⟨S_, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S128x1024x128, .f32⟩

abbrev hbmTy0_1 (i : Nat) : BufTy := match i % 128 with
  | 0 => ⟨S128x128, .f32⟩
  | 1 => ⟨S_, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x1x128, .f32⟩
  | 10 => ⟨S128x1024x128, .f32⟩
  | 11 => ⟨S128x1024x128, .f32⟩
  | 12 => ⟨S_, .f32⟩
  | 13 => ⟨S128x1024, .f32⟩
  | 14 => ⟨S_, .f32⟩
  | 15 => ⟨S_, .f32⟩
  | 16 => ⟨S128x1024, .f32⟩
  | 17 => ⟨S128x1024, .f32⟩
  | 18 => ⟨S_, .f32⟩
  | 19 => ⟨S128, .f32⟩
  | 20 => ⟨S128x1, .f32⟩
  | 21 => ⟨S128x1024, .f32⟩
  | 22 => ⟨S128x1024, .f32⟩
  | 23 => ⟨S128x1024, .f32⟩
  | 24 => ⟨S128x1024, .f32⟩
  | 25 => ⟨S_, .f32⟩
  | 26 => ⟨S128, .f32⟩
  | 27 => ⟨S128x1, .f32⟩
  | 28 => ⟨S128x1024, .f32⟩
  | 29 => ⟨S128x1024, .f32⟩
  | 30 => ⟨S128x1024x1, .f32⟩
  | 31 => ⟨S128x1024x128, .f32⟩
  | 32 => ⟨S128x1024x128, .f32⟩
  | 33 => ⟨S128x1024x1, .f32⟩
  | 34 => ⟨S128x1024x128, .f32⟩
  | 35 => ⟨S128x1024x128, .f32⟩
  | 36 => ⟨S_, .f32⟩
  | 37 => ⟨S128x128, .f32⟩
  | 38 => ⟨S128x256, .f32⟩
  | 39 => ⟨S256x512, .f32⟩
  | 40 => ⟨S128x512, .f32⟩
  | 41 => ⟨S1x512, .f32⟩
  | 42 => ⟨S128x512, .f32⟩
  | 43 => ⟨S128x512, .f32⟩
  | 44 => ⟨S128x512, .f32⟩
  | 45 => ⟨S128x512, .f32⟩
  | 46 => ⟨S128x512, .f32⟩
  | 47 => ⟨S1x512, .f32⟩
  | 48 => ⟨S128x512, .f32⟩
  | 49 => ⟨S128x512, .f32⟩
  | 50 => ⟨S128x128, .f32⟩
  | 51 => ⟨S128x128, .f32⟩
  | 52 => ⟨S128x128, .f32⟩
  | 53 => ⟨S128x128, .f32⟩
  | 54 => ⟨S128x128, .f32⟩
  | 55 => ⟨S128x128, .f32⟩
  | 56 => ⟨S_, .f32⟩
  | 57 => ⟨S128x128, .f32⟩
  | 58 => ⟨S128x128, .f32⟩
  | 59 => ⟨S_, .f32⟩
  | 60 => ⟨S128x128, .f32⟩
  | 61 => ⟨S128x128, .f32⟩
  | 62 => ⟨S128x128, .f32⟩
  | 63 => ⟨S128x128, .f32⟩
  | 64 => ⟨S_, .f32⟩
  | 65 => ⟨S128x128, .f32⟩
  | 66 => ⟨S128x128, .f32⟩
  | 67 => ⟨S_, .f32⟩
  | 68 => ⟨S128x128, .f32⟩
  | 69 => ⟨S128x128, .f32⟩
  | 70 => ⟨S128x128, .f32⟩
  | 71 => ⟨S128x128, .f32⟩
  | 72 => ⟨S128x128, .f32⟩
  | 73 => ⟨S_, .f32⟩
  | 74 => ⟨S128x128, .f32⟩
  | 75 => ⟨S128x128, .f32⟩
  | 76 => ⟨S_, .f32⟩
  | 77 => ⟨S128x128, .f32⟩
  | 78 => ⟨S128x128, .f32⟩
  | 79 => ⟨S128x128, .f32⟩
  | 80 => ⟨S128x128, .f32⟩
  | 81 => ⟨S128x128, .f32⟩
  | 82 => ⟨S128x128, .f32⟩
  | 83 => ⟨S128x128, .f32⟩
  | 84 => ⟨S128x1x128, .f32⟩
  | 85 => ⟨S128x1024x128, .f32⟩
  | 86 => ⟨S128x1024x128, .f32⟩
  | 87 => ⟨S_, .f32⟩
  | 88 => ⟨S128x1024, .f32⟩
  | 89 => ⟨S_, .f32⟩
  | 90 => ⟨S_, .f32⟩
  | 91 => ⟨S128x1024, .f32⟩
  | 92 => ⟨S128x1024, .f32⟩
  | 93 => ⟨S_, .f32⟩
  | 94 => ⟨S128, .f32⟩
  | 95 => ⟨S128x1, .f32⟩
  | 96 => ⟨S128x1024, .f32⟩
  | 97 => ⟨S128x1024, .f32⟩
  | 98 => ⟨S128x1024, .f32⟩
  | 99 => ⟨S128x1024, .f32⟩
  | 100 => ⟨S_, .f32⟩
  | 101 => ⟨S128, .f32⟩
  | 102 => ⟨S128x1, .f32⟩
  | 103 => ⟨S128x1024, .f32⟩
  | 104 => ⟨S128x1024, .f32⟩
  | 105 => ⟨S128x1024x1, .f32⟩
  | 106 => ⟨S128x1024x128, .f32⟩
  | 107 => ⟨S128x1024x128, .f32⟩
  | 108 => ⟨S128x1024x1, .f32⟩
  | 109 => ⟨S128x1024x128, .f32⟩
  | 110 => ⟨S128x1024x128, .f32⟩
  | 111 => ⟨S_, .f32⟩
  | 112 => ⟨S128x128, .f32⟩
  | 113 => ⟨S128x256, .f32⟩
  | 114 => ⟨S256x1, .f32⟩
  | 115 => ⟨S128x1, .f32⟩
  | 116 => ⟨S1x1, .f32⟩
  | 117 => ⟨S128x1, .f32⟩
  | 118 => ⟨S128x1, .f32⟩
  | 119 => ⟨S1x1, .f32⟩
  | 120 => ⟨S128x1, .f32⟩
  | 121 => ⟨S128x1, .f32⟩
  | 122 => ⟨S1x1, .f32⟩
  | 123 => ⟨S128x1, .f32⟩
  | 124 => ⟨S128x1, .f32⟩
  | _ => ⟨S128x1024x128, .f32⟩

abbrev hbmTy (i : Nat) : BufTy := match i / 128 with
  | 0 => hbmTy0_0 i
  | 1 => hbmTy0_1 i
  | _ => ⟨S128x1024x128, .f32⟩

abbrev bufTy : (tb : Table) → Fin (tcTables nBuf tb) → BufTy
  | .hbm, ⟨i, _⟩ => hbmTy i
  | _, _ => ⟨S128x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_call0_v0 : Ref sig .tc := ⟨.hbm, 68, rfl⟩
abbrev main_call0_v1 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_19 : Ref sig .tc := ⟨.hbm, 140, rfl⟩
abbrev main_v108 : Ref sig .tc := ⟨.hbm, 141, rfl⟩
abbrev main_cst_20 : Ref sig .tc := ⟨.hbm, 142, rfl⟩
abbrev main_call1_v0 : Ref sig .tc := ⟨.hbm, 143, rfl⟩
abbrev main_call1_v1 : Ref sig .tc := ⟨.hbm, 144, rfl⟩
abbrev main_v109 : Ref sig .tc := ⟨.hbm, 145, rfl⟩
abbrev main_cst_21 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_22 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_23 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_24 : Ref sig .tc := ⟨.hbm, 184, rfl⟩
abbrev main_v145 : Ref sig .tc := ⟨.hbm, 185, rfl⟩
abbrev main_v146 : Ref sig .tc := ⟨.hbm, 186, rfl⟩
abbrev main_cst_25 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_26 : Ref sig .tc := ⟨.hbm, 192, rfl⟩
abbrev main_v151 : Ref sig .tc := ⟨.hbm, 193, rfl⟩
abbrev main_v152 : Ref sig .tc := ⟨.hbm, 194, rfl⟩
abbrev main_cst_27 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_28 : Ref sig .tc := ⟨.hbm, 201, rfl⟩
abbrev main_v158 : Ref sig .tc := ⟨.hbm, 202, rfl⟩
abbrev main_v159 : Ref sig .tc := ⟨.hbm, 203, rfl⟩
abbrev main_cst_29 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_30 : Ref sig .tc := ⟨.hbm, 215, rfl⟩
abbrev main_v170 : Ref sig .tc := ⟨.hbm, 216, rfl⟩
abbrev main_cst_31 : Ref sig .tc := ⟨.hbm, 217, rfl⟩
abbrev main_call2_v0 : Ref sig .tc := ⟨.hbm, 218, rfl⟩
abbrev main_call2_v1 : Ref sig .tc := ⟨.hbm, 219, rfl⟩
abbrev main_v171 : Ref sig .tc := ⟨.hbm, 220, rfl⟩
abbrev main_cst_32 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_33 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_34 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩

abbrev nD : Nat := 1
abbrev τ : Topo := Topo.v7x

variable {F : FTy → Type} [FloatOps F]

class Facts₀ : Prop where
  bcast_S_S128x256 : S_.BroadcastsInDim S128x256 (![] : Fin 0 → Fin S128x256.rank)
  bcast_S_S128x128 : S_.BroadcastsInDim S128x128 (![] : Fin 0 → Fin S128x128.rank)
  transposes_S512x256_S256x512_1_0 : S512x256.Transposes [1, 0] S256x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  transposes_S512x128_S128x512_1_0 : S512x128.Transposes [1, 0] S128x512
  slices_S128x512_S128x128_0_0 : S128x512.Slices ![0, 0] S128x128
  slices_S128x512_S128x128_0_128 : S128x512.Slices ![0, 128] S128x128
  slices_S128x512_S128x128_0_256 : S128x512.Slices ![0, 256] S128x128
  slices_S128x512_S128x128_0_384 : S128x512.Slices ![0, 384] S128x128
  bcast_S128x128_S128x1x128_0_2 : S128x128.BroadcastsInDim S128x1x128 (![0, 2] : Fin 2 → Fin S128x1x128.rank)
  bcast_S128x1x128_S128x1024x128_0_1_2 : S128x1x128.BroadcastsInDim S128x1024x128 (![0, 1, 2] : Fin 3 → Fin S128x1024x128.rank)
  reducesTo_S128x1024x128_S128x1024_d2 : S128x1024x128.ReducesTo [2] S128x1024
  h_S_ : 0 < S_.numel
  bcast_S_S128x1024 : S_.BroadcastsInDim S128x1024 (![] : Fin 0 → Fin S128x1024.rank)
  reducesTo_S128x1024_S128_d1 : S128x1024.ReducesTo [1] S128
  bcast_S128_S128x1_0 : S128.BroadcastsInDim S128x1 (![0] : Fin 1 → Fin S128x1.rank)
  bcast_S128x1_S128x1024_0_1 : S128x1.BroadcastsInDim S128x1024 (![0, 1] : Fin 2 → Fin S128x1024.rank)
  bcast_S128x1024_S128x1024x1_0_1 : S128x1024.BroadcastsInDim S128x1024x1 (![0, 1] : Fin 2 → Fin S128x1024x1.rank)
  bcast_S128x1024x1_S128x1024x128_0_1_2 : S128x1024x1.BroadcastsInDim S128x1024x128 (![0, 1, 2] : Fin 3 → Fin S128x1024x128.rank)
  reducesTo_S128x1024x128_S128x128_d1 : S128x1024x128.ReducesTo [1] S128x128
  concatenates_S128x128_S128x128_S128x256_d1 : Shape.Concatenates [S128x128, S128x128] S128x256 1
  transposes_S1x256_S256x1_1_0 : S1x256.Transposes [1, 0] S256x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x256_S256x512_S128x512_1_0_0_1_n_n_wf : DotDims.WF S128x256 S256x512 S128x512 [1] [0] [0] [1] [] []
  dot_S128x128_S128x512_S128x512_1_0_0_1_n_n_wf : DotDims.WF S128x128 S128x512 S128x512 [1] [0] [0] [1] [] []
  dot_S128x256_S256x1_S128x1_1_0_0_1_n_n_wf : DotDims.WF S128x256 S256x1 S128x1 [1] [0] [0] [1] [] []

variable [Facts₀]

def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

class Facts : Prop extends Facts₀ where

variable [Facts]
-- ==== Proof.PreDecode.lean ====
/-
  What the precondition says about two of the inputs.

  The precondition is a conjunction of ten conditions on the argument arrays, each the reduction of an
  array of truth values to a single truth value, and the hypothesis is that the conjunction is true.
  Two of its conjuncts are read back here, at the instance where floats are extended reals.

  * The first conjunct is "|x| < +inf at every entry x of the f32[128, 1024, 128] array": a reduction by
    "and", from true, over all three axes, of the entrywise comparison of max x (-x) with the extended real
    that the bit pattern 0x7F800000 denotes, which is the top element. An extended real x with
    max x (-x) < top is neither top nor bottom, so it is a real number: `rep_finite`.

  * The last conjunct is "every row of the i1[128, 1024] mask has a true entry": a reduction by "or", from
    false, along axis 1, followed by a reduction by "and", from true, over the remaining axis. A left
    fold by "or" over one-bit words that comes out 1 either started at 1 or met a 1 (`foldl_ori_eq_one`);
    started at 0 it met a 1 (`reduce_ori_eq_one`), at an index whose coordinate on the kept axis is the
    row's: `row_has_atom`.
-/
import proofs.«112316_g16243566313856_cont_week2b_871_2_alg».proof.Defs
import proofs.«112316_g16243566313856_cont_week2b_871_2_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.SL.Sem

/-- The shape with no axes has one index. -/
instance : Subsingleton Cert.Pre_finite_inputs.S_.Idx := ⟨fun a b => funext fun d => d.elim0⟩

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 →
      init = 1#1 ∨ ∃ n ∈ l, f n = 1#1
  | [], init, h => Or.inl h
  | a :: l, init, h => by
    rcases foldl_ori_eq_one f l _ h with h1 | ⟨n, hn, e⟩
    · rcases IntOp.ori_eq_one.1 h1 with hi | ha
      · exact Or.inl hi
      · exact Or.inr ⟨a, List.mem_cons_self, ha⟩
    · exact Or.inr ⟨n, List.mem_cons_of_mem _ hn, e⟩

/-- A reduction by "or", from 0, that is 1 at the result index j had a 1 at some operand index that
    reduces into j. -/
theorem reduce_ori_eq_one {s t u : Shape} {axes : List (Fin s.rank)} (x : s.Idx → BitVec 1)
    (init : u.Idx → BitVec 1) (h : s.ReducesTo axes t) (hu : 0 < u.numel) (hinit : ∀ k, init k = 0#1)
    (j : t.Idx) (e : Host.reduce IntOp.ori x init h hu j = 1#1) : ∃ i : s.Idx, h.drop i = j ∧ x i = 1#1 := by
  rw [Host.reduce_eq_foldl] at e
  rcases foldl_ori_eq_one x _ _ e with h0 | ⟨i, hi, hx⟩
  · rw [hinit] at h0
    exact absurd h0 (by decide)
  · rw [List.mem_filter] at hi
    exact ⟨i, of_decide_eq_true hi.2, hx⟩

/-- The conjunction that the precondition is, split into its first and its last conjunct. -/
theorem pre_split
    (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD) :
    Host.reduce IntOp.andi
        (cmpf (F := Ideal) .olt
          (Host.absf (m ((c.tc : Thread Cert.KernelIdeal.nD Cert.KernelIdeal.τ).loc Cert.KernelIdeal.main_arg0)))
          (broadcastInDim Cert.Pre_finite_inputs.S128x1024x128 ![] hP.bcast_S_S128x1024x128
            (constant (F := Ideal) Cert.Pre_finite_inputs.S_ .f32 0x7F800000#32)))
        (constantI Cert.Pre_finite_inputs.S_ 1 1#1) hP.reducesTo_S128x1024x128_S_d0_1_2 hP.h_S_ ValueIdx.ix0 = 1#1
    ∧ Host.reduce IntOp.andi
        (Host.reduce IntOp.ori
          (m ((c.tc : Thread Cert.KernelIdeal.nD Cert.KernelIdeal.τ).loc Cert.KernelIdeal.main_arg1))
          (constantI Cert.Pre_finite_inputs.S_ 1 0#1) hP.reducesTo_S128x1024_S128_d1 hP.h_S_)
        (constantI Cert.Pre_finite_inputs.S_ 1 1#1) hP.reducesTo_S128_S_d0 hP.h_S_ ValueIdx.ix0 = 1#1 := by
  have e := congrFun (h c) ValueIdx.ix0
  dsimp only [Cert.Pre_finite_inputs.fn, Cert.Pre_finite_inputs.fn_part1, Cert.Pre_finite_inputs.fn_part2] at e
  simp only [andi, IntOp.andi_eq_one] at e
  exact ⟨e.1.1.1.1.1.1.1.1.1, e.2⟩

/-- The bit pattern 0x7F800000 denotes the top element. -/
theorem ofBits_inf : Ideal.ofBits .f32 0x7F800000#32 = (⊤ : EReal) := by
  simp [Ideal.ofBits, Ideal.ieee]

/-- An extended real x with max x (-x) < top is a real number. -/
theorem real_of_abs_lt_top (x : EReal) (hx : max x (-x) < (⊤ : EReal)) : ∃ r : ℝ, x = ((r : ℝ) : EReal) := by
  induction x using EReal.rec with
  | bot => simp at hx
  | coe r => exact ⟨r, rfl⟩
  | top => simp at hx

/-- An extended real x whose max x (-x) compares below what the bit pattern 0x7F800000 denotes is a real number. -/
theorem real_of_cmp (x : EReal)
    (e : Ideal.cmp .olt (max x (-x)) (Ideal.ofBits .f32 0x7F800000#32) = 1#1) : ∃ r : ℝ, x = ((r : ℝ) : EReal) := by
  apply real_of_abs_lt_top
  rw [ofBits_inf] at e
  unfold Ideal.cmp at e
  by_contra hn
  simp [hn] at e

/-- Every entry of the f32[128, 1024, 128] argument is a real number. -/
theorem rep_finite
    (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD)
    (i : Cert.KernelIdeal.S128x1024x128.Idx) :
    ∃ r : ℝ, m ((c.tc : Thread Cert.KernelIdeal.nD Cert.KernelIdeal.τ).loc Cert.KernelIdeal.main_arg0) i
      = ((r : ℝ) : EReal) := by
  have e := Host.reduce_andi_all _ _ _ _ _ (pre_split m h c).1 i
  exact real_of_cmp (m ((c.tc : Thread Cert.KernelIdeal.nD Cert.KernelIdeal.τ).loc Cert.KernelIdeal.main_arg0) i) e

/-- Every row of the i1[128, 1024] mask has a true entry. -/
theorem row_has_atom
    (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD)
    (b : Fin 128) :
    ∃ n : Fin 1024, m ((c.tc : Thread Cert.KernelIdeal.nD Cert.KernelIdeal.τ).loc Cert.KernelIdeal.main_arg1)
      (ValueIdx.ix2 b n) = 1#1 := by
  have e := Host.reduce_andi_all _ _ _ _ _ (pre_split m h c).2 (ValueIdx.ix1 b)
  obtain ⟨i, hi, hx⟩ := reduce_ori_eq_one _ _ _ _ (fun _ => rfl) _ e
  have hb : i 0 = b := by
    apply Fin.ext
    have h1 := Shape.ReducesTo.drop_apply_val_of_eq hP.reducesTo_S128x1024_S128_d1 i 0 0
    rw [hi] at h1
    exact h1.symm
  refine ⟨i 1, ?_⟩
  rw [ValueIdx.eq_ix2 i, hb] at hx
  exact hx

end Cert.PreDecode

end
-- ==== Proof.KernelArray.lean ====
/-
  From the kernel's blocks to its result array, at the ideal instance.

  The region runs over a grid of eight points. Point `t` reads rows `16 t … 16 t + 15` of the first argument
  (a [128, 1024, 128] array) and of the mask (a [128, 1024] array of bits, each read as the number 0 or 1), and the
  whole of five small arrays the host lines before the region prepared: the transposes of the two weight matrices,
  the sum of the two bias vectors as one row, the [1, 256] row as a [256, 1] column, and one number as a [1, 1] array.
  It writes rows `16 t … 16 t + 15` of the region's [128, 1] result and nothing else, so the eight points' blocks
  tile the result: row `r` is written by point `r / 16`, at row `r % 16` of its block.

  The host lines after the region multiply the region's result by one number (the last argument, broadcast to
  [128, 1]) and add another (the ninth argument, broadcast alike): row `r` of the program's result is
  `Y r * a₉ + a₈`, where `Y r` is what the block of point `r / 16` holds at row `r % 16`.

  `blk0` … `blk6` read each input window's block at a point, element by element, as elements of the arguments;
  `run_of` is the program's run with the result array stated row by row, for any `Y` the blocks' outputs equal.
-/
import proofs.«112316_g16243566313856_cont_week2b_871_2_alg».proof.Defs
import proofs.«112316_g16243566313856_cont_week2b_871_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.ArrayValue

open Idealize.ShloMosaic Idealize.ShloMosaic.ValueIdx Cert.KernelIdeal Cert.KernelIdeal.Gen
open Idealize.ShloMosaic.TcCoe Idealize.SL.Sem
open Idealize.ShloMosaic.Pipeline (Dat)

variable (m : (ℓ : Loc nD τ sig) → Buf (Elt Ideal) ℓ)

/-- The grid has eight points. -/
theorem N8 : cfg0.N = 8 := N_0

/-- Row `16 t + p` of point `t`'s block of sixteen rows is a row of the 128-row arrays. -/
theorem row_lt (t : Fin cfg0.N) (p : Fin 16) : 16 * t.val + p.val < 128 := by
  have h1 := t.isLt; have h2 : cfg0.N = 8 := N_0; have h3 := p.isLt; omega

/-! ## The printed index maps, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-! ## The arrays the host operations before the region wrote -/

theorem V_v0 (c : Dev nD) : (V m c main_call0_v0 : S128x1024.Idx → EReal)
    = (uitofp (F := Ideal) .f32 (m ((c.tc : Thread nD τ).loc main_arg1) : IVec S128x1024 1) : FVec Ideal S128x1024 .f32) := by
  show StableHlo.after hostOps0 (fun b => m (c, b)) (Proc.devRef .tc main_call0_v0) = _
  after_results
  rfl
theorem V_v1 (c : Dev nD) : (V m c main_call0_v1 : S256x512.Idx → EReal)
    = transpose S256x512 [1, 0] (m ((c.tc : Thread nD τ).loc main_arg2) : S512x256.Idx → EReal) transposes_S512x256_S256x512_1_0 := by
  show StableHlo.after hostOps0 (fun b => m (c, b)) (Proc.devRef .tc main_call0_v1) = _
  after_results
  rfl
theorem V_v2 (c : Dev nD) : (V m c main_call0_v2 : S128x512.Idx → EReal)
    = transpose S128x512 [1, 0] (m ((c.tc : Thread nD τ).loc main_arg3) : S512x128.Idx → EReal) transposes_S512x128_S128x512_1_0 := by
  show StableHlo.after hostOps0 (fun b => m (c, b)) (Proc.devRef .tc main_call0_v2) = _
  after_results
  rfl
theorem V_v4 (c : Dev nD) : (V m c main_call0_v4 : S1x512.Idx → EReal)
    = (broadcastInDim S1x512 ![1] bcast_S512_S1x512_1 (addf (F := Ideal) (s := S512) (φ := .f32) (m ((c.tc : Thread nD τ).loc main_arg4)) (m ((c.tc : Thread nD τ).loc main_arg5))) : S1x512.Idx → EReal) := by
  show StableHlo.after hostOps0 (fun b => m (c, b)) (Proc.devRef .tc main_call0_v4) = _
  after_results
  rfl
theorem V_v5 (c : Dev nD) : (V m c main_call0_v5 : S256x1.Idx → EReal)
    = transpose S256x1 [1, 0] (m ((c.tc : Thread nD τ).loc main_arg6) : S1x256.Idx → EReal) transposes_S1x256_S256x1_1_0 := by
  show StableHlo.after hostOps0 (fun b => m (c, b)) (Proc.devRef .tc main_call0_v5) = _
  after_results
  rfl
theorem V_v6 (c : Dev nD) : (V m c main_call0_v6 : S1x1.Idx → EReal)
    = broadcastInDim S1x1 ![1] bcast_S1_S1x1_1 (m ((c.tc : Thread nD τ).loc main_arg7) : S1.Idx → EReal) := by
  show StableHlo.after hostOps0 (fun b => m (c, b)) (Proc.devRef .tc main_call0_v6) = _
  after_results
  rfl

/-! ## Each input window's block at a point, element by element -/

/-- Window 0: point `t` stages rows `16 t … 16 t + 15` of the first argument. -/
theorem blk0 (c : Dev nD) (t : Fin cfg0.N) (p : Fin 16) (n : Fin 1024) (d : Fin 128) :
    Gen.iblk m c 0 t (ix3 p n d) = (m ((c.tc : Thread nD τ).loc main_arg0) : S128x1024x128.Idx → EReal) (ix3 ⟨16 * t.val + p.val, row_lt t p⟩ n d) := by
  obtain ⟨e0, e1, e2⟩ := idx0 t
  unfold Gen.iblk
  rw [View.read_apply]
  show V m c main_arg0 _ = _
  rw [V_main_arg0]
  congr 1
  funext a
  apply Fin.ext
  match a with
  | ⟨0, _⟩ => show win0_0.index t (0 : Fin 3) * 16 + 1 * p.val = 16 * t.val + p.val; omega
  | ⟨1, _⟩ => show win0_0.index t (1 : Fin 3) * 1024 + 1 * n.val = n.val; omega
  | ⟨2, _⟩ => show win0_0.index t (2 : Fin 3) * 128 + 1 * d.val = d.val; omega

/-- Window 1: the same rows of the mask, each bit read as the number 0 or 1. -/
theorem blk1 (c : Dev nD) (t : Fin cfg0.N) (p : Fin 16) (n : Fin 1024) :
    Gen.iblk m c 1 t (ix2 p n) = ((((m ((c.tc : Thread nD τ).loc main_arg1) : S128x1024.Idx → BitVec 1) (ix2 ⟨16 * t.val + p.val, row_lt t p⟩ n)).toNat : ℝ) : EReal) := by
  obtain ⟨e0, e1⟩ := idx1 t
  unfold Gen.iblk
  rw [View.read_apply]
  show V m c main_call0_v0 _ = _
  rw [V_v0]
  refine congrArg (fun b : BitVec 1 => (((b.toNat : ℝ)) : EReal)) (congrArg (m ((c.tc : Thread nD τ).loc main_arg1) : S128x1024.Idx → BitVec 1) ?_)
  funext a
  apply Fin.ext
  match a with
  | ⟨0, _⟩ => show win0_1.index t (0 : Fin 2) * 16 + 1 * p.val = 16 * t.val + p.val; omega
  | ⟨1, _⟩ => show win0_1.index t (1 : Fin 2) * 1024 + 1 * n.val = n.val; omega

/-- Window 2: the whole transposed third argument. -/
theorem blk2 (c : Dev nD) (t : Fin cfg0.N) (k : Fin 256) (j : Fin 512) :
    Gen.iblk m c 2 t (ix2 k j) = (m ((c.tc : Thread nD τ).loc main_arg2) : S512x256.Idx → EReal) (ix2 j k) := by
  obtain ⟨e0, e1⟩ := idx2 t
  unfold Gen.iblk
  rw [View.read_apply]
  show V m c main_call0_v1 _ = _
  rw [V_v1]
  refine Eq.trans (congrArg _ ?_) (transpose_ix2_apply _ _ k j)
  funext a
  apply Fin.ext
  match a with
  | ⟨0, _⟩ => show win0_2.index t (0 : Fin 2) * 256 + 1 * k.val = k.val; omega
  | ⟨1, _⟩ => show win0_2.index t (1 : Fin 2) * 512 + 1 * j.val = j.val; omega

/-- Window 3: the whole transposed fourth argument. -/
theorem blk3 (c : Dev nD) (t : Fin cfg0.N) (k : Fin 128) (j : Fin 512) :
    Gen.iblk m c 3 t (ix2 k j) = (m ((c.tc : Thread nD τ).loc main_arg3) : S512x128.Idx → EReal) (ix2 j k) := by
  obtain ⟨e0, e1⟩ := idx3 t
  unfold Gen.iblk
  rw [View.read_apply]
  show V m c main_call0_v2 _ = _
  rw [V_v2]
  refine Eq.trans (congrArg _ ?_) (transpose_ix2_apply _ _ k j)
  funext a
  apply Fin.ext
  match a with
  | ⟨0, _⟩ => show win0_3.index t (0 : Fin 2) * 128 + 1 * k.val = k.val; omega
  | ⟨1, _⟩ => show win0_3.index t (1 : Fin 2) * 512 + 1 * j.val = j.val; omega

/-- Window 4: the sum of the two bias vectors, as one row. -/
theorem blk4 (c : Dev nD) (t : Fin cfg0.N) (z : Fin 1) (j : Fin 512) :
    Gen.iblk m c 4 t (ix2 z j) = @HAdd.hAdd EReal EReal EReal instHAdd ((m ((c.tc : Thread nD τ).loc main_arg4) : S512.Idx → EReal) (ix1 j)) ((m ((c.tc : Thread nD τ).loc main_arg5) : S512.Idx → EReal) (ix1 j)) := by
  obtain ⟨e0, e1⟩ := idx4 t
  unfold Gen.iblk
  rw [View.read_apply]
  show V m c main_call0_v4 _ = _
  rw [V_v4]
  refine broadcastInDim_apply _ _ _ _ (ix1 j) fun a => ?_
  match a with
  | ⟨0, _⟩ => show j.val = win0_4.index t (1 : Fin 2) * 512 + 1 * j.val; omega

/-- Window 5: the seventh argument (one row) as one column. -/
theorem blk5 (c : Dev nD) (t : Fin cfg0.N) (k : Fin 256) (z : Fin 1) :
    Gen.iblk m c 5 t (ix2 k z) = (m ((c.tc : Thread nD τ).loc main_arg6) : S1x256.Idx → EReal) (ix2 (0 : Fin 1) k) := by
  obtain ⟨e0, e1⟩ := idx5 t
  obtain rfl : z = 0 := Subsingleton.elim _ _
  unfold Gen.iblk
  rw [View.read_apply]
  show V m c main_call0_v5 _ = _
  rw [V_v5]
  refine Eq.trans (congrArg _ ?_) (transpose_ix2_apply _ _ k (0 : Fin 1))
  funext a
  apply Fin.ext
  match a with
  | ⟨0, _⟩ => show win0_5.index t (0 : Fin 2) * 256 + 1 * k.val = k.val; omega
  | ⟨1, _⟩ => show win0_5.index t (1 : Fin 2) * 1 + 1 * (0 : Fin 1).val = (0 : Fin 1).val; omega

/-- Window 6: the eighth argument, one number. -/
theorem blk6 (c : Dev nD) (t : Fin cfg0.N) (z z' : Fin 1) :
    Gen.iblk m c 6 t (ix2 z z') = (m ((c.tc : Thread nD τ).loc main_arg7) : S1.Idx → EReal) (ix1 (0 : Fin 1)) := by
  unfold Gen.iblk
  rw [View.read_apply]
  show V m c main_call0_v6 _ = _
  rw [V_v6]
  refine broadcastInDim_apply _ _ _ _ (ix1 (0 : Fin 1)) fun a => ?_
  match a with
  | ⟨0, _⟩ => rfl

/-! ## The region's result array -/

/-- The region's result as one function of the row. -/
def G7 (Y : Dev nD → Fin 128 → EReal) (c : Dev nD) : S128x1.Idx → EReal := fun i => Y c ⟨(i 0).val, idx2_lt0 i⟩

/-- Row `p` of point `t`'s block of the result is row `16 t + p` of the array. -/
theorem flushed7_aux (Y : Dev nD → Fin 128 → EReal) (c : Dev nD) (t : Fin cfg0.N) (x : Vec Ideal S16x1 .f32)
    (hx : ∀ p : Fin 16, x (ix2 p (0 : Fin 1)) = Y c ⟨16 * t.val + p.val, row_lt t p⟩) (y : S16x1.Idx) :
    x y = G7 Y c (((cfg0.win 7).blk t).view.emb y) := by
  obtain ⟨e0, e1⟩ := idx7 t
  obtain ⟨p, z, rfl⟩ : ∃ (p : Fin 16) (z : Fin 1), y = ix2 p z := ⟨y 0, y 1, eq_ix2 y⟩
  obtain rfl : z = 0 := Subsingleton.elim _ _
  rw [hx p]
  show Y c _ = Y c _
  congr 1
  apply Fin.ext
  show 16 * t.val + p.val = win0_7.index t (0 : Fin 2) * 16 + 1 * p.val
  omega

/-- What point `t` writes back is its block of `G7`. -/
theorem flushed7_eq (Y : Dev nD → Fin 128 → EReal) (hY : ∀ (c : Dev nD) (t : Fin cfg0.N) (p : Fin 16), Gen.out0_7 (F := Ideal) (Gen.iblk m c 0 t) (Gen.iblk m c 1 t) (Gen.iblk m c 2 t) (Gen.iblk m c 3 t) (Gen.iblk m c 4 t) (Gen.iblk m c 5 t) (Gen.iblk m c 6 t) (ix2 p (0 : Fin 1)) = Y c ⟨16 * t.val + p.val, row_lt t p⟩) (c : Dev nD) (t : Fin cfg0.N) :
    (dats m 0 c).flushed 7 t = ((cfg0.win 7).blk t).view.read (Elt Ideal) (G7 Y c) := by
  show (cfg0.win 7).cut (grid0.coords t) ((dats m 0 c).after 7 t) = _
  rw [after0_7]
  funext y
  exact flushed7_aux Y c t _ (hY c t) y

/-- A row of the result is in point `t`'s block iff it is one of the sixteen rows from `16 t` on. -/
theorem mem_blk7 (t : Fin cfg0.N) (i : S128x1.Idx) :
    i ∈ ((cfg0.win 7).blk t).view.set ↔ ∀ a : Fin 2, win0_7.index t a * S16x1.size a ≤ (i a).val ∧ (i a).val < win0_7.index t a * S16x1.size a + S16x1.size a := by
  show i ∈ ((View.whole main_call0_v7).slice (win0_7.rect t)).set ↔ _
  rw [View.set_slice_whole, Rect.mem_set_unit]
  exact Iff.rfl

/-- Every row is in some point's block: row `r` in point `r / 16`'s. -/
theorem cover7 (i : S128x1.Idx) : ∃ t : Fin cfg0.N, (cfg0.win 7).flush t = true ∧ i ∈ ((cfg0.win 7).blk t).view.set := by
  have hi0 : (i 0).val < 128 := idx2_lt0 i
  have hi1 : (i 1).val < 1 := idx2_lt1 i
  have hN : cfg0.N = 8 := N_0
  have ht : (i 0).val / 16 < cfg0.N := by omega
  obtain ⟨e0, e1⟩ := idx7 ⟨(i 0).val / 16, ht⟩
  refine ⟨⟨(i 0).val / 16, ht⟩, flush0_7 _, ?_⟩
  rw [mem_blk7]
  intro a
  match a with
  | ⟨0, _⟩ =>
    show win0_7.index ⟨(i 0).val / 16, ht⟩ (0 : Fin 2) * 16 ≤ (i 0).val ∧ (i 0).val < win0_7.index ⟨(i 0).val / 16, ht⟩ (0 : Fin 2) * 16 + 16
    rw [e0]; show (i 0).val / 16 * 16 ≤ (i 0).val ∧ (i 0).val < (i 0).val / 16 * 16 + 16; omega
  | ⟨1, _⟩ =>
    show win0_7.index ⟨(i 0).val / 16, ht⟩ (1 : Fin 2) * 1 ≤ (i 1).val ∧ (i 1).val < win0_7.index ⟨(i 0).val / 16, ht⟩ (1 : Fin 2) * 1 + 1
    omega

/-- So the region's result array ends holding `G7`. -/
theorem final7 (Y : Dev nD → Fin 128 → EReal) (hY : ∀ (c : Dev nD) (t : Fin cfg0.N) (p : Fin 16), Gen.out0_7 (F := Ideal) (Gen.iblk m c 0 t) (Gen.iblk m c 1 t) (Gen.iblk m c 2 t) (Gen.iblk m c 3 t) (Gen.iblk m c 4 t) (Gen.iblk m c 5 t) (Gen.iblk m c 6 t) (ix2 p (0 : Fin 1)) = Y c ⟨16 * t.val + p.val, row_lt t p⟩) (c : Dev nD) :
    (dats m 0 c).arrAt 7 cfg0.N = G7 Y c :=
  (dats m 0 c).arrAt_eq_of_cover 7 (G7 Y c) (fun t _ => flushed7_eq m Y hY c t) cover7

/-! ## The host lines after the region, and the run -/

/-- One number broadcast to [1, 1] and then to [128, 1] reads that number everywhere. -/
theorem bcast2_apply (x : S1.Idx → EReal) (i : S128x1.Idx) :
    broadcastInDim S128x1 ![0, 1] bcast_S1x1_S128x1_0_1 (broadcastInDim S1x1 ![1] bcast_S1_S1x1_1 x) i = x (ix1 (0 : Fin 1)) := by
  refine (broadcastInDim_apply _ _ _ i (ix2 (0 : Fin 1) (0 : Fin 1)) fun a => ?_).trans
    (broadcastInDim_apply _ _ _ _ (ix1 (0 : Fin 1)) fun a => ?_)
  · match a with
    | ⟨0, _⟩ => rfl
    | ⟨1, _⟩ => rfl
  · match a with
    | ⟨0, _⟩ => rfl

/-- The program's result after the lines that follow the region: the region's result times the last argument's number
    plus the ninth's, row by row. -/
theorem tail_eq (Y : Dev nD → Fin 128 → EReal) (hY : ∀ (c : Dev nD) (t : Fin cfg0.N) (p : Fin 16), Gen.out0_7 (F := Ideal) (Gen.iblk m c 0 t) (Gen.iblk m c 1 t) (Gen.iblk m c 2 t) (Gen.iblk m c 3 t) (Gen.iblk m c 4 t) (Gen.iblk m c 5 t) (Gen.iblk m c 6 t) (ix2 p (0 : Fin 1)) = Y c ⟨16 * t.val + p.val, row_lt t p⟩) (c : Dev nD) :
    Pipeline.afterTail₀ cfgs (dats m) 0 (V0 m) [hostOps1] c main_v0 = (fun i : S128x1.Idx => @HAdd.hAdd EReal EReal EReal instHAdd (@HMul.hMul EReal EReal EReal instHMul (Y c ⟨(i 0).val, idx2_lt0 i⟩) ((m ((c.tc : Thread nD τ).loc main_arg9) : S1.Idx → EReal) (ix1 (0 : Fin 1)))) ((m ((c.tc : Thread nD τ).loc main_arg8) : S1.Idx → EReal) (ix1 (0 : Fin 1)))) := by
  have e7 : Pipeline.withArrays spec0 c (V0 m c) (fun w => (dats m 0 c).arrAt w cfg0.N) (Proc.devRef .tc main_call0_v7) = G7 Y c :=
    (Pipeline.withArrays_arr spec0 launch0.win.arr_inj c _ _ 7).trans (final7 m Y hY c)
  have e9 : Pipeline.withArrays spec0 c (V0 m c) (fun w => (dats m 0 c).arrAt w cfg0.N) (Proc.devRef .tc main_arg9) = m ((c.tc : Thread nD τ).loc main_arg9) :=
    (Pipeline.withArrays_of_ne _ c (V0 m c) _ main_arg9 (by exact (by decide : ∀ w, Pipeline.arrRef spec0 w ≠ main_arg9))).trans (V_main_arg9 m c)
  have e8 : Pipeline.withArrays spec0 c (V0 m c) (fun w => (dats m 0 c).arrAt w cfg0.N) (Proc.devRef .tc main_arg8) = m ((c.tc : Thread nD τ).loc main_arg8) :=
    (Pipeline.withArrays_of_ne _ c (V0 m c) _ main_arg8 (by exact (by decide : ∀ w, Pipeline.arrRef spec0 w ≠ main_arg8))).trans (V_main_arg8 m c)
  unfold Pipeline.afterTail₀
  show StableHlo.after hostOps1 _ (Proc.devRef .tc main_v0) = _
  after_results
  rw [e7, e9, e8]
  funext i
  exact congrArg₂ (fun a b : EReal => G7 Y c i * a + b)
    (bcast2_apply (m ((c.tc : Thread nD τ).loc main_arg9) : S1.Idx → EReal) i) (bcast2_apply (m ((c.tc : Thread nD τ).loc main_arg8) : S1.Idx → EReal) i)

/-- The arguments end as launched (the frame's conjuncts, read off the frame run's post). -/
theorem args_of (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c)),
    (((h c).2 main_arg7 (Pipeline.mem_restRefs_of main_arg7 (by decide) (by decide))).trans (W_main_arg7 m (dats m) c)),
    (((h c).2 main_arg8 (Pipeline.mem_restRefs_of main_arg8 (by decide) (by decide))).trans (W_main_arg8 m (dats m) c)),
    (((h c).2 main_arg9 (Pipeline.mem_restRefs_of main_arg9 (by decide) (by decide))).trans (W_main_arg9 m (dats m) c))⟩

/-- THE RUN: every weakly fair execution of the program terminates, the result array ends, row `r`, at `Y r` times the last
    argument's number plus the ninth's, and the arguments end as launched — for any `Y` that the blocks' outputs equal row by row. -/
theorem run_of (ρ : Dev nD → PrngReg) (Y : Dev nD → Fin 128 → EReal) (hY : ∀ (c : Dev nD) (t : Fin cfg0.N) (p : Fin 16), Gen.out0_7 (F := Ideal) (Gen.iblk m c 0 t) (Gen.iblk m c 1 t) (Gen.iblk m c 2 t) (Gen.iblk m c 3 t) (Gen.iblk m c 4 t) (Gen.iblk m c 5 t) (Gen.iblk m c 6 t) (ix2 p (0 : Fin 1)) = Y c ⟨16 * t.val + p.val, row_lt t p⟩) :
    θ_run (defs (F := Ideal)) (onTc (τ := τ) (main (F := Ideal))) ⟨m, fun _ => 0, ρ⟩ (fun r => ∀ c : Dev nD,
      r.2.mem ((c.tc : Thread nD τ).loc main_v0) = (fun i : S128x1.Idx => @HAdd.hAdd EReal EReal EReal instHAdd (@HMul.hMul EReal EReal EReal instHMul (Y c ⟨(i 0).val, idx2_lt0 i⟩) ((m ((c.tc : Thread nD τ).loc main_arg9) : S1.Idx → EReal) (ix1 (0 : Fin 1)))) ((m ((c.tc : Thread nD τ).loc main_arg8) : S1.Idx → EReal) (ix1 (0 : Fin 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨((h c).2 main_v0 (Pipeline.mem_restRefs_of main_v0 (by decide) (by decide))).trans (tail_eq m Y hY c), args_of m r h c⟩)
    (run_main m ρ)

end Cert.KernelIdeal.ArrayValue

end
-- ==== Proof.RowSpec.lean ====
/-
  One molecule's row of the set-to-set pooling, on the extended reals.

  A row has 1024 atoms with 128 features each (`x n d`) and one mask bit per atom. Three times over, an LSTM cell
  reads the previous query (256 numbers) and hidden state (128 numbers) through two weight matrices and two bias
  rows, producing four blocks of 128 gate pre-activations; the cell state and the hidden state follow by the usual
  sigmoid / tanh formulas. The hidden state scores every atom (`∑_d x n d · h d`), masked atoms score -∞, the scores
  are shifted by their maximum, exponentiated, multiplied by the mask and divided by their sum; the pooled vector is
  the weighted sum of the atoms' features, and the next query is the hidden state followed by the pooled vector.

  Two facts join the two spellings of this computation that the certificate compares:
  * the four summands of a gate pre-activation may be grouped either way (addition of extended reals is commutative
    and associative, infinities included);
  * multiplying a weighted feature once more by the atom's mask changes nothing (`attn_mul_mask`): at an unmasked atom
    the mask is 1; at a masked atom the weight is 0 / S, and S ≠ 0 because the hidden state is always a real number
    (a sigmoid times a tanh), so an unmasked atom's score is real when its features are, the maximum is then real, and
    that atom contributes a positive real to S. This is where the hypotheses "the features are finite" and "every row
    has an unmasked atom" are used.
-/
import Idealize.ShloMosaic.PureOps.Ideal.Laws
import Idealize.ShloMosaic.Lib.IdealHost

noncomputable section

open scoped BigOperators

namespace Cert.Pooling

open Idealize.ShloMosaic

/-! ## Real-valued extended reals -/

/-- `a` is a real number (neither infinity). -/
def IsR (a : EReal) : Prop := ∃ r : ℝ, a = (r : EReal)

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isR_tanh (x : EReal) : IsR (Ideal.tanh x) := by
  induction x using EReal.rec
  · exact ⟨-1, by rw [EReal.coe_neg, EReal.coe_one]; rfl⟩
  · exact ⟨Real.tanh _, rfl⟩
  · exact ⟨1, by rw [EReal.coe_one]; rfl⟩

theorem exp_nonneg (x : EReal) : 0 ≤ Ideal.exp x := by
  induction x using EReal.rec
  · exact le_of_eq rfl
  · exact EReal.coe_nonneg.mpr (Real.exp_pos _).le
  · exact le_top

theorem div_zero_left {s : EReal} (hs : s ≠ 0) : Ideal.div 0 s = 0 := by
  unfold Ideal.div; rw [if_neg hs, zero_mul]

theorem isR_logistic (x : EReal) : IsR (Ideal.logistic x) := by
  unfold Ideal.logistic
  induction x using EReal.rec
  · refine ⟨0, ?_⟩
    show Ideal.div 1 (1 + Ideal.exp (-⊥)) = _
    rw [EReal.neg_bot]
    show Ideal.div 1 (1 + ⊤) = _
    have : (1 : EReal) + ⊤ = ⊤ := by rw [← EReal.coe_one]; exact EReal.coe_add_top 1
    rw [this]; unfold Ideal.div; rw [if_neg (by simp), EReal.inv_top, mul_zero]; rfl
  · rename_i r
    refine ⟨(1 + Real.exp (-r))⁻¹, ?_⟩
    have hpos : (0 : ℝ) < 1 + Real.exp (-r) := by positivity
    have e1 : (1 : EReal) + Ideal.exp (-(r : EReal)) = ((1 + Real.exp (-r) : ℝ) : EReal) := by
      rw [← EReal.coe_neg]; show (1 : EReal) + ((Real.exp (-r) : ℝ) : EReal) = _
      rw [EReal.coe_add, EReal.coe_one]
    rw [e1]; unfold Ideal.div
    rw [if_neg (by exact_mod_cast hpos.ne'), one_mul, ← EReal.coe_inv]
  · refine ⟨1, ?_⟩
    show Ideal.div 1 (1 + Ideal.exp (-⊤)) = _
    rw [EReal.neg_top]
    show Ideal.div 1 (1 + 0) = _
    rw [add_zero]; unfold Ideal.div; rw [if_neg one_ne_zero, one_mul]
    show ((1 : ℝ) : EReal)⁻¹ = _
    rw [← EReal.coe_inv, inv_one]

/-! ## A mask bit as a number -/

/-- The number a mask bit denotes: 0 or 1. -/
def bitR (b : BitVec 1) : EReal := ((b.toNat : ℝ) : EReal)

theorem bitR_one : bitR 1#1 = 1 := by simp [bitR]
theorem bitR_zero : bitR 0#1 = 0 := by simp [bitR]

theorem bit_cases (b : BitVec 1) : b = 1#1 ∨ b = 0#1 := by
  by_cases h : b = 1#1
  · exact .inl h
  · exact .inr (ValueIdx.eq_zero_of_ne_one h)

/-- Comparing the bit's number with zero gives the bit back. -/
theorem cmp_bitR (b : BitVec 1) : Ideal.cmp .ogt (bitR b) 0 = b := by
  rcases bit_cases b with rfl | rfl
  · rw [bitR_one]; simp [Ideal.cmp]
  · rw [bitR_zero]; simp [Ideal.cmp]

/-- The pattern of minus infinity. -/
theorem neg_inf_bits : Ideal.ofBits .f32 0xFF800000#32 = ⊥ := by simp [Ideal.ofBits, Ideal.ieee]

/-! ## One row -/

section Row

variable (x : Fin 1024 → Fin 128 → EReal) (mb : Fin 1024 → BitVec 1)
  (Wih : Fin 512 → Fin 256 → EReal) (Whh : Fin 512 → Fin 128 → EReal) (bih bhh : Fin 512 → EReal)

/-- The gate pre-activations from a query and a hidden state. -/
def gates (q : Fin 256 → EReal) (h : Fin 128 → EReal) (j : Fin 512) : EReal :=
  (∑ k : Fin 256, q k * Wih j k + ∑ k : Fin 128, h k * Whh j k) + (bih j + bhh j)

/-- The other grouping of the same four summands. -/
theorem gates_regroup (q : Fin 256 → EReal) (h : Fin 128 → EReal) (j : Fin 512) :
    ((∑ k : Fin 256, q k * Wih j k + bih j) + ∑ k : Fin 128, h k * Whh j k) + bhh j = gates Wih Whh bih bhh q h j := by
  unfold gates; rw [add_assoc, add_add_add_comm]

/-- Block `o / 128` of the gates. -/
def blk (o : ℕ) (ho : o + 128 ≤ 512) (g : Fin 512 → EReal) (d : Fin 128) : EReal := g ⟨o + d.val, by have := d.isLt; omega⟩

/-- The new cell state. -/
def cellC (g : Fin 512 → EReal) (c : Fin 128 → EReal) (d : Fin 128) : EReal :=
  Ideal.logistic (blk 128 (by decide) g d) * c d + Ideal.logistic (blk 0 (by decide) g d) * Ideal.tanh (blk 256 (by decide) g d)

/-- The new hidden state. -/
def cellH (g : Fin 512 → EReal) (c' : Fin 128 → EReal) (d : Fin 128) : EReal :=
  Ideal.logistic (blk 384 (by decide) g d) * Ideal.tanh (c' d)

theorem isR_cellH (g : Fin 512 → EReal) (c' : Fin 128 → EReal) (d : Fin 128) : IsR (cellH g c' d) :=
  (isR_logistic _).mul (isR_tanh _)

/-- An atom's score, -∞ when masked. -/
def score (h : Fin 128 → EReal) (n : Fin 1024) : EReal := Scalar.select (mb n) (∑ d : Fin 128, x n d * h d) ⊥

/-- The largest score. -/
def top (e : Fin 1024 → EReal) : EReal := (Finset.univ : Finset (Fin 1024)).fold max ⊥ e

/-- The unnormalised weights. -/
def wts (e : Fin 1024 → EReal) (n : Fin 1024) : EReal := Ideal.exp (e n - top e) * bitR (mb n)

/-- The weights. -/
def attn (w : Fin 1024 → EReal) (n : Fin 1024) : EReal := Ideal.div (w n) (∑ n' : Fin 1024, w n')

/-- The pooled vector. -/
def pool (a : Fin 1024 → EReal) (d : Fin 128) : EReal := ∑ n : Fin 1024, a n * x n d

/-- Hidden state, then pooled vector. -/
def cat (h r : Fin 128 → EReal) (k : Fin 256) : EReal :=
  if hk : k.val < 128 then h ⟨k.val, hk⟩ else r ⟨k.val - 128, by have := k.isLt; omega⟩

/-- The sum of the unnormalised weights is not zero, when the features are real, the hidden state is real and some atom
    is unmasked. -/
theorem sum_wts_ne_zero (h : Fin 128 → EReal) (hx : ∀ n d, IsR (x n d)) (hh : ∀ d, IsR (h d)) (hrow : ∃ n, mb n = 1#1) :
    (∑ n' : Fin 1024, wts mb (score x mb h) n') ≠ 0 := by
  obtain ⟨n0, h0⟩ := hrow
  have hsc : ∀ n, IsR (∑ d : Fin 128, x n d * h d) := fun n => IsR.sum _ _ fun d _ => (hx n d).mul (hh d)
  obtain ⟨r0, hr0⟩ := hsc n0
  have e0 : score x mb h n0 = (r0 : EReal) := by unfold score; rw [h0, ValueIdx.select_one, hr0]
  -- the maximum is a real number
  have hlo : (r0 : EReal) ≤ top (score x mb h) := by
    unfold top; rw [Finset.le_fold_max]; exact .inr ⟨n0, Finset.mem_univ _, e0.ge⟩
  have hhi : top (score x mb h) < ⊤ := by
    unfold top; rw [Finset.fold_max_lt]
    refine ⟨bot_lt_top, fun n _ => ?_⟩
    unfold score
    rcases bit_cases (mb n) with hb | hb
    · rw [hb, ValueIdx.select_one]; obtain ⟨r, hr⟩ := hsc n; rw [hr]; exact EReal.coe_lt_top r
    · rw [hb, ValueIdx.select_zero]; exact bot_lt_top
  have hM : top (score x mb h) = ((top (score x mb h)).toReal : EReal) :=
    (EReal.coe_toReal hhi.ne (ne_of_gt (lt_of_lt_of_le (EReal.bot_lt_coe r0) hlo))).symm
  -- the unmasked atom's weight is a positive real
  have hpos : 0 < wts mb (score x mb h) n0 := by
    unfold wts; rw [h0, bitR_one, mul_one, e0, hM, ← EReal.coe_sub]
    exact EReal.coe_pos.mpr (Real.exp_pos _)
  have hnn : ∀ n ∈ (Finset.univ : Finset (Fin 1024)), 0 ≤ wts mb (score x mb h) n := fun n _ => by
    unfold wts
    rcases bit_cases (mb n) with hb | hb
    · rw [hb, bitR_one, mul_one]; exact exp_nonneg _
    · rw [hb, bitR_zero, mul_zero]
  exact ne_of_gt (lt_of_lt_of_le hpos (Finset.single_le_sum hnn (Finset.mem_univ n0)))

/-- Multiplying a weighted feature once more by the atom's mask changes nothing. -/
theorem attn_mul_mask (h : Fin 128 → EReal) (hx : ∀ n d, IsR (x n d)) (hh : ∀ d, IsR (h d)) (hrow : ∃ n, mb n = 1#1)
    (n : Fin 1024) (d : Fin 128) :
    attn (wts mb (score x mb h)) n * x n d * bitR (mb n) = attn (wts mb (score x mb h)) n * x n d := by
  rcases bit_cases (mb n) with hb | hb
  · rw [hb, bitR_one, mul_one]
  · have hz : attn (wts mb (score x mb h)) n = 0 := by
      unfold attn
      have : wts mb (score x mb h) n = 0 := by unfold wts; rw [hb, bitR_zero, mul_zero]
      rw [this]; exact div_zero_left (sum_wts_ne_zero x mb h hx hh hrow)
    rw [hz, zero_mul, zero_mul]

end Row

/-! ## The three rounds of one row

Every definition takes the whole row's data — features `x`, mask bits `mb`, the two weight matrices and the two bias rows —
so that they are all applied alike. The query and both states start at zero. -/

section Rounds

variable (x : Fin 1024 → Fin 128 → EReal) (mb : Fin 1024 → BitVec 1)
  (Wih : Fin 512 → Fin 256 → EReal) (Whh : Fin 512 → Fin 128 → EReal) (bih bhh : Fin 512 → EReal)

def G1 : Fin 512 → EReal := gates Wih Whh bih bhh (fun _ => 0) (fun _ => 0)
def C1 : Fin 128 → EReal := cellC (G1 Wih Whh bih bhh) (fun _ => 0)
def H1 : Fin 128 → EReal := cellH (G1 Wih Whh bih bhh) (C1 Wih Whh bih bhh)
def R1 : Fin 128 → EReal := pool x (attn (wts mb (score x mb (H1 Wih Whh bih bhh))))
def Q1 : Fin 256 → EReal := cat (H1 Wih Whh bih bhh) (R1 x mb Wih Whh bih bhh)
def G2 : Fin 512 → EReal := gates Wih Whh bih bhh (Q1 x mb Wih Whh bih bhh) (H1 Wih Whh bih bhh)
def C2 : Fin 128 → EReal := cellC (G2 x mb Wih Whh bih bhh) (C1 Wih Whh bih bhh)
def H2 : Fin 128 → EReal := cellH (G2 x mb Wih Whh bih bhh) (C2 x mb Wih Whh bih bhh)
def R2 : Fin 128 → EReal := pool x (attn (wts mb (score x mb (H2 x mb Wih Whh bih bhh))))
def Q2 : Fin 256 → EReal := cat (H2 x mb Wih Whh bih bhh) (R2 x mb Wih Whh bih bhh)
def G3 : Fin 512 → EReal := gates Wih Whh bih bhh (Q2 x mb Wih Whh bih bhh) (H2 x mb Wih Whh bih bhh)
def C3 : Fin 128 → EReal := cellC (G3 x mb Wih Whh bih bhh) (C2 x mb Wih Whh bih bhh)
def H3 : Fin 128 → EReal := cellH (G3 x mb Wih Whh bih bhh) (C3 x mb Wih Whh bih bhh)
def R3 : Fin 128 → EReal := pool x (attn (wts mb (score x mb (H3 x mb Wih Whh bih bhh))))
def Q3 : Fin 256 → EReal := cat (H3 x mb Wih Whh bih bhh) (R3 x mb Wih Whh bih bhh)

/-- The row's output before the final scale and shift: the last query through the output layer. -/
def Yrow (Wout : Fin 256 → EReal) (bout : EReal) : EReal := ∑ k : Fin 256, Q3 x mb Wih Whh bih bhh k * Wout k + bout

theorem isR_H1 (d : Fin 128) : IsR (H1 Wih Whh bih bhh d) := isR_cellH _ _ d
theorem isR_H2 (d : Fin 128) : IsR (H2 x mb Wih Whh bih bhh d) := isR_cellH _ _ d
theorem isR_H3 (d : Fin 128) : IsR (H3 x mb Wih Whh bih bhh d) := isR_cellH _ _ d

end Rounds

end Cert.Pooling

end
-- ==== Proof.KernelOps.lean ====
/-
  The vector operations of the pooling kernel's body, read at one entry of a block of 16 rows, at the exact
  (extended-real) instance: each composite the body spells — the gate pre-activations (two matrix products into zero
  accumulators plus a bias row repeated down the rows), a block of the gates, the masked scores (features times the
  hidden state summed along the feature axis, minus infinity where the mask is not positive), a row's maximum, the
  shifted and exponentiated scores times the mask, the normalised weights' weighted sum of the features, the hidden
  state followed by the pooled vector, and the output layer — is, at row p, the corresponding formula of that row alone.
-/
import proofs.«112316_g16243566313856_cont_week2b_871_2_alg».proof.Proof.Gen.KernelIdeal.Skeleton
import proofs.«112316_g16243566313856_cont_week2b_871_2_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Pooling.K

open Idealize.ShloMosaic Idealize.ShloMosaic.ValueIdx Cert.KernelIdeal Cert.KernelIdeal.Gen Cert.Pooling

/-! ## The three matrix products -/

theorem mmA_l0 (i : S16x512.Idx) (q : dot_S16x256_S256x512_S16x512_1_0_0_1_n_n.contr.Idx) : (dot_S16x256_S256x512_S16x512_1_0_0_1_n_n.lhsIdx i q 0).val = (i 0).val := by
  unfold DotDims.lhsIdx
  rw [dif_neg (show ¬(0 : Fin S16x256.rank) ∈ dot_S16x256_S256x512_S16x512_1_0_0_1_n_n.lhsBatch by decide), dif_pos (show (0 : Fin S16x256.rank) ∈ dot_S16x256_S256x512_S16x512_1_0_0_1_n_n.lhsNonContracting by decide)]
  rfl
theorem mmA_l1 (i : S16x512.Idx) (q : dot_S16x256_S256x512_S16x512_1_0_0_1_n_n.contr.Idx) : (dot_S16x256_S256x512_S16x512_1_0_0_1_n_n.lhsIdx i q 1).val = (q ⟨0, by decide⟩).val :=
  dot_S16x256_S256x512_S16x512_1_0_0_1_n_n.lhsIdx_val_of_single rfl i q
theorem mmA_r0 (i : S16x512.Idx) (q : dot_S16x256_S256x512_S16x512_1_0_0_1_n_n.contr.Idx) : (dot_S16x256_S256x512_S16x512_1_0_0_1_n_n.rhsIdx i q 0).val = (q ⟨0, by decide⟩).val :=
  dot_S16x256_S256x512_S16x512_1_0_0_1_n_n.rhsIdx_val_of_single rfl i q
theorem mmA_r1 (i : S16x512.Idx) (q : dot_S16x256_S256x512_S16x512_1_0_0_1_n_n.contr.Idx) : (dot_S16x256_S256x512_S16x512_1_0_0_1_n_n.rhsIdx i q 1).val = (i 1).val := by
  unfold DotDims.rhsIdx
  rw [dif_neg (show ¬(1 : Fin S256x512.rank) ∈ dot_S16x256_S256x512_S16x512_1_0_0_1_n_n.rhsBatch by decide), dif_pos (show (1 : Fin S256x512.rank) ∈ dot_S16x256_S256x512_S16x512_1_0_0_1_n_n.rhsNonContracting by decide)]
  rfl
/-- A product of a [16, 256] array with a [256, 512] array into a zero accumulator, at (p, j): the sum over k of left (p, k) times right (k, j). -/
theorem mmA (lhs : FVec Ideal S16x256 .f32) (rhs : FVec Ideal S256x512 .f32) (p : Fin 16) (j : Fin 512) :
    matmul dot_S16x256_S256x512_S16x512_1_0_0_1_n_n none lhs rhs (constant S16x512 .f32 0x00000000#32) (ix2 p j) = ∑ k : Fin 256, lhs (ix2 p k) * rhs (ix2 k j) := by
  simp only [matmul]
  rw [Ideal.matmul_constant_zero_apply, ← Equiv.sum_comp (ValueIdx.contrEquiv1 dot_S16x256_S256x512_S16x512_1_0_0_1_n_n 256 rfl rfl).symm]
  refine Finset.sum_congr rfl fun k _ => ?_
  have hk := ValueIdx.contrEquiv1_symm_val dot_S16x256_S256x512_S16x512_1_0_0_1_n_n 256 rfl rfl k
  have el : dot_S16x256_S256x512_S16x512_1_0_0_1_n_n.lhsIdx (ix2 p j) ((ValueIdx.contrEquiv1 dot_S16x256_S256x512_S16x512_1_0_0_1_n_n 256 rfl rfl).symm k) = ix2 p k := funext fun a => Fin.ext (by
    match a with
    | ⟨0, _⟩ => exact mmA_l0 _ _
    | ⟨1, _⟩ => exact (mmA_l1 _ _).trans hk)
  have er : dot_S16x256_S256x512_S16x512_1_0_0_1_n_n.rhsIdx (ix2 p j) ((ValueIdx.contrEquiv1 dot_S16x256_S256x512_S16x512_1_0_0_1_n_n 256 rfl rfl).symm k) = ix2 k j := funext fun a => Fin.ext (by
    match a with
    | ⟨0, _⟩ => exact (mmA_r0 _ _).trans hk
    | ⟨1, _⟩ => exact mmA_r1 _ _)
  rw [el, er]

theorem mmB_l0 (i : S16x512.Idx) (q : dot_S16x128_S128x512_S16x512_1_0_0_1_n_n.contr.Idx) : (dot_S16x128_S128x512_S16x512_1_0_0_1_n_n.lhsIdx i q 0).val = (i 0).val := by
  unfold DotDims.lhsIdx
  rw [dif_neg (show ¬(0 : Fin S16x128.rank) ∈ dot_S16x128_S128x512_S16x512_1_0_0_1_n_n.lhsBatch by decide), dif_pos (show (0 : Fin S16x128.rank) ∈ dot_S16x128_S128x512_S16x512_1_0_0_1_n_n.lhsNonContracting by decide)]
  rfl
theorem mmB_l1 (i : S16x512.Idx) (q : dot_S16x128_S128x512_S16x512_1_0_0_1_n_n.contr.Idx) : (dot_S16x128_S128x512_S16x512_1_0_0_1_n_n.lhsIdx i q 1).val = (q ⟨0, by decide⟩).val :=
  dot_S16x128_S128x512_S16x512_1_0_0_1_n_n.lhsIdx_val_of_single rfl i q
theorem mmB_r0 (i : S16x512.Idx) (q : dot_S16x128_S128x512_S16x512_1_0_0_1_n_n.contr.Idx) : (dot_S16x128_S128x512_S16x512_1_0_0_1_n_n.rhsIdx i q 0).val = (q ⟨0, by decide⟩).val :=
  dot_S16x128_S128x512_S16x512_1_0_0_1_n_n.rhsIdx_val_of_single rfl i q
theorem mmB_r1 (i : S16x512.Idx) (q : dot_S16x128_S128x512_S16x512_1_0_0_1_n_n.contr.Idx) : (dot_S16x128_S128x512_S16x512_1_0_0_1_n_n.rhsIdx i q 1).val = (i 1).val := by
  unfold DotDims.rhsIdx
  rw [dif_neg (show ¬(1 : Fin S128x512.rank) ∈ dot_S16x128_S128x512_S16x512_1_0_0_1_n_n.rhsBatch by decide), dif_pos (show (1 : Fin S128x512.rank) ∈ dot_S16x128_S128x512_S16x512_1_0_0_1_n_n.rhsNonContracting by decide)]
  rfl
/-- A product of a [16, 128] array with a [128, 512] array into a zero accumulator, at (p, j): the sum over k of left (p, k) times right (k, j). -/
theorem mmB (lhs : FVec Ideal S16x128 .f32) (rhs : FVec Ideal S128x512 .f32) (p : Fin 16) (j : Fin 512) :
    matmul dot_S16x128_S128x512_S16x512_1_0_0_1_n_n none lhs rhs (constant S16x512 .f32 0x00000000#32) (ix2 p j) = ∑ k : Fin 128, lhs (ix2 p k) * rhs (ix2 k j) := by
  simp only [matmul]
  rw [Ideal.matmul_constant_zero_apply, ← Equiv.sum_comp (ValueIdx.contrEquiv1 dot_S16x128_S128x512_S16x512_1_0_0_1_n_n 128 rfl rfl).symm]
  refine Finset.sum_congr rfl fun k _ => ?_
  have hk := ValueIdx.contrEquiv1_symm_val dot_S16x128_S128x512_S16x512_1_0_0_1_n_n 128 rfl rfl k
  have el : dot_S16x128_S128x512_S16x512_1_0_0_1_n_n.lhsIdx (ix2 p j) ((ValueIdx.contrEquiv1 dot_S16x128_S128x512_S16x512_1_0_0_1_n_n 128 rfl rfl).symm k) = ix2 p k := funext fun a => Fin.ext (by
    match a with
    | ⟨0, _⟩ => exact mmB_l0 _ _
    | ⟨1, _⟩ => exact (mmB_l1 _ _).trans hk)
  have er : dot_S16x128_S128x512_S16x512_1_0_0_1_n_n.rhsIdx (ix2 p j) ((ValueIdx.contrEquiv1 dot_S16x128_S128x512_S16x512_1_0_0_1_n_n 128 rfl rfl).symm k) = ix2 k j := funext fun a => Fin.ext (by
    match a with
    | ⟨0, _⟩ => exact (mmB_r0 _ _).trans hk
    | ⟨1, _⟩ => exact mmB_r1 _ _)
  rw [el, er]

theorem mmC_l0 (i : S16x1.Idx) (q : dot_S16x256_S256x1_S16x1_1_0_0_1_n_n.contr.Idx) : (dot_S16x256_S256x1_S16x1_1_0_0_1_n_n.lhsIdx i q 0).val = (i 0).val := by
  unfold DotDims.lhsIdx
  rw [dif_neg (show ¬(0 : Fin S16x256.rank) ∈ dot_S16x256_S256x1_S16x1_1_0_0_1_n_n.lhsBatch by decide), dif_pos (show (0 : Fin S16x256.rank) ∈ dot_S16x256_S256x1_S16x1_1_0_0_1_n_n.lhsNonContracting by decide)]
  rfl
theorem mmC_l1 (i : S16x1.Idx) (q : dot_S16x256_S256x1_S16x1_1_0_0_1_n_n.contr.Idx) : (dot_S16x256_S256x1_S16x1_1_0_0_1_n_n.lhsIdx i q 1).val = (q ⟨0, by decide⟩).val :=
  dot_S16x256_S256x1_S16x1_1_0_0_1_n_n.lhsIdx_val_of_single rfl i q
theorem mmC_r0 (i : S16x1.Idx) (q : dot_S16x256_S256x1_S16x1_1_0_0_1_n_n.contr.Idx) : (dot_S16x256_S256x1_S16x1_1_0_0_1_n_n.rhsIdx i q 0).val = (q ⟨0, by decide⟩).val :=
  dot_S16x256_S256x1_S16x1_1_0_0_1_n_n.rhsIdx_val_of_single rfl i q
theorem mmC_r1 (i : S16x1.Idx) (q : dot_S16x256_S256x1_S16x1_1_0_0_1_n_n.contr.Idx) : (dot_S16x256_S256x1_S16x1_1_0_0_1_n_n.rhsIdx i q 1).val = (i 1).val := by
  unfold DotDims.rhsIdx
  rw [dif_neg (show ¬(1 : Fin S256x1.rank) ∈ dot_S16x256_S256x1_S16x1_1_0_0_1_n_n.rhsBatch by decide), dif_pos (show (1 : Fin S256x1.rank) ∈ dot_S16x256_S256x1_S16x1_1_0_0_1_n_n.rhsNonContracting by decide)]
  rfl
/-- A product of a [16, 256] array with a [256, 1] array into a zero accumulator, at (p, j): the sum over k of left (p, k) times right (k, j). -/
theorem mmC (lhs : FVec Ideal S16x256 .f32) (rhs : FVec Ideal S256x1 .f32) (p : Fin 16) (j : Fin 1) :
    matmul dot_S16x256_S256x1_S16x1_1_0_0_1_n_n none lhs rhs (constant S16x1 .f32 0x00000000#32) (ix2 p j) = ∑ k : Fin 256, lhs (ix2 p k) * rhs (ix2 k j) := by
  simp only [matmul]
  rw [Ideal.matmul_constant_zero_apply, ← Equiv.sum_comp (ValueIdx.contrEquiv1 dot_S16x256_S256x1_S16x1_1_0_0_1_n_n 256 rfl rfl).symm]
  refine Finset.sum_congr rfl fun k _ => ?_
  have hk := ValueIdx.contrEquiv1_symm_val dot_S16x256_S256x1_S16x1_1_0_0_1_n_n 256 rfl rfl k
  have el : dot_S16x256_S256x1_S16x1_1_0_0_1_n_n.lhsIdx (ix2 p j) ((ValueIdx.contrEquiv1 dot_S16x256_S256x1_S16x1_1_0_0_1_n_n 256 rfl rfl).symm k) = ix2 p k := funext fun a => Fin.ext (by
    match a with
    | ⟨0, _⟩ => exact mmC_l0 _ _
    | ⟨1, _⟩ => exact (mmC_l1 _ _).trans hk)
  have er : dot_S16x256_S256x1_S16x1_1_0_0_1_n_n.rhsIdx (ix2 p j) ((ValueIdx.contrEquiv1 dot_S16x256_S256x1_S16x1_1_0_0_1_n_n 256 rfl rfl).symm k) = ix2 k j := funext fun a => Fin.ext (by
    match a with
    | ⟨0, _⟩ => exact (mmC_r0 _ _).trans hk
    | ⟨1, _⟩ => exact mmC_r1 _ _)
  rw [el, er]

/-! ## Layout operations at an entry -/

/-- A vector of 16 recast as a column reads, at (p, u), the vector at p. -/
theorem col_apply {α : Type} (v : S16.Idx → α) (h : S16.ShapeCasts S16x1) (p : Fin 16) (u : Fin 1) :
    shapeCast S16x1 v h (ix2 p u) = v (ix1 p) :=
  shapeCast_apply v h _ _ (by
    have hu : u.val = 0 := by omega
    rw [Shape.rowMajor_val_two, Shape.rowMajor_val_one]
    show p.val = p.val * 1 + u.val
    omega)

/-- A column repeated along 1024 positions reads, at (p, n), the column at p. -/
theorem colBcast_apply {α : Type} (v : S16x1.Idx → α) (h : S16x1.Broadcasts S16x1024) (p : Fin 16) (n : Fin 1024) :
    broadcastTo S16x1024 v h (ix2 p n) = v (ix2 p (0 : Fin 1)) :=
  broadcastTo_apply v h (ix2 p n) (ix2 p (0 : Fin 1)) fun ax => by
    match ax with
    | ⟨0, _⟩ => show p.val = if (16 : Nat) = 1 then 0 else p.val; rw [if_neg (by decide)]
    | ⟨1, _⟩ => rfl

/-- A [16,128] array recast with a unit middle axis and repeated along 1024 atoms reads, at (p, n, d), the array at (p, d). -/
theorem hidBcast_apply {α : Type} (v : S16x128.Idx → α) (hc : S16x128.ShapeCasts S16x1x128) (hb : S16x1x128.Broadcasts S16x1024x128)
    (p : Fin 16) (n : Fin 1024) (d : Fin 128) :
    broadcastTo S16x1024x128 (shapeCast S16x1x128 v hc) hb (ix3 p n d) = v (ix2 p d) := by
  rw [broadcastTo_apply (shapeCast S16x1x128 v hc) hb (ix3 p n d) (ix3 p (0 : Fin 1) d) fun ax => by
    match ax with
    | ⟨0, _⟩ => show p.val = if (16 : Nat) = 1 then 0 else p.val; rw [if_neg (by decide)]
    | ⟨1, _⟩ => rfl
    | ⟨2, _⟩ => show d.val = if (128 : Nat) = 1 then 0 else d.val; rw [if_neg (by decide)]]
  exact shapeCast_apply v hc _ _ (by
    rw [Shape.rowMajor_val_two, Shape.rowMajor_val_three]
    show p.val * 128 + d.val = (p.val * 1 + 0) * 128 + d.val
    omega)

/-- A [16,1024] array recast with a unit last axis and repeated along 128 features reads, at (p, n, d), the array at (p, n). -/
theorem wtBcast_apply {α : Type} (v : S16x1024.Idx → α) (hc : S16x1024.ShapeCasts S16x1024x1) (hb : S16x1024x1.Broadcasts S16x1024x128)
    (p : Fin 16) (n : Fin 1024) (d : Fin 128) :
    broadcastTo S16x1024x128 (shapeCast S16x1024x1 v hc) hb (ix3 p n d) = v (ix2 p n) := by
  rw [broadcastTo_apply (shapeCast S16x1024x1 v hc) hb (ix3 p n d) (ix3 p n (0 : Fin 1)) fun ax => by
    match ax with
    | ⟨0, _⟩ => show p.val = if (16 : Nat) = 1 then 0 else p.val; rw [if_neg (by decide)]
    | ⟨1, _⟩ => show n.val = if (1024 : Nat) = 1 then 0 else n.val; rw [if_neg (by decide)]
    | ⟨2, _⟩ => rfl]
  exact shapeCast_apply v hc _ _ (by
    rw [Shape.rowMajor_val_two, Shape.rowMajor_val_three]
    show p.val * 1024 + n.val = (p.val * 1024 + n.val) * 1 + 0
    omega)

/-- The sum along the atoms of a [16,1024] array, at p. -/
theorem atomSum_apply (w : FVec Ideal S16x1024 .f32) (hr : S16x1024.Reduces [1] S16) (hφ : FKind.Formats .f32)
    (hacc : (0x00000000#32 : BitVec 32) = FKind.add.neutral .f32 hφ) (p : Fin 16) :
    multiReduction .add [1] S16 w 0x00000000#32 hr hφ hacc (ix1 p) = ∑ n : Fin 1024, w (ix2 p n) := by
  refine (Ideal.multiReduction_add_single w _ hr hφ hacc (ix1 p)).trans ?_
  refine Finset.sum_congr rfl fun k _ => congrArg w (funext fun c => Fin.ext ?_)
  rw [hr.lift_val]
  match c with
  | ⟨0, _⟩ => rfl
  | ⟨1, _⟩ => rfl

/-- The sum along the features of a [16,1024,128] array, at (p, n). -/
theorem featSum_apply (v : FVec Ideal S16x1024x128 .f32) (hr : S16x1024x128.Reduces [2] S16x1024) (hφ : FKind.Formats .f32)
    (hacc : (0x00000000#32 : BitVec 32) = FKind.add.neutral .f32 hφ) (p : Fin 16) (n : Fin 1024) :
    multiReduction .add [2] S16x1024 v 0x00000000#32 hr hφ hacc (ix2 p n) = ∑ d : Fin 128, v (ix3 p n d) := by
  refine (Ideal.multiReduction_add_single v _ hr hφ hacc (ix2 p n)).trans ?_
  refine Finset.sum_congr rfl fun k _ => congrArg v (funext fun c => Fin.ext ?_)
  rw [hr.lift_val]
  match c with
  | ⟨0, _⟩ => rfl
  | ⟨1, _⟩ => rfl
  | ⟨2, _⟩ => rfl

/-- The sum along the atoms of a [16,1024,128] array, at (p, d). -/
theorem atomSum3_apply (v : FVec Ideal S16x1024x128 .f32) (hr : S16x1024x128.Reduces [1] S16x128) (hφ : FKind.Formats .f32)
    (hacc : (0x00000000#32 : BitVec 32) = FKind.add.neutral .f32 hφ) (p : Fin 16) (d : Fin 128) :
    multiReduction .add [1] S16x128 v 0x00000000#32 hr hφ hacc (ix2 p d) = ∑ n : Fin 1024, v (ix3 p n d) := by
  refine (Ideal.multiReduction_add_single v _ hr hφ hacc (ix2 p d)).trans ?_
  refine Finset.sum_congr rfl fun k _ => congrArg v (funext fun c => Fin.ext ?_)
  rw [hr.lift_val]
  match c with
  | ⟨0, _⟩ => rfl
  | ⟨1, _⟩ => rfl
  | ⟨2, _⟩ => rfl

/-! ## The body's composites at row p -/

/-- The gate pre-activations. -/
theorem gates_at (q : FVec Ideal S16x256 .f32) (h : FVec Ideal S16x128 .f32) (wih : Vec Ideal S256x512 .f32)
    (whh : Vec Ideal S128x512 .f32) (b : FVec Ideal S1x512 .f32) (h1 : S256x512.ShapeCasts S256x512)
    (h2 : S128x512.ShapeCasts S128x512) (h3 : S1x512.Broadcasts S16x512) (p : Fin 16) (j : Fin 512) :
    addf (addf (matmul dot_S16x256_S256x512_S16x512_1_0_0_1_n_n none q (shapeCast S256x512 wih h1 : FVec Ideal S256x512 .f32) (constant S16x512 .f32 0x00000000#32))
        (matmul dot_S16x128_S128x512_S16x512_1_0_0_1_n_n none h (shapeCast S128x512 whh h2 : FVec Ideal S128x512 .f32) (constant S16x512 .f32 0x00000000#32)))
      (broadcastTo S16x512 b h3) (ix2 p j)
    = (∑ k : Fin 256, q (ix2 p k) * wih (ix2 k j) + ∑ k : Fin 128, h (ix2 p k) * whh (ix2 k j)) + b (ix2 (0 : Fin 1) j) := by
  rw [addf_apply, addf_apply, mmA, mmB, shapeCast_self, shapeCast_self, broadcastTo_1b_ab_apply]

/-- Block `o / 128` of the gates. -/
theorem blk_at (o : ℕ) (ho : o + 128 ≤ 512) (g : FVec Ideal S16x512 .f32) (hs : S16x512.Slices ![0, o] S16x128) (p : Fin 16) (d : Fin 128) :
    extractStridedSlice S16x128 ![0, o] g hs (ix2 p d) = blk o ho (fun j => g (ix2 p j)) d :=
  slice2_axis1_apply o g hs p d ⟨o + d.val, by have := d.isLt; omega⟩ rfl

/-- The new cell state. -/
theorem cellC_at (g : FVec Ideal S16x512 .f32) (c : FVec Ideal S16x128 .f32) (hs0 : S16x512.Slices ![0, 0] S16x128)
    (hs1 : S16x512.Slices ![0, 128] S16x128) (hs2 : S16x512.Slices ![0, 256] S16x128) (p : Fin 16) (d : Fin 128) :
    addf (mulf (logistic (extractStridedSlice S16x128 ![0, 128] g hs1)) c)
      (mulf (logistic (extractStridedSlice S16x128 ![0, 0] g hs0)) (tanh (extractStridedSlice S16x128 ![0, 256] g hs2))) (ix2 p d)
    = cellC (fun j => g (ix2 p j)) (fun d => c (ix2 p d)) d := by
  show Ideal.logistic (extractStridedSlice S16x128 ![0, 128] g hs1 (ix2 p d)) * c (ix2 p d)
    + Ideal.logistic (extractStridedSlice S16x128 ![0, 0] g hs0 (ix2 p d)) * Ideal.tanh (extractStridedSlice S16x128 ![0, 256] g hs2 (ix2 p d)) = _
  rw [blk_at 128 (by decide), blk_at 0 (by decide), blk_at 256 (by decide)]
  rfl

/-- The new hidden state. -/
theorem cellH_at (g : FVec Ideal S16x512 .f32) (c' : FVec Ideal S16x128 .f32) (hs3 : S16x512.Slices ![0, 384] S16x128) (p : Fin 16) (d : Fin 128) :
    mulf (logistic (extractStridedSlice S16x128 ![0, 384] g hs3)) (tanh c') (ix2 p d)
    = cellH (fun j => g (ix2 p j)) (fun d => c' (ix2 p d)) d := by
  show Ideal.logistic (extractStridedSlice S16x128 ![0, 384] g hs3 (ix2 p d)) * Ideal.tanh (c' (ix2 p d)) = _
  rw [blk_at 384 (by decide)]
  rfl

/-- The masked scores. -/
theorem score_at (x : Vec Ideal S16x1024x128 .f32) (h : FVec Ideal S16x128 .f32) (mk : FVec Ideal S16x1024 .f32)
    (hc : S16x128.ShapeCasts S16x1x128) (hb : S16x1x128.Broadcasts S16x1024x128) (hr : S16x1024x128.Reduces [2] S16x1024)
    (hφ : FKind.Formats .f32) (hacc : (0x00000000#32 : BitVec 32) = FKind.add.neutral .f32 hφ)
    (mb : Fin 1024 → BitVec 1) (p : Fin 16) (hmk : ∀ n, mk (ix2 p n) = bitR (mb n)) (n : Fin 1024) :
    select (cmpf .ogt mk (broadcast S16x1024 (Scalar.ofBits .f32 0x00000000#32)))
      (multiReduction .add [2] S16x1024 (mulf x (broadcastTo S16x1024x128 (shapeCast S16x1x128 h hc) hb)) 0x00000000#32 hr hφ hacc)
      (broadcast S16x1024 (Scalar.ofBits .f32 0xFF800000#32)) (ix2 p n)
    = score (fun n d => x (ix3 p n d)) mb (fun d => h (ix2 p d)) n := by
  rw [select_apply, featSum_apply]
  show Scalar.select (Ideal.cmp .ogt (mk (ix2 p n)) (Ideal.ofBits .f32 0x00000000#32)) _ (Ideal.ofBits .f32 0xFF800000#32) = _
  rw [hmk, Ideal.ofBits_zero_f32, cmp_bitR, neg_inf_bits]
  unfold score
  congr 1
  refine Finset.sum_congr rfl fun d _ => ?_
  rw [mulf_apply, hidBcast_apply]

/-- A row's largest score. -/
theorem top_at (e : FVec Ideal S16x1024 .f32) (hr : S16x1024.Reduces [1] S16) (hφ : FKind.Formats .f32)
    (hacc : (0xFF800000#32 : BitVec 32) = FKind.maximumf.neutral .f32 hφ) (p : Fin 16) :
    multiReduction .maximumf [1] S16 e 0xFF800000#32 hr hφ hacc (ix1 p) = top (fun n => e (ix2 p n)) := by
  rw [Ideal.multiReduction_maximumf_single]
  show (Finset.univ : Finset (Fin 1024)).fold max (Ideal.ofBits .f32 0xFF800000#32) (e ∘ hr.lift (ix1 p)) = _
  rw [neg_inf_bits]
  unfold top
  congr 1
  funext n
  refine congrArg e (funext fun c => Fin.ext ?_)
  rw [hr.lift_val]
  match c with
  | ⟨0, _⟩ => rfl
  | ⟨1, _⟩ => rfl

/-- The shifted scores. -/
theorem shift_at (e : FVec Ideal S16x1024 .f32) (M : FVec Ideal S16 .f32) (hc : S16.ShapeCasts S16x1) (hb : S16x1.Broadcasts S16x1024)
    (p : Fin 16) (n : Fin 1024) :
    subf e (broadcastTo S16x1024 (shapeCast S16x1 M hc) hb) (ix2 p n) = e (ix2 p n) - M (ix1 p) := by
  rw [subf_apply, colBcast_apply, col_apply]

/-- The unnormalised weights from shifted scores. -/
theorem wts_of_shift (s : FVec Ideal S16x1024 .f32) (mk : FVec Ideal S16x1024 .f32) (p : Fin 16) (n : Fin 1024) :
    mulf (exp s) mk (ix2 p n) = Ideal.exp (s (ix2 p n)) * mk (ix2 p n) := rfl

/-- The normalised weights' weighted sum of the features. -/
theorem pool_at (x : Vec Ideal S16x1024x128 .f32) (w : FVec Ideal S16x1024 .f32)
    (hr1 : S16x1024.Reduces [1] S16) (hφ1 : FKind.Formats .f32) (hacc1 : (0x00000000#32 : BitVec 32) = FKind.add.neutral .f32 hφ1)
    (hc1 : S16.ShapeCasts S16x1) (hb1 : S16x1.Broadcasts S16x1024) (hc2 : S16x1024.ShapeCasts S16x1024x1)
    (hb2 : S16x1024x1.Broadcasts S16x1024x128) (hr2 : S16x1024x128.Reduces [1] S16x128) (hφ2 : FKind.Formats .f32)
    (hacc2 : (0x00000000#32 : BitVec 32) = FKind.add.neutral .f32 hφ2) (p : Fin 16) (d : Fin 128) :
    multiReduction .add [1] S16x128
      (mulf (broadcastTo S16x1024x128 (shapeCast S16x1024x1
        (divf w (broadcastTo S16x1024 (shapeCast S16x1 (multiReduction .add [1] S16 w 0x00000000#32 hr1 hφ1 hacc1) hc1) hb1)) hc2) hb2) x)
      0x00000000#32 hr2 hφ2 hacc2 (ix2 p d)
    = pool (fun n d => x (ix3 p n d)) (attn (fun n => w (ix2 p n))) d := by
  rw [atomSum3_apply]
  unfold pool attn
  refine Finset.sum_congr rfl fun n _ => ?_
  rw [mulf_apply, wtBcast_apply, divf_apply, colBcast_apply, col_apply, atomSum_apply]

/-- The hidden state followed by the pooled vector. -/
theorem cat_at (h r : FVec Ideal S16x128 .f32) (hc : Shape.Concatenates [S16x128, S16x128] S16x256 1) (p : Fin 16) (k : Fin 256) :
    concatenate S16x256 1 [⟨S16x128, h⟩, ⟨S16x128, r⟩] hc (ix2 p k) = cat (fun d => h (ix2 p d)) (fun d => r (ix2 p d)) k := by
  unfold cat
  by_cases hk : k.val < 128
  · rw [dif_pos hk]
    exact concatenate_pair_apply_left (1 : Fin S16x256.rank) h r hc (ix2 p k) rfl (ix2 p ⟨k.val, hk⟩) fun b => by
      match b with
      | ⟨0, _⟩ => rfl
      | ⟨1, _⟩ => rfl
  · rw [dif_neg hk]
    exact concatenate_pair_apply_right (1 : Fin S16x256.rank) h r hc (ix2 p k) rfl rfl (ix2 p ⟨k.val - 128, by have := k.isLt; omega⟩)
      (fun b hb => by
        match b with
        | ⟨0, _⟩ => rfl
        | ⟨1, _⟩ => exact absurd rfl hb)
      (by show (k.val - 128) + 128 = k.val; omega)

/-- The output layer. -/
theorem out_at (q : FVec Ideal S16x256 .f32) (wout : Vec Ideal S256x1 .f32) (bout : Vec Ideal S1x1 .f32)
    (h1 : S256x1.ShapeCasts S256x1) (h2 : S1x1.ShapeCasts S1x1) (h3 : S1x1.Broadcasts S16x1) (p : Fin 16) :
    addf (matmul dot_S16x256_S256x1_S16x1_1_0_0_1_n_n none q (shapeCast S256x1 wout h1 : FVec Ideal S256x1 .f32) (constant S16x1 .f32 0x00000000#32))
      (broadcastTo S16x1 (shapeCast S1x1 bout h2 : FVec Ideal S1x1 .f32) h3) (ix2 p (0 : Fin 1))
    = ∑ k : Fin 256, q (ix2 p k) * wout (ix2 k (0 : Fin 1)) + bout (ix2 (0 : Fin 1) (0 : Fin 1)) := by
  rw [addf_apply, mmC, shapeCast_self, shapeCast_self, broadcastTo_1b_ab_apply]

end Cert.Pooling.K

end
-- ==== Proof.KernelRow.lean ====
/-
  The pooling kernel's body at one row of a block: with the block's arrays as variables — the 16 rows' features, their
  masks as floats, the two transposed weight matrices, the summed bias row, the transposed output weights and the output
  bias — the value the body stores at row p is that row's output formula (three rounds of LSTM cell, masked softmax over
  the atoms and weighted pooling, then the output layer), a function of row p's features and mask and of the weights only.
  The body's value is printed in fourteen pieces cut where the printer found it convenient; each piece is read at row p
  from what the earlier pieces are at row p.
-/
import proofs.«112316_g16243566313856_cont_week2b_871_2_alg».proof.Proof.Gen.KernelIdeal.Frame
import proofs.«112316_g16243566313856_cont_week2b_871_2_alg».proof.Proof.KernelOps

noncomputable section

open scoped BigOperators

namespace Cert.Pooling.K

open Idealize.ShloMosaic Idealize.ShloMosaic.ValueIdx Cert.KernelIdeal Cert.KernelIdeal.Gen Cert.Pooling

/-- Row p's features. -/
abbrev xr (X0 : Vec Ideal S16x1024x128 .f32) (p : Fin 16) : Fin 1024 → Fin 128 → EReal := fun n d => X0 (ix3 p n d)
/-- The input weights, untransposed. -/
abbrev wih (X2 : Vec Ideal S256x512 .f32) : Fin 512 → Fin 256 → EReal := fun j k => X2 (ix2 k j)
/-- The recurrent weights, untransposed. -/
abbrev whh (X3 : Vec Ideal S128x512 .f32) : Fin 512 → Fin 128 → EReal := fun j k => X3 (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

/-- The next query: the hidden state followed by the pooled vector, from the unnormalised weights. -/
theorem qnext_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (h : FVec Ideal S16x128 .f32) (w : FVec Ideal S16x1024 .f32)
    (hr1 : S16x1024.Reduces [1] S16) (hφ1 : FKind.Formats .f32) (hacc1 : (0x00000000#32 : BitVec 32) = FKind.add.neutral .f32 hφ1)
    (hc1 : S16.ShapeCasts S16x1) (hb1 : S16x1.Broadcasts S16x1024) (hc2 : S16x1024.ShapeCasts S16x1024x1)
    (hb2 : S16x1024x1.Broadcasts S16x1024x128) (hr2 : S16x1024x128.Reduces [1] S16x128) (hφ2 : FKind.Formats .f32)
    (hacc2 : (0x00000000#32 : BitVec 32) = FKind.add.neutral .f32 hφ2) (hc : Shape.Concatenates [S16x128, S16x128] S16x256 1)
    (H : Fin 128 → EReal) (hH : ∀ d, h (ix2 p d) = H d) (W : Fin 1024 → EReal) (hW : ∀ n, w (ix2 p n) = W n) (k : Fin 256) :
    concatenate S16x256 1 [⟨S16x128, h⟩, ⟨S16x128, multiReduction .add [1] S16x128
      (mulf (broadcastTo S16x1024x128 (shapeCast S16x1024x1
        (divf w (broadcastTo S16x1024 (shapeCast S16x1 (multiReduction .add [1] S16 w 0x00000000#32 hr1 hφ1 hacc1) hc1) hb1)) hc2) hb2) X0)
      0x00000000#32 hr2 hφ2 hacc2⟩] hc (ix2 p k)
    = cat H (pool (xr X0 p) (attn W)) k := by
  rw [cat_at]
  have e1 : (fun d => h (ix2 p d)) = H := funext hH
  have e2 : (fun n => w (ix2 p n)) = W := funext hW
  rw [e1]
  refine congrArg (fun r => cat H r k) (funext fun d => ?_)
  rw [pool_at, e2]

/-- The gates from a query, a hidden state and the bias row. -/
theorem gnext_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (q : FVec Ideal S16x256 .f32) (h : FVec Ideal S16x128 .f32) (b : FVec Ideal S1x512 .f32)
    (h1 : S256x512.ShapeCasts S256x512) (h2 : S128x512.ShapeCasts S128x512) (h3 : S1x512.Broadcasts S16x512)
    (Q : Fin 256 → EReal) (hQ : ∀ k, q (ix2 p k) = Q k) (H : Fin 128 → EReal) (hH : ∀ d, h (ix2 p d) = H d)
    (hbb : ∀ j, b (ix2 (0 : Fin 1) j) = bih j + bhh j) (j : Fin 512) :
    addf (addf (matmul dot_S16x256_S256x512_S16x512_1_0_0_1_n_n none q (shapeCast S256x512 X2 h1 : FVec Ideal S256x512 .f32) (constant S16x512 .f32 0x00000000#32))
        (matmul dot_S16x128_S128x512_S16x512_1_0_0_1_n_n none h (shapeCast S128x512 X3 h2 : FVec Ideal S128x512 .f32) (constant S16x512 .f32 0x00000000#32)))
      (broadcastTo S16x512 b h3) (ix2 p j)
    = gates (wih X2) (whh X3) bih bhh Q H j := by
  rw [gates_at, hbb]
  unfold gates
  congr 2
  · exact Finset.sum_congr rfl fun k _ => by rw [hQ]
  · exact Finset.sum_congr rfl fun k _ => by rw [hH]

theorem pay2_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) (n : Fin 1024) : k0_pay2 X1 (ix2 p n) = bitR (mb n) := by
  unfold k0_pay2; rw [shapeCast_self]; exact hmk n

theorem pay3_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) (j : Fin 512) : k0_pay3 X4 (ix2 (0 : Fin 1) j) = bih j + bhh j := by
  unfold k0_pay3; rw [shapeCast_self]; exact hb j

/-! ### Round 1 -/

theorem pay4_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) (j : Fin 512) : k0_pay4 X4 X2 X3 (ix2 p j) = G1 (wih X2) (whh X3) bih bhh j := by
  unfold k0_pay4
  refine (gnext_at X0 X1 X2 X3 X4 X5 X6 p mb bih bhh _ _ _ _ _ _ (fun _ => 0) (fun k => ?_) (fun _ => 0) (fun d => ?_) (pay3_at X0 X1 X2 X3 X4 X5 X6 p mb bih bhh hmk hb) j).trans rfl
  · show Ideal.ofBits .f32 0x00000000#32 = 0
    exact Ideal.ofBits_zero_f32
  · show Ideal.ofBits .f32 0x00000000#32 = 0
    exact Ideal.ofBits_zero_f32

theorem pay5_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) (d : Fin 128) : k0_pay5 X4 X2 X3 (ix2 p d) = C1 (wih X2) (whh X3) bih bhh d := by
  unfold k0_pay5
  refine (cellC_at _ _ _ _ _ p d).trans ?_
  have e1 : (fun j => k0_pay4 X4 X2 X3 (ix2 p j)) = G1 (wih X2) (whh X3) bih bhh := funext (pay4_at X0 X1 X2 X3 X4 X5 X6 p mb bih bhh hmk hb)
  have e2 : (fun d : Fin 128 => broadcast S16x128 (Scalar.ofBits (F := Ideal) .f32 0x00000000#32) (ix2 p d)) = fun _ => 0 :=
    funext fun _ => Ideal.ofBits_zero_f32
  rw [e1, e2]; rfl

theorem pay6_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) (d : Fin 128) : k0_pay6 X4 X2 X3 (ix2 p d) = H1 (wih X2) (whh X3) bih bhh d := by
  unfold k0_pay6
  refine (cellH_at _ _ _ p d).trans ?_
  have e1 : (fun j => k0_pay4 X4 X2 X3 (ix2 p j)) = G1 (wih X2) (whh X3) bih bhh := funext (pay4_at X0 X1 X2 X3 X4 X5 X6 p mb bih bhh hmk hb)
  have e2 : (fun d => k0_pay5 X4 X2 X3 (ix2 p d)) = C1 (wih X2) (whh X3) bih bhh := funext (pay5_at X0 X1 X2 X3 X4 X5 X6 p mb bih bhh hmk hb)
  rw [e1, e2]; rfl

theorem pay7_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) (n : Fin 1024) :
    k0_pay7 X0 X1 X4 X2 X3 (ix2 p n) = score (xr X0 p) mb (H1 (wih X2) (whh X3) bih bhh) n := by
  unfold k0_pay7
  refine (score_at X0 _ _ _ _ _ _ _ mb p (pay2_at X0 X1 X2 X3 X4 X5 X6 p mb bih bhh hmk hb) n).trans ?_
  have e2 : (fun d => k0_pay6 X4 X2 X3 (ix2 p d)) = H1 (wih X2) (whh X3) bih bhh := funext (pay6_at X0 X1 X2 X3 X4 X5 X6 p mb bih bhh hmk hb)
  rw [e2]

theorem pay8_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) : k0_pay8 X0 X1 X4 X2 X3 (ix1 p) = top (score (xr X0 p) mb (H1 (wih X2) (whh X3) bih bhh)) := by
  unfold k0_pay8
  refine (top_at _ _ _ _ p).trans ?_
  rw [funext (pay7_at X0 X1 X2 X3 X4 X5 X6 p mb bih bhh hmk hb)]

/-! ### Round 2, generic in what the earlier pieces are at row p -/

theorem pay9_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (v2 : FVec Ideal S16x1024 .f32) (v7 : FVec Ideal S1x512 .f32) (v29 : FVec Ideal S16x128 .f32)
    (v37 : FVec Ideal S16x1024 .f32) (v38 : FVec Ideal S16 .f32)
    (h2 : ∀ n, v2 (ix2 p n) = bitR (mb n)) (h7 : ∀ j, v7 (ix2 (0 : Fin 1) j) = bih j + bhh j)
    (H : Fin 128 → EReal) (h29 : ∀ d, v29 (ix2 p d) = H d) (e : Fin 1024 → EReal) (h37 : ∀ n, v37 (ix2 p n) = e n)
    (h38 : v38 (ix1 p) = top e) (j : Fin 512) :
    k0_pay9 X0 v2 v7 v29 v37 v38 X2 X3 (ix2 p j)
    = gates (wih X2) (whh X3) bih bhh (cat H (pool (xr X0 p) (attn (wts mb e)))) H j := by
  unfold k0_pay9
  refine gnext_at X0 X1 X2 X3 X4 X5 X6 p mb bih bhh _ _ _ _ _ _ _ (fun k => ?_) H h29 h7 j
  refine qnext_at X0 X1 X2 X3 X4 X5 X6 p mb bih bhh _ _ _ _ _ _ _ _ _ _ _ _ _ H h29 (wts mb e) (fun n => ?_) k
  rw [wts_of_shift, shift_at, h37, h38, h2]; rfl

theorem pay10_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (v2 : FVec Ideal S16x1024 .f32) (v7 : FVec Ideal S1x512 .f32) (v27 v29 : FVec Ideal S16x128 .f32)
    (v37 : FVec Ideal S16x1024 .f32) (v38 : FVec Ideal S16 .f32)
    (G : Fin 512 → EReal) (hG : ∀ j, k0_pay9 X0 v2 v7 v29 v37 v38 X2 X3 (ix2 p j) = G j)
    (C : Fin 128 → EReal) (h27 : ∀ d, v27 (ix2 p d) = C d) (d : Fin 128) :
    k0_pay10 X0 v2 v7 v27 v29 v37 v38 X2 X3 (ix2 p d) = cellC G C d := by
  unfold k0_pay10
  refine (cellC_at _ _ _ _ _ p d).trans ?_
  rw [funext hG, funext h27]

theorem pay11_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (v2 : FVec Ideal S16x1024 .f32) (v7 : FVec Ideal S1x512 .f32) (v27 v29 : FVec Ideal S16x128 .f32)
    (v37 : FVec Ideal S16x1024 .f32) (v38 : FVec Ideal S16 .f32)
    (G : Fin 512 → EReal) (hG : ∀ j, k0_pay9 X0 v2 v7 v29 v37 v38 X2 X3 (ix2 p j) = G j)
    (C' : Fin 128 → EReal) (hC : ∀ d, k0_pay10 X0 v2 v7 v27 v29 v37 v38 X2 X3 (ix2 p d) = C' d) (d : Fin 128) :
    k0_pay11 X0 v2 v7 v27 v29 v37 v38 X2 X3 (ix2 p d) = cellH G C' d := by
  unfold k0_pay11
  refine (cellH_at _ _ _ p d).trans ?_
  rw [funext hG, funext hC]

theorem pay12_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (v2 : FVec Ideal S16x1024 .f32) (v7 : FVec Ideal S1x512 .f32) (v27 v29 : FVec Ideal S16x128 .f32)
    (v37 : FVec Ideal S16x1024 .f32) (v38 : FVec Ideal S16 .f32) (h2 : ∀ n, v2 (ix2 p n) = bitR (mb n))
    (H' : Fin 128 → EReal) (hH : ∀ d, k0_pay11 X0 v2 v7 v27 v29 v37 v38 X2 X3 (ix2 p d) = H' d) (n : Fin 1024) :
    k0_pay12 X0 v2 v7 v27 v29 v37 v38 X2 X3 (ix2 p n) = score (xr X0 p) mb H' n - top (score (xr X0 p) mb H') := by
  unfold k0_pay12
  have es := fun n => (score_at X0 (k0_pay11 X0 v2 v7 v27 v29 v37 v38 X2 X3) v2 shapeCasts_S16x128_S16x1x128
    broadcasts_S16x1x128_S16x1024x128 reduces_S16x1024x128_S16x1024 (.inl rfl) rfl mb p h2 n).trans
      (congrArg (fun h => score (xr X0 p) mb h n) (funext hH))
  refine (shift_at _ _ _ _ p n).trans ?_
  refine congrArg₂ (fun a b : EReal => a - b) (es n) ?_
  refine (top_at _ _ _ _ p).trans ?_
  exact congrArg top (funext es)

/-! ### Round 3 and the output layer -/

theorem pay13_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (v2 : FVec Ideal S16x1024 .f32) (v7 : FVec Ideal S1x512 .f32) (v72 v74 : FVec Ideal S16x128 .f32)
    (v86 : FVec Ideal S16x1024 .f32) (h2 : ∀ n, v2 (ix2 p n) = bitR (mb n)) (h7 : ∀ j, v7 (ix2 (0 : Fin 1) j) = bih j + bhh j)
    (H : Fin 128 → EReal) (h74 : ∀ d, v74 (ix2 p d) = H d) (e : Fin 1024 → EReal) (h86 : ∀ n, v86 (ix2 p n) = e n - top e)
    (C : Fin 128 → EReal) (h72 : ∀ d, v72 (ix2 p d) = C d) (d : Fin 128) :
    k0_pay13 X0 v2 v7 v72 v74 v86 X2 X3 (ix2 p d)
    = cellH (gates (wih X2) (whh X3) bih bhh (cat H (pool (xr X0 p) (attn (wts mb e)))) H)
        (cellC (gates (wih X2) (whh X3) bih bhh (cat H (pool (xr X0 p) (attn (wts mb e)))) H) C) d := by
  unfold k0_pay13
  refine (cellH_at _ _ _ p d).trans ?_
  refine congrArg₂ (fun g c => cellH g c d) (funext fun j => ?_) (funext fun d' => ?_)
  · refine gnext_at X0 X1 X2 X3 X4 X5 X6 p mb bih bhh _ _ _ _ _ _ _ (fun k => ?_) H h74 h7 j
    refine qnext_at X0 X1 X2 X3 X4 X5 X6 p mb bih bhh _ _ _ _ _ _ _ _ _ _ _ _ _ H h74 (wts mb e) (fun n => ?_) k
    rw [wts_of_shift, h86, h2]; rfl
  · refine (cellC_at _ _ _ _ _ p d').trans ?_
    refine congrArg₂ (fun g c => cellC g c d') (funext fun j => ?_) (funext h72)
    refine gnext_at X0 X1 X2 X3 X4 X5 X6 p mb bih bhh _ _ _ _ _ _ _ (fun k => ?_) H h74 h7 j
    refine qnext_at X0 X1 X2 X3 X4 X5 X6 p mb bih bhh _ _ _ _ _ _ _ _ _ _ _ _ _ H h74 (wts mb e) (fun n => ?_) k
    rw [wts_of_shift, h86, h2]; rfl

theorem pay14_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (v2 : FVec Ideal S16x1024 .f32) (v7 : FVec Ideal S1x512 .f32) (v72 v74 : FVec Ideal S16x128 .f32)
    (v86 : FVec Ideal S16x1024 .f32) (h2 : ∀ n, v2 (ix2 p n) = bitR (mb n))
    (H' : Fin 128 → EReal) (hH : ∀ d, k0_pay13 X0 v2 v7 v72 v74 v86 X2 X3 (ix2 p d) = H' d) (n : Fin 1024) :
    k0_pay14 X0 v2 v7 v72 v74 v86 X2 X3 (ix2 p n) = wts mb (score (xr X0 p) mb H') n := by
  unfold k0_pay14
  have es := fun n => (score_at X0 (k0_pay13 X0 v2 v7 v72 v74 v86 X2 X3) v2 shapeCasts_S16x128_S16x1x128
    broadcasts_S16x1x128_S16x1024x128 reduces_S16x1024x128_S16x1024 (.inl rfl) rfl mb p h2 n).trans
      (congrArg (fun h => score (xr X0 p) mb h n) (funext hH))
  refine (wts_of_shift _ _ p n).trans ?_
  unfold wts
  refine congrArg₂ (fun a b : EReal => Ideal.exp a * b) ?_ (h2 n)
  refine (shift_at _ _ _ _ p n).trans ?_
  refine congrArg₂ (fun a b : EReal => a - b) (es n) ?_
  refine (top_at _ _ _ _ p).trans ?_
  exact congrArg top (funext es)

theorem pay1_at (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (v119 : FVec Ideal S16x128 .f32) (v133 : FVec Ideal S16x1024 .f32)
    (H : Fin 128 → EReal) (h119 : ∀ d, v119 (ix2 p d) = H d) (W : Fin 1024 → EReal) (h133 : ∀ n, v133 (ix2 p n) = W n) :
    k0_pay1 X0 v119 v133 X5 X6 (ix2 p (0 : Fin 1))
    = ∑ k : Fin 256, cat H (pool (xr X0 p) (attn W)) k * X5 (ix2 k (0 : Fin 1)) + X6 (ix2 (0 : Fin 1) (0 : Fin 1)) := by
  unfold k0_pay1
  refine (out_at _ X5 X6 _ _ _ p).trans ?_
  refine congrArg (fun s : EReal => s + X6 (ix2 (0 : Fin 1) (0 : Fin 1))) (Finset.sum_congr rfl fun k _ => ?_)
  refine congrArg (fun s : EReal => s * X5 (ix2 k (0 : Fin 1))) ?_
  exact qnext_at X0 X1 X2 X3 X4 X5 X6 p mb bih bhh v119 v133 _ _ _ _ _ _ _ _ _ _ _ H h119 W h133 k

/-! ### The whole body at row p -/

/-- What the body leaves at row p of the output block is the row's output formula. -/
theorem out_row (X0 : Vec Ideal S16x1024x128 .f32) (X1 : Vec Ideal S16x1024 .f32) (X2 : Vec Ideal S256x512 .f32)
    (X3 : Vec Ideal S128x512 .f32) (X4 : Vec Ideal S1x512 .f32) (X5 : Vec Ideal S256x1 .f32) (X6 : Vec Ideal S1x1 .f32)
    (p : Fin 16) (mb : Fin 1024 → BitVec 1) (bih bhh : Fin 512 → EReal) (hmk : ∀ n, X1 (ix2 p n) = bitR (mb n)) (hb : ∀ j, X4 (ix2 (0 : Fin 1) j) = bih j + bhh j) :
    out0_7 (F := Ideal) X0 X1 X2 X3 X4 X5 X6 (ix2 p (0 : Fin 1))
    = Yrow (xr X0 p) mb (wih X2) (whh X3) bih bhh (fun k => X5 (ix2 k (0 : Fin 1))) (X6 (ix2 (0 : Fin 1) (0 : Fin 1))) := by
  unfold out0_7
  rw [View.canon_unit_zero hz2]
  simp only [View.ld_unit_zero (S := S16x1024x128) hz3, View.ld_unit_zero (S := S16x1024) hz2, View.ld_unit_zero (S := S1x512) hz2,
    View.ld_unit_zero (S := S256x512) hz2, View.ld_unit_zero (S := S128x512) hz2, View.ld_unit_zero (S := S256x1) hz2,
    View.ld_unit_zero (S := S1x1) hz2]
  have a2 := pay2_at X0 X1 X2 X3 X4 X5 X6 p mb bih bhh hmk hb
  have a3 := pay3_at X0 X1 X2 X3 X4 X5 X6 p mb bih bhh hmk hb
  have a5 := pay5_at X0 X1 X2 X3 X4 X5 X6 p mb bih bhh hmk hb
  have a6 := pay6_at X0 X1 X2 X3 X4 X5 X6 p mb bih bhh hmk hb
  have a7 := pay7_at X0 X1 X2 X3 X4 X5 X6 p mb bih bhh hmk hb
  have a8 := pay8_at X0 X1 X2 X3 X4 X5 X6 p mb bih bhh hmk hb
  have g2 : ∀ j, (k0_pay9 X0 (k0_pay2 X1) (k0_pay3 X4) (k0_pay6 X4 X2 X3) (k0_pay7 X0 X1 X4 X2 X3) (k0_pay8 X0 X1 X4 X2 X3) X2 X3) (ix2 p j) = G2 (xr X0 p) mb (wih X2) (whh X3) bih bhh j :=
    fun j => pay9_at X0 X1 X2 X3 X4 X5 X6 p mb bih bhh _ _ _ _ _ a2 a3 _ a6 _ a7 a8 j
  have c2 : ∀ d, (k0_pay10 X0 (k0_pay2 X1) (k0_pay3 X4) (k0_pay5 X4 X2 X3) (k0_pay6 X4 X2 X3) (k0_pay7 X0 X1 X4 X2 X3) (k0_pay8 X0 X1 X4 X2 X3) X2 X3) (ix2 p d) = C2 (xr X0 p) mb (wih X2) (whh X3) bih bhh d :=
    fun d => pay10_at X0 X1 X2 X3 X4 X5 X6 p mb bih bhh _ _ _ _ _ _ _ g2 _ a5 d
  have h2 : ∀ d, (k0_pay11 X0 (k0_pay2 X1) (k0_pay3 X4) (k0_pay5 X4 X2 X3) (k0_pay6 X4 X2 X3) (k0_pay7 X0 X1 X4 X2 X3) (k0_pay8 X0 X1 X4 X2 X3) X2 X3) (ix2 p d) = H2 (xr X0 p) mb (wih X2) (whh X3) bih bhh d :=
    fun d => pay11_at X0 X1 X2 X3 X4 X5 X6 p mb bih bhh _ _ _ _ _ _ _ g2 _ c2 d
  have e2 : ∀ n, (k0_pay12 X0 (k0_pay2 X1) (k0_pay3 X4) (k0_pay5 X4 X2 X3) (k0_pay6 X4 X2 X3) (k0_pay7 X0 X1 X4 X2 X3) (k0_pay8 X0 X1 X4 X2 X3) X2 X3) (ix2 p n) = score (xr X0 p) mb (H2 (xr X0 p) mb (wih X2) (whh X3) bih bhh) n - top (score (xr X0 p) mb (H2 (xr X0 p) mb (wih X2) (whh X3) bih bhh)) :=
    fun n => pay12_at X0 X1 X2 X3 X4 X5 X6 p mb bih bhh _ _ _ _ _ _ a2 _ h2 n
  have h3 : ∀ d, (k0_pay13 X0 (k0_pay2 X1) (k0_pay3 X4) (k0_pay10 X0 (k0_pay2 X1) (k0_pay3 X4) (k0_pay5 X4 X2 X3) (k0_pay6 X4 X2 X3) (k0_pay7 X0 X1 X4 X2 X3) (k0_pay8 X0 X1 X4 X2 X3) X2 X3) (k0_pay11 X0 (k0_pay2 X1) (k0_pay3 X4) (k0_pay5 X4 X2 X3) (k0_pay6 X4 X2 X3) (k0_pay7 X0 X1 X4 X2 X3) (k0_pay8 X0 X1 X4 X2 X3) X2 X3) (k0_pay12 X0 (k0_pay2 X1) (k0_pay3 X4) (k0_pay5 X4 X2 X3) (k0_pay6 X4 X2 X3) (k0_pay7 X0 X1 X4 X2 X3) (k0_pay8 X0 X1 X4 X2 X3) X2 X3) X2 X3) (ix2 p d) = H3 (xr X0 p) mb (wih X2) (whh X3) bih bhh d :=
    fun d => pay13_at X0 X1 X2 X3 X4 X5 X6 p mb bih bhh _ _ _ _ _ a2 a3 _ h2 _ e2 _ c2 d
  have w3 : ∀ n, (k0_pay14 X0 (k0_pay2 X1) (k0_pay3 X4) (k0_pay10 X0 (k0_pay2 X1) (k0_pay3 X4) (k0_pay5 X4 X2 X3) (k0_pay6 X4 X2 X3) (k0_pay7 X0 X1 X4 X2 X3) (k0_pay8 X0 X1 X4 X2 X3) X2 X3) (k0_pay11 X0 (k0_pay2 X1) (k0_pay3 X4) (k0_pay5 X4 X2 X3) (k0_pay6 X4 X2 X3) (k0_pay7 X0 X1 X4 X2 X3) (k0_pay8 X0 X1 X4 X2 X3) X2 X3) (k0_pay12 X0 (k0_pay2 X1) (k0_pay3 X4) (k0_pay5 X4 X2 X3) (k0_pay6 X4 X2 X3) (k0_pay7 X0 X1 X4 X2 X3) (k0_pay8 X0 X1 X4 X2 X3) X2 X3) X2 X3) (ix2 p n) = wts mb (score (xr X0 p) mb (H3 (xr X0 p) mb (wih X2) (whh X3) bih bhh)) n :=
    fun n => pay14_at X0 X1 X2 X3 X4 X5 X6 p mb bih bhh _ _ _ _ _ a2 _ h3 n
  exact (pay1_at X0 X1 X2 X3 X4 X5 X6 p mb bih bhh _ _ _ h3 _ w3).trans rfl

end Cert.Pooling.K

end
-- ==== Proof.Bridge.lean ====
/-
  The kernel's side of the comparison: what the body stores at row p of grid point t's block is the output formula of
  row 16 t + p of the argument arrays — the block of features is rows 16 t … 16 t + 15 of the features, the block of
  mask numbers is the mask bits of those rows as 0 / 1, and the weight windows are the whole (transposed) weight
  matrices, the summed biases and the output layer at every grid point.
-/
import proofs.«112316_g16243566313856_cont_week2b_871_2_alg».proof.Proof.KernelArray
import proofs.«112316_g16243566313856_cont_week2b_871_2_alg».proof.Proof.KernelRow

noncomputable section

open scoped BigOperators

namespace Cert.Pooling

open Idealize.ShloMosaic Idealize.ShloMosaic.ValueIdx Idealize.ShloMosaic.TcCoe Idealize.SL.Sem

/-- Row b's output before the final scale and shift, from the whole argument arrays: features [128,1024,128], mask bits
    [128,1024], input weights [512,256], recurrent weights [512,128], the two bias rows [512], output weights [1,256]
    and output bias [1]. -/
def rowY (x0 : (⟨3, ![128, 1024, 128]⟩ : Shape).Idx → EReal) (x1 : (⟨2, ![128, 1024]⟩ : Shape).Idx → BitVec 1)
    (x2 : (⟨2, ![512, 256]⟩ : Shape).Idx → EReal) (x3 : (⟨2, ![512, 128]⟩ : Shape).Idx → EReal)
    (x4 x5 : (⟨1, ![512]⟩ : Shape).Idx → EReal) (x6 : (⟨2, ![1, 256]⟩ : Shape).Idx → EReal)
    (x7 : (⟨1, ![1]⟩ : Shape).Idx → EReal) (b : Fin 128) : EReal :=
  Yrow (fun n d => x0 (ix3 b n d)) (fun n => x1 (ix2 b n)) (fun j k => x2 (ix2 j k)) (fun j k => x3 (ix2 j k))
    (fun j => x4 (ix1 j)) (fun j => x5 (ix1 j)) (fun k => x6 (ix2 (0 : Fin 1) k)) (x7 (ix1 (0 : Fin 1)))

open Cert.KernelIdeal Cert.KernelIdeal.Gen Cert.KernelIdeal.ArrayValue

/-- Row b's output before the final scale and shift, of the argument arrays that memory `m` holds on device `c`. -/
def rowOf (m : (ℓ : Loc nD τ sig) → Buf (Elt Ideal) ℓ) (c : Dev nD) (b : Fin 128) : EReal :=
  rowY (m ((c.tc : Thread nD τ).loc main_arg0) : S128x1024x128.Idx → EReal) (m ((c.tc : Thread nD τ).loc main_arg1) : S128x1024.Idx → BitVec 1) (m ((c.tc : Thread nD τ).loc main_arg2) : S512x256.Idx → EReal) (m ((c.tc : Thread nD τ).loc main_arg3) : S512x128.Idx → EReal) (m ((c.tc : Thread nD τ).loc main_arg4) : S512.Idx → EReal) (m ((c.tc : Thread nD τ).loc main_arg5) : S512.Idx → EReal) (m ((c.tc : Thread nD τ).loc main_arg6) : S1x256.Idx → EReal) (m ((c.tc : Thread nD τ).loc main_arg7) : S1.Idx → EReal) b

/-- Row p of point t's output block is the output formula of row 16 t + p. -/
theorem kernel_row (m : (ℓ : Loc nD τ sig) → Buf (Elt Ideal) ℓ) (c : Dev nD) (t : Fin cfg0.N) (p : Fin 16) :
    Gen.out0_7 (F := Ideal) (Gen.iblk m c 0 t) (Gen.iblk m c 1 t) (Gen.iblk m c 2 t) (Gen.iblk m c 3 t) (Gen.iblk m c 4 t) (Gen.iblk m c 5 t) (Gen.iblk m c 6 t) (ix2 p (0 : Fin 1))
    = rowOf m c ⟨16 * t.val + p.val, row_lt t p⟩ := by
  refine (K.out_row (Gen.iblk m c 0 t) (Gen.iblk m c 1 t) (Gen.iblk m c 2 t) (Gen.iblk m c 3 t) (Gen.iblk m c 4 t) (Gen.iblk m c 5 t) (Gen.iblk m c 6 t) p
    (fun n => (m ((c.tc : Thread nD τ).loc main_arg1) : S128x1024.Idx → BitVec 1) (ix2 ⟨16 * t.val + p.val, row_lt t p⟩ n))
    (fun j => (m ((c.tc : Thread nD τ).loc main_arg4) : S512.Idx → EReal) (ix1 j)) (fun j => (m ((c.tc : Thread nD τ).loc main_arg5) : S512.Idx → EReal) (ix1 j))
    (fun n => blk1 m c t p n) (fun j => blk4 m c t (0 : Fin 1) j)).trans ?_
  unfold rowOf rowY
  have e0 : K.xr (Gen.iblk m c 0 t) p = fun n d => (m ((c.tc : Thread nD τ).loc main_arg0) : S128x1024x128.Idx → EReal) (ix3 ⟨16 * t.val + p.val, row_lt t p⟩ n d) :=
    funext fun n => funext fun d => blk0 m c t p n d
  have e2 : K.wih (Gen.iblk m c 2 t) = fun j k => (m ((c.tc : Thread nD τ).loc main_arg2) : S512x256.Idx → EReal) (ix2 j k) :=
    funext fun j => funext fun k => blk2 m c t k j
  have e3 : K.whh (Gen.iblk m c 3 t) = fun j k => (m ((c.tc : Thread nD τ).loc main_arg3) : S512x128.Idx → EReal) (ix2 j k) :=
    funext fun j => funext fun k => blk3 m c t k j
  have e5 : (fun k : Fin 256 => Gen.iblk m c 5 t (ix2 k (0 : Fin 1))) = fun k => (m ((c.tc : Thread nD τ).loc main_arg6) : S1x256.Idx → EReal) (ix2 (0 : Fin 1) k) :=
    funext fun k => blk5 m c t k (0 : Fin 1)
  have e6 : Gen.iblk m c 6 t (ix2 (0 : Fin 1) (0 : Fin 1)) = (m ((c.tc : Thread nD τ).loc main_arg7) : S1.Idx → EReal) (ix1 (0 : Fin 1)) := blk6 m c t 0 0
  rw [e0, e2, e3, e5, e6]

end Cert.Pooling

end
-- ==== Proof.RefRun.lean ====
/-
  The run of the reference program, with its result stated over the staged values of its operations.

  The reference's main function is a straight line of 243 tensor operations in single-assignment form: every
  buffer is written by exactly one operation and read only by later ones, and the ten argument buffers are never
  written. For each operation the value its result buffer holds is a named function of the arguments, defined
  over the named values of the operation's operands (the definitions val_<buffer>), so that a value with several
  consumers is written once and shared by name.

  The run is read off one operation at a time, from the last to the first. For the line's suffix that starts at
  operation k (tail k), and for ANY contents V of the buffers that hold, at every buffer that is written before k
  and read at k or later, the named value of that buffer (and at every argument buffer still to be read, the
  argument), the contents after the suffix hold the named value of the result at the result buffer (spec k).
  The step from k + 1 to k: operation k leaves every buffer other than its own result as it was, and its result is
  its function at its operands' contents, which by hypothesis are the operands' named values; that is the named
  value of the result by definition. At k = 0 the hypotheses speak of the arguments only, and the contents at
  launch hold them. The arguments themselves end unchanged, as no operation writes them.
-/
import proofs.«112316_g16243566313856_cont_week2b_871_2_alg».proof.Proof.RefRunBase
import proofs.«112316_g16243566313856_cont_week2b_871_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-! ## The suffixes of the line, by name -/

/-- The empty suffix. -/
def tail243 : List (HloOp τ sig (Elt F)) := []
/-- The suffix that starts at operation 242. -/
def tail242 : List (HloOp τ sig (Elt F)) :=
  (binary main_v197 main_v199 main_v200 (addf : (⟨S128x1, .f32⟩ : BufTy).Contents (Elt F) → (⟨S128x1, .f32⟩ : BufTy).Contents (Elt F) → (⟨S128x1, .f32⟩ : BufTy).Contents (Elt F))) :: tail243 (F := F)
/-- The suffix that starts at operation 241. -/
def tail241 : List (HloOp τ sig (Elt F)) :=
  (unary main_v198 main_v199 (broadcastInDim S128x1 ![0, 1] bcast_S1x1_S128x1_0_1 : (⟨S1x1, .f32⟩ : BufTy).Contents (Elt F) → (⟨S128x1, .f32⟩ : BufTy).Contents (Elt F))) :: tail242 (F := F)
/-- The suffix that starts at operation 240. -/
def tail240 : List (HloOp τ sig (Elt F)) :=
  (unary main_arg8 main_v198 (broadcastInDim S1x1 ![1] bcast_S1_S1x1_1 : (⟨S1, .f32⟩ : BufTy).Contents (Elt F) → (⟨S1x1, .f32⟩ : BufTy).Contents (Elt F))) :: tail241 (F := F)
/-- The suffix that starts at operation 239. -/
def tail239 : List (HloOp τ sig (Elt F)) :=
  (binary main_v194 main_v196 main_v197 (mulf : (⟨S128x1, .f32⟩ : BufTy).Contents (Elt F) → (⟨S128x1, .f32⟩ : BufTy).Contents (Elt F) → (⟨S128x1, .f32⟩ : BufTy).Contents (Elt F))) :: tail240 (F := F)
/-- The suffix that starts at operation 238. -/
def tail238 : List (HloOp τ sig (Elt F)) :=
  (unary main_v195 main_v196 (broadcastInDim S128x1 ![0, 1] bcast_S1x1_S128x1_0_1 : (⟨S1x1, .f32⟩ : BufTy).Contents (Elt F) → (⟨S128x1, .f32⟩ : BufTy).Contents (Elt F))) :: tail239 (F := F)
/-- The suffix that starts at operation 237. -/
def tail237 : List (HloOp τ sig (Elt F)) :=
  (unary main_arg9 main_v195 (broadcastInDim S1x1 ![1] bcast_S1_S1x1_1 : (⟨S1, .f32⟩ : BufTy).Contents (Elt F) → (⟨S1x1, .f32⟩ : BufTy).Contents (Elt F))) :: tail238 (F := F)
/-- The suffix that starts at operation 236. -/
def tail236 : List (HloOp τ sig (Elt F)) :=
  (binary main_v191 main_v193 main_v194 (addf : (⟨S128x1, .f32⟩ : BufTy).Contents (Elt F) → (⟨S128x1, .f32⟩ : BufTy).Contents (Elt F) → (⟨S128x1, .f32⟩ : BufTy).Contents (Elt F))) :: tail237 (F := F)
/-- The suffix that starts at operation 235. -/
def tail235 : List (HloOp τ sig (Elt F)) :=
  (unary main_v192 main_v193 (broadcastInDim S128x1 ![0, 1] bcast_S1x1_S128x1_0_1 : (⟨S1x1, .f32⟩ : BufTy).Contents (Elt F) → (⟨S128x1, .f32⟩ : BufTy).Contents (Elt F))) :: tail236 (F := F)
/-- The suffix that starts at operation 234. -/
def tail234 : List (HloOp τ sig (Elt F)) :=
  (unary main_arg7 main_v192 (broadcastInDim S1x1 ![1] bcast_S1_S1x1_1 : (⟨S1, .f32⟩ : BufTy).Contents (Elt F) → (⟨S1x1, .f32⟩ : BufTy).Contents (Elt F))) :: tail235 (F := F)
/-- The suffix that starts at operation 233. -/
def tail233 : List (HloOp τ sig (Elt F)) :=
  (binary main_v189 main_v190 main_v191 ((fun l r => Host.dotGeneral dot_S128x256_S256x1_S128x1_1_0_0_1_n_n none l r) : (⟨S128x256, .f32⟩ : BufTy).Contents (Elt F) → (⟨S256x1, .f32⟩ : BufTy).Contents (Elt F) → (⟨S128x1, .f32⟩ : BufTy).Contents (Elt F))) :: tail234 (F := F)
/-- The suffix that starts at operation 232. -/
def tail232 : List (HloOp τ sig (Elt F)) :=
  (unary main_arg6 main_v190 ((transpose S256x1 [1, 0] · transposes_S1x256_S256x1_1_0) : (⟨S1x256, .f32⟩ : BufTy).Contents (Elt F) → (⟨S256x1, .f32⟩ : BufTy).Contents (Elt F))) :: tail233 (F := F)
/-- The suffix that starts at operation 231. -/
def tail231 : List (HloOp τ sig (Elt F)) :=
  (binary main_v166 main_v188 main_v189 ((fun a b => concatenate S128x256 1 [⟨S128x128, a⟩, ⟨S128x128, b⟩] concatenates_S128x128_S128x128_S128x256_d1) : (⟨S128x128, .f32⟩ : BufTy).Contents (Elt F) → (⟨S128x128, .f32⟩ : BufTy).Contents (Elt F) → (⟨S128x256, .f32⟩ : BufTy).Contents (Elt F))) :: tail232 (F := F)
/-- The suffix that starts at operation 230. -/
def tail230 : List (HloOp τ sig (Elt F)) :=
  (binary main_v187 main_cst_34 main_v188 ((fun x v => Host.reduceAdd x v reducesTo_S128x1024x128_S128x128_d1 h_S_) : (⟨S128x1024x128, .f32⟩ : BufTy).Contents (Elt F) → (⟨S_, .f32⟩ : BufTy).Contents (Elt F) → (⟨S128x128, .f32⟩ : BufTy).Contents (Elt F))) :: tail231 (F := F)
/-- The suffix that starts at operation 229. -/
def tail229 : List (HloOp τ sig (Elt F)) :=
  (nullary main_cst_34 (constant S_ .f32 0x00000000#32)) :: tail230 (F := F)
/-- The suffix that starts at operation 228. -/
def tail228 : List (HloOp τ sig (Elt F)) :=
  (binary main_v184 main_v186 main_v187 (mulf : (⟨S128x1024x128, .f32⟩ : BufTy).Contents (Elt F) → (⟨S128x1024x128, .f32⟩ : BufTy).Contents (Elt F) → (⟨S128x1024x128, .f32⟩ : BufTy).Contents (Elt F))) :: tail229 (F := F)
/-- The suffix that starts at operation 227. -/
def tail227 : List (HloOp τ sig (Elt F)) :=
  (unary main_v185 main_v186 (broadcastInDim S128x1024x128 ![0, 1, 2] bcast_S128x1024x1_S128x1024x128_0_1_2 : (⟨S128x1024x1, .f32⟩ : BufTy).Contents (Elt F) → (⟨S128x1024x128, .f32⟩ : BufTy).Contents (Elt F))) :: tail228 (F := F)
/-- The suffix that starts at operation 226. -/
def tail226 : List (HloOp τ sig (Elt F)) :=
  (unary main_v0 main_v185 (broadcastInDim S128x1024x1 ![0, 1] bcast_S128x1024_S128x1024x1_0_1 : (⟨S128x1024, .f32⟩ : BufTy).Contents (Elt F) → (⟨S128x1024x1, .f32⟩ : BufTy).Contents (Elt F))) :: tail227 (F := F)
/-- The suffix that starts at operation 225. -/
def tail225 : List (HloOp τ sig (Elt F)) :=
  (binary main_v183 main_arg0 main_v184 (mulf : (⟨S128x1024x128, .f32⟩ : BufTy).Contents (Elt F) → (⟨S128x1024x128, .f32⟩ : BufTy).Contents (Elt F) → (⟨S128x1024x128, .f32⟩ : BufTy).Contents (Elt F))) :: tail226 (F := F)
/-- The suffix that starts at operation 224. -/
def tail224 : List (HloOp τ sig (Elt F)) :=
  (unary main_v182 main_v183 (broadcastInDim S128x1024x128 ![0, 1, 2] bcast_S128x1024x1_S128x1024x128_0_1_2 : (⟨S128x1024x1, .f32⟩ : BufTy).Contents (Elt F) → (⟨S128x1024x128, .f32⟩ : BufTy).Contents (Elt F))) :: tail225 (F := F)
/-- The suffix that starts at operation 223. -/
def tail223 : List (HloOp τ sig (Elt F)) :=
  (unary main_v181 main_v182 (broadcastInDim S128x1024x1 ![0, 1] bcast_S128x1024_S128x1024x1_0_1 : (⟨S128x1024, .f32⟩ : BufTy).Contents (Elt F) → (⟨S128x1024x1, .f32⟩ : BufTy).Contents (Elt F))) :: tail224 (F := F)
/-- The suffix that starts at operation 222. -/
def tail222 : List (HloOp τ sig (Elt F)) :=
  (binary main_v177 main_v180 main_v181 (Host.divf : (⟨S128x1024, .f32⟩ : BufTy).Contents (Elt F) → (⟨S128x1024, .f32⟩ : BufTy).Contents (Elt F) → (⟨S128x1024, .f32⟩ : BufTy).Contents (Elt F))) :: tail223 (F := F)
/-- The suffix that starts at operation 221. -/
def tail221 : List (HloOp τ sig (Elt F)) :=
  (unary main_v179 main_v180 (broadcastInDim S128x1024 ![0, 1] bcast_S128x1_S128x1024_0_1 : (⟨S128x1, .f32⟩ : BufTy).Contents (Elt F) → (⟨S128x1024, .f32⟩ : BufTy).Contents (Elt F))) :: tail222 (F := F)
/-- The suffix that starts at operation 220. -/
def tail220 : List (HloOp τ sig (Elt F)) :=
  (unary main_v178 main_v179 (broadcastInDim S128x1 ![0] bcast_S128_S128x1_0 : (⟨S128, .f32⟩ : BufTy).Contents (Elt F) → (⟨S128x1, .f32⟩ : BufTy).Contents (Elt F))) :: tail221 (F := F)
/-- The suffix that starts at operation 219. -/
def tail219 : List (HloOp τ sig (Elt F)) :=
  (binary main_v177 main_cst_33 main_v178 ((fun x v => Host.reduceAdd x v reducesTo_S128x1024_S128_d1 h_S_) : (⟨S128x1024, .f32⟩ : BufTy).Contents (Elt F) → (⟨S_, .f32⟩ : BufTy).Contents (Elt F) → (⟨S128, .f32⟩ : BufTy).Contents (Elt F))) :: tail220 (F := F)
/-- The suffix that starts at operation 218. -/
def tail218 : List (HloOp τ sig (Elt F)) :=
  (nullary main_cst_33 (constant S_ .f32 0x00000000#32)) :: tail219 (F := F)
/-- The suffix that starts at operation 217. -/
def tail217 : List (HloOp τ sig (Elt F)) :=
  (binary main_v176 main_v0 main_v177 (mulf : (⟨S128x1024, .f32⟩ : BufTy).Contents (Elt F) → (⟨S128x1024, .f32⟩ : BufTy).Contents (Elt F) → (⟨S128x1024, .f32⟩ : BufTy).Contents (Elt F))) :: tail218 (F := F)
/-- The suffix that starts at operation 216. -/
def tail216 : List (HloOp τ sig (Elt F)) :=
  (unary main_v175 main_v176 (Host.exp : (⟨S128x1024, .f32⟩ : BufTy).Contents (Elt F) → (⟨S128x1024, .f32⟩ : BufTy).Contents (Elt F))) :: tail217 (F := F)
/-- The suffix that starts at operation 215. -/
def tail215 : List (HloOp τ sig (Elt F)) :=
  (binary main_v171 main_v174 main_v175 (subf : (⟨S128x1024, .f32⟩ : BufTy).Contents (Elt F) → (⟨S128x1024, .f32⟩ : BufTy).Contents (Elt F) → (⟨S128x1024, .f32⟩ : BufTy).Contents (Elt F))) :: tail216 (F := F)
/-- The suffix that starts at operation 214. -/
def tail214 : List (HloOp τ sig (Elt F)) :=
  (unary main_v173 main_v174 (broadcastInDim S128x1024 ![0, 1] bcast_S128x1_S128x1024_0_1 : (⟨S128x1, .f32⟩ : BufTy).Contents (Elt F) → (⟨S128x1024, .f32⟩ : BufTy).Contents (Elt F))) :: tail215 (F := F)
/-- The suffix that starts at operation 213. -/
def tail213 : List (HloOp τ sig (Elt F)) :=
  (unary main_v172 main_v173 (broadcastInDim S128x1 ![0] bcast_S128_S128x1_0 : (⟨S128, .f32⟩ : BufTy).Contents (Elt F) → (⟨S128x1, .f32⟩ : BufTy).Contents (Elt F))) :: tail214 (F := F)
/-- The suffix that starts at operation 212. -/
def tail212 : List (HloOp τ sig (Elt F)) :=
  (binary main_v171 main_cst_32 main_v172 ((fun x v => Host.reduce FloatOps.maximumf x v reducesTo_S128x1024_S128_d1 h_S_) : (⟨S128x1024, .f32⟩ : BufTy).Contents (Elt F) → (⟨S_, .f32⟩ : BufTy).Contents (Elt F) → (⟨S128, .f32⟩ : BufTy).Contents (Elt F))) :: tail213 (F := F)
/-- The suffix that starts at operation 211. -/
def tail211 : List (HloOp τ sig (Elt F)) :=
  (nullary main_cst_32 (constant S_ .f32 0xFF800000#32)) :: tail212 (F := F)
/-- The suffix that starts at operation 210. -/
def tail210 : List (HloOp τ sig (Elt F)) :=
  (TRef.ternary (TRef.of (T := ⟨S128x1024, .i1⟩) main_arg1) (TRef.of (T := ⟨S128x1024, .f32⟩) main_v170) (TRef.of (T := ⟨S128x1024, .f32⟩) main_call2_v1) (TRef.of (T := ⟨S128x1024, .f32⟩) main_v171) select) :: tail211 (F := F)
/-- The suffix that starts at operation 209. -/
def tail209 : List (HloOp τ sig (Elt F)) :=
  (TRef.unary (TRef.of (T := ⟨S_, .f32⟩) main_call2_v0) (TRef.of (T := ⟨S128x1024, .f32⟩) main_call2_v1) (broadcastInDim S128x1024 ![] bcast_S_S128x1024)) :: tail210 (F := F)
/-- The suffix that starts at operation 208. -/
def tail208 : List (HloOp τ sig (Elt F)) :=
  (TRef.unary (TRef.of (T := ⟨S_, .f32⟩) main_cst_31) (TRef.of (T := ⟨S_, .f32⟩) main_call2_v0) id) :: tail209 (F := F)
/-- The suffix that starts at operation 207. -/
def tail207 : List (HloOp τ sig (Elt F)) :=
  (nullary main_cst_31 (constant S_ .f32 0xFF800000#32)) :: tail208 (F := F)
/-- The suffix that starts at operation 206. -/
def tail206 : List (HloOp τ sig (Elt F)) :=
  (binary main_v169 main_cst_30 main_v170 ((fun x v => Host.reduceAdd x v reducesTo_S128x1024x128_S128x1024_d2 h_S_) : (⟨S128x1024x128, .f32⟩ : BufTy).Contents (Elt F) → (⟨S_, .f32⟩ : BufTy).Contents (Elt F) → (⟨S128x1024, .f32⟩ : BufTy).Contents (Elt F))) :: tail207 (F := F)
/-- The suffix that starts at operation 205. -/
def tail205 : List (HloOp τ sig (Elt F)) :=
  (nullary main_cst_30 (constant S_ .f32 0x00000000#32)) :: tail206 (F := F)
/-- The suffix that starts at operation 204. -/
def tail204 : List (HloOp τ sig (Elt F)) :=
  (binary main_arg0 main_v168 main_v169 (mulf : (⟨S128x1024x128, .f32⟩ : BufTy).Contents (Elt F) → (⟨S128x1024x128, .f32⟩ : BufTy).Contents (Elt F) → (⟨S128x1024x128, .f32⟩ : BufTy).Contents (Elt F))) :: tail205 (F := F)
/-- The suffix that starts at operation 203. -/
def tail203 : List (HloOp τ sig (Elt F)) :=
  (unary main_v167 main_v168 (broadcastInDim S128x1024x128 ![0, 1, 2] bcast_S128x1x128_S128x1024x128_0_1_2 : (⟨S128x1x128, .f32⟩ : BufTy).Contents (Elt F) → (⟨S128x1024x128, .f32⟩ : BufTy).Contents (Elt F))) :: tail204 (F := F)
/-- The suffix that starts at operation 202. -/
def tail202 : List (HloOp τ sig (Elt F)) :=
  (unary main_v166 main_v167 (broadcastInDim S128x1x128 ![0, 2] bcast_S128x128_S128x1x128_0_2 : (⟨S128x128, .f32⟩ : BufTy).Contents (Elt F) → (⟨S128x1x128, .f32⟩ : BufTy).Contents (Elt F))) :: tail203 (F := F)
/-- The suffix that starts at operation 201. -/
def tail201 : List (HloOp τ sig (Elt F)) :=
  (binary main_v161 main_v165 main_v166 (mulf : (⟨S128x128, .f32⟩ : BufTy).Contents (Elt F) → (⟨S128x128, .f32⟩ : BufTy).Contents (Elt F) → (⟨S128x128, .f32⟩ : BufTy).Contents (Elt F))) :: tail202 (F := F)
/-- The suffix that starts at operation 200. -/
def tail200 : List (HloOp τ sig (Elt F)) :=
  (unary main_v164 main_v165 (Host.tanh : (⟨S128x128, .f32⟩ : BufTy).Contents (Elt F) → (⟨S128x128, .f32⟩ : BufTy).Contents (Elt F))) :: tail201 (F := F)
/-- The suffix that starts at operation 199. -/
def tail199 : List (HloOp τ sig (Elt F)) :=
  (binary main_v162 main_v163 main_v164 (addf : (⟨S128x128, .f32⟩ : BufTy).Contents (Elt F) → (⟨S128x128, .f32⟩ : BufTy).Contents (Elt F) → (⟨S128x128, .f32⟩ : BufTy).Contents (Elt F))) :: tail200 (F := F)
/-- The suffix that starts at operation 198. -/
def tail198 : List (HloOp τ sig (Elt F)) :=
  (binary main_v148 main_v155 main_v163 (mulf : (⟨S128x128, .f32⟩ : BufTy).Contents (Elt F) → (⟨S128x128, .f32⟩ : BufTy).Contents (Elt F) → (⟨S128x128, .f32⟩ : BufTy).Contents (Elt F))) :: tail199 (F := F)
/-- The suffix that starts at operation 197. -/
def tail197 : List (HloOp τ sig (Elt F)) :=
  (binary main_v154 main_v102 main_v162 (mulf : (⟨S128x128, .f32⟩ : BufTy).Contents (Elt F) → (⟨S128x128, .f32⟩ : BufTy).Contents (Elt F) → (⟨S128x128, .f32⟩ : BufTy).Contents (Elt F))) :: tail198 (F := F)
/-- The suffix that starts at operation 196. -/
def tail196 : List (HloOp τ sig (Elt F)) :=
  (binary main_v160 main_v159 main_v161 (Host.divf : (⟨S128x128, .f32⟩ : BufTy).Contents (Elt F) → (⟨S128x128, .f32⟩ : BufTy).Contents (Elt F) → (⟨S128x128, .f32⟩ : BufTy).Contents (Elt F))) :: tail197 (F := F)
/-- The suffix that starts at operation 195. -/
def tail195 : List (HloOp τ sig (Elt F)) :=
  (unary main_cst_29 main_v160 (broadcastInDim S128x128 ![] bcast_S_S128x128 : (⟨S_, .f32⟩ : BufTy).Contents (Elt F) → (⟨S128x128, .f32⟩ : BufTy).Contents (Elt F))) :: tail196 (F := F)
/-- The suffix that starts at operation 194. -/
def tail194 : List (HloOp τ sig (Elt F)) :=
  (nullary main_cst_29 (constant S_ .f32 0x3F800000#32)) :: tail195 (F := F)
/-- The suffix that starts at operation 193. -/
def tail193 : List (HloOp τ sig (Elt F)) :=
  (binary main_v158 main_v157 main_v159 (addf : (⟨S128x128, .f32⟩ : BufTy).Contents (Elt F) → (⟨S128x128, .f32⟩ : BufTy).Contents (Elt F) → (⟨S128x128, .f32⟩ : BufTy).Contents (Elt F))) :: tail194 (F := F)
/-- The suffix that starts at operation 192. -/
def tail192 : List (HloOp τ sig (Elt F)) :=
  (unary main_cst_28 main_v158 (broadcastInDim S128x128 ![] bcast_S_S128x128 : (⟨S_, .f32⟩ : BufTy).Contents (Elt F) → (⟨S128x128, .f32⟩ : BufTy).Contents (Elt F))) :: tail193 (F := F)
/-- The suffix that starts at operation 191. -/
def tail191 : List (HloOp τ sig (Elt F)) :=
  (nullary main_cst_28 (constant S_ .f32 0x3F800000#32)) :: tail192 (F := F)
/-- The suffix that starts at operation 190. -/
def tail190 : List (HloOp τ sig (Elt F)) :=
  (unary main_v156 main_v157 (Host.exp : (⟨S128x128, .f32⟩ : BufTy).Contents (Elt F) → (⟨S128x128, .f32⟩ : BufTy).Contents (Elt F))) :: tail191 (F := F)
/-- The suffix that starts at operation 189. -/
def tail189 : List (HloOp τ sig (Elt F)) :=
  (unary main_v142 main_v156 (Host.negf : (⟨S128x128, .f32⟩ : BufTy).Contents (Elt F) → (⟨S128x128, .f32⟩ : BufTy).Contents (Elt F))) :: tail190 (F := F)
/-- The suffix that starts at operation 188. -/
def tail188 : List (HloOp τ sig (Elt F)) :=
  (unary main_v141 main_v155 (Host.tanh : (⟨S128x128, .f32⟩ : BufTy).Contents (Elt F) → (⟨S128x128, .f32⟩ : BufTy).Contents (Elt F))) :: tail189 (F := F)
/-- The suffix that starts at operation 187. -/
def tail187 : List (HloOp τ sig (Elt F)) :=
  (binary main_v153 main_v152 main_v154 (Host.divf : (⟨S128x128, .f32⟩ : BufTy).Contents (Elt F) → (⟨S128x128, .f32⟩ : BufTy).Contents (Elt F) → (⟨S128x128, .f32⟩ : BufTy).Contents (Elt F))) :: tail188 (F := F)
/-- The suffix that starts at operation 186. -/
def tail186 : List (HloOp τ sig (Elt F)) :=
  (unary main_cst_27 main_v153 (broadcastInDim S128x128 ![] bcast_S_S128x128 : (⟨S_, .f32⟩ : BufTy).Contents (Elt F) → (⟨S128x128, .f32⟩ : BufTy).Contents (Elt F))) :: tail187 (F := F)
/-- The suffix that starts at operation 185. -/
def tail185 : List (HloOp τ sig (Elt F)) :=
  (nullary main_cst_27 (constant S_ .f32 0x3F800000#32)) :: tail186 (F := F)
/-- The suffix that starts at operation 184. -/
def tail184 : List (HloOp τ sig (Elt F)) :=
  (binary main_v151 main_v150 main_v152 (addf : (⟨S128x128, .f32⟩ : BufTy).Contents (Elt F) → (⟨S128x128, .f32⟩ : BufTy).Contents (Elt F) → (⟨S128x128, .f32⟩ : BufTy).Contents (Elt F))) :: tail185 (F := F)
/-- The suffix that starts at operation 183. -/
def tail183 : List (HloOp τ sig (Elt F)) :=
  (unary main_cst_26 main_v151 (broadcastInDim S128x128 ![] bcast_S_S128x128 : (⟨S_, .f32⟩ : BufTy).Contents (Elt F) → (⟨S128x128, .f32⟩ : BufTy).Contents (Elt F))) :: tail184 (F := F)
/-- The suffix that starts at operation 182. -/
def tail182 : List (HloOp τ sig (Elt F)) :=
  (nullary main_cst_26 (constant S_ .f32 0x3F800000#32)) :: tail183 (F := F)
/-- The suffix that starts at operation 181. -/
def tail181 : List (HloOp τ sig (Elt F)) :=
  (unary main_v149 main_v150 (Host.exp : (⟨S128x128, .f32⟩ : BufTy).Contents (Elt F) → (⟨S128x128, .f32⟩ : BufTy).Contents (Elt F))) :: tail182 (F := F)
/-- The suffix that starts at operation 180. -/
def tail180 : List (HloOp τ sig (Elt F)) :=
  (unary main_v140 main_v149 (Host.negf : (⟨S128x128, .f32⟩ : BufTy).Contents (Elt F) → (⟨S128x128, .f32⟩ : BufTy).Contents (Elt F))) :: tail181 (F := F)
/-- The suffix that starts at operation 179. -/
def tail179 : List (HloOp τ sig (Elt F)) :=
  (binary main_v147 main_v146 main_v148 (Host.divf : (⟨S128x128, .f32⟩ : BufTy).Contents (Elt F) → (⟨S128x128, .f32⟩ : BufTy).Contents (Elt F) → (⟨S128x128, .f32⟩ : BufTy).Contents (Elt F))) :: tail180 (F := F)
/-- The suffix that starts at operation 178. -/
def tail178 : List (HloOp τ sig (Elt F)) :=
  (unary main_cst_25 main_v147 (broadcastInDim S128x128 ![] bcast_S_S128x128 : (⟨S_, .f32⟩ : BufTy).Contents (Elt F) → (⟨S128x128, .f32⟩ : BufTy).Contents (Elt F))) :: tail179 (F := F)
/-- The suffix that starts at operation 177. -/
def tail177 : List (HloOp τ sig (Elt F)) :=
  (nullary main_cst_25 (constant S_ .f32 0x3F800000#32)) :: tail178 (F := F)
/-- The suffix that starts at operation 176. -/
def tail176 : List (HloOp τ sig (Elt F)) :=
  (binary main_v145 main_v144 main_v146 (addf : (⟨S128x128, .f32⟩ : BufTy).Contents (Elt F) → (⟨S128x128, .f32⟩ : BufTy).Contents (Elt F) → (⟨S128x128, .f32⟩ : BufTy).Contents (Elt F))) :: tail177 (F := F)
/-- The suffix that starts at operation 175. -/
def tail175 : List (HloOp τ sig (Elt F)) :=
  (unary main_cst_24 main_v145 (broadcastInDim S128x128 ![] bcast_S_S128x128 : (⟨S_, .f32⟩ : BufTy).Contents (Elt F) → (⟨S128x128, .f32⟩ : BufTy).Contents (Elt F))) :: tail176 (F := F)
/-- The suffix that starts at operation 174. -/
def tail174 : List (HloOp τ sig (Elt F)) :=
  (nullary main_cst_24 (constant S_ .f32 0x3F800000#32)) :: tail175 (F := F)
/-- The suffix that starts at operation 173. -/
def tail173 : List (HloOp τ sig (Elt F)) :=
  (unary main_v143 main_v144 (Host.exp : (⟨S128x128, .f32⟩ : BufTy).Contents (Elt F) → (⟨S128x128, .f32⟩ : BufTy).Contents (Elt F))) :: tail174 (F := F)
/-- The suffix that starts at operation 172. -/
def tail172 : List (HloOp τ sig (Elt F)) :=
  (unary main_v139 main_v143 (Host.negf : (⟨S128x128, .f32⟩ : BufTy).Contents (Elt F) → (⟨S128x128, .f32⟩ : BufTy).Contents (Elt F))) :: tail173 (F := F)
/-- The suffix that starts at operation 171. -/
def tail171 : List (HloOp τ sig (Elt F)) :=
  (unary main_v138 main_v142 ((extractStridedSlice S128x128 ![0, 384] · slices_S128x512_S128x128_0_384) : (⟨S128x512, .f32⟩ : BufTy).Contents (Elt F) → (⟨S128x128, .f32⟩ : BufTy).Contents (Elt F))) :: tail172 (F := F)
/-- The suffix that starts at operation 170. -/
def tail170 : List (HloOp τ sig (Elt F)) :=
  (unary main_v138 main_v141 ((extractStridedSlice S128x128 ![0, 256] · slices_S128x512_S128x128_0_256) : (⟨S128x512, .f32⟩ : BufTy).Contents (Elt F) → (⟨S128x128, .f32⟩ : BufTy).Contents (Elt F))) :: tail171 (F := F)
/-- The suffix that starts at operation 169. -/
def tail169 : List (HloOp τ sig (Elt F)) :=
  (unary main_v138 main_v140 ((extractStridedSlice S128x128 ![0, 128] · slices_S128x512_S128x128_0_128) : (⟨S128x512, .f32⟩ : BufTy).Contents (Elt F) → (⟨S128x128, .f32⟩ : BufTy).Contents (Elt F))) :: tail170 (F := F)
/-- The suffix that starts at operation 168. -/
def tail168 : List (HloOp τ sig (Elt F)) :=
  (unary main_v138 main_v139 ((extractStridedSlice S128x128 ![0, 0] · slices_S128x512_S128x128_0_0) : (⟨S128x512, .f32⟩ : BufTy).Contents (Elt F) → (⟨S128x128, .f32⟩ : BufTy).Contents (Elt F))) :: tail169 (F := F)
/-- The suffix that starts at operation 167. -/
def tail167 : List (HloOp τ sig (Elt F)) :=
  (binary main_v135 main_v137 main_v138 (addf : (⟨S128x512, .f32⟩ : BufTy).Contents (Elt F) → (⟨S128x512, .f32⟩ : BufTy).Contents (Elt F) → (⟨S128x512, .f32⟩ : BufTy).Contents (Elt F))) :: tail168 (F := F)
/-- The suffix that starts at operation 166. -/
def tail166 : List (HloOp τ sig (Elt F)) :=
  (unary main_v136 main_v137 (broadcastInDim S128x512 ![0, 1] bcast_S1x512_S128x512_0_1 : (⟨S1x512, .f32⟩ : BufTy).Contents (Elt F) → (⟨S128x512, .f32⟩ : BufTy).Contents (Elt F))) :: tail167 (F := F)
/-- The suffix that starts at operation 165. -/
def tail165 : List (HloOp τ sig (Elt F)) :=
  (unary main_arg5 main_v136 (broadcastInDim S1x512 ![1] bcast_S512_S1x512_1 : (⟨S512, .f32⟩ : BufTy).Contents (Elt F) → (⟨S1x512, .f32⟩ : BufTy).Contents (Elt F))) :: tail166 (F := F)
/-- The suffix that starts at operation 164. -/
def tail164 : List (HloOp τ sig (Elt F)) :=
  (binary main_v132 main_v134 main_v135 (addf : (⟨S128x512, .f32⟩ : BufTy).Contents (Elt F) → (⟨S128x512, .f32⟩ : BufTy).Contents (Elt F) → (⟨S128x512, .f32⟩ : BufTy).Contents (Elt F))) :: tail165 (F := F)
/-- The suffix that starts at operation 163. -/
def tail163 : List (HloOp τ sig (Elt F)) :=
  (binary main_v104 main_v133 main_v134 ((fun l r => Host.dotGeneral dot_S128x128_S128x512_S128x512_1_0_0_1_n_n none l r) : (⟨S128x128, .f32⟩ : BufTy).Contents (Elt F) → (⟨S128x512, .f32⟩ : BufTy).Contents (Elt F) → (⟨S128x512, .f32⟩ : BufTy).Contents (Elt F))) :: tail164 (F := F)
/-- The suffix that starts at operation 162. -/
def tail162 : List (HloOp τ sig (Elt F)) :=
  (unary main_arg3 main_v133 ((transpose S128x512 [1, 0] · transposes_S512x128_S128x512_1_0) : (⟨S512x128, .f32⟩ : BufTy).Contents (Elt F) → (⟨S128x512, .f32⟩ : BufTy).Contents (Elt F))) :: tail163 (F := F)
/-- The suffix that starts at operation 161. -/
def tail161 : List (HloOp τ sig (Elt F)) :=
  (binary main_v129 main_v131 main_v132 (addf : (⟨S128x512, .f32⟩ : BufTy).Contents (Elt F) → (⟨S128x512, .f32⟩ : BufTy).Contents (Elt F) → (⟨S128x512, .f32⟩ : BufTy).Contents (Elt F))) :: tail162 (F := F)
/-- The suffix that starts at operation 160. -/
def tail160 : List (HloOp τ sig (Elt F)) :=
  (unary main_v130 main_v131 (broadcastInDim S128x512 ![0, 1] bcast_S1x512_S128x512_0_1 : (⟨S1x512, .f32⟩ : BufTy).Contents (Elt F) → (⟨S128x512, .f32⟩ : BufTy).Contents (Elt F))) :: tail161 (F := F)
/-- The suffix that starts at operation 159. -/
def tail159 : List (HloOp τ sig (Elt F)) :=
  (unary main_arg4 main_v130 (broadcastInDim S1x512 ![1] bcast_S512_S1x512_1 : (⟨S512, .f32⟩ : BufTy).Contents (Elt F) → (⟨S1x512, .f32⟩ : BufTy).Contents (Elt F))) :: tail160 (F := F)
/-- The suffix that starts at operation 158. -/
def tail158 : List (HloOp τ sig (Elt F)) :=
  (binary main_v127 main_v128 main_v129 ((fun l r => Host.dotGeneral dot_S128x256_S256x512_S128x512_1_0_0_1_n_n none l r) : (⟨S128x256, .f32⟩ : BufTy).Contents (Elt F) → (⟨S256x512, .f32⟩ : BufTy).Contents (Elt F) → (⟨S128x512, .f32⟩ : BufTy).Contents (Elt F))) :: tail159 (F := F)
/-- The suffix that starts at operation 157. -/
def tail157 : List (HloOp τ sig (Elt F)) :=
  (unary main_arg2 main_v128 ((transpose S256x512 [1, 0] · transposes_S512x256_S256x512_1_0) : (⟨S512x256, .f32⟩ : BufTy).Contents (Elt F) → (⟨S256x512, .f32⟩ : BufTy).Contents (Elt F))) :: tail158 (F := F)
/-- The suffix that starts at operation 156. -/
def tail156 : List (HloOp τ sig (Elt F)) :=
  (binary main_v104 main_v126 main_v127 ((fun a b => concatenate S128x256 1 [⟨S128x128, a⟩, ⟨S128x128, b⟩] concatenates_S128x128_S128x128_S128x256_d1) : (⟨S128x128, .f32⟩ : BufTy).Contents (Elt F) → (⟨S128x128, .f32⟩ : BufTy).Contents (Elt F) → (⟨S128x256, .f32⟩ : BufTy).Contents (Elt F))) :: tail157 (F := F)
/-- The suffix that starts at operation 155. -/
def tail155 : List (HloOp τ sig (Elt F)) :=
  (binary main_v125 main_cst_23 main_v126 ((fun x v => Host.reduceAdd x v reducesTo_S128x1024x128_S128x128_d1 h_S_) : (⟨S128x1024x128, .f32⟩ : BufTy).Contents (Elt F) → (⟨S_, .f32⟩ : BufTy).Contents (Elt F) → (⟨S128x128, .f32⟩ : BufTy).Contents (Elt F))) :: tail156 (F := F)
/-- The suffix that starts at operation 154. -/
def tail154 : List (HloOp τ sig (Elt F)) :=
  (nullary main_cst_23 (constant S_ .f32 0x00000000#32)) :: tail155 (F := F)
/-- The suffix that starts at operation 153. -/
def tail153 : List (HloOp τ sig (Elt F)) :=
  (binary main_v122 main_v124 main_v125 (mulf : (⟨S128x1024x128, .f32⟩ : BufTy).Contents (Elt F) → (⟨S128x1024x128, .f32⟩ : BufTy).Contents (Elt F) → (⟨S128x1024x128, .f32⟩ : BufTy).Contents (Elt F))) :: tail154 (F := F)
/-- The suffix that starts at operation 152. -/
def tail152 : List (HloOp τ sig (Elt F)) :=
  (unary main_v123 main_v124 (broadcastInDim S128x1024x128 ![0, 1, 2] bcast_S128x1024x1_S128x1024x128_0_1_2 : (⟨S128x1024x1, .f32⟩ : BufTy).Contents (Elt F) → (⟨S128x1024x128, .f32⟩ : BufTy).Contents (Elt F))) :: tail153 (F := F)
/-- The suffix that starts at operation 151. -/
def tail151 : List (HloOp τ sig (Elt F)) :=
  (unary main_v0 main_v123 (broadcastInDim S128x1024x1 ![0, 1] bcast_S128x1024_S128x1024x1_0_1 : (⟨S128x1024, .f32⟩ : BufTy).Contents (Elt F) → (⟨S128x1024x1, .f32⟩ : BufTy).Contents (Elt F))) :: tail152 (F := F)
/-- The suffix that starts at operation 150. -/
def tail150 : List (HloOp τ sig (Elt F)) :=
  (binary main_v121 main_arg0 main_v122 (mulf : (⟨S128x1024x128, .f32⟩ : BufTy).Contents (Elt F) → (⟨S128x1024x128, .f32⟩ : BufTy).Contents (Elt F) → (⟨S128x1024x128, .f32⟩ : BufTy).Contents (Elt F))) :: tail151 (F := F)
/-- The suffix that starts at operation 149. -/
def tail149 : List (HloOp τ sig (Elt F)) :=
  (unary main_v120 main_v121 (broadcastInDim S128x1024x128 ![0, 1, 2] bcast_S128x1024x1_S128x1024x128_0_1_2 : (⟨S128x1024x1, .f32⟩ : BufTy).Contents (Elt F) → (⟨S128x1024x128, .f32⟩ : BufTy).Contents (Elt F))) :: tail150 (F := F)
/-- The suffix that starts at operation 148. -/
def tail148 : List (HloOp τ sig (Elt F)) :=
  (unary main_v119 main_v120 (broadcastInDim S128x1024x1 ![0, 1] bcast_S128x1024_S128x1024x1_0_1 : (⟨S128x1024, .f32⟩ : BufTy).Contents (Elt F) → (⟨S128x1024x1, .f32⟩ : BufTy).Contents (Elt F))) :: tail149 (F := F)
/-- The suffix that starts at operation 147. -/
def tail147 : List (HloOp τ sig (Elt F)) :=
  (binary main_v115 main_v118 main_v119 (Host.divf : (⟨S128x1024, .f32⟩ : BufTy).Contents (Elt F) → (⟨S128x1024, .f32⟩ : BufTy).Contents (Elt F) → (⟨S128x1024, .f32⟩ : BufTy).Contents (Elt F))) :: tail148 (F := F)
/-- The suffix that starts at operation 146. -/
def tail146 : List (HloOp τ sig (Elt F)) :=
  (unary main_v117 main_v118 (broadcastInDim S128x1024 ![0, 1] bcast_S128x1_S128x1024_0_1 : (⟨S128x1, .f32⟩ : BufTy).Contents (Elt F) → (⟨S128x1024, .f32⟩ : BufTy).Contents (Elt F))) :: tail147 (F := F)
/-- The suffix that starts at operation 145. -/
def tail145 : List (HloOp τ sig (Elt F)) :=
  (unary main_v116 main_v117 (broadcastInDim S128x1 ![0] bcast_S128_S128x1_0 : (⟨S128, .f32⟩ : BufTy).Contents (Elt F) → (⟨S128x1, .f32⟩ : BufTy).Contents (Elt F))) :: tail146 (F := F)
/-- The suffix that starts at operation 144. -/
def tail144 : List (HloOp τ sig (Elt F)) :=
  (binary main_v115 main_cst_22 main_v116 ((fun x v => Host.reduceAdd x v reducesTo_S128x1024_S128_d1 h_S_) : (⟨S128x1024, .f32⟩ : BufTy).Contents (Elt F) → (⟨S_, .f32⟩ : BufTy).Contents (Elt F) → (⟨S128, .f32⟩ : BufTy).Contents (Elt F))) :: tail145 (F := F)
/-- The suffix that starts at operation 143. -/
def tail143 : List (HloOp τ sig (Elt F)) :=
  (nullary main_cst_22 (constant S_ .f32 0x00000000#32)) :: tail144 (F := F)
/-- The suffix that starts at operation 142. -/
def tail142 : List (HloOp τ sig (Elt F)) :=
  (binary main_v114 main_v0 main_v115 (mulf : (⟨S128x1024, .f32⟩ : BufTy).Contents (Elt F) → (⟨S128x1024, .f32⟩ : BufTy).Contents (Elt F) → (⟨S128x1024, .f32⟩ : BufTy).Contents (Elt F))) :: tail143 (F := F)
/-- The suffix that starts at operation 141. -/
def tail141 : List (HloOp τ sig (Elt F)) :=
  (unary main_v113 main_v114 (Host.exp : (⟨S128x1024, .f32⟩ : BufTy).Contents (Elt F) → (⟨S128x1024, .f32⟩ : BufTy).Contents (Elt F))) :: tail142 (F := F)
/-- The suffix that starts at operation 140. -/
def tail140 : List (HloOp τ sig (Elt F)) :=
  (binary main_v109 main_v112 main_v113 (subf : (⟨S128x1024, .f32⟩ : BufTy).Contents (Elt F) → (⟨S128x1024, .f32⟩ : BufTy).Contents (Elt F) → (⟨S128x1024, .f32⟩ : BufTy).Contents (Elt F))) :: tail141 (F := F)
/-- The suffix that starts at operation 139. -/
def tail139 : List (HloOp τ sig (Elt F)) :=
  (unary main_v111 main_v112 (broadcastInDim S128x1024 ![0, 1] bcast_S128x1_S128x1024_0_1 : (⟨S128x1, .f32⟩ : BufTy).Contents (Elt F) → (⟨S128x1024, .f32⟩ : BufTy).Contents (Elt F))) :: tail140 (F := F)
/-- The suffix that starts at operation 138. -/
def tail138 : List (HloOp τ sig (Elt F)) :=
  (unary main_v110 main_v111 (broadcastInDim S128x1 ![0] bcast_S128_S128x1_0 : (⟨S128, .f32⟩ : BufTy).Contents (Elt F) → (⟨S128x1, .f32⟩ : BufTy).Contents (Elt F))) :: tail139 (F := F)
/-- The suffix that starts at operation 137. -/
def tail137 : List (HloOp τ sig (Elt F)) :=
  (binary main_v109 main_cst_21 main_v110 ((fun x v => Host.reduce FloatOps.maximumf x v reducesTo_S128x1024_S128_d1 h_S_) : (⟨S128x1024, .f32⟩ : BufTy).Contents (Elt F) → (⟨S_, .f32⟩ : BufTy).Contents (Elt F) → (⟨S128, .f32⟩ : BufTy).Contents (Elt F))) :: tail138 (F := F)
/-- The suffix that starts at operation 136. -/
def tail136 : List (HloOp τ sig (Elt F)) :=
  (nullary main_cst_21 (constant S_ .f32 0xFF800000#32)) :: tail137 (F := F)
/-- The suffix that starts at operation 135. -/
def tail135 : List (HloOp τ sig (Elt F)) :=
  (TRef.ternary (TRef.of (T := ⟨S128x1024, .i1⟩) main_arg1) (TRef.of (T := ⟨S128x1024, .f32⟩) main_v108) (TRef.of (T := ⟨S128x1024, .f32⟩) main_call1_v1) (TRef.of (T := ⟨S128x1024, .f32⟩) main_v109) select) :: tail136 (F := F)
/-- The suffix that starts at operation 134. -/
def tail134 : List (HloOp τ sig (Elt F)) :=
  (TRef.unary (TRef.of (T := ⟨S_, .f32⟩) main_call1_v0) (TRef.of (T := ⟨S128x1024, .f32⟩) main_call1_v1) (broadcastInDim S128x1024 ![] bcast_S_S128x1024)) :: tail135 (F := F)
/-- The suffix that starts at operation 133. -/
def tail133 : List (HloOp τ sig (Elt F)) :=
  (TRef.unary (TRef.of (T := ⟨S_, .f32⟩) main_cst_20) (TRef.of (T := ⟨S_, .f32⟩) main_call1_v0) id) :: tail134 (F := F)
/-- The suffix that starts at operation 132. -/
def tail132 : List (HloOp τ sig (Elt F)) :=
  (nullary main_cst_20 (constant S_ .f32 0xFF800000#32)) :: tail133 (F := F)
/-- The suffix that starts at operation 131. -/
def tail131 : List (HloOp τ sig (Elt F)) :=
  (binary main_v107 main_cst_19 main_v108 ((fun x v => Host.reduceAdd x v reducesTo_S128x1024x128_S128x1024_d2 h_S_) : (⟨S128x1024x128, .f32⟩ : BufTy).Contents (Elt F) → (⟨S_, .f32⟩ : BufTy).Contents (Elt F) → (⟨S128x1024, .f32⟩ : BufTy).Contents (Elt F))) :: tail132 (F := F)
/-- The suffix that starts at operation 130. -/
def tail130 : List (HloOp τ sig (Elt F)) :=
  (nullary main_cst_19 (constant S_ .f32 0x00000000#32)) :: tail131 (F := F)
/-- The suffix that starts at operation 129. -/
def tail129 : List (HloOp τ sig (Elt F)) :=
  (binary main_arg0 main_v106 main_v107 (mulf : (⟨S128x1024x128, .f32⟩ : BufTy).Contents (Elt F) → (⟨S128x1024x128, .f32⟩ : BufTy).Contents (Elt F) → (⟨S128x1024x128, .f32⟩ : BufTy).Contents (Elt F))) :: tail130 (F := F)
/-- The suffix that starts at operation 128. -/
def tail128 : List (HloOp τ sig (Elt F)) :=
  (unary main_v105 main_v106 (broadcastInDim S128x1024x128 ![0, 1, 2] bcast_S128x1x128_S128x1024x128_0_1_2 : (⟨S128x1x128, .f32⟩ : BufTy).Contents (Elt F) → (⟨S128x1024x128, .f32⟩ : BufTy).Contents (Elt F))) :: tail129 (F := F)
/-- The suffix that starts at operation 127. -/
def tail127 : List (HloOp τ sig (Elt F)) :=
  (unary main_v104 main_v105 (broadcastInDim S128x1x128 ![0, 2] bcast_S128x128_S128x1x128_0_2 : (⟨S128x128, .f32⟩ : BufTy).Contents (Elt F) → (⟨S128x1x128, .f32⟩ : BufTy).Contents (Elt F))) :: tail128 (F := F)
/-- The suffix that starts at operation 126. -/
def tail126 : List (HloOp τ sig (Elt F)) :=
  (binary main_v99 main_v103 main_v104 (mulf : (⟨S128x128, .f32⟩ : BufTy).Contents (Elt F) → (⟨S128x128, .f32⟩ : BufTy).Contents (Elt F) → (⟨S128x128, .f32⟩ : BufTy).Contents (Elt F))) :: tail127 (F := F)
/-- The suffix that starts at operation 125. -/
def tail125 : List (HloOp τ sig (Elt F)) :=
  (unary main_v102 main_v103 (Host.tanh : (⟨S128x128, .f32⟩ : BufTy).Contents (Elt F) → (⟨S128x128, .f32⟩ : BufTy).Contents (Elt F))) :: tail126 (F := F)
/-- The suffix that starts at operation 124. -/
def tail124 : List (HloOp τ sig (Elt F)) :=
  (binary main_v100 main_v101 main_v102 (addf : (⟨S128x128, .f32⟩ : BufTy).Contents (Elt F) → (⟨S128x128, .f32⟩ : BufTy).Contents (Elt F) → (⟨S128x128, .f32⟩ : BufTy).Contents (Elt F))) :: tail125 (F := F)
/-- The suffix that starts at operation 123. -/
def tail123 : List (HloOp τ sig (Elt F)) :=
  (binary main_v86 main_v93 main_v101 (mulf : (⟨S128x128, .f32⟩ : BufTy).Contents (Elt F) → (⟨S128x128, .f32⟩ : BufTy).Contents (Elt F) → (⟨S128x128, .f32⟩ : BufTy).Contents (Elt F))) :: tail124 (F := F)
/-- The suffix that starts at operation 122. -/
def tail122 : List (HloOp τ sig (Elt F)) :=
  (binary main_v92 main_v40 main_v100 (mulf : (⟨S128x128, .f32⟩ : BufTy).Contents (Elt F) → (⟨S128x128, .f32⟩ : BufTy).Contents (Elt F) → (⟨S128x128, .f32⟩ : BufTy).Contents (Elt F))) :: tail123 (F := F)
/-- The suffix that starts at operation 121. -/
def tail121 : List (HloOp τ sig (Elt F)) :=
  (binary main_v98 main_v97 main_v99 (Host.divf : (⟨S128x128, .f32⟩ : BufTy).Contents (Elt F) → (⟨S128x128, .f32⟩ : BufTy).Contents (Elt F) → (⟨S128x128, .f32⟩ : BufTy).Contents (Elt F))) :: tail122 (F := F)
/-- The suffix that starts at operation 120. -/
def tail120 : List (HloOp τ sig (Elt F)) :=
  (unary main_cst_18 main_v98 (broadcastInDim S128x128 ![] bcast_S_S128x128 : (⟨S_, .f32⟩ : BufTy).Contents (Elt F) → (⟨S128x128, .f32⟩ : BufTy).Contents (Elt F))) :: tail121 (F := F)
/-- The suffix that starts at operation 119. -/
def tail119 : List (HloOp τ sig (Elt F)) :=
  (nullary main_cst_18 (constant S_ .f32 0x3F800000#32)) :: tail120 (F := F)
/-- The suffix that starts at operation 118. -/
def tail118 : List (HloOp τ sig (Elt F)) :=
  (binary main_v96 main_v95 main_v97 (addf : (⟨S128x128, .f32⟩ : BufTy).Contents (Elt F) → (⟨S128x128, .f32⟩ : BufTy).Contents (Elt F) → (⟨S128x128, .f32⟩ : BufTy).Contents (Elt F))) :: tail119 (F := F)
/-- The suffix that starts at operation 117. -/
def tail117 : List (HloOp τ sig (Elt F)) :=
  (unary main_cst_17 main_v96 (broadcastInDim S128x128 ![] bcast_S_S128x128 : (⟨S_, .f32⟩ : BufTy).Contents (Elt F) → (⟨S128x128, .f32⟩ : BufTy).Contents (Elt F))) :: tail118 (F := F)
/-- The suffix that starts at operation 116. -/
def tail116 : List (HloOp τ sig (Elt F)) :=
  (nullary main_cst_17 (constant S_ .f32 0x3F800000#32)) :: tail117 (F := F)
/-- The suffix that starts at operation 115. -/
def tail115 : List (HloOp τ sig (Elt F)) :=
  (unary main_v94 main_v95 (Host.exp : (⟨S128x128, .f32⟩ : BufTy).Contents (Elt F) → (⟨S128x128, .f32⟩ : BufTy).Contents (Elt F))) :: tail116 (F := F)
/-- The suffix that starts at operation 114. -/
def tail114 : List (HloOp τ sig (Elt F)) :=
  (unary main_v80 main_v94 (Host.negf : (⟨S128x128, .f32⟩ : BufTy).Contents (Elt F) → (⟨S128x128, .f32⟩ : BufTy).Contents (Elt F))) :: tail115 (F := F)
/-- The suffix that starts at operation 113. -/
def tail113 : List (HloOp τ sig (Elt F)) :=
  (unary main_v79 main_v93 (Host.tanh : (⟨S128x128, .f32⟩ : BufTy).Contents (Elt F) → (⟨S128x128, .f32⟩ : BufTy).Contents (Elt F))) :: tail114 (F := F)
/-- The suffix that starts at operation 112. -/
def tail112 : List (HloOp τ sig (Elt F)) :=
  (binary main_v91 main_v90 main_v92 (Host.divf : (⟨S128x128, .f32⟩ : BufTy).Contents (Elt F) → (⟨S128x128, .f32⟩ : BufTy).Contents (Elt F) → (⟨S128x128, .f32⟩ : BufTy).Contents (Elt F))) :: tail113 (F := F)
/-- The suffix that starts at operation 111. -/
def tail111 : List (HloOp τ sig (Elt F)) :=
  (unary main_cst_16 main_v91 (broadcastInDim S128x128 ![] bcast_S_S128x128 : (⟨S_, .f32⟩ : BufTy).Contents (Elt F) → (⟨S128x128, .f32⟩ : BufTy).Contents (Elt F))) :: tail112 (F := F)
/-- The suffix that starts at operation 110. -/
def tail110 : List (HloOp τ sig (Elt F)) :=
  (nullary main_cst_16 (constant S_ .f32 0x3F800000#32)) :: tail111 (F := F)
/-- The suffix that starts at operation 109. -/
def tail109 : List (HloOp τ sig (Elt F)) :=
  (binary main_v89 main_v88 main_v90 (addf : (⟨S128x128, .f32⟩ : BufTy).Contents (Elt F) → (⟨S128x128, .f32⟩ : BufTy).Contents (Elt F) → (⟨S128x128, .f32⟩ : BufTy).Contents (Elt F))) :: tail110 (F := F)
/-- The suffix that starts at operation 108. -/
def tail108 : List (HloOp τ sig (Elt F)) :=
  (unary main_cst_15 main_v89 (broadcastInDim S128x128 ![] bcast_S_S128x128 : (⟨S_, .f32⟩ : BufTy).Contents (Elt F) → (⟨S128x128, .f32⟩ : BufTy).Contents (Elt F))) :: tail109 (F := F)
/-- The suffix that starts at operation 107. -/
def tail107 : List (HloOp τ sig (Elt F)) :=
  (nullary main_cst_15 (constant S_ .f32 0x3F800000#32)) :: tail108 (F := F)
/-- The suffix that starts at operation 106. -/
def tail106 : List (HloOp τ sig (Elt F)) :=
  (unary main_v87 main_v88 (Host.exp : (⟨S128x128, .f32⟩ : BufTy).Contents (Elt F) → (⟨S128x128, .f32⟩ : BufTy).Contents (Elt F))) :: tail107 (F := F)
/-- The suffix that starts at operation 105. -/
def tail105 : List (HloOp τ sig (Elt F)) :=
  (unary main_v78 main_v87 (Host.negf : (⟨S128x128, .f32⟩ : BufTy).Contents (Elt F) → (⟨S128x128, .f32⟩ : BufTy).Contents (Elt F))) :: tail106 (F := F)
/-- The suffix that starts at operation 104. -/
def tail104 : List (HloOp τ sig (Elt F)) :=
  (binary main_v85 main_v84 main_v86 (Host.divf : (⟨S128x128, .f32⟩ : BufTy).Contents (Elt F) → (⟨S128x128, .f32⟩ : BufTy).Contents (Elt F) → (⟨S128x128, .f32⟩ : BufTy).Contents (Elt F))) :: tail105 (F := F)
/-- The suffix that starts at operation 103. -/
def tail103 : List (HloOp τ sig (Elt F)) :=
  (unary main_cst_14 main_v85 (broadcastInDim S128x128 ![] bcast_S_S128x128 : (⟨S_, .f32⟩ : BufTy).Contents (Elt F) → (⟨S128x128, .f32⟩ : BufTy).Contents (Elt F))) :: tail104 (F := F)
/-- The suffix that starts at operation 102. -/
def tail102 : List (HloOp τ sig (Elt F)) :=
  (nullary main_cst_14 (constant S_ .f32 0x3F800000#32)) :: tail103 (F := F)
/-- The suffix that starts at operation 101. -/
def tail101 : List (HloOp τ sig (Elt F)) :=
  (binary main_v83 main_v82 main_v84 (addf : (⟨S128x128, .f32⟩ : BufTy).Contents (Elt F) → (⟨S128x128, .f32⟩ : BufTy).Contents (Elt F) → (⟨S128x128, .f32⟩ : BufTy).Contents (Elt F))) :: tail102 (F := F)
/-- The suffix that starts at operation 100. -/
def tail100 : List (HloOp τ sig (Elt F)) :=
  (unary main_cst_13 main_v83 (broadcastInDim S128x128 ![] bcast_S_S128x128 : (⟨S_, .f32⟩ : BufTy).Contents (Elt F) → (⟨S128x128, .f32⟩ : BufTy).Contents (Elt F))) :: tail101 (F := F)
/-- The suffix that starts at operation 99. -/
def tail99 : List (HloOp τ sig (Elt F)) :=
  (nullary main_cst_13 (constant S_ .f32 0x3F800000#32)) :: tail100 (F := F)
/-- The suffix that starts at operation 98. -/
def tail98 : List (HloOp τ sig (Elt F)) :=
  (unary main_v81 main_v82 (Host.exp : (⟨S128x128, .f32⟩ : BufTy).Contents (Elt F) → (⟨S128x128, .f32⟩ : BufTy).Contents (Elt F))) :: tail99 (F := F)
/-- The suffix that starts at operation 97. -/
def tail97 : List (HloOp τ sig (Elt F)) :=
  (unary main_v77 main_v81 (Host.negf : (⟨S128x128, .f32⟩ : BufTy).Contents (Elt F) → (⟨S128x128, .f32⟩ : BufTy).Contents (Elt F))) :: tail98 (F := F)
/-- The suffix that starts at operation 96. -/
def tail96 : List (HloOp τ sig (Elt F)) :=
  (unary main_v76 main_v80 ((extractStridedSlice S128x128 ![0, 384] · slices_S128x512_S128x128_0_384) : (⟨S128x512, .f32⟩ : BufTy).Contents (Elt F) → (⟨S128x128, .f32⟩ : BufTy).Contents (Elt F))) :: tail97 (F := F)
/-- The suffix that starts at operation 95. -/
def tail95 : List (HloOp τ sig (Elt F)) :=
  (unary main_v76 main_v79 ((extractStridedSlice S128x128 ![0, 256] · slices_S128x512_S128x128_0_256) : (⟨S128x512, .f32⟩ : BufTy).Contents (Elt F) → (⟨S128x128, .f32⟩ : BufTy).Contents (Elt F))) :: tail96 (F := F)
/-- The suffix that starts at operation 94. -/
def tail94 : List (HloOp τ sig (Elt F)) :=
  (unary main_v76 main_v78 ((extractStridedSlice S128x128 ![0, 128] · slices_S128x512_S128x128_0_128) : (⟨S128x512, .f32⟩ : BufTy).Contents (Elt F) → (⟨S128x128, .f32⟩ : BufTy).Contents (Elt F))) :: tail95 (F := F)
/-- The suffix that starts at operation 93. -/
def tail93 : List (HloOp τ sig (Elt F)) :=
  (unary main_v76 main_v77 ((extractStridedSlice S128x128 ![0, 0] · slices_S128x512_S128x128_0_0) : (⟨S128x512, .f32⟩ : BufTy).Contents (Elt F) → (⟨S128x128, .f32⟩ : BufTy).Contents (Elt F))) :: tail94 (F := F)
/-- The suffix that starts at operation 92. -/
def tail92 : List (HloOp τ sig (Elt F)) :=
  (binary main_v73 main_v75 main_v76 (addf : (⟨S128x512, .f32⟩ : BufTy).Contents (Elt F) → (⟨S128x512, .f32⟩ : BufTy).Contents (Elt F) → (⟨S128x512, .f32⟩ : BufTy).Contents (Elt F))) :: tail93 (F := F)
/-- The suffix that starts at operation 91. -/
def tail91 : List (HloOp τ sig (Elt F)) :=
  (unary main_v74 main_v75 (broadcastInDim S128x512 ![0, 1] bcast_S1x512_S128x512_0_1 : (⟨S1x512, .f32⟩ : BufTy).Contents (Elt F) → (⟨S128x512, .f32⟩ : BufTy).Contents (Elt F))) :: tail92 (F := F)
/-- The suffix that starts at operation 90. -/
def tail90 : List (HloOp τ sig (Elt F)) :=
  (unary main_arg5 main_v74 (broadcastInDim S1x512 ![1] bcast_S512_S1x512_1 : (⟨S512, .f32⟩ : BufTy).Contents (Elt F) → (⟨S1x512, .f32⟩ : BufTy).Contents (Elt F))) :: tail91 (F := F)
/-- The suffix that starts at operation 89. -/
def tail89 : List (HloOp τ sig (Elt F)) :=
  (binary main_v70 main_v72 main_v73 (addf : (⟨S128x512, .f32⟩ : BufTy).Contents (Elt F) → (⟨S128x512, .f32⟩ : BufTy).Contents (Elt F) → (⟨S128x512, .f32⟩ : BufTy).Contents (Elt F))) :: tail90 (F := F)
/-- The suffix that starts at operation 88. -/
def tail88 : List (HloOp τ sig (Elt F)) :=
  (binary main_v42 main_v71 main_v72 ((fun l r => Host.dotGeneral dot_S128x128_S128x512_S128x512_1_0_0_1_n_n none l r) : (⟨S128x128, .f32⟩ : BufTy).Contents (Elt F) → (⟨S128x512, .f32⟩ : BufTy).Contents (Elt F) → (⟨S128x512, .f32⟩ : BufTy).Contents (Elt F))) :: tail89 (F := F)
/-- The suffix that starts at operation 87. -/
def tail87 : List (HloOp τ sig (Elt F)) :=
  (unary main_arg3 main_v71 ((transpose S128x512 [1, 0] · transposes_S512x128_S128x512_1_0) : (⟨S512x128, .f32⟩ : BufTy).Contents (Elt F) → (⟨S128x512, .f32⟩ : BufTy).Contents (Elt F))) :: tail88 (F := F)
/-- The suffix that starts at operation 86. -/
def tail86 : List (HloOp τ sig (Elt F)) :=
  (binary main_v67 main_v69 main_v70 (addf : (⟨S128x512, .f32⟩ : BufTy).Contents (Elt F) → (⟨S128x512, .f32⟩ : BufTy).Contents (Elt F) → (⟨S128x512, .f32⟩ : BufTy).Contents (Elt F))) :: tail87 (F := F)
/-- The suffix that starts at operation 85. -/
def tail85 : List (HloOp τ sig (Elt F)) :=
  (unary main_v68 main_v69 (broadcastInDim S128x512 ![0, 1] bcast_S1x512_S128x512_0_1 : (⟨S1x512, .f32⟩ : BufTy).Contents (Elt F) → (⟨S128x512, .f32⟩ : BufTy).Contents (Elt F))) :: tail86 (F := F)
/-- The suffix that starts at operation 84. -/
def tail84 : List (HloOp τ sig (Elt F)) :=
  (unary main_arg4 main_v68 (broadcastInDim S1x512 ![1] bcast_S512_S1x512_1 : (⟨S512, .f32⟩ : BufTy).Contents (Elt F) → (⟨S1x512, .f32⟩ : BufTy).Contents (Elt F))) :: tail85 (F := F)
/-- The suffix that starts at operation 83. -/
def tail83 : List (HloOp τ sig (Elt F)) :=
  (binary main_v65 main_v66 main_v67 ((fun l r => Host.dotGeneral dot_S128x256_S256x512_S128x512_1_0_0_1_n_n none l r) : (⟨S128x256, .f32⟩ : BufTy).Contents (Elt F) → (⟨S256x512, .f32⟩ : BufTy).Contents (Elt F) → (⟨S128x512, .f32⟩ : BufTy).Contents (Elt F))) :: tail84 (F := F)
/-- The suffix that starts at operation 82. -/
def tail82 : List (HloOp τ sig (Elt F)) :=
  (unary main_arg2 main_v66 ((transpose S256x512 [1, 0] · transposes_S512x256_S256x512_1_0) : (⟨S512x256, .f32⟩ : BufTy).Contents (Elt F) → (⟨S256x512, .f32⟩ : BufTy).Contents (Elt F))) :: tail83 (F := F)
/-- The suffix that starts at operation 81. -/
def tail81 : List (HloOp τ sig (Elt F)) :=
  (binary main_v42 main_v64 main_v65 ((fun a b => concatenate S128x256 1 [⟨S128x128, a⟩, ⟨S128x128, b⟩] concatenates_S128x128_S128x128_S128x256_d1) : (⟨S128x128, .f32⟩ : BufTy).Contents (Elt F) → (⟨S128x128, .f32⟩ : BufTy).Contents (Elt F) → (⟨S128x256, .f32⟩ : BufTy).Contents (Elt F))) :: tail82 (F := F)
/-- The suffix that starts at operation 80. -/
def tail80 : List (HloOp τ sig (Elt F)) :=
  (binary main_v63 main_cst_12 main_v64 ((fun x v => Host.reduceAdd x v reducesTo_S128x1024x128_S128x128_d1 h_S_) : (⟨S128x1024x128, .f32⟩ : BufTy).Contents (Elt F) → (⟨S_, .f32⟩ : BufTy).Contents (Elt F) → (⟨S128x128, .f32⟩ : BufTy).Contents (Elt F))) :: tail81 (F := F)
/-- The suffix that starts at operation 79. -/
def tail79 : List (HloOp τ sig (Elt F)) :=
  (nullary main_cst_12 (constant S_ .f32 0x00000000#32)) :: tail80 (F := F)
/-- The suffix that starts at operation 78. -/
def tail78 : List (HloOp τ sig (Elt F)) :=
  (binary main_v60 main_v62 main_v63 (mulf : (⟨S128x1024x128, .f32⟩ : BufTy).Contents (Elt F) → (⟨S128x1024x128, .f32⟩ : BufTy).Contents (Elt F) → (⟨S128x1024x128, .f32⟩ : BufTy).Contents (Elt F))) :: tail79 (F := F)
/-- The suffix that starts at operation 77. -/
def tail77 : List (HloOp τ sig (Elt F)) :=
  (unary main_v61 main_v62 (broadcastInDim S128x1024x128 ![0, 1, 2] bcast_S128x1024x1_S128x1024x128_0_1_2 : (⟨S128x1024x1, .f32⟩ : BufTy).Contents (Elt F) → (⟨S128x1024x128, .f32⟩ : BufTy).Contents (Elt F))) :: tail78 (F := F)
/-- The suffix that starts at operation 76. -/
def tail76 : List (HloOp τ sig (Elt F)) :=
  (unary main_v0 main_v61 (broadcastInDim S128x1024x1 ![0, 1] bcast_S128x1024_S128x1024x1_0_1 : (⟨S128x1024, .f32⟩ : BufTy).Contents (Elt F) → (⟨S128x1024x1, .f32⟩ : BufTy).Contents (Elt F))) :: tail77 (F := F)
/-- The suffix that starts at operation 75. -/
def tail75 : List (HloOp τ sig (Elt F)) :=
  (binary main_v59 main_arg0 main_v60 (mulf : (⟨S128x1024x128, .f32⟩ : BufTy).Contents (Elt F) → (⟨S128x1024x128, .f32⟩ : BufTy).Contents (Elt F) → (⟨S128x1024x128, .f32⟩ : BufTy).Contents (Elt F))) :: tail76 (F := F)
/-- The suffix that starts at operation 74. -/
def tail74 : List (HloOp τ sig (Elt F)) :=
  (unary main_v58 main_v59 (broadcastInDim S128x1024x128 ![0, 1, 2] bcast_S128x1024x1_S128x1024x128_0_1_2 : (⟨S128x1024x1, .f32⟩ : BufTy).Contents (Elt F) → (⟨S128x1024x128, .f32⟩ : BufTy).Contents (Elt F))) :: tail75 (F := F)
/-- The suffix that starts at operation 73. -/
def tail73 : List (HloOp τ sig (Elt F)) :=
  (unary main_v57 main_v58 (broadcastInDim S128x1024x1 ![0, 1] bcast_S128x1024_S128x1024x1_0_1 : (⟨S128x1024, .f32⟩ : BufTy).Contents (Elt F) → (⟨S128x1024x1, .f32⟩ : BufTy).Contents (Elt F))) :: tail74 (F := F)
/-- The suffix that starts at operation 72. -/
def tail72 : List (HloOp τ sig (Elt F)) :=
  (binary main_v53 main_v56 main_v57 (Host.divf : (⟨S128x1024, .f32⟩ : BufTy).Contents (Elt F) → (⟨S128x1024, .f32⟩ : BufTy).Contents (Elt F) → (⟨S128x1024, .f32⟩ : BufTy).Contents (Elt F))) :: tail73 (F := F)
/-- The suffix that starts at operation 71. -/
def tail71 : List (HloOp τ sig (Elt F)) :=
  (unary main_v55 main_v56 (broadcastInDim S128x1024 ![0, 1] bcast_S128x1_S128x1024_0_1 : (⟨S128x1, .f32⟩ : BufTy).Contents (Elt F) → (⟨S128x1024, .f32⟩ : BufTy).Contents (Elt F))) :: tail72 (F := F)
/-- The suffix that starts at operation 70. -/
def tail70 : List (HloOp τ sig (Elt F)) :=
  (unary main_v54 main_v55 (broadcastInDim S128x1 ![0] bcast_S128_S128x1_0 : (⟨S128, .f32⟩ : BufTy).Contents (Elt F) → (⟨S128x1, .f32⟩ : BufTy).Contents (Elt F))) :: tail71 (F := F)
/-- The suffix that starts at operation 69. -/
def tail69 : List (HloOp τ sig (Elt F)) :=
  (binary main_v53 main_cst_11 main_v54 ((fun x v => Host.reduceAdd x v reducesTo_S128x1024_S128_d1 h_S_) : (⟨S128x1024, .f32⟩ : BufTy).Contents (Elt F) → (⟨S_, .f32⟩ : BufTy).Contents (Elt F) → (⟨S128, .f32⟩ : BufTy).Contents (Elt F))) :: tail70 (F := F)
/-- The suffix that starts at operation 68. -/
def tail68 : List (HloOp τ sig (Elt F)) :=
  (nullary main_cst_11 (constant S_ .f32 0x00000000#32)) :: tail69 (F := F)
/-- The suffix that starts at operation 67. -/
def tail67 : List (HloOp τ sig (Elt F)) :=
  (binary main_v52 main_v0 main_v53 (mulf : (⟨S128x1024, .f32⟩ : BufTy).Contents (Elt F) → (⟨S128x1024, .f32⟩ : BufTy).Contents (Elt F) → (⟨S128x1024, .f32⟩ : BufTy).Contents (Elt F))) :: tail68 (F := F)
/-- The suffix that starts at operation 66. -/
def tail66 : List (HloOp τ sig (Elt F)) :=
  (unary main_v51 main_v52 (Host.exp : (⟨S128x1024, .f32⟩ : BufTy).Contents (Elt F) → (⟨S128x1024, .f32⟩ : BufTy).Contents (Elt F))) :: tail67 (F := F)
/-- The suffix that starts at operation 65. -/
def tail65 : List (HloOp τ sig (Elt F)) :=
  (binary main_v47 main_v50 main_v51 (subf : (⟨S128x1024, .f32⟩ : BufTy).Contents (Elt F) → (⟨S128x1024, .f32⟩ : BufTy).Contents (Elt F) → (⟨S128x1024, .f32⟩ : BufTy).Contents (Elt F))) :: tail66 (F := F)
/-- The suffix that starts at operation 64. -/
def tail64 : List (HloOp τ sig (Elt F)) :=
  (unary main_v49 main_v50 (broadcastInDim S128x1024 ![0, 1] bcast_S128x1_S128x1024_0_1 : (⟨S128x1, .f32⟩ : BufTy).Contents (Elt F) → (⟨S128x1024, .f32⟩ : BufTy).Contents (Elt F))) :: tail65 (F := F)
/-- The suffix that starts at operation 63. -/
def tail63 : List (HloOp τ sig (Elt F)) :=
  (unary main_v48 main_v49 (broadcastInDim S128x1 ![0] bcast_S128_S128x1_0 : (⟨S128, .f32⟩ : BufTy).Contents (Elt F) → (⟨S128x1, .f32⟩ : BufTy).Contents (Elt F))) :: tail64 (F := F)
/-- The suffix that starts at operation 62. -/
def tail62 : List (HloOp τ sig (Elt F)) :=
  (binary main_v47 main_cst_10 main_v48 ((fun x v => Host.reduce FloatOps.maximumf x v reducesTo_S128x1024_S128_d1 h_S_) : (⟨S128x1024, .f32⟩ : BufTy).Contents (Elt F) → (⟨S_, .f32⟩ : BufTy).Contents (Elt F) → (⟨S128, .f32⟩ : BufTy).Contents (Elt F))) :: tail63 (F := F)
/-- The suffix that starts at operation 61. -/
def tail61 : List (HloOp τ sig (Elt F)) :=
  (nullary main_cst_10 (constant S_ .f32 0xFF800000#32)) :: tail62 (F := F)
/-- The suffix that starts at operation 60. -/
def tail60 : List (HloOp τ sig (Elt F)) :=
  (TRef.ternary (TRef.of (T := ⟨S128x1024, .i1⟩) main_arg1) (TRef.of (T := ⟨S128x1024, .f32⟩) main_v46) (TRef.of (T := ⟨S128x1024, .f32⟩) main_call0_v1) (TRef.of (T := ⟨S128x1024, .f32⟩) main_v47) select) :: tail61 (F := F)
/-- The suffix that starts at operation 59. -/
def tail59 : List (HloOp τ sig (Elt F)) :=
  (TRef.unary (TRef.of (T := ⟨S_, .f32⟩) main_call0_v0) (TRef.of (T := ⟨S128x1024, .f32⟩) main_call0_v1) (broadcastInDim S128x1024 ![] bcast_S_S128x1024)) :: tail60 (F := F)
/-- The suffix that starts at operation 58. -/
def tail58 : List (HloOp τ sig (Elt F)) :=
  (TRef.unary (TRef.of (T := ⟨S_, .f32⟩) main_cst_9) (TRef.of (T := ⟨S_, .f32⟩) main_call0_v0) id) :: tail59 (F := F)
/-- The suffix that starts at operation 57. -/
def tail57 : List (HloOp τ sig (Elt F)) :=
  (nullary main_cst_9 (constant S_ .f32 0xFF800000#32)) :: tail58 (F := F)
/-- The suffix that starts at operation 56. -/
def tail56 : List (HloOp τ sig (Elt F)) :=
  (binary main_v45 main_cst_8 main_v46 ((fun x v => Host.reduceAdd x v reducesTo_S128x1024x128_S128x1024_d2 h_S_) : (⟨S128x1024x128, .f32⟩ : BufTy).Contents (Elt F) → (⟨S_, .f32⟩ : BufTy).Contents (Elt F) → (⟨S128x1024, .f32⟩ : BufTy).Contents (Elt F))) :: tail57 (F := F)
/-- The suffix that starts at operation 55. -/
def tail55 : List (HloOp τ sig (Elt F)) :=
  (nullary main_cst_8 (constant S_ .f32 0x00000000#32)) :: tail56 (F := F)
/-- The suffix that starts at operation 54. -/
def tail54 : List (HloOp τ sig (Elt F)) :=
  (binary main_arg0 main_v44 main_v45 (mulf : (⟨S128x1024x128, .f32⟩ : BufTy).Contents (Elt F) → (⟨S128x1024x128, .f32⟩ : BufTy).Contents (Elt F) → (⟨S128x1024x128, .f32⟩ : BufTy).Contents (Elt F))) :: tail55 (F := F)
/-- The suffix that starts at operation 53. -/
def tail53 : List (HloOp τ sig (Elt F)) :=
  (unary main_v43 main_v44 (broadcastInDim S128x1024x128 ![0, 1, 2] bcast_S128x1x128_S128x1024x128_0_1_2 : (⟨S128x1x128, .f32⟩ : BufTy).Contents (Elt F) → (⟨S128x1024x128, .f32⟩ : BufTy).Contents (Elt F))) :: tail54 (F := F)
/-- The suffix that starts at operation 52. -/
def tail52 : List (HloOp τ sig (Elt F)) :=
  (unary main_v42 main_v43 (broadcastInDim S128x1x128 ![0, 2] bcast_S128x128_S128x1x128_0_2 : (⟨S128x128, .f32⟩ : BufTy).Contents (Elt F) → (⟨S128x1x128, .f32⟩ : BufTy).Contents (Elt F))) :: tail53 (F := F)
/-- The suffix that starts at operation 51. -/
def tail51 : List (HloOp τ sig (Elt F)) :=
  (binary main_v37 main_v41 main_v42 (mulf : (⟨S128x128, .f32⟩ : BufTy).Contents (Elt F) → (⟨S128x128, .f32⟩ : BufTy).Contents (Elt F) → (⟨S128x128, .f32⟩ : BufTy).Contents (Elt F))) :: tail52 (F := F)
/-- The suffix that starts at operation 50. -/
def tail50 : List (HloOp τ sig (Elt F)) :=
  (unary main_v40 main_v41 (Host.tanh : (⟨S128x128, .f32⟩ : BufTy).Contents (Elt F) → (⟨S128x128, .f32⟩ : BufTy).Contents (Elt F))) :: tail51 (F := F)
/-- The suffix that starts at operation 49. -/
def tail49 : List (HloOp τ sig (Elt F)) :=
  (binary main_v38 main_v39 main_v40 (addf : (⟨S128x128, .f32⟩ : BufTy).Contents (Elt F) → (⟨S128x128, .f32⟩ : BufTy).Contents (Elt F) → (⟨S128x128, .f32⟩ : BufTy).Contents (Elt F))) :: tail50 (F := F)
/-- The suffix that starts at operation 48. -/
def tail48 : List (HloOp τ sig (Elt F)) :=
  (binary main_v24 main_v31 main_v39 (mulf : (⟨S128x128, .f32⟩ : BufTy).Contents (Elt F) → (⟨S128x128, .f32⟩ : BufTy).Contents (Elt F) → (⟨S128x128, .f32⟩ : BufTy).Contents (Elt F))) :: tail49 (F := F)
/-- The suffix that starts at operation 47. -/
def tail47 : List (HloOp τ sig (Elt F)) :=
  (binary main_v30 main_v3 main_v38 (mulf : (⟨S128x128, .f32⟩ : BufTy).Contents (Elt F) → (⟨S128x128, .f32⟩ : BufTy).Contents (Elt F) → (⟨S128x128, .f32⟩ : BufTy).Contents (Elt F))) :: tail48 (F := F)
/-- The suffix that starts at operation 46. -/
def tail46 : List (HloOp τ sig (Elt F)) :=
  (binary main_v36 main_v35 main_v37 (Host.divf : (⟨S128x128, .f32⟩ : BufTy).Contents (Elt F) → (⟨S128x128, .f32⟩ : BufTy).Contents (Elt F) → (⟨S128x128, .f32⟩ : BufTy).Contents (Elt F))) :: tail47 (F := F)
/-- The suffix that starts at operation 45. -/
def tail45 : List (HloOp τ sig (Elt F)) :=
  (unary main_cst_7 main_v36 (broadcastInDim S128x128 ![] bcast_S_S128x128 : (⟨S_, .f32⟩ : BufTy).Contents (Elt F) → (⟨S128x128, .f32⟩ : BufTy).Contents (Elt F))) :: tail46 (F := F)
/-- The suffix that starts at operation 44. -/
def tail44 : List (HloOp τ sig (Elt F)) :=
  (nullary main_cst_7 (constant S_ .f32 0x3F800000#32)) :: tail45 (F := F)
/-- The suffix that starts at operation 43. -/
def tail43 : List (HloOp τ sig (Elt F)) :=
  (binary main_v34 main_v33 main_v35 (addf : (⟨S128x128, .f32⟩ : BufTy).Contents (Elt F) → (⟨S128x128, .f32⟩ : BufTy).Contents (Elt F) → (⟨S128x128, .f32⟩ : BufTy).Contents (Elt F))) :: tail44 (F := F)
/-- The suffix that starts at operation 42. -/
def tail42 : List (HloOp τ sig (Elt F)) :=
  (unary main_cst_6 main_v34 (broadcastInDim S128x128 ![] bcast_S_S128x128 : (⟨S_, .f32⟩ : BufTy).Contents (Elt F) → (⟨S128x128, .f32⟩ : BufTy).Contents (Elt F))) :: tail43 (F := F)
/-- The suffix that starts at operation 41. -/
def tail41 : List (HloOp τ sig (Elt F)) :=
  (nullary main_cst_6 (constant S_ .f32 0x3F800000#32)) :: tail42 (F := F)
/-- The suffix that starts at operation 40. -/
def tail40 : List (HloOp τ sig (Elt F)) :=
  (unary main_v32 main_v33 (Host.exp : (⟨S128x128, .f32⟩ : BufTy).Contents (Elt F) → (⟨S128x128, .f32⟩ : BufTy).Contents (Elt F))) :: tail41 (F := F)
/-- The suffix that starts at operation 39. -/
def tail39 : List (HloOp τ sig (Elt F)) :=
  (unary main_v18 main_v32 (Host.negf : (⟨S128x128, .f32⟩ : BufTy).Contents (Elt F) → (⟨S128x128, .f32⟩ : BufTy).Contents (Elt F))) :: tail40 (F := F)
/-- The suffix that starts at operation 38. -/
def tail38 : List (HloOp τ sig (Elt F)) :=
  (unary main_v17 main_v31 (Host.tanh : (⟨S128x128, .f32⟩ : BufTy).Contents (Elt F) → (⟨S128x128, .f32⟩ : BufTy).Contents (Elt F))) :: tail39 (F := F)
/-- The suffix that starts at operation 37. -/
def tail37 : List (HloOp τ sig (Elt F)) :=
  (binary main_v29 main_v28 main_v30 (Host.divf : (⟨S128x128, .f32⟩ : BufTy).Contents (Elt F) → (⟨S128x128, .f32⟩ : BufTy).Contents (Elt F) → (⟨S128x128, .f32⟩ : BufTy).Contents (Elt F))) :: tail38 (F := F)
/-- The suffix that starts at operation 36. -/
def tail36 : List (HloOp τ sig (Elt F)) :=
  (unary main_cst_5 main_v29 (broadcastInDim S128x128 ![] bcast_S_S128x128 : (⟨S_, .f32⟩ : BufTy).Contents (Elt F) → (⟨S128x128, .f32⟩ : BufTy).Contents (Elt F))) :: tail37 (F := F)
/-- The suffix that starts at operation 35. -/
def tail35 : List (HloOp τ sig (Elt F)) :=
  (nullary main_cst_5 (constant S_ .f32 0x3F800000#32)) :: tail36 (F := F)
/-- The suffix that starts at operation 34. -/
def tail34 : List (HloOp τ sig (Elt F)) :=
  (binary main_v27 main_v26 main_v28 (addf : (⟨S128x128, .f32⟩ : BufTy).Contents (Elt F) → (⟨S128x128, .f32⟩ : BufTy).Contents (Elt F) → (⟨S128x128, .f32⟩ : BufTy).Contents (Elt F))) :: tail35 (F := F)
/-- The suffix that starts at operation 33. -/
def tail33 : List (HloOp τ sig (Elt F)) :=
  (unary main_cst_4 main_v27 (broadcastInDim S128x128 ![] bcast_S_S128x128 : (⟨S_, .f32⟩ : BufTy).Contents (Elt F) → (⟨S128x128, .f32⟩ : BufTy).Contents (Elt F))) :: tail34 (F := F)
/-- The suffix that starts at operation 32. -/
def tail32 : List (HloOp τ sig (Elt F)) :=
  (nullary main_cst_4 (constant S_ .f32 0x3F800000#32)) :: tail33 (F := F)
/-- The suffix that starts at operation 31. -/
def tail31 : List (HloOp τ sig (Elt F)) :=
  (unary main_v25 main_v26 (Host.exp : (⟨S128x128, .f32⟩ : BufTy).Contents (Elt F) → (⟨S128x128, .f32⟩ : BufTy).Contents (Elt F))) :: tail32 (F := F)
/-- The suffix that starts at operation 30. -/
def tail30 : List (HloOp τ sig (Elt F)) :=
  (unary main_v16 main_v25 (Host.negf : (⟨S128x128, .f32⟩ : BufTy).Contents (Elt F) → (⟨S128x128, .f32⟩ : BufTy).Contents (Elt F))) :: tail31 (F := F)
/-- The suffix that starts at operation 29. -/
def tail29 : List (HloOp τ sig (Elt F)) :=
  (binary main_v23 main_v22 main_v24 (Host.divf : (⟨S128x128, .f32⟩ : BufTy).Contents (Elt F) → (⟨S128x128, .f32⟩ : BufTy).Contents (Elt F) → (⟨S128x128, .f32⟩ : BufTy).Contents (Elt F))) :: tail30 (F := F)
/-- The suffix that starts at operation 28. -/
def tail28 : List (HloOp τ sig (Elt F)) :=
  (unary main_cst_3 main_v23 (broadcastInDim S128x128 ![] bcast_S_S128x128 : (⟨S_, .f32⟩ : BufTy).Contents (Elt F) → (⟨S128x128, .f32⟩ : BufTy).Contents (Elt F))) :: tail29 (F := F)
/-- The suffix that starts at operation 27. -/
def tail27 : List (HloOp τ sig (Elt F)) :=
  (nullary main_cst_3 (constant S_ .f32 0x3F800000#32)) :: tail28 (F := F)
/-- The suffix that starts at operation 26. -/
def tail26 : List (HloOp τ sig (Elt F)) :=
  (binary main_v21 main_v20 main_v22 (addf : (⟨S128x128, .f32⟩ : BufTy).Contents (Elt F) → (⟨S128x128, .f32⟩ : BufTy).Contents (Elt F) → (⟨S128x128, .f32⟩ : BufTy).Contents (Elt F))) :: tail27 (F := F)
/-- The suffix that starts at operation 25. -/
def tail25 : List (HloOp τ sig (Elt F)) :=
  (unary main_cst_2 main_v21 (broadcastInDim S128x128 ![] bcast_S_S128x128 : (⟨S_, .f32⟩ : BufTy).Contents (Elt F) → (⟨S128x128, .f32⟩ : BufTy).Contents (Elt F))) :: tail26 (F := F)
/-- The suffix that starts at operation 24. -/
def tail24 : List (HloOp τ sig (Elt F)) :=
  (nullary main_cst_2 (constant S_ .f32 0x3F800000#32)) :: tail25 (F := F)
/-- The suffix that starts at operation 23. -/
def tail23 : List (HloOp τ sig (Elt F)) :=
  (unary main_v19 main_v20 (Host.exp : (⟨S128x128, .f32⟩ : BufTy).Contents (Elt F) → (⟨S128x128, .f32⟩ : BufTy).Contents (Elt F))) :: tail24 (F := F)
/-- The suffix that starts at operation 22. -/
def tail22 : List (HloOp τ sig (Elt F)) :=
  (unary main_v15 main_v19 (Host.negf : (⟨S128x128, .f32⟩ : BufTy).Contents (Elt F) → (⟨S128x128, .f32⟩ : BufTy).Contents (Elt F))) :: tail23 (F := F)
/-- The suffix that starts at operation 21. -/
def tail21 : List (HloOp τ sig (Elt F)) :=
  (unary main_v14 main_v18 ((extractStridedSlice S128x128 ![0, 384] · slices_S128x512_S128x128_0_384) : (⟨S128x512, .f32⟩ : BufTy).Contents (Elt F) → (⟨S128x128, .f32⟩ : BufTy).Contents (Elt F))) :: tail22 (F := F)
/-- The suffix that starts at operation 20. -/
def tail20 : List (HloOp τ sig (Elt F)) :=
  (unary main_v14 main_v17 ((extractStridedSlice S128x128 ![0, 256] · slices_S128x512_S128x128_0_256) : (⟨S128x512, .f32⟩ : BufTy).Contents (Elt F) → (⟨S128x128, .f32⟩ : BufTy).Contents (Elt F))) :: tail21 (F := F)
/-- The suffix that starts at operation 19. -/
def tail19 : List (HloOp τ sig (Elt F)) :=
  (unary main_v14 main_v16 ((extractStridedSlice S128x128 ![0, 128] · slices_S128x512_S128x128_0_128) : (⟨S128x512, .f32⟩ : BufTy).Contents (Elt F) → (⟨S128x128, .f32⟩ : BufTy).Contents (Elt F))) :: tail20 (F := F)
/-- The suffix that starts at operation 18. -/
def tail18 : List (HloOp τ sig (Elt F)) :=
  (unary main_v14 main_v15 ((extractStridedSlice S128x128 ![0, 0] · slices_S128x512_S128x128_0_0) : (⟨S128x512, .f32⟩ : BufTy).Contents (Elt F) → (⟨S128x128, .f32⟩ : BufTy).Contents (Elt F))) :: tail19 (F := F)
/-- The suffix that starts at operation 17. -/
def tail17 : List (HloOp τ sig (Elt F)) :=
  (binary main_v11 main_v13 main_v14 (addf : (⟨S128x512, .f32⟩ : BufTy).Contents (Elt F) → (⟨S128x512, .f32⟩ : BufTy).Contents (Elt F) → (⟨S128x512, .f32⟩ : BufTy).Contents (Elt F))) :: tail18 (F := F)
/-- The suffix that starts at operation 16. -/
def tail16 : List (HloOp τ sig (Elt F)) :=
  (unary main_v12 main_v13 (broadcastInDim S128x512 ![0, 1] bcast_S1x512_S128x512_0_1 : (⟨S1x512, .f32⟩ : BufTy).Contents (Elt F) → (⟨S128x512, .f32⟩ : BufTy).Contents (Elt F))) :: tail17 (F := F)
/-- The suffix that starts at operation 15. -/
def tail15 : List (HloOp τ sig (Elt F)) :=
  (unary main_arg5 main_v12 (broadcastInDim S1x512 ![1] bcast_S512_S1x512_1 : (⟨S512, .f32⟩ : BufTy).Contents (Elt F) → (⟨S1x512, .f32⟩ : BufTy).Contents (Elt F))) :: tail16 (F := F)
/-- The suffix that starts at operation 14. -/
def tail14 : List (HloOp τ sig (Elt F)) :=
  (binary main_v8 main_v10 main_v11 (addf : (⟨S128x512, .f32⟩ : BufTy).Contents (Elt F) → (⟨S128x512, .f32⟩ : BufTy).Contents (Elt F) → (⟨S128x512, .f32⟩ : BufTy).Contents (Elt F))) :: tail15 (F := F)
/-- The suffix that starts at operation 13. -/
def tail13 : List (HloOp τ sig (Elt F)) :=
  (binary main_v2 main_v9 main_v10 ((fun l r => Host.dotGeneral dot_S128x128_S128x512_S128x512_1_0_0_1_n_n none l r) : (⟨S128x128, .f32⟩ : BufTy).Contents (Elt F) → (⟨S128x512, .f32⟩ : BufTy).Contents (Elt F) → (⟨S128x512, .f32⟩ : BufTy).Contents (Elt F))) :: tail14 (F := F)
/-- The suffix that starts at operation 12. -/
def tail12 : List (HloOp τ sig (Elt F)) :=
  (unary main_arg3 main_v9 ((transpose S128x512 [1, 0] · transposes_S512x128_S128x512_1_0) : (⟨S512x128, .f32⟩ : BufTy).Contents (Elt F) → (⟨S128x512, .f32⟩ : BufTy).Contents (Elt F))) :: tail13 (F := F)
/-- The suffix that starts at operation 11. -/
def tail11 : List (HloOp τ sig (Elt F)) :=
  (binary main_v5 main_v7 main_v8 (addf : (⟨S128x512, .f32⟩ : BufTy).Contents (Elt F) → (⟨S128x512, .f32⟩ : BufTy).Contents (Elt F) → (⟨S128x512, .f32⟩ : BufTy).Contents (Elt F))) :: tail12 (F := F)
/-- The suffix that starts at operation 10. -/
def tail10 : List (HloOp τ sig (Elt F)) :=
  (unary main_v6 main_v7 (broadcastInDim S128x512 ![0, 1] bcast_S1x512_S128x512_0_1 : (⟨S1x512, .f32⟩ : BufTy).Contents (Elt F) → (⟨S128x512, .f32⟩ : BufTy).Contents (Elt F))) :: tail11 (F := F)
/-- The suffix that starts at operation 9. -/
def tail9 : List (HloOp τ sig (Elt F)) :=
  (unary main_arg4 main_v6 (broadcastInDim S1x512 ![1] bcast_S512_S1x512_1 : (⟨S512, .f32⟩ : BufTy).Contents (Elt F) → (⟨S1x512, .f32⟩ : BufTy).Contents (Elt F))) :: tail10 (F := F)
/-- The suffix that starts at operation 8. -/
def tail8 : List (HloOp τ sig (Elt F)) :=
  (binary main_v1 main_v4 main_v5 ((fun l r => Host.dotGeneral dot_S128x256_S256x512_S128x512_1_0_0_1_n_n none l r) : (⟨S128x256, .f32⟩ : BufTy).Contents (Elt F) → (⟨S256x512, .f32⟩ : BufTy).Contents (Elt F) → (⟨S128x512, .f32⟩ : BufTy).Contents (Elt F))) :: tail9 (F := F)
/-- The suffix that starts at operation 7. -/
def tail7 : List (HloOp τ sig (Elt F)) :=
  (unary main_arg2 main_v4 ((transpose S256x512 [1, 0] · transposes_S512x256_S256x512_1_0) : (⟨S512x256, .f32⟩ : BufTy).Contents (Elt F) → (⟨S256x512, .f32⟩ : BufTy).Contents (Elt F))) :: tail8 (F := F)
/-- The suffix that starts at operation 6. -/
def tail6 : List (HloOp τ sig (Elt F)) :=
  (unary main_cst_1 main_v3 (broadcastInDim S128x128 ![] bcast_S_S128x128 : (⟨S_, .f32⟩ : BufTy).Contents (Elt F) → (⟨S128x128, .f32⟩ : BufTy).Contents (Elt F))) :: tail7 (F := F)
/-- The suffix that starts at operation 5. -/
def tail5 : List (HloOp τ sig (Elt F)) :=
  (nullary main_cst_1 (constant S_ .f32 0x00000000#32)) :: tail6 (F := F)
/-- The suffix that starts at operation 4. -/
def tail4 : List (HloOp τ sig (Elt F)) :=
  (unary main_cst_0 main_v2 (broadcastInDim S128x128 ![] bcast_S_S128x128 : (⟨S_, .f32⟩ : BufTy).Contents (Elt F) → (⟨S128x128, .f32⟩ : BufTy).Contents (Elt F))) :: tail5 (F := F)
/-- The suffix that starts at operation 3. -/
def tail3 : List (HloOp τ sig (Elt F)) :=
  (nullary main_cst_0 (constant S_ .f32 0x00000000#32)) :: tail4 (F := F)
/-- The suffix that starts at operation 2. -/
def tail2 : List (HloOp τ sig (Elt F)) :=
  (unary main_cst main_v1 (broadcastInDim S128x256 ![] bcast_S_S128x256 : (⟨S_, .f32⟩ : BufTy).Contents (Elt F) → (⟨S128x256, .f32⟩ : BufTy).Contents (Elt F))) :: tail3 (F := F)
/-- The suffix that starts at operation 1. -/
def tail1 : List (HloOp τ sig (Elt F)) :=
  (nullary main_cst (constant S_ .f32 0x00000000#32)) :: tail2 (F := F)
/-- The suffix that starts at operation 0. -/
def tail0 : List (HloOp τ sig (Elt F)) :=
  (unary main_arg1 main_v0 (uitofp .f32 : (⟨S128x1024, .i1⟩ : BufTy).Contents (Elt F) → (⟨S128x1024, .f32⟩ : BufTy).Contents (Elt F))) :: tail1 (F := F)

/-! ## The result after each suffix -/

theorem spec243 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_v200 : V (Proc.devRef .tc main_v200) = ReadP.val_main_v200 (F := F) x0 x1 x2 x3 x4 x5 x6 x7 x8 x9) :
    after (tail243 (F := F)) V (Proc.devRef .tc main_v200) = ReadP.val_main_v200 (F := F) x0 x1 x2 x3 x4 x5 x6 x7 x8 x9 :=
  h_v200

theorem spec242 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_v197 : V (Proc.devRef .tc main_v197) = ReadP.val_main_v197 (F := F) x0 x1 x2 x3 x4 x5 x6 x7 x9)
    (h_v199 : V (Proc.devRef .tc main_v199) = ReadP.val_main_v199 (F := F) x8) :
    after (tail242 (F := F)) V (Proc.devRef .tc main_v200) = ReadP.val_main_v200 (F := F) x0 x1 x2 x3 x4 x5 x6 x7 x8 x9 := by
  unfold tail242
  rw [after_cons]
  refine spec243 x0 x1 x2 x3 x4 x5 x6 x7 x8 x9 _ ?_
  · rw [binary_result, h_v197, h_v199]; rfl

theorem spec241 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_v197 : V (Proc.devRef .tc main_v197) = ReadP.val_main_v197 (F := F) x0 x1 x2 x3 x4 x5 x6 x7 x9)
    (h_v198 : V (Proc.devRef .tc main_v198) = ReadP.val_main_v198 (F := F) x8) :
    after (tail241 (F := F)) V (Proc.devRef .tc main_v200) = ReadP.val_main_v200 (F := F) x0 x1 x2 x3 x4 x5 x6 x7 x8 x9 := by
  unfold tail241
  rw [after_cons]
  refine spec242 x0 x1 x2 x3 x4 x5 x6 x7 x8 x9 _ ?_ ?_
  · rw [unary_result_ne]; exact h_v197; decide
  · rw [unary_result, h_v198]; rfl

theorem spec240 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg8 : V (Proc.devRef .tc main_arg8) = x8)
    (h_v197 : V (Proc.devRef .tc main_v197) = ReadP.val_main_v197 (F := F) x0 x1 x2 x3 x4 x5 x6 x7 x9) :
    after (tail240 (F := F)) V (Proc.devRef .tc main_v200) = ReadP.val_main_v200 (F := F) x0 x1 x2 x3 x4 x5 x6 x7 x8 x9 := by
  unfold tail240
  rw [after_cons]
  refine spec241 x0 x1 x2 x3 x4 x5 x6 x7 x8 x9 _ ?_ ?_
  · rw [unary_result_ne]; exact h_v197; decide
  · rw [unary_result, h_arg8]; rfl

theorem spec239 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg8 : V (Proc.devRef .tc main_arg8) = x8)
    (h_v194 : V (Proc.devRef .tc main_v194) = ReadP.val_main_v194 (F := F) x0 x1 x2 x3 x4 x5 x6 x7)
    (h_v196 : V (Proc.devRef .tc main_v196) = ReadP.val_main_v196 (F := F) x9) :
    after (tail239 (F := F)) V (Proc.devRef .tc main_v200) = ReadP.val_main_v200 (F := F) x0 x1 x2 x3 x4 x5 x6 x7 x8 x9 := by
  unfold tail239
  rw [after_cons]
  refine spec240 x0 x1 x2 x3 x4 x5 x6 x7 x8 x9 _ ?_ ?_
  · rw [binary_result_ne]; exact h_arg8; decide
  · rw [binary_result, h_v194, h_v196]; rfl

theorem spec238 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg8 : V (Proc.devRef .tc main_arg8) = x8)
    (h_v194 : V (Proc.devRef .tc main_v194) = ReadP.val_main_v194 (F := F) x0 x1 x2 x3 x4 x5 x6 x7)
    (h_v195 : V (Proc.devRef .tc main_v195) = ReadP.val_main_v195 (F := F) x9) :
    after (tail238 (F := F)) V (Proc.devRef .tc main_v200) = ReadP.val_main_v200 (F := F) x0 x1 x2 x3 x4 x5 x6 x7 x8 x9 := by
  unfold tail238
  rw [after_cons]
  refine spec239 x0 x1 x2 x3 x4 x5 x6 x7 x8 x9 _ ?_ ?_ ?_
  · rw [unary_result_ne]; exact h_arg8; decide
  · rw [unary_result_ne]; exact h_v194; decide
  · rw [unary_result, h_v195]; rfl

theorem spec237 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg8 : V (Proc.devRef .tc main_arg8) = x8)
    (h_arg9 : V (Proc.devRef .tc main_arg9) = x9)
    (h_v194 : V (Proc.devRef .tc main_v194) = ReadP.val_main_v194 (F := F) x0 x1 x2 x3 x4 x5 x6 x7) :
    after (tail237 (F := F)) V (Proc.devRef .tc main_v200) = ReadP.val_main_v200 (F := F) x0 x1 x2 x3 x4 x5 x6 x7 x8 x9 := by
  unfold tail237
  rw [after_cons]
  refine spec238 x0 x1 x2 x3 x4 x5 x6 x7 x8 x9 _ ?_ ?_ ?_
  · rw [unary_result_ne]; exact h_arg8; decide
  · rw [unary_result_ne]; exact h_v194; decide
  · rw [unary_result, h_arg9]; rfl

theorem spec236 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg8 : V (Proc.devRef .tc main_arg8) = x8)
    (h_arg9 : V (Proc.devRef .tc main_arg9) = x9)
    (h_v191 : V (Proc.devRef .tc main_v191) = ReadP.val_main_v191 (F := F) x0 x1 x2 x3 x4 x5 x6)
    (h_v193 : V (Proc.devRef .tc main_v193) = ReadP.val_main_v193 (F := F) x7) :
    after (tail236 (F := F)) V (Proc.devRef .tc main_v200) = ReadP.val_main_v200 (F := F) x0 x1 x2 x3 x4 x5 x6 x7 x8 x9 := by
  unfold tail236
  rw [after_cons]
  refine spec237 x0 x1 x2 x3 x4 x5 x6 x7 x8 x9 _ ?_ ?_ ?_
  · rw [binary_result_ne]; exact h_arg8; decide
  · rw [binary_result_ne]; exact h_arg9; decide
  · rw [binary_result, h_v191, h_v193]; rfl

theorem spec235 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg8 : V (Proc.devRef .tc main_arg8) = x8)
    (h_arg9 : V (Proc.devRef .tc main_arg9) = x9)
    (h_v191 : V (Proc.devRef .tc main_v191) = ReadP.val_main_v191 (F := F) x0 x1 x2 x3 x4 x5 x6)
    (h_v192 : V (Proc.devRef .tc main_v192) = ReadP.val_main_v192 (F := F) x7) :
    after (tail235 (F := F)) V (Proc.devRef .tc main_v200) = ReadP.val_main_v200 (F := F) x0 x1 x2 x3 x4 x5 x6 x7 x8 x9 := by
  unfold tail235
  rw [after_cons]
  refine spec236 x0 x1 x2 x3 x4 x5 x6 x7 x8 x9 _ ?_ ?_ ?_ ?_
  · rw [unary_result_ne]; exact h_arg8; decide
  · rw [unary_result_ne]; exact h_arg9; decide
  · rw [unary_result_ne]; exact h_v191; decide
  · rw [unary_result, h_v192]; rfl

theorem spec234 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg7 : V (Proc.devRef .tc main_arg7) = x7)
    (h_arg8 : V (Proc.devRef .tc main_arg8) = x8)
    (h_arg9 : V (Proc.devRef .tc main_arg9) = x9)
    (h_v191 : V (Proc.devRef .tc main_v191) = ReadP.val_main_v191 (F := F) x0 x1 x2 x3 x4 x5 x6) :
    after (tail234 (F := F)) V (Proc.devRef .tc main_v200) = ReadP.val_main_v200 (F := F) x0 x1 x2 x3 x4 x5 x6 x7 x8 x9 := by
  unfold tail234
  rw [after_cons]
  refine spec235 x0 x1 x2 x3 x4 x5 x6 x7 x8 x9 _ ?_ ?_ ?_ ?_
  · rw [unary_result_ne]; exact h_arg8; decide
  · rw [unary_result_ne]; exact h_arg9; decide
  · rw [unary_result_ne]; exact h_v191; decide
  · rw [unary_result, h_arg7]; rfl

theorem spec233 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg7 : V (Proc.devRef .tc main_arg7) = x7)
    (h_arg8 : V (Proc.devRef .tc main_arg8) = x8)
    (h_arg9 : V (Proc.devRef .tc main_arg9) = x9)
    (h_v189 : V (Proc.devRef .tc main_v189) = ReadP.val_main_v189 (F := F) x0 x1 x2 x3 x4 x5)
    (h_v190 : V (Proc.devRef .tc main_v190) = ReadP.val_main_v190 (F := F) x6) :
    after (tail233 (F := F)) V (Proc.devRef .tc main_v200) = ReadP.val_main_v200 (F := F) x0 x1 x2 x3 x4 x5 x6 x7 x8 x9 := by
  unfold tail233
  rw [after_cons]
  refine spec234 x0 x1 x2 x3 x4 x5 x6 x7 x8 x9 _ ?_ ?_ ?_ ?_
  · rw [binary_result_ne]; exact h_arg7; decide
  · rw [binary_result_ne]; exact h_arg8; decide
  · rw [binary_result_ne]; exact h_arg9; decide
  · rw [binary_result, h_v189, h_v190]; rfl

theorem spec232 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v189 : V (Proc.devRef .tc main_v189) = ReadP.val_main_v189 (F := F) x0 x1 x2 x3 x4 x5) :
    after (tail232 (F := F)) V (Proc.devRef .tc main_v200) = ReadP.val_main_v200 (F := F) x0 x1 x2 x3 x4 x5 x6 x7 x8 x9 := by
  unfold tail232
  rw [after_cons]
  refine spec233 x0 x1 x2 x3 x4 x5 x6 x7 x8 x9 _ ?_ ?_ ?_ ?_ ?_
  · rw [unary_result_ne]; exact h_arg7; decide
  · rw [unary_result_ne]; exact h_arg8; decide
  · rw [unary_result_ne]; exact h_arg9; decide
  · rw [unary_result_ne]; exact h_v189; decide
  · rw [unary_result, h_arg6]; rfl

theorem spec231 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v166 : V (Proc.devRef .tc main_v166) = ReadP.val_main_v166 (F := F) x0 x1 x2 x3 x4 x5)
    (h_v188 : V (Proc.devRef .tc main_v188) = ReadP.val_main_v188 (F := F) x0 x1 x2 x3 x4 x5) :
    after (tail231 (F := F)) V (Proc.devRef .tc main_v200) = ReadP.val_main_v200 (F := F) x0 x1 x2 x3 x4 x5 x6 x7 x8 x9 := by
  unfold tail231
  rw [after_cons]
  refine spec232 x0 x1 x2 x3 x4 x5 x6 x7 x8 x9 _ ?_ ?_ ?_ ?_ ?_
  · rw [binary_result_ne]; exact h_arg6; decide
  · rw [binary_result_ne]; exact h_arg7; decide
  · rw [binary_result_ne]; exact h_arg8; decide
  · rw [binary_result_ne]; exact h_arg9; decide
  · rw [binary_result, h_v166, h_v188]; rfl

theorem spec230 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_34 : V (Proc.devRef .tc main_cst_34) = ReadP.val_main_cst_34 (F := F))
    (h_v166 : V (Proc.devRef .tc main_v166) = ReadP.val_main_v166 (F := F) x0 x1 x2 x3 x4 x5)
    (h_v187 : V (Proc.devRef .tc main_v187) = ReadP.val_main_v187 (F := F) x0 x1 x2 x3 x4 x5) :
    after (tail230 (F := F)) V (Proc.devRef .tc main_v200) = ReadP.val_main_v200 (F := F) x0 x1 x2 x3 x4 x5 x6 x7 x8 x9 := by
  unfold tail230
  rw [after_cons]
  refine spec231 x0 x1 x2 x3 x4 x5 x6 x7 x8 x9 _ ?_ ?_ ?_ ?_ ?_ ?_
  · rw [binary_result_ne]; exact h_arg6; decide
  · rw [binary_result_ne]; exact h_arg7; decide
  · rw [binary_result_ne]; exact h_arg8; decide
  · rw [binary_result_ne]; exact h_arg9; decide
  · rw [binary_result_ne]; exact h_v166; decide
  · rw [binary_result, h_v187, h_cst_34]; rfl

theorem spec229 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v166 : V (Proc.devRef .tc main_v166) = ReadP.val_main_v166 (F := F) x0 x1 x2 x3 x4 x5)
    (h_v187 : V (Proc.devRef .tc main_v187) = ReadP.val_main_v187 (F := F) x0 x1 x2 x3 x4 x5) :
    after (tail229 (F := F)) V (Proc.devRef .tc main_v200) = ReadP.val_main_v200 (F := F) x0 x1 x2 x3 x4 x5 x6 x7 x8 x9 := by
  unfold tail229
  rw [after_cons]
  refine spec230 x0 x1 x2 x3 x4 x5 x6 x7 x8 x9 _ ?_ ?_ ?_ ?_ ?_ ?_ ?_
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v166; decide
  · rw [nullary_result_ne]; exact h_v187; decide

theorem spec228 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v166 : V (Proc.devRef .tc main_v166) = ReadP.val_main_v166 (F := F) x0 x1 x2 x3 x4 x5)
    (h_v184 : V (Proc.devRef .tc main_v184) = ReadP.val_main_v184 (F := F) x0 x1 x2 x3 x4 x5)
    (h_v186 : V (Proc.devRef .tc main_v186) = ReadP.val_main_v186 (F := F) x1) :
    after (tail228 (F := F)) V (Proc.devRef .tc main_v200) = ReadP.val_main_v200 (F := F) x0 x1 x2 x3 x4 x5 x6 x7 x8 x9 := by
  unfold tail228
  rw [after_cons]
  refine spec229 x0 x1 x2 x3 x4 x5 x6 x7 x8 x9 _ ?_ ?_ ?_ ?_ ?_ ?_
  · rw [binary_result_ne]; exact h_arg6; decide
  · rw [binary_result_ne]; exact h_arg7; decide
  · rw [binary_result_ne]; exact h_arg8; decide
  · rw [binary_result_ne]; exact h_arg9; decide
  · rw [binary_result_ne]; exact h_v166; decide
  · rw [binary_result, h_v184, h_v186]; rfl

theorem spec227 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v166 : V (Proc.devRef .tc main_v166) = ReadP.val_main_v166 (F := F) x0 x1 x2 x3 x4 x5)
    (h_v184 : V (Proc.devRef .tc main_v184) = ReadP.val_main_v184 (F := F) x0 x1 x2 x3 x4 x5)
    (h_v185 : V (Proc.devRef .tc main_v185) = ReadP.val_main_v185 (F := F) x1) :
    after (tail227 (F := F)) V (Proc.devRef .tc main_v200) = ReadP.val_main_v200 (F := F) x0 x1 x2 x3 x4 x5 x6 x7 x8 x9 := by
  unfold tail227
  rw [after_cons]
  refine spec228 x0 x1 x2 x3 x4 x5 x6 x7 x8 x9 _ ?_ ?_ ?_ ?_ ?_ ?_ ?_
  · rw [unary_result_ne]; exact h_arg6; decide
  · rw [unary_result_ne]; exact h_arg7; decide
  · rw [unary_result_ne]; exact h_arg8; decide
  · rw [unary_result_ne]; exact h_arg9; decide
  · rw [unary_result_ne]; exact h_v166; decide
  · rw [unary_result_ne]; exact h_v184; decide
  · rw [unary_result, h_v185]; rfl

theorem spec226 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v184 : V (Proc.devRef .tc main_v184) = ReadP.val_main_v184 (F := F) x0 x1 x2 x3 x4 x5) :
    after (tail226 (F := F)) V (Proc.devRef .tc main_v200) = ReadP.val_main_v200 (F := F) x0 x1 x2 x3 x4 x5 x6 x7 x8 x9 := by
  unfold tail226
  rw [after_cons]
  refine spec227 x0 x1 x2 x3 x4 x5 x6 x7 x8 x9 _ ?_ ?_ ?_ ?_ ?_ ?_ ?_
  · rw [unary_result_ne]; exact h_arg6; decide
  · rw [unary_result_ne]; exact h_arg7; decide
  · rw [unary_result_ne]; exact h_arg8; decide
  · rw [unary_result_ne]; exact h_arg9; decide
  · rw [unary_result_ne]; exact h_v166; decide
  · rw [unary_result_ne]; exact h_v184; decide
  · rw [unary_result, h_v0]; rfl

theorem spec225 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v183 : V (Proc.devRef .tc main_v183) = ReadP.val_main_v183 (F := F) x0 x1 x2 x3 x4 x5) :
    after (tail225 (F := F)) V (Proc.devRef .tc main_v200) = ReadP.val_main_v200 (F := F) x0 x1 x2 x3 x4 x5 x6 x7 x8 x9 := by
  unfold tail225
  rw [after_cons]
  refine spec226 x0 x1 x2 x3 x4 x5 x6 x7 x8 x9 _ ?_ ?_ ?_ ?_ ?_ ?_ ?_
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result, h_v183, h_arg0]; rfl

theorem spec224 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v182 : V (Proc.devRef .tc main_v182) = ReadP.val_main_v182 (F := F) x0 x1 x2 x3 x4 x5) :
    after (tail224 (F := F)) V (Proc.devRef .tc main_v200) = ReadP.val_main_v200 (F := F) x0 x1 x2 x3 x4 x5 x6 x7 x8 x9 := by
  unfold tail224
  rw [after_cons]
  refine spec225 x0 x1 x2 x3 x4 x5 x6 x7 x8 x9 _ ?_ ?_ ?_ ?_ ?_ ?_ ?_ ?_
  · rw [unary_result_ne]; exact h_arg0; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result, h_v182]; rfl

theorem spec223 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v181 : V (Proc.devRef .tc main_v181) = ReadP.val_main_v181 (F := F) x0 x1 x2 x3 x4 x5) :
    after (tail223 (F := F)) V (Proc.devRef .tc main_v200) = ReadP.val_main_v200 (F := F) x0 x1 x2 x3 x4 x5 x6 x7 x8 x9 := by
  unfold tail223
  rw [after_cons]
  refine spec224 x0 x1 x2 x3 x4 x5 x6 x7 x8 x9 _ ?_ ?_ ?_ ?_ ?_ ?_ ?_ ?_
  · rw [unary_result_ne]; exact h_arg0; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result, h_v181]; rfl

theorem spec222 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v177 : V (Proc.devRef .tc main_v177) = ReadP.val_main_v177 (F := F) x0 x1 x2 x3 x4 x5)
    (h_v180 : V (Proc.devRef .tc main_v180) = ReadP.val_main_v180 (F := F) x0 x1 x2 x3 x4 x5) :
    after (tail222 (F := F)) V (Proc.devRef .tc main_v200) = ReadP.val_main_v200 (F := F) x0 x1 x2 x3 x4 x5 x6 x7 x8 x9 := by
  unfold tail222
  rw [after_cons]
  refine spec223 x0 x1 x2 x3 x4 x5 x6 x7 x8 x9 _ ?_ ?_ ?_ ?_ ?_ ?_ ?_ ?_
  · rw [binary_result_ne]; exact h_arg0; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result, h_v177, h_v180]; rfl

theorem spec221 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v177 : V (Proc.devRef .tc main_v177) = ReadP.val_main_v177 (F := F) x0 x1 x2 x3 x4 x5)
    (h_v179 : V (Proc.devRef .tc main_v179) = ReadP.val_main_v179 (F := F) x0 x1 x2 x3 x4 x5) :
    after (tail221 (F := F)) V (Proc.devRef .tc main_v200) = ReadP.val_main_v200 (F := F) x0 x1 x2 x3 x4 x5 x6 x7 x8 x9 := by
  unfold tail221
  rw [after_cons]
  refine spec222 x0 x1 x2 x3 x4 x5 x6 x7 x8 x9 _ ?_ ?_ ?_ ?_ ?_ ?_ ?_ ?_ ?_
  · rw [unary_result_ne]; exact h_arg0; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result_ne]; exact h_v177; decide
  · rw [unary_result, h_v179]; rfl

theorem spec220 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v177 : V (Proc.devRef .tc main_v177) = ReadP.val_main_v177 (F := F) x0 x1 x2 x3 x4 x5)
    (h_v178 : V (Proc.devRef .tc main_v178) = ReadP.val_main_v178 (F := F) x0 x1 x2 x3 x4 x5) :
    after (tail220 (F := F)) V (Proc.devRef .tc main_v200) = ReadP.val_main_v200 (F := F) x0 x1 x2 x3 x4 x5 x6 x7 x8 x9 := by
  unfold tail220
  rw [after_cons]
  refine spec221 x0 x1 x2 x3 x4 x5 x6 x7 x8 x9 _ ?_ ?_ ?_ ?_ ?_ ?_ ?_ ?_ ?_
  · rw [unary_result_ne]; exact h_arg0; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result_ne]; exact h_v177; decide
  · rw [unary_result, h_v178]; rfl

theorem spec219 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_33 : V (Proc.devRef .tc main_cst_33) = ReadP.val_main_cst_33 (F := F))
    (h_v0 : V (Proc.devRef .tc main_v0) = ReadP.val_main_v0 (F := F) x1)
    (h_v166 : V (Proc.devRef .tc main_v166) = ReadP.val_main_v166 (F := F) x0 x1 x2 x3 x4 x5)
    (h_v177 : V (Proc.devRef .tc main_v177) = ReadP.val_main_v177 (F := F) x0 x1 x2 x3 x4 x5) :
    after (tail219 (F := F)) V (Proc.devRef .tc main_v200) = ReadP.val_main_v200 (F := F) x0 x1 x2 x3 x4 x5 x6 x7 x8 x9 := by
  unfold tail219
  rw [after_cons]
  refine spec220 x0 x1 x2 x3 x4 x5 x6 x7 x8 x9 _ ?_ ?_ ?_ ?_ ?_ ?_ ?_ ?_ ?_
  · rw [binary_result_ne]; exact h_arg0; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result_ne]; exact h_v177; decide
  · rw [binary_result, h_v177, h_cst_33]; rfl

theorem spec218 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v177 : V (Proc.devRef .tc main_v177) = ReadP.val_main_v177 (F := F) x0 x1 x2 x3 x4 x5) :
    after (tail218 (F := F)) V (Proc.devRef .tc main_v200) = ReadP.val_main_v200 (F := F) x0 x1 x2 x3 x4 x5 x6 x7 x8 x9 := by
  unfold tail218
  rw [after_cons]
  refine spec219 x0 x1 x2 x3 x4 x5 x6 x7 x8 x9 _ ?_ ?_ ?_ ?_ ?_ ?_ ?_ ?_ ?_
  · rw [nullary_result_ne]; exact h_arg0; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v166; decide
  · rw [nullary_result_ne]; exact h_v177; decide

theorem spec217 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v176 : V (Proc.devRef .tc main_v176) = ReadP.val_main_v176 (F := F) x0 x1 x2 x3 x4 x5) :
    after (tail217 (F := F)) V (Proc.devRef .tc main_v200) = ReadP.val_main_v200 (F := F) x0 x1 x2 x3 x4 x5 x6 x7 x8 x9 := by
  unfold tail217
  rw [after_cons]
  refine spec218 x0 x1 x2 x3 x4 x5 x6 x7 x8 x9 _ ?_ ?_ ?_ ?_ ?_ ?_ ?_ ?_
  · rw [binary_result_ne]; exact h_arg0; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result, h_v176, h_v0]; rfl

theorem spec216 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v175 : V (Proc.devRef .tc main_v175) = ReadP.val_main_v175 (F := F) x0 x1 x2 x3 x4 x5) :
    after (tail216 (F := F)) V (Proc.devRef .tc main_v200) = ReadP.val_main_v200 (F := F) x0 x1 x2 x3 x4 x5 x6 x7 x8 x9 := by
  unfold tail216
  rw [after_cons]
  refine spec217 x0 x1 x2 x3 x4 x5 x6 x7 x8 x9 _ ?_ ?_ ?_ ?_ ?_ ?_ ?_ ?_
  · rw [unary_result_ne]; exact h_arg0; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result, h_v175]; rfl

theorem spec215 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v171 : V (Proc.devRef .tc main_v171) = ReadP.val_main_v171 (F := F) x0 x1 x2 x3 x4 x5)
    (h_v174 : V (Proc.devRef .tc main_v174) = ReadP.val_main_v174 (F := F) x0 x1 x2 x3 x4 x5) :
    after (tail215 (F := F)) V (Proc.devRef .tc main_v200) = ReadP.val_main_v200 (F := F) x0 x1 x2 x3 x4 x5 x6 x7 x8 x9 := by
  unfold tail215
  rw [after_cons]
  refine spec216 x0 x1 x2 x3 x4 x5 x6 x7 x8 x9 _ ?_ ?_ ?_ ?_ ?_ ?_ ?_ ?_
  · rw [binary_result_ne]; exact h_arg0; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result, h_v171, h_v174]; rfl

theorem spec214 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v171 : V (Proc.devRef .tc main_v171) = ReadP.val_main_v171 (F := F) x0 x1 x2 x3 x4 x5)
    (h_v173 : V (Proc.devRef .tc main_v173) = ReadP.val_main_v173 (F := F) x0 x1 x2 x3 x4 x5) :
    after (tail214 (F := F)) V (Proc.devRef .tc main_v200) = ReadP.val_main_v200 (F := F) x0 x1 x2 x3 x4 x5 x6 x7 x8 x9 := by
  unfold tail214
  rw [after_cons]
  refine spec215 x0 x1 x2 x3 x4 x5 x6 x7 x8 x9 _ ?_ ?_ ?_ ?_ ?_ ?_ ?_ ?_ ?_
  · rw [unary_result_ne]; exact h_arg0; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result_ne]; exact h_v171; decide
  · rw [unary_result, h_v173]; rfl

theorem spec213 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v171 : V (Proc.devRef .tc main_v171) = ReadP.val_main_v171 (F := F) x0 x1 x2 x3 x4 x5)
    (h_v172 : V (Proc.devRef .tc main_v172) = ReadP.val_main_v172 (F := F) x0 x1 x2 x3 x4 x5) :
    after (tail213 (F := F)) V (Proc.devRef .tc main_v200) = ReadP.val_main_v200 (F := F) x0 x1 x2 x3 x4 x5 x6 x7 x8 x9 := by
  unfold tail213
  rw [after_cons]
  refine spec214 x0 x1 x2 x3 x4 x5 x6 x7 x8 x9 _ ?_ ?_ ?_ ?_ ?_ ?_ ?_ ?_ ?_
  · rw [unary_result_ne]; exact h_arg0; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result_ne]; exact h_v171; decide
  · rw [unary_result, h_v172]; rfl

theorem spec212 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_32 : V (Proc.devRef .tc main_cst_32) = ReadP.val_main_cst_32 (F := F))
    (h_v0 : V (Proc.devRef .tc main_v0) = ReadP.val_main_v0 (F := F) x1)
    (h_v166 : V (Proc.devRef .tc main_v166) = ReadP.val_main_v166 (F := F) x0 x1 x2 x3 x4 x5)
    (h_v171 : V (Proc.devRef .tc main_v171) = ReadP.val_main_v171 (F := F) x0 x1 x2 x3 x4 x5) :
    after (tail212 (F := F)) V (Proc.devRef .tc main_v200) = ReadP.val_main_v200 (F := F) x0 x1 x2 x3 x4 x5 x6 x7 x8 x9 := by
  unfold tail212
  rw [after_cons]
  refine spec213 x0 x1 x2 x3 x4 x5 x6 x7 x8 x9 _ ?_ ?_ ?_ ?_ ?_ ?_ ?_ ?_ ?_
  · rw [binary_result_ne]; exact h_arg0; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result_ne]; exact h_v171; decide
  · rw [binary_result, h_v171, h_cst_32]; rfl

theorem spec211 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v171 : V (Proc.devRef .tc main_v171) = ReadP.val_main_v171 (F := F) x0 x1 x2 x3 x4 x5) :
    after (tail211 (F := F)) V (Proc.devRef .tc main_v200) = ReadP.val_main_v200 (F := F) x0 x1 x2 x3 x4 x5 x6 x7 x8 x9 := by
  unfold tail211
  rw [after_cons]
  refine spec212 x0 x1 x2 x3 x4 x5 x6 x7 x8 x9 _ ?_ ?_ ?_ ?_ ?_ ?_ ?_ ?_ ?_
  · rw [nullary_result_ne]; exact h_arg0; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v166; decide
  · rw [nullary_result_ne]; exact h_v171; decide

theorem spec210 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_call2_v1 : V (Proc.devRef .tc main_call2_v1) = ReadP.val_main_call2_v1 (F := F))
    (h_v0 : V (Proc.devRef .tc main_v0) = ReadP.val_main_v0 (F := F) x1)
    (h_v166 : V (Proc.devRef .tc main_v166) = ReadP.val_main_v166 (F := F) x0 x1 x2 x3 x4 x5)
    (h_v170 : V (Proc.devRef .tc main_v170) = ReadP.val_main_v170 (F := F) x0 x1 x2 x3 x4 x5) :
    after (tail210 (F := F)) V (Proc.devRef .tc main_v200) = ReadP.val_main_v200 (F := F) x0 x1 x2 x3 x4 x5 x6 x7 x8 x9 := by
  unfold tail210
  rw [after_cons]
  refine spec211 x0 x1 x2 x3 x4 x5 x6 x7 x8 x9 _ ?_ ?_ ?_ ?_ ?_ ?_ ?_ ?_
  · rw [ternary_result_ne]; exact h_arg0; decide
  · rw [ternary_result_ne]; exact h_arg6; decide
  · rw [ternary_result_ne]; exact h_arg7; decide
  · rw [ternary_result_ne]; exact h_arg8; decide
  · rw [ternary_result_ne]; exact h_arg9; decide
  · rw [ternary_result_ne]; exact h_v0; decide
  · rw [ternary_result_ne]; exact h_v166; decide
  · rw [ternary_result, h_arg1, h_v170, h_call2_v1]; rfl

theorem spec209 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_call2_v0 : V (Proc.devRef .tc main_call2_v0) = ReadP.val_main_call2_v0 (F := F))
    (h_v0 : V (Proc.devRef .tc main_v0) = ReadP.val_main_v0 (F := F) x1)
    (h_v166 : V (Proc.devRef .tc main_v166) = ReadP.val_main_v166 (F := F) x0 x1 x2 x3 x4 x5)
    (h_v170 : V (Proc.devRef .tc main_v170) = ReadP.val_main_v170 (F := F) x0 x1 x2 x3 x4 x5) :
    after (tail209 (F := F)) V (Proc.devRef .tc main_v200) = ReadP.val_main_v200 (F := F) x0 x1 x2 x3 x4 x5 x6 x7 x8 x9 := by
  unfold tail209
  rw [after_cons]
  refine spec210 x0 x1 x2 x3 x4 x5 x6 x7 x8 x9 _ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result, h_call2_v0]; rfl
  · rw [unary_result_ne]; exact h_v0; decide
  · rw [unary_result_ne]; exact h_v166; decide
  · rw [unary_result_ne]; exact h_v170; decide

theorem spec208 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_31 : V (Proc.devRef .tc main_cst_31) = ReadP.val_main_cst_31 (F := F))
    (h_v0 : V (Proc.devRef .tc main_v0) = ReadP.val_main_v0 (F := F) x1)
    (h_v166 : V (Proc.devRef .tc main_v166) = ReadP.val_main_v166 (F := F) x0 x1 x2 x3 x4 x5)
    (h_v170 : V (Proc.devRef .tc main_v170) = ReadP.val_main_v170 (F := F) x0 x1 x2 x3 x4 x5) :
    after (tail208 (F := F)) V (Proc.devRef .tc main_v200) = ReadP.val_main_v200 (F := F) x0 x1 x2 x3 x4 x5 x6 x7 x8 x9 := by
  unfold tail208
  rw [after_cons]
  refine spec209 x0 x1 x2 x3 x4 x5 x6 x7 x8 x9 _ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result, h_cst_31]; rfl
  · rw [unary_result_ne]; exact h_v0; decide
  · rw [unary_result_ne]; exact h_v166; decide
  · rw [unary_result_ne]; exact h_v170; decide

theorem spec207 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v170 : V (Proc.devRef .tc main_v170) = ReadP.val_main_v170 (F := F) x0 x1 x2 x3 x4 x5) :
    after (tail207 (F := F)) V (Proc.devRef .tc main_v200) = ReadP.val_main_v200 (F := F) x0 x1 x2 x3 x4 x5 x6 x7 x8 x9 := by
  unfold tail207
  rw [after_cons]
  refine spec208 x0 x1 x2 x3 x4 x5 x6 x7 x8 x9 _ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v166; decide
  · rw [nullary_result_ne]; exact h_v170; decide

theorem spec206 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_30 : V (Proc.devRef .tc main_cst_30) = ReadP.val_main_cst_30 (F := F))
    (h_v0 : V (Proc.devRef .tc main_v0) = ReadP.val_main_v0 (F := F) x1)
    (h_v166 : V (Proc.devRef .tc main_v166) = ReadP.val_main_v166 (F := F) x0 x1 x2 x3 x4 x5)
    (h_v169 : V (Proc.devRef .tc main_v169) = ReadP.val_main_v169 (F := F) x0 x1 x2 x3 x4 x5) :
    after (tail206 (F := F)) V (Proc.devRef .tc main_v200) = ReadP.val_main_v200 (F := F) x0 x1 x2 x3 x4 x5 x6 x7 x8 x9 := by
  unfold tail206
  rw [after_cons]
  refine spec207 x0 x1 x2 x3 x4 x5 x6 x7 x8 x9 _ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result, h_v169, h_cst_30]; rfl

theorem spec205 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v169 : V (Proc.devRef .tc main_v169) = ReadP.val_main_v169 (F := F) x0 x1 x2 x3 x4 x5) :
    after (tail205 (F := F)) V (Proc.devRef .tc main_v200) = ReadP.val_main_v200 (F := F) x0 x1 x2 x3 x4 x5 x6 x7 x8 x9 := by
  unfold tail205
  rw [after_cons]
  refine spec206 x0 x1 x2 x3 x4 x5 x6 x7 x8 x9 _ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v166; decide
  · rw [nullary_result_ne]; exact h_v169; decide

theorem spec204 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v168 : V (Proc.devRef .tc main_v168) = ReadP.val_main_v168 (F := F) x0 x1 x2 x3 x4 x5) :
    after (tail204 (F := F)) V (Proc.devRef .tc main_v200) = ReadP.val_main_v200 (F := F) x0 x1 x2 x3 x4 x5 x6 x7 x8 x9 := by
  unfold tail204
  rw [after_cons]
  refine spec205 x0 x1 x2 x3 x4 x5 x6 x7 x8 x9 _ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v166; decide
  · rw [binary_result, h_arg0, h_v168]; rfl

theorem spec203 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5)
    (h_v167 : V (Proc.devRef .tc main_v167) = ReadP.val_main_v167 (F := F) x0 x1 x2 x3 x4 x5) :
    after (tail203 (F := F)) V (Proc.devRef .tc main_v200) = ReadP.val_main_v200 (F := F) x0 x1 x2 x3 x4 x5 x6 x7 x8 x9 := by
  unfold tail203
  rw [after_cons]
  refine spec204 x0 x1 x2 x3 x4 x5 x6 x7 x8 x9 _ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result, h_v167]; rfl

theorem spec202 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v166 : V (Proc.devRef .tc main_v166) = ReadP.val_main_v166 (F := F) x0 x1 x2 x3 x4 x5) :
    after (tail202 (F := F)) V (Proc.devRef .tc main_v200) = ReadP.val_main_v200 (F := F) x0 x1 x2 x3 x4 x5 x6 x7 x8 x9 := by
  unfold tail202
  rw [after_cons]
  refine spec203 x0 x1 x2 x3 x4 x5 x6 x7 x8 x9 _ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v166; decide
  · rw [unary_result, h_v166]; rfl

theorem spec201 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v161 : V (Proc.devRef .tc main_v161) = ReadP.val_main_v161 (F := F) x0 x1 x2 x3 x4 x5)
    (h_v165 : V (Proc.devRef .tc main_v165) = ReadP.val_main_v165 (F := F) x0 x1 x2 x3 x4 x5) :
    after (tail201 (F := F)) V (Proc.devRef .tc main_v200) = ReadP.val_main_v200 (F := F) x0 x1 x2 x3 x4 x5 x6 x7 x8 x9 := by
  unfold tail201
  rw [after_cons]
  refine spec202 x0 x1 x2 x3 x4 x5 x6 x7 x8 x9 _ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result, h_v161, h_v165]; rfl

theorem spec200 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v161 : V (Proc.devRef .tc main_v161) = ReadP.val_main_v161 (F := F) x0 x1 x2 x3 x4 x5)
    (h_v164 : V (Proc.devRef .tc main_v164) = ReadP.val_main_v164 (F := F) x0 x1 x2 x3 x4 x5) :
    after (tail200 (F := F)) V (Proc.devRef .tc main_v200) = ReadP.val_main_v200 (F := F) x0 x1 x2 x3 x4 x5 x6 x7 x8 x9 := by
  unfold tail200
  rw [after_cons]
  refine spec201 x0 x1 x2 x3 x4 x5 x6 x7 x8 x9 _ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v161; decide
  · rw [unary_result, h_v164]; rfl

theorem spec199 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v161 : V (Proc.devRef .tc main_v161) = ReadP.val_main_v161 (F := F) x0 x1 x2 x3 x4 x5)
    (h_v162 : V (Proc.devRef .tc main_v162) = ReadP.val_main_v162 (F := F) x0 x1 x2 x3 x4 x5)
    (h_v163 : V (Proc.devRef .tc main_v163) = ReadP.val_main_v163 (F := F) x0 x1 x2 x3 x4 x5) :
    after (tail199 (F := F)) V (Proc.devRef .tc main_v200) = ReadP.val_main_v200 (F := F) x0 x1 x2 x3 x4 x5 x6 x7 x8 x9 := by
  unfold tail199
  rw [after_cons]
  refine spec200 x0 x1 x2 x3 x4 x5 x6 x7 x8 x9 _ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v161; decide
  · rw [binary_result, h_v162, h_v163]; rfl

theorem spec198 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v148 : V (Proc.devRef .tc main_v148) = ReadP.val_main_v148 (F := F) x0 x1 x2 x3 x4 x5)
    (h_v155 : V (Proc.devRef .tc main_v155) = ReadP.val_main_v155 (F := F) x0 x1 x2 x3 x4 x5)
    (h_v161 : V (Proc.devRef .tc main_v161) = ReadP.val_main_v161 (F := F) x0 x1 x2 x3 x4 x5)
    (h_v162 : V (Proc.devRef .tc main_v162) = ReadP.val_main_v162 (F := F) x0 x1 x2 x3 x4 x5) :
    after (tail198 (F := F)) V (Proc.devRef .tc main_v200) = ReadP.val_main_v200 (F := F) x0 x1 x2 x3 x4 x5 x6 x7 x8 x9 := by
  unfold tail198
  rw [after_cons]
  refine spec199 x0 x1 x2 x3 x4 x5 x6 x7 x8 x9 _ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v161; decide
  · rw [binary_result_ne]; exact h_v162; decide
  · rw [binary_result, h_v148, h_v155]; rfl

theorem spec197 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v161 : V (Proc.devRef .tc main_v161) = ReadP.val_main_v161 (F := F) x0 x1 x2 x3 x4 x5) :
    after (tail197 (F := F)) V (Proc.devRef .tc main_v200) = ReadP.val_main_v200 (F := F) x0 x1 x2 x3 x4 x5 x6 x7 x8 x9 := by
  unfold tail197
  rw [after_cons]
  refine spec198 x0 x1 x2 x3 x4 x5 x6 x7 x8 x9 _ ?_ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v148; decide
  · rw [binary_result_ne]; exact h_v155; decide
  · rw [binary_result_ne]; exact h_v161; decide
  · rw [binary_result, h_v154, h_v102]; rfl

theorem spec196 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v159 : V (Proc.devRef .tc main_v159) = ReadP.val_main_v159 (F := F) x0 x1 x2 x3 x4 x5)
    (h_v160 : V (Proc.devRef .tc main_v160) = ReadP.val_main_v160 (F := F)) :
    after (tail196 (F := F)) V (Proc.devRef .tc main_v200) = ReadP.val_main_v200 (F := F) x0 x1 x2 x3 x4 x5 x6 x7 x8 x9 := by
  unfold tail196
  rw [after_cons]
  refine spec197 x0 x1 x2 x3 x4 x5 x6 x7 x8 x9 _ ?_ ?_ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v148; decide
  · rw [binary_result_ne]; exact h_v154; decide
  · rw [binary_result_ne]; exact h_v155; decide
  · rw [binary_result, h_v160, h_v159]; rfl

theorem spec195 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_29 : V (Proc.devRef .tc main_cst_29) = ReadP.val_main_cst_29 (F := F))
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v159 : V (Proc.devRef .tc main_v159) = ReadP.val_main_v159 (F := F) x0 x1 x2 x3 x4 x5) :
    after (tail195 (F := F)) V (Proc.devRef .tc main_v200) = ReadP.val_main_v200 (F := F) x0 x1 x2 x3 x4 x5 x6 x7 x8 x9 := by
  unfold tail195
  rw [after_cons]
  refine spec196 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v148; decide
  · rw [unary_result_ne]; exact h_v154; decide
  · rw [unary_result_ne]; exact h_v155; decide
  · rw [unary_result_ne]; exact h_v159; decide
  · rw [unary_result, h_cst_29]; rfl

theorem spec194 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v159 : V (Proc.devRef .tc main_v159) = ReadP.val_main_v159 (F := F) x0 x1 x2 x3 x4 x5) :
    after (tail194 (F := F)) V (Proc.devRef .tc main_v200) = ReadP.val_main_v200 (F := F) x0 x1 x2 x3 x4 x5 x6 x7 x8 x9 := by
  unfold tail194
  rw [after_cons]
  refine spec195 x0 x1 x2 x3 x4 x5 x6 x7 x8 x9 _ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v148; decide
  · rw [nullary_result_ne]; exact h_v154; decide
  · rw [nullary_result_ne]; exact h_v155; decide
  · rw [nullary_result_ne]; exact h_v159; decide

theorem spec193 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v157 : V (Proc.devRef .tc main_v157) = ReadP.val_main_v157 (F := F) x0 x1 x2 x3 x4 x5)
    (h_v158 : V (Proc.devRef .tc main_v158) = ReadP.val_main_v158 (F := F)) :
    after (tail193 (F := F)) V (Proc.devRef .tc main_v200) = ReadP.val_main_v200 (F := F) x0 x1 x2 x3 x4 x5 x6 x7 x8 x9 := by
  unfold tail193
  rw [after_cons]
  refine spec194 x0 x1 x2 x3 x4 x5 x6 x7 x8 x9 _ ?_ ?_ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v148; decide
  · rw [binary_result_ne]; exact h_v154; decide
  · rw [binary_result_ne]; exact h_v155; decide
  · rw [binary_result, h_v158, h_v157]; rfl

theorem spec192 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_28 : V (Proc.devRef .tc main_cst_28) = ReadP.val_main_cst_28 (F := F))
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v157 : V (Proc.devRef .tc main_v157) = ReadP.val_main_v157 (F := F) x0 x1 x2 x3 x4 x5) :
    after (tail192 (F := F)) V (Proc.devRef .tc main_v200) = ReadP.val_main_v200 (F := F) x0 x1 x2 x3 x4 x5 x6 x7 x8 x9 := by
  unfold tail192
  rw [after_cons]
  refine spec193 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v148; decide
  · rw [unary_result_ne]; exact h_v154; decide
  · rw [unary_result_ne]; exact h_v155; decide
  · rw [unary_result_ne]; exact h_v157; decide
  · rw [unary_result, h_cst_28]; rfl

theorem spec191 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v157 : V (Proc.devRef .tc main_v157) = ReadP.val_main_v157 (F := F) x0 x1 x2 x3 x4 x5) :
    after (tail191 (F := F)) V (Proc.devRef .tc main_v200) = ReadP.val_main_v200 (F := F) x0 x1 x2 x3 x4 x5 x6 x7 x8 x9 := by
  unfold tail191
  rw [after_cons]
  refine spec192 x0 x1 x2 x3 x4 x5 x6 x7 x8 x9 _ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v148; decide
  · rw [nullary_result_ne]; exact h_v154; decide
  · rw [nullary_result_ne]; exact h_v155; decide
  · rw [nullary_result_ne]; exact h_v157; decide

theorem spec190 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5)
    (h_v156 : V (Proc.devRef .tc main_v156) = ReadP.val_main_v156 (F := F) x0 x1 x2 x3 x4 x5) :
    after (tail190 (F := F)) V (Proc.devRef .tc main_v200) = ReadP.val_main_v200 (F := F) x0 x1 x2 x3 x4 x5 x6 x7 x8 x9 := by
  unfold tail190
  rw [after_cons]
  refine spec191 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v148; decide
  · rw [unary_result_ne]; exact h_v154; decide
  · rw [unary_result_ne]; exact h_v155; decide
  · rw [unary_result, h_v156]; rfl

theorem spec189 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5)
    (h_v155 : V (Proc.devRef .tc main_v155) = ReadP.val_main_v155 (F := F) x0 x1 x2 x3 x4 x5) :
    after (tail189 (F := F)) V (Proc.devRef .tc main_v200) = ReadP.val_main_v200 (F := F) x0 x1 x2 x3 x4 x5 x6 x7 x8 x9 := by
  unfold tail189
  rw [after_cons]
  refine spec190 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v148; decide
  · rw [unary_result_ne]; exact h_v154; decide
  · rw [unary_result_ne]; exact h_v155; decide
  · rw [unary_result, h_v142]; rfl

theorem spec188 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v154 : V (Proc.devRef .tc main_v154) = ReadP.val_main_v154 (F := F) x0 x1 x2 x3 x4 x5) :
    after (tail188 (F := F)) V (Proc.devRef .tc main_v200) = ReadP.val_main_v200 (F := F) x0 x1 x2 x3 x4 x5 x6 x7 x8 x9 := by
  unfold tail188
  rw [after_cons]
  refine spec189 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v142; decide
  · rw [unary_result_ne]; exact h_v148; decide
  · rw [unary_result_ne]; exact h_v154; decide
  · rw [unary_result, h_v141]; rfl

theorem spec187 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v152 : V (Proc.devRef .tc main_v152) = ReadP.val_main_v152 (F := F) x0 x1 x2 x3 x4 x5)
    (h_v153 : V (Proc.devRef .tc main_v153) = ReadP.val_main_v153 (F := F)) :
    after (tail187 (F := F)) V (Proc.devRef .tc main_v200) = ReadP.val_main_v200 (F := F) x0 x1 x2 x3 x4 x5 x6 x7 x8 x9 := by
  unfold tail187
  rw [after_cons]
  refine spec188 x0 x1 x2 x3 x4 x5 x6 x7 x8 x9 _ ?_ ?_ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v141; decide
  · rw [binary_result_ne]; exact h_v142; decide
  · rw [binary_result_ne]; exact h_v148; decide
  · rw [binary_result, h_v153, h_v152]; rfl

theorem spec186 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_27 : V (Proc.devRef .tc main_cst_27) = ReadP.val_main_cst_27 (F := F))
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v152 : V (Proc.devRef .tc main_v152) = ReadP.val_main_v152 (F := F) x0 x1 x2 x3 x4 x5) :
    after (tail186 (F := F)) V (Proc.devRef .tc main_v200) = ReadP.val_main_v200 (F := F) x0 x1 x2 x3 x4 x5 x6 x7 x8 x9 := by
  unfold tail186
  rw [after_cons]
  refine spec187 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v141; decide
  · rw [unary_result_ne]; exact h_v142; decide
  · rw [unary_result_ne]; exact h_v148; decide
  · rw [unary_result_ne]; exact h_v152; decide
  · rw [unary_result, h_cst_27]; rfl

theorem spec185 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v152 : V (Proc.devRef .tc main_v152) = ReadP.val_main_v152 (F := F) x0 x1 x2 x3 x4 x5) :
    after (tail185 (F := F)) V (Proc.devRef .tc main_v200) = ReadP.val_main_v200 (F := F) x0 x1 x2 x3 x4 x5 x6 x7 x8 x9 := by
  unfold tail185
  rw [after_cons]
  refine spec186 x0 x1 x2 x3 x4 x5 x6 x7 x8 x9 _ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v141; decide
  · rw [nullary_result_ne]; exact h_v142; decide
  · rw [nullary_result_ne]; exact h_v148; decide
  · rw [nullary_result_ne]; exact h_v152; decide

theorem spec184 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v150 : V (Proc.devRef .tc main_v150) = ReadP.val_main_v150 (F := F) x0 x1 x2 x3 x4 x5)
    (h_v151 : V (Proc.devRef .tc main_v151) = ReadP.val_main_v151 (F := F)) :
    after (tail184 (F := F)) V (Proc.devRef .tc main_v200) = ReadP.val_main_v200 (F := F) x0 x1 x2 x3 x4 x5 x6 x7 x8 x9 := by
  unfold tail184
  rw [after_cons]
  refine spec185 x0 x1 x2 x3 x4 x5 x6 x7 x8 x9 _ ?_ ?_ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v141; decide
  · rw [binary_result_ne]; exact h_v142; decide
  · rw [binary_result_ne]; exact h_v148; decide
  · rw [binary_result, h_v151, h_v150]; rfl

theorem spec183 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_26 : V (Proc.devRef .tc main_cst_26) = ReadP.val_main_cst_26 (F := F))
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v150 : V (Proc.devRef .tc main_v150) = ReadP.val_main_v150 (F := F) x0 x1 x2 x3 x4 x5) :
    after (tail183 (F := F)) V (Proc.devRef .tc main_v200) = ReadP.val_main_v200 (F := F) x0 x1 x2 x3 x4 x5 x6 x7 x8 x9 := by
  unfold tail183
  rw [after_cons]
  refine spec184 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v141; decide
  · rw [unary_result_ne]; exact h_v142; decide
  · rw [unary_result_ne]; exact h_v148; decide
  · rw [unary_result_ne]; exact h_v150; decide
  · rw [unary_result, h_cst_26]; rfl

theorem spec182 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v150 : V (Proc.devRef .tc main_v150) = ReadP.val_main_v150 (F := F) x0 x1 x2 x3 x4 x5) :
    after (tail182 (F := F)) V (Proc.devRef .tc main_v200) = ReadP.val_main_v200 (F := F) x0 x1 x2 x3 x4 x5 x6 x7 x8 x9 := by
  unfold tail182
  rw [after_cons]
  refine spec183 x0 x1 x2 x3 x4 x5 x6 x7 x8 x9 _ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v141; decide
  · rw [nullary_result_ne]; exact h_v142; decide
  · rw [nullary_result_ne]; exact h_v148; decide
  · rw [nullary_result_ne]; exact h_v150; decide

theorem spec181 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5)
    (h_v149 : V (Proc.devRef .tc main_v149) = ReadP.val_main_v149 (F := F) x0 x1 x2 x3 x4 x5) :
    after (tail181 (F := F)) V (Proc.devRef .tc main_v200) = ReadP.val_main_v200 (F := F) x0 x1 x2 x3 x4 x5 x6 x7 x8 x9 := by
  unfold tail181
  rw [after_cons]
  refine spec182 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v141; decide
  · rw [unary_result_ne]; exact h_v142; decide
  · rw [unary_result_ne]; exact h_v148; decide
  · rw [unary_result, h_v149]; rfl

theorem spec180 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v148 : V (Proc.devRef .tc main_v148) = ReadP.val_main_v148 (F := F) x0 x1 x2 x3 x4 x5) :
    after (tail180 (F := F)) V (Proc.devRef .tc main_v200) = ReadP.val_main_v200 (F := F) x0 x1 x2 x3 x4 x5 x6 x7 x8 x9 := by
  unfold tail180
  rw [after_cons]
  refine spec181 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v141; decide
  · rw [unary_result_ne]; exact h_v142; decide
  · rw [unary_result_ne]; exact h_v148; decide
  · rw [unary_result, h_v140]; rfl

theorem spec179 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v146 : V (Proc.devRef .tc main_v146) = ReadP.val_main_v146 (F := F) x0 x1 x2 x3 x4 x5)
    (h_v147 : V (Proc.devRef .tc main_v147) = ReadP.val_main_v147 (F := F)) :
    after (tail179 (F := F)) V (Proc.devRef .tc main_v200) = ReadP.val_main_v200 (F := F) x0 x1 x2 x3 x4 x5 x6 x7 x8 x9 := by
  unfold tail179
  rw [after_cons]
  refine spec180 x0 x1 x2 x3 x4 x5 x6 x7 x8 x9 _ ?_ ?_ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v140; decide
  · rw [binary_result_ne]; exact h_v141; decide
  · rw [binary_result_ne]; exact h_v142; decide
  · rw [binary_result, h_v147, h_v146]; rfl

theorem spec178 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_25 : V (Proc.devRef .tc main_cst_25) = ReadP.val_main_cst_25 (F := F))
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v146 : V (Proc.devRef .tc main_v146) = ReadP.val_main_v146 (F := F) x0 x1 x2 x3 x4 x5) :
    after (tail178 (F := F)) V (Proc.devRef .tc main_v200) = ReadP.val_main_v200 (F := F) x0 x1 x2 x3 x4 x5 x6 x7 x8 x9 := by
  unfold tail178
  rw [after_cons]
  refine spec179 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v140; decide
  · rw [unary_result_ne]; exact h_v141; decide
  · rw [unary_result_ne]; exact h_v142; decide
  · rw [unary_result_ne]; exact h_v146; decide
  · rw [unary_result, h_cst_25]; rfl

theorem spec177 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v146 : V (Proc.devRef .tc main_v146) = ReadP.val_main_v146 (F := F) x0 x1 x2 x3 x4 x5) :
    after (tail177 (F := F)) V (Proc.devRef .tc main_v200) = ReadP.val_main_v200 (F := F) x0 x1 x2 x3 x4 x5 x6 x7 x8 x9 := by
  unfold tail177
  rw [after_cons]
  refine spec178 x0 x1 x2 x3 x4 x5 x6 x7 x8 x9 _ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v140; decide
  · rw [nullary_result_ne]; exact h_v141; decide
  · rw [nullary_result_ne]; exact h_v142; decide
  · rw [nullary_result_ne]; exact h_v146; decide

theorem spec176 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v144 : V (Proc.devRef .tc main_v144) = ReadP.val_main_v144 (F := F) x0 x1 x2 x3 x4 x5)
    (h_v145 : V (Proc.devRef .tc main_v145) = ReadP.val_main_v145 (F := F)) :
    after (tail176 (F := F)) V (Proc.devRef .tc main_v200) = ReadP.val_main_v200 (F := F) x0 x1 x2 x3 x4 x5 x6 x7 x8 x9 := by
  unfold tail176
  rw [after_cons]
  refine spec177 x0 x1 x2 x3 x4 x5 x6 x7 x8 x9 _ ?_ ?_ ?_ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v140; decide
  · rw [binary_result_ne]; exact h_v141; decide
  · rw [binary_result_ne]; exact h_v142; decide
  · rw [binary_result, h_v145, h_v144]; rfl

theorem spec175 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_24 : V (Proc.devRef .tc main_cst_24) = ReadP.val_main_cst_24 (F := F))
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v144 : V (Proc.devRef .tc main_v144) = ReadP.val_main_v144 (F := F) x0 x1 x2 x3 x4 x5) :
    after (tail175 (F := F)) V (Proc.devRef .tc main_v200) = ReadP.val_main_v200 (F := F) x0 x1 x2 x3 x4 x5 x6 x7 x8 x9 := by
  unfold tail175
  rw [after_cons]
  refine spec176 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v140; decide
  · rw [unary_result_ne]; exact h_v141; decide
  · rw [unary_result_ne]; exact h_v142; decide
  · rw [unary_result_ne]; exact h_v144; decide
  · rw [unary_result, h_cst_24]; rfl

theorem spec174 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v144 : V (Proc.devRef .tc main_v144) = ReadP.val_main_v144 (F := F) x0 x1 x2 x3 x4 x5) :
    after (tail174 (F := F)) V (Proc.devRef .tc main_v200) = ReadP.val_main_v200 (F := F) x0 x1 x2 x3 x4 x5 x6 x7 x8 x9 := by
  unfold tail174
  rw [after_cons]
  refine spec175 x0 x1 x2 x3 x4 x5 x6 x7 x8 x9 _ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v140; decide
  · rw [nullary_result_ne]; exact h_v141; decide
  · rw [nullary_result_ne]; exact h_v142; decide
  · rw [nullary_result_ne]; exact h_v144; decide

theorem spec173 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5)
    (h_v143 : V (Proc.devRef .tc main_v143) = ReadP.val_main_v143 (F := F) x0 x1 x2 x3 x4 x5) :
    after (tail173 (F := F)) V (Proc.devRef .tc main_v200) = ReadP.val_main_v200 (F := F) x0 x1 x2 x3 x4 x5 x6 x7 x8 x9 := by
  unfold tail173
  rw [after_cons]
  refine spec174 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v140; decide
  · rw [unary_result_ne]; exact h_v141; decide
  · rw [unary_result_ne]; exact h_v142; decide
  · rw [unary_result, h_v143]; rfl

theorem spec172 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v139 : V (Proc.devRef .tc main_v139) = ReadP.val_main_v139 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5)
    (h_v142 : V (Proc.devRef .tc main_v142) = ReadP.val_main_v142 (F := F) x0 x1 x2 x3 x4 x5) :
    after (tail172 (F := F)) V (Proc.devRef .tc main_v200) = ReadP.val_main_v200 (F := F) x0 x1 x2 x3 x4 x5 x6 x7 x8 x9 := by
  unfold tail172
  rw [after_cons]
  refine spec173 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v140; decide
  · rw [unary_result_ne]; exact h_v141; decide
  · rw [unary_result_ne]; exact h_v142; decide
  · rw [unary_result, h_v139]; rfl

theorem spec171 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v138 : V (Proc.devRef .tc main_v138) = ReadP.val_main_v138 (F := F) x0 x1 x2 x3 x4 x5)
    (h_v139 : V (Proc.devRef .tc main_v139) = ReadP.val_main_v139 (F := F) x0 x1 x2 x3 x4 x5)
    (h_v140 : V (Proc.devRef .tc main_v140) = ReadP.val_main_v140 (F := F) x0 x1 x2 x3 x4 x5)
    (h_v141 : V (Proc.devRef .tc main_v141) = ReadP.val_main_v141 (F := F) x0 x1 x2 x3 x4 x5) :
    after (tail171 (F := F)) V (Proc.devRef .tc main_v200) = ReadP.val_main_v200 (F := F) x0 x1 x2 x3 x4 x5 x6 x7 x8 x9 := by
  unfold tail171
  rw [after_cons]
  refine spec172 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v139; decide
  · rw [unary_result_ne]; exact h_v140; decide
  · rw [unary_result_ne]; exact h_v141; decide
  · rw [unary_result, h_v138]; rfl

theorem spec170 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v138 : V (Proc.devRef .tc main_v138) = ReadP.val_main_v138 (F := F) x0 x1 x2 x3 x4 x5)
    (h_v139 : V (Proc.devRef .tc main_v139) = ReadP.val_main_v139 (F := F) x0 x1 x2 x3 x4 x5)
    (h_v140 : V (Proc.devRef .tc main_v140) = ReadP.val_main_v140 (F := F) x0 x1 x2 x3 x4 x5) :
    after (tail170 (F := F)) V (Proc.devRef .tc main_v200) = ReadP.val_main_v200 (F := F) x0 x1 x2 x3 x4 x5 x6 x7 x8 x9 := by
  unfold tail170
  rw [after_cons]
  refine spec171 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v138; decide
  · rw [unary_result_ne]; exact h_v139; decide
  · rw [unary_result_ne]; exact h_v140; decide
  · rw [unary_result, h_v138]; rfl

theorem spec169 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v138 : V (Proc.devRef .tc main_v138) = ReadP.val_main_v138 (F := F) x0 x1 x2 x3 x4 x5)
    (h_v139 : V (Proc.devRef .tc main_v139) = ReadP.val_main_v139 (F := F) x0 x1 x2 x3 x4 x5) :
    after (tail169 (F := F)) V (Proc.devRef .tc main_v200) = ReadP.val_main_v200 (F := F) x0 x1 x2 x3 x4 x5 x6 x7 x8 x9 := by
  unfold tail169
  rw [after_cons]
  refine spec170 x0 x1 x2 x3 x4 x5 x6 x7 x8 x9 _ ?_ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v138; decide
  · rw [unary_result_ne]; exact h_v139; decide
  · rw [unary_result, h_v138]; rfl

theorem spec168 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v138 : V (Proc.devRef .tc main_v138) = ReadP.val_main_v138 (F := F) x0 x1 x2 x3 x4 x5) :
    after (tail168 (F := F)) V (Proc.devRef .tc main_v200) = ReadP.val_main_v200 (F := F) x0 x1 x2 x3 x4 x5 x6 x7 x8 x9 := by
  unfold tail168
  rw [after_cons]
  refine spec169 x0 x1 x2 x3 x4 x5 x6 x7 x8 x9 _ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v138; decide
  · rw [unary_result, h_v138]; rfl

theorem spec167 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v135 : V (Proc.devRef .tc main_v135) = ReadP.val_main_v135 (F := F) x0 x1 x2 x3 x4 x5)
    (h_v137 : V (Proc.devRef .tc main_v137) = ReadP.val_main_v137 (F := F) x5) :
    after (tail167 (F := F)) V (Proc.devRef .tc main_v200) = ReadP.val_main_v200 (F := F) x0 x1 x2 x3 x4 x5 x6 x7 x8 x9 := by
  unfold tail167
  rw [after_cons]
  refine spec168 x0 x1 x2 x3 x4 x5 x6 x7 x8 x9 _ ?_ ?_ ?_ ?_ ?_ ?_ ?_ ?_ ?_
  · rw [binary_result_ne]; exact h_arg0; decide
  · rw [binary_result_ne]; exact h_arg1; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result, h_v135, h_v137]; rfl

theorem spec166 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v135 : V (Proc.devRef .tc main_v135) = ReadP.val_main_v135 (F := F) x0 x1 x2 x3 x4 x5)
    (h_v136 : V (Proc.devRef .tc main_v136) = ReadP.val_main_v136 (F := F) x5) :
    after (tail166 (F := F)) V (Proc.devRef .tc main_v200) = ReadP.val_main_v200 (F := F) x0 x1 x2 x3 x4 x5 x6 x7 x8 x9 := by
  unfold tail166
  rw [after_cons]
  refine spec167 x0 x1 x2 x3 x4 x5 x6 x7 x8 x9 _ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v135; decide
  · rw [unary_result, h_v136]; rfl

theorem spec165 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v135 : V (Proc.devRef .tc main_v135) = ReadP.val_main_v135 (F := F) x0 x1 x2 x3 x4 x5) :
    after (tail165 (F := F)) V (Proc.devRef .tc main_v200) = ReadP.val_main_v200 (F := F) x0 x1 x2 x3 x4 x5 x6 x7 x8 x9 := by
  unfold tail165
  rw [after_cons]
  refine spec166 x0 x1 x2 x3 x4 x5 x6 x7 x8 x9 _ ?_ ?_ ?_ ?_ ?_ ?_ ?_ ?_ ?_ ?_
  · rw [unary_result_ne]; exact h_arg0; decide
  · rw [unary_result_ne]; exact h_arg1; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v135; decide
  · rw [unary_result, h_arg5]; rfl

theorem spec164 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v132 : V (Proc.devRef .tc main_v132) = ReadP.val_main_v132 (F := F) x0 x1 x2 x3 x4 x5)
    (h_v134 : V (Proc.devRef .tc main_v134) = ReadP.val_main_v134 (F := F) x0 x1 x2 x3 x4 x5) :
    after (tail164 (F := F)) V (Proc.devRef .tc main_v200) = ReadP.val_main_v200 (F := F) x0 x1 x2 x3 x4 x5 x6 x7 x8 x9 := by
  unfold tail164
  rw [after_cons]
  refine spec165 x0 x1 x2 x3 x4 x5 x6 x7 x8 x9 _ ?_ ?_ ?_ ?_ ?_ ?_ ?_ ?_ ?_ ?_
  · rw [binary_result_ne]; exact h_arg0; decide
  · rw [binary_result_ne]; exact h_arg1; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result, h_v132, h_v134]; rfl

theorem spec163 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v132 : V (Proc.devRef .tc main_v132) = ReadP.val_main_v132 (F := F) x0 x1 x2 x3 x4 x5)
    (h_v133 : V (Proc.devRef .tc main_v133) = ReadP.val_main_v133 (F := F) x3) :
    after (tail163 (F := F)) V (Proc.devRef .tc main_v200) = ReadP.val_main_v200 (F := F) x0 x1 x2 x3 x4 x5 x6 x7 x8 x9 := by
  unfold tail163
  rw [after_cons]
  refine spec164 x0 x1 x2 x3 x4 x5 x6 x7 x8 x9 _ ?_ ?_ ?_ ?_ ?_ ?_ ?_ ?_ ?_ ?_ ?_
  · rw [binary_result_ne]; exact h_arg0; decide
  · rw [binary_result_ne]; exact h_arg1; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v132; decide
  · rw [binary_result, h_v104, h_v133]; rfl

theorem spec162 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg3 : V (Proc.devRef .tc main_arg3) = x3)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v132 : V (Proc.devRef .tc main_v132) = ReadP.val_main_v132 (F := F) x0 x1 x2 x3 x4 x5) :
    after (tail162 (F := F)) V (Proc.devRef .tc main_v200) = ReadP.val_main_v200 (F := F) x0 x1 x2 x3 x4 x5 x6 x7 x8 x9 := by
  unfold tail162
  rw [after_cons]
  refine spec163 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v132; decide
  · rw [unary_result, h_arg3]; rfl

theorem spec161 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg3 : V (Proc.devRef .tc main_arg3) = x3)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v129 : V (Proc.devRef .tc main_v129) = ReadP.val_main_v129 (F := F) x0 x1 x2 x3 x4 x5)
    (h_v131 : V (Proc.devRef .tc main_v131) = ReadP.val_main_v131 (F := F) x4) :
    after (tail161 (F := F)) V (Proc.devRef .tc main_v200) = ReadP.val_main_v200 (F := F) x0 x1 x2 x3 x4 x5 x6 x7 x8 x9 := by
  unfold tail161
  rw [after_cons]
  refine spec162 x0 x1 x2 x3 x4 x5 x6 x7 x8 x9 _ ?_ ?_ ?_ ?_ ?_ ?_ ?_ ?_ ?_ ?_ ?_ ?_
  · rw [binary_result_ne]; exact h_arg0; decide
  · rw [binary_result_ne]; exact h_arg1; decide
  · rw [binary_result_ne]; exact h_arg3; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v129, h_v131]; rfl

theorem spec160 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg3 : V (Proc.devRef .tc main_arg3) = x3)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v129 : V (Proc.devRef .tc main_v129) = ReadP.val_main_v129 (F := F) x0 x1 x2 x3 x4 x5)
    (h_v130 : V (Proc.devRef .tc main_v130) = ReadP.val_main_v130 (F := F) x4) :
    after (tail160 (F := F)) V (Proc.devRef .tc main_v200) = ReadP.val_main_v200 (F := F) x0 x1 x2 x3 x4 x5 x6 x7 x8 x9 := by
  unfold tail160
  rw [after_cons]
  refine spec161 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg3; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v129; decide
  · rw [unary_result, h_v130]; rfl

theorem spec159 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v129 : V (Proc.devRef .tc main_v129) = ReadP.val_main_v129 (F := F) x0 x1 x2 x3 x4 x5) :
    after (tail159 (F := F)) V (Proc.devRef .tc main_v200) = ReadP.val_main_v200 (F := F) x0 x1 x2 x3 x4 x5 x6 x7 x8 x9 := by
  unfold tail159
  rw [after_cons]
  refine spec160 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg3; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v129; decide
  · rw [unary_result, h_arg4]; rfl

theorem spec158 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v127 : V (Proc.devRef .tc main_v127) = ReadP.val_main_v127 (F := F) x0 x1 x2 x3 x4 x5)
    (h_v128 : V (Proc.devRef .tc main_v128) = ReadP.val_main_v128 (F := F) x2) :
    after (tail158 (F := F)) V (Proc.devRef .tc main_v200) = ReadP.val_main_v200 (F := F) x0 x1 x2 x3 x4 x5 x6 x7 x8 x9 := by
  unfold tail158
  rw [after_cons]
  refine spec159 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v127, h_v128]; rfl

theorem spec157 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v127 : V (Proc.devRef .tc main_v127) = ReadP.val_main_v127 (F := F) x0 x1 x2 x3 x4 x5) :
    after (tail157 (F := F)) V (Proc.devRef .tc main_v200) = ReadP.val_main_v200 (F := F) x0 x1 x2 x3 x4 x5 x6 x7 x8 x9 := by
  unfold tail157
  rw [after_cons]
  refine spec158 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v127; decide
  · rw [unary_result, h_arg2]; rfl

theorem spec156 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v126 : V (Proc.devRef .tc main_v126) = ReadP.val_main_v126 (F := F) x0 x1 x2 x3 x4 x5) :
    after (tail156 (F := F)) V (Proc.devRef .tc main_v200) = ReadP.val_main_v200 (F := F) x0 x1 x2 x3 x4 x5 x6 x7 x8 x9 := by
  unfold tail156
  rw [after_cons]
  refine spec157 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v104, h_v126]; rfl

theorem spec155 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_23 : V (Proc.devRef .tc main_cst_23) = ReadP.val_main_cst_23 (F := F))
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v125 : V (Proc.devRef .tc main_v125) = ReadP.val_main_v125 (F := F) x0 x1 x2 x3 x4 x5) :
    after (tail155 (F := F)) V (Proc.devRef .tc main_v200) = ReadP.val_main_v200 (F := F) x0 x1 x2 x3 x4 x5 x6 x7 x8 x9 := by
  unfold tail155
  rw [after_cons]
  refine spec156 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v125, h_cst_23]; rfl

theorem spec154 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v125 : V (Proc.devRef .tc main_v125) = ReadP.val_main_v125 (F := F) x0 x1 x2 x3 x4 x5) :
    after (tail154 (F := F)) V (Proc.devRef .tc main_v200) = ReadP.val_main_v200 (F := F) x0 x1 x2 x3 x4 x5 x6 x7 x8 x9 := by
  unfold tail154
  rw [after_cons]
  refine spec155 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v104; decide
  · rw [nullary_result_ne]; exact h_v125; decide

theorem spec153 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v122 : V (Proc.devRef .tc main_v122) = ReadP.val_main_v122 (F := F) x0 x1 x2 x3 x4 x5)
    (h_v124 : V (Proc.devRef .tc main_v124) = ReadP.val_main_v124 (F := F) x1) :
    after (tail153 (F := F)) V (Proc.devRef .tc main_v200) = ReadP.val_main_v200 (F := F) x0 x1 x2 x3 x4 x5 x6 x7 x8 x9 := by
  unfold tail153
  rw [after_cons]
  refine spec154 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v122, h_v124]; rfl

theorem spec152 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v122 : V (Proc.devRef .tc main_v122) = ReadP.val_main_v122 (F := F) x0 x1 x2 x3 x4 x5)
    (h_v123 : V (Proc.devRef .tc main_v123) = ReadP.val_main_v123 (F := F) x1) :
    after (tail152 (F := F)) V (Proc.devRef .tc main_v200) = ReadP.val_main_v200 (F := F) x0 x1 x2 x3 x4 x5 x6 x7 x8 x9 := by
  unfold tail152
  rw [after_cons]
  refine spec153 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v122; decide
  · rw [unary_result, h_v123]; rfl

theorem spec151 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v122 : V (Proc.devRef .tc main_v122) = ReadP.val_main_v122 (F := F) x0 x1 x2 x3 x4 x5) :
    after (tail151 (F := F)) V (Proc.devRef .tc main_v200) = ReadP.val_main_v200 (F := F) x0 x1 x2 x3 x4 x5 x6 x7 x8 x9 := by
  unfold tail151
  rw [after_cons]
  refine spec152 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v122; decide
  · rw [unary_result, h_v0]; rfl

theorem spec150 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v121 : V (Proc.devRef .tc main_v121) = ReadP.val_main_v121 (F := F) x0 x1 x2 x3 x4 x5) :
    after (tail150 (F := F)) V (Proc.devRef .tc main_v200) = ReadP.val_main_v200 (F := F) x0 x1 x2 x3 x4 x5 x6 x7 x8 x9 := by
  unfold tail150
  rw [after_cons]
  refine spec151 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v121, h_arg0]; rfl

theorem spec149 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v120 : V (Proc.devRef .tc main_v120) = ReadP.val_main_v120 (F := F) x0 x1 x2 x3 x4 x5) :
    after (tail149 (F := F)) V (Proc.devRef .tc main_v200) = ReadP.val_main_v200 (F := F) x0 x1 x2 x3 x4 x5 x6 x7 x8 x9 := by
  unfold tail149
  rw [after_cons]
  refine spec150 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result, h_v120]; rfl

theorem spec148 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v119 : V (Proc.devRef .tc main_v119) = ReadP.val_main_v119 (F := F) x0 x1 x2 x3 x4 x5) :
    after (tail148 (F := F)) V (Proc.devRef .tc main_v200) = ReadP.val_main_v200 (F := F) x0 x1 x2 x3 x4 x5 x6 x7 x8 x9 := by
  unfold tail148
  rw [after_cons]
  refine spec149 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result, h_v119]; rfl

theorem spec147 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v115 : V (Proc.devRef .tc main_v115) = ReadP.val_main_v115 (F := F) x0 x1 x2 x3 x4 x5)
    (h_v118 : V (Proc.devRef .tc main_v118) = ReadP.val_main_v118 (F := F) x0 x1 x2 x3 x4 x5) :
    after (tail147 (F := F)) V (Proc.devRef .tc main_v200) = ReadP.val_main_v200 (F := F) x0 x1 x2 x3 x4 x5 x6 x7 x8 x9 := by
  unfold tail147
  rw [after_cons]
  refine spec148 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v115, h_v118]; rfl

theorem spec146 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v115 : V (Proc.devRef .tc main_v115) = ReadP.val_main_v115 (F := F) x0 x1 x2 x3 x4 x5)
    (h_v117 : V (Proc.devRef .tc main_v117) = ReadP.val_main_v117 (F := F) x0 x1 x2 x3 x4 x5) :
    after (tail146 (F := F)) V (Proc.devRef .tc main_v200) = ReadP.val_main_v200 (F := F) x0 x1 x2 x3 x4 x5 x6 x7 x8 x9 := by
  unfold tail146
  rw [after_cons]
  refine spec147 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v115; decide
  · rw [unary_result, h_v117]; rfl

theorem spec145 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v115 : V (Proc.devRef .tc main_v115) = ReadP.val_main_v115 (F := F) x0 x1 x2 x3 x4 x5)
    (h_v116 : V (Proc.devRef .tc main_v116) = ReadP.val_main_v116 (F := F) x0 x1 x2 x3 x4 x5) :
    after (tail145 (F := F)) V (Proc.devRef .tc main_v200) = ReadP.val_main_v200 (F := F) x0 x1 x2 x3 x4 x5 x6 x7 x8 x9 := by
  unfold tail145
  rw [after_cons]
  refine spec146 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v115; decide
  · rw [unary_result, h_v116]; rfl

theorem spec144 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_22 : V (Proc.devRef .tc main_cst_22) = ReadP.val_main_cst_22 (F := F))
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v115 : V (Proc.devRef .tc main_v115) = ReadP.val_main_v115 (F := F) x0 x1 x2 x3 x4 x5) :
    after (tail144 (F := F)) V (Proc.devRef .tc main_v200) = ReadP.val_main_v200 (F := F) x0 x1 x2 x3 x4 x5 x6 x7 x8 x9 := by
  unfold tail144
  rw [after_cons]
  refine spec145 x0 x1 x2 x3 x4 x5 x6 x7 x8 x9 _ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result_ne]; exact h_v115; decide
  · rw [binary_result, h_v115, h_cst_22]; rfl

theorem spec143 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v115 : V (Proc.devRef .tc main_v115) = ReadP.val_main_v115 (F := F) x0 x1 x2 x3 x4 x5) :
    after (tail143 (F := F)) V (Proc.devRef .tc main_v200) = ReadP.val_main_v200 (F := F) x0 x1 x2 x3 x4 x5 x6 x7 x8 x9 := by
  unfold tail143
  rw [after_cons]
  refine spec144 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v104; decide
  · rw [nullary_result_ne]; exact h_v115; decide

theorem spec142 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v114 : V (Proc.devRef .tc main_v114) = ReadP.val_main_v114 (F := F) x0 x1 x2 x3 x4 x5) :
    after (tail142 (F := F)) V (Proc.devRef .tc main_v200) = ReadP.val_main_v200 (F := F) x0 x1 x2 x3 x4 x5 x6 x7 x8 x9 := by
  unfold tail142
  rw [after_cons]
  refine spec143 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v114, h_v0]; rfl

theorem spec141 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v113 : V (Proc.devRef .tc main_v113) = ReadP.val_main_v113 (F := F) x0 x1 x2 x3 x4 x5) :
    after (tail141 (F := F)) V (Proc.devRef .tc main_v200) = ReadP.val_main_v200 (F := F) x0 x1 x2 x3 x4 x5 x6 x7 x8 x9 := by
  unfold tail141
  rw [after_cons]
  refine spec142 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result, h_v113]; rfl

theorem spec140 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v109 : V (Proc.devRef .tc main_v109) = ReadP.val_main_v109 (F := F) x0 x1 x2 x3 x4 x5)
    (h_v112 : V (Proc.devRef .tc main_v112) = ReadP.val_main_v112 (F := F) x0 x1 x2 x3 x4 x5) :
    after (tail140 (F := F)) V (Proc.devRef .tc main_v200) = ReadP.val_main_v200 (F := F) x0 x1 x2 x3 x4 x5 x6 x7 x8 x9 := by
  unfold tail140
  rw [after_cons]
  refine spec141 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v109, h_v112]; rfl

theorem spec139 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v109 : V (Proc.devRef .tc main_v109) = ReadP.val_main_v109 (F := F) x0 x1 x2 x3 x4 x5)
    (h_v111 : V (Proc.devRef .tc main_v111) = ReadP.val_main_v111 (F := F) x0 x1 x2 x3 x4 x5) :
    after (tail139 (F := F)) V (Proc.devRef .tc main_v200) = ReadP.val_main_v200 (F := F) x0 x1 x2 x3 x4 x5 x6 x7 x8 x9 := by
  unfold tail139
  rw [after_cons]
  refine spec140 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v109; decide
  · rw [unary_result, h_v111]; rfl

theorem spec138 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v109 : V (Proc.devRef .tc main_v109) = ReadP.val_main_v109 (F := F) x0 x1 x2 x3 x4 x5)
    (h_v110 : V (Proc.devRef .tc main_v110) = ReadP.val_main_v110 (F := F) x0 x1 x2 x3 x4 x5) :
    after (tail138 (F := F)) V (Proc.devRef .tc main_v200) = ReadP.val_main_v200 (F := F) x0 x1 x2 x3 x4 x5 x6 x7 x8 x9 := by
  unfold tail138
  rw [after_cons]
  refine spec139 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result_ne]; exact h_v109; decide
  · rw [unary_result, h_v110]; rfl

theorem spec137 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_21 : V (Proc.devRef .tc main_cst_21) = ReadP.val_main_cst_21 (F := F))
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v109 : V (Proc.devRef .tc main_v109) = ReadP.val_main_v109 (F := F) x0 x1 x2 x3 x4 x5) :
    after (tail137 (F := F)) V (Proc.devRef .tc main_v200) = ReadP.val_main_v200 (F := F) x0 x1 x2 x3 x4 x5 x6 x7 x8 x9 := by
  unfold tail137
  rw [after_cons]
  refine spec138 x0 x1 x2 x3 x4 x5 x6 x7 x8 x9 _ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result_ne]; exact h_v109; decide
  · rw [binary_result, h_v109, h_cst_21]; rfl

theorem spec136 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v109 : V (Proc.devRef .tc main_v109) = ReadP.val_main_v109 (F := F) x0 x1 x2 x3 x4 x5) :
    after (tail136 (F := F)) V (Proc.devRef .tc main_v200) = ReadP.val_main_v200 (F := F) x0 x1 x2 x3 x4 x5 x6 x7 x8 x9 := by
  unfold tail136
  rw [after_cons]
  refine spec137 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v104; decide
  · rw [nullary_result_ne]; exact h_v109; decide

theorem spec135 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_call1_v1 : V (Proc.devRef .tc main_call1_v1) = ReadP.val_main_call1_v1 (F := F))
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v108 : V (Proc.devRef .tc main_v108) = ReadP.val_main_v108 (F := F) x0 x1 x2 x3 x4 x5) :
    after (tail135 (F := F)) V (Proc.devRef .tc main_v200) = ReadP.val_main_v200 (F := F) x0 x1 x2 x3 x4 x5 x6 x7 x8 x9 := by
  unfold tail135
  rw [after_cons]
  refine spec136 x0 x1 x2 x3 x4 x5 x6 x7 x8 x9 _ ?_ ?_ ?_ ?_ ?_ ?_ ?_ ?_ ?_ ?_ ?_ ?_ ?_ ?_
  · rw [ternary_result_ne]; exact h_arg0; decide
  · rw [ternary_result_ne]; exact h_arg1; decide
  · rw [ternary_result_ne]; exact h_arg2; decide
  · rw [ternary_result_ne]; exact h_arg3; decide
  · rw [ternary_result_ne]; exact h_arg4; decide
  · rw [ternary_result_ne]; exact h_arg5; decide
  · rw [ternary_result_ne]; exact h_arg6; decide
  · rw [ternary_result_ne]; exact h_arg7; decide
  · rw [ternary_result_ne]; exact h_arg8; decide
  · rw [ternary_result_ne]; exact h_arg9; decide
  · rw [ternary_result_ne]; exact h_v0; decide
  · rw [ternary_result_ne]; exact h_v102; decide
  · rw [ternary_result_ne]; exact h_v104; decide
  · rw [ternary_result, h_arg1, h_v108, h_call1_v1]; rfl

theorem spec134 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_call1_v0 : V (Proc.devRef .tc main_call1_v0) = ReadP.val_main_call1_v0 (F := F))
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v108 : V (Proc.devRef .tc main_v108) = ReadP.val_main_v108 (F := F) x0 x1 x2 x3 x4 x5) :
    after (tail134 (F := F)) V (Proc.devRef .tc main_v200) = ReadP.val_main_v200 (F := F) x0 x1 x2 x3 x4 x5 x6 x7 x8 x9 := by
  unfold tail134
  rw [after_cons]
  refine spec135 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result, h_call1_v0]; rfl
  · rw [unary_result_ne]; exact h_v0; decide
  · rw [unary_result_ne]; exact h_v102; decide
  · rw [unary_result_ne]; exact h_v104; decide
  · rw [unary_result_ne]; exact h_v108; decide

theorem spec133 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_20 : V (Proc.devRef .tc main_cst_20) = ReadP.val_main_cst_20 (F := F))
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v108 : V (Proc.devRef .tc main_v108) = ReadP.val_main_v108 (F := F) x0 x1 x2 x3 x4 x5) :
    after (tail133 (F := F)) V (Proc.devRef .tc main_v200) = ReadP.val_main_v200 (F := F) x0 x1 x2 x3 x4 x5 x6 x7 x8 x9 := by
  unfold tail133
  rw [after_cons]
  refine spec134 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result, h_cst_20]; rfl
  · rw [unary_result_ne]; exact h_v0; decide
  · rw [unary_result_ne]; exact h_v102; decide
  · rw [unary_result_ne]; exact h_v104; decide
  · rw [unary_result_ne]; exact h_v108; decide

theorem spec132 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v108 : V (Proc.devRef .tc main_v108) = ReadP.val_main_v108 (F := F) x0 x1 x2 x3 x4 x5) :
    after (tail132 (F := F)) V (Proc.devRef .tc main_v200) = ReadP.val_main_v200 (F := F) x0 x1 x2 x3 x4 x5 x6 x7 x8 x9 := by
  unfold tail132
  rw [after_cons]
  refine spec133 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v104; decide
  · rw [nullary_result_ne]; exact h_v108; decide

theorem spec131 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_19 : V (Proc.devRef .tc main_cst_19) = ReadP.val_main_cst_19 (F := F))
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v107 : V (Proc.devRef .tc main_v107) = ReadP.val_main_v107 (F := F) x0 x1 x2 x3 x4 x5) :
    after (tail131 (F := F)) V (Proc.devRef .tc main_v200) = ReadP.val_main_v200 (F := F) x0 x1 x2 x3 x4 x5 x6 x7 x8 x9 := by
  unfold tail131
  rw [after_cons]
  refine spec132 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_v107, h_cst_19]; rfl

theorem spec130 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v107 : V (Proc.devRef .tc main_v107) = ReadP.val_main_v107 (F := F) x0 x1 x2 x3 x4 x5) :
    after (tail130 (F := F)) V (Proc.devRef .tc main_v200) = ReadP.val_main_v200 (F := F) x0 x1 x2 x3 x4 x5 x6 x7 x8 x9 := by
  unfold tail130
  rw [after_cons]
  refine spec131 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v102; decide
  · rw [nullary_result_ne]; exact h_v104; decide
  · rw [nullary_result_ne]; exact h_v107; decide

theorem spec129 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v106 : V (Proc.devRef .tc main_v106) = ReadP.val_main_v106 (F := F) x0 x1 x2 x3 x4 x5) :
    after (tail129 (F := F)) V (Proc.devRef .tc main_v200) = ReadP.val_main_v200 (F := F) x0 x1 x2 x3 x4 x5 x6 x7 x8 x9 := by
  unfold tail129
  rw [after_cons]
  refine spec130 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result_ne]; exact h_v104; decide
  · rw [binary_result, h_arg0, h_v106]; rfl

theorem spec128 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5)
    (h_v105 : V (Proc.devRef .tc main_v105) = ReadP.val_main_v105 (F := F) x0 x1 x2 x3 x4 x5) :
    after (tail128 (F := F)) V (Proc.devRef .tc main_v200) = ReadP.val_main_v200 (F := F) x0 x1 x2 x3 x4 x5 x6 x7 x8 x9 := by
  unfold tail128
  rw [after_cons]
  refine spec129 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result, h_v105]; rfl

theorem spec127 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v104 : V (Proc.devRef .tc main_v104) = ReadP.val_main_v104 (F := F) x0 x1 x2 x3 x4 x5) :
    after (tail127 (F := F)) V (Proc.devRef .tc main_v200) = ReadP.val_main_v200 (F := F) x0 x1 x2 x3 x4 x5 x6 x7 x8 x9 := by
  unfold tail127
  rw [after_cons]
  refine spec128 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result_ne]; exact h_v104; decide
  · rw [unary_result, h_v104]; rfl

theorem spec126 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v103 : V (Proc.devRef .tc main_v103) = ReadP.val_main_v103 (F := F) x0 x1 x2 x3 x4 x5)
    (h_v99 : V (Proc.devRef .tc main_v99) = ReadP.val_main_v99 (F := F) x0 x1 x2 x3 x4 x5) :
    after (tail126 (F := F)) V (Proc.devRef .tc main_v200) = ReadP.val_main_v200 (F := F) x0 x1 x2 x3 x4 x5 x6 x7 x8 x9 := by
  unfold tail126
  rw [after_cons]
  refine spec127 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v102; decide
  · rw [binary_result, h_v99, h_v103]; rfl

theorem spec125 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v102 : V (Proc.devRef .tc main_v102) = ReadP.val_main_v102 (F := F) x0 x1 x2 x3 x4 x5)
    (h_v99 : V (Proc.devRef .tc main_v99) = ReadP.val_main_v99 (F := F) x0 x1 x2 x3 x4 x5) :
    after (tail125 (F := F)) V (Proc.devRef .tc main_v200) = ReadP.val_main_v200 (F := F) x0 x1 x2 x3 x4 x5 x6 x7 x8 x9 := by
  unfold tail125
  rw [after_cons]
  refine spec126 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v102; decide
  · rw [unary_result, h_v102]; rfl
  · rw [unary_result_ne]; exact h_v99; decide

theorem spec124 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v100 : V (Proc.devRef .tc main_v100) = ReadP.val_main_v100 (F := F) x0 x1 x2 x3 x4 x5)
    (h_v101 : V (Proc.devRef .tc main_v101) = ReadP.val_main_v101 (F := F) x0 x1 x2 x3 x4 x5)
    (h_v99 : V (Proc.devRef .tc main_v99) = ReadP.val_main_v99 (F := F) x0 x1 x2 x3 x4 x5) :
    after (tail124 (F := F)) V (Proc.devRef .tc main_v200) = ReadP.val_main_v200 (F := F) x0 x1 x2 x3 x4 x5 x6 x7 x8 x9 := by
  unfold tail124
  rw [after_cons]
  refine spec125 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result, h_v100, h_v101]; rfl
  · rw [binary_result_ne]; exact h_v99; decide

theorem spec123 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v100 : V (Proc.devRef .tc main_v100) = ReadP.val_main_v100 (F := F) x0 x1 x2 x3 x4 x5)
    (h_v86 : V (Proc.devRef .tc main_v86) = ReadP.val_main_v86 (F := F) x0 x1 x2 x3 x4 x5)
    (h_v93 : V (Proc.devRef .tc main_v93) = ReadP.val_main_v93 (F := F) x0 x1 x2 x3 x4 x5)
    (h_v99 : V (Proc.devRef .tc main_v99) = ReadP.val_main_v99 (F := F) x0 x1 x2 x3 x4 x5) :
    after (tail123 (F := F)) V (Proc.devRef .tc main_v200) = ReadP.val_main_v200 (F := F) x0 x1 x2 x3 x4 x5 x6 x7 x8 x9 := by
  unfold tail123
  rw [after_cons]
  refine spec124 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v100; decide
  · rw [binary_result, h_v86, h_v93]; rfl
  · rw [binary_result_ne]; exact h_v99; decide

theorem spec122 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v99 : V (Proc.devRef .tc main_v99) = ReadP.val_main_v99 (F := F) x0 x1 x2 x3 x4 x5) :
    after (tail122 (F := F)) V (Proc.devRef .tc main_v200) = ReadP.val_main_v200 (F := F) x0 x1 x2 x3 x4 x5 x6 x7 x8 x9 := by
  unfold tail122
  rw [after_cons]
  refine spec123 x0 x1 x2 x3 x4 x5 x6 x7 x8 x9 _ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result, h_v92, h_v40]; rfl
  · rw [binary_result_ne]; exact h_v86; decide
  · rw [binary_result_ne]; exact h_v93; decide
  · rw [binary_result_ne]; exact h_v99; decide

theorem spec121 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v97 : V (Proc.devRef .tc main_v97) = ReadP.val_main_v97 (F := F) x0 x1 x2 x3 x4 x5)
    (h_v98 : V (Proc.devRef .tc main_v98) = ReadP.val_main_v98 (F := F)) :
    after (tail121 (F := F)) V (Proc.devRef .tc main_v200) = ReadP.val_main_v200 (F := F) x0 x1 x2 x3 x4 x5 x6 x7 x8 x9 := by
  unfold tail121
  rw [after_cons]
  refine spec122 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v86; decide
  · rw [binary_result_ne]; exact h_v92; decide
  · rw [binary_result_ne]; exact h_v93; decide
  · rw [binary_result, h_v98, h_v97]; rfl

theorem spec120 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_18 : V (Proc.devRef .tc main_cst_18) = ReadP.val_main_cst_18 (F := F))
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v97 : V (Proc.devRef .tc main_v97) = ReadP.val_main_v97 (F := F) x0 x1 x2 x3 x4 x5) :
    after (tail120 (F := F)) V (Proc.devRef .tc main_v200) = ReadP.val_main_v200 (F := F) x0 x1 x2 x3 x4 x5 x6 x7 x8 x9 := by
  unfold tail120
  rw [after_cons]
  refine spec121 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v86; decide
  · rw [unary_result_ne]; exact h_v92; decide
  · rw [unary_result_ne]; exact h_v93; decide
  · rw [unary_result_ne]; exact h_v97; decide
  · rw [unary_result, h_cst_18]; rfl

theorem spec119 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v97 : V (Proc.devRef .tc main_v97) = ReadP.val_main_v97 (F := F) x0 x1 x2 x3 x4 x5) :
    after (tail119 (F := F)) V (Proc.devRef .tc main_v200) = ReadP.val_main_v200 (F := F) x0 x1 x2 x3 x4 x5 x6 x7 x8 x9 := by
  unfold tail119
  rw [after_cons]
  refine spec120 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v86; decide
  · rw [nullary_result_ne]; exact h_v92; decide
  · rw [nullary_result_ne]; exact h_v93; decide
  · rw [nullary_result_ne]; exact h_v97; decide

theorem spec118 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v95 : V (Proc.devRef .tc main_v95) = ReadP.val_main_v95 (F := F) x0 x1 x2 x3 x4 x5)
    (h_v96 : V (Proc.devRef .tc main_v96) = ReadP.val_main_v96 (F := F)) :
    after (tail118 (F := F)) V (Proc.devRef .tc main_v200) = ReadP.val_main_v200 (F := F) x0 x1 x2 x3 x4 x5 x6 x7 x8 x9 := by
  unfold tail118
  rw [after_cons]
  refine spec119 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v86; decide
  · rw [binary_result_ne]; exact h_v92; decide
  · rw [binary_result_ne]; exact h_v93; decide
  · rw [binary_result, h_v96, h_v95]; rfl

theorem spec117 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_17 : V (Proc.devRef .tc main_cst_17) = ReadP.val_main_cst_17 (F := F))
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v95 : V (Proc.devRef .tc main_v95) = ReadP.val_main_v95 (F := F) x0 x1 x2 x3 x4 x5) :
    after (tail117 (F := F)) V (Proc.devRef .tc main_v200) = ReadP.val_main_v200 (F := F) x0 x1 x2 x3 x4 x5 x6 x7 x8 x9 := by
  unfold tail117
  rw [after_cons]
  refine spec118 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v86; decide
  · rw [unary_result_ne]; exact h_v92; decide
  · rw [unary_result_ne]; exact h_v93; decide
  · rw [unary_result_ne]; exact h_v95; decide
  · rw [unary_result, h_cst_17]; rfl

theorem spec116 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v95 : V (Proc.devRef .tc main_v95) = ReadP.val_main_v95 (F := F) x0 x1 x2 x3 x4 x5) :
    after (tail116 (F := F)) V (Proc.devRef .tc main_v200) = ReadP.val_main_v200 (F := F) x0 x1 x2 x3 x4 x5 x6 x7 x8 x9 := by
  unfold tail116
  rw [after_cons]
  refine spec117 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v86; decide
  · rw [nullary_result_ne]; exact h_v92; decide
  · rw [nullary_result_ne]; exact h_v93; decide
  · rw [nullary_result_ne]; exact h_v95; decide

theorem spec115 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5)
    (h_v94 : V (Proc.devRef .tc main_v94) = ReadP.val_main_v94 (F := F) x0 x1 x2 x3 x4 x5) :
    after (tail115 (F := F)) V (Proc.devRef .tc main_v200) = ReadP.val_main_v200 (F := F) x0 x1 x2 x3 x4 x5 x6 x7 x8 x9 := by
  unfold tail115
  rw [after_cons]
  refine spec116 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v86; decide
  · rw [unary_result_ne]; exact h_v92; decide
  · rw [unary_result_ne]; exact h_v93; decide
  · rw [unary_result, h_v94]; rfl

theorem spec114 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5)
    (h_v93 : V (Proc.devRef .tc main_v93) = ReadP.val_main_v93 (F := F) x0 x1 x2 x3 x4 x5) :
    after (tail114 (F := F)) V (Proc.devRef .tc main_v200) = ReadP.val_main_v200 (F := F) x0 x1 x2 x3 x4 x5 x6 x7 x8 x9 := by
  unfold tail114
  rw [after_cons]
  refine spec115 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v86; decide
  · rw [unary_result_ne]; exact h_v92; decide
  · rw [unary_result_ne]; exact h_v93; decide
  · rw [unary_result, h_v80]; rfl

theorem spec113 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v92 : V (Proc.devRef .tc main_v92) = ReadP.val_main_v92 (F := F) x0 x1 x2 x3 x4 x5) :
    after (tail113 (F := F)) V (Proc.devRef .tc main_v200) = ReadP.val_main_v200 (F := F) x0 x1 x2 x3 x4 x5 x6 x7 x8 x9 := by
  unfold tail113
  rw [after_cons]
  refine spec114 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v80; decide
  · rw [unary_result_ne]; exact h_v86; decide
  · rw [unary_result_ne]; exact h_v92; decide
  · rw [unary_result, h_v79]; rfl

theorem spec112 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v90 : V (Proc.devRef .tc main_v90) = ReadP.val_main_v90 (F := F) x0 x1 x2 x3 x4 x5)
    (h_v91 : V (Proc.devRef .tc main_v91) = ReadP.val_main_v91 (F := F)) :
    after (tail112 (F := F)) V (Proc.devRef .tc main_v200) = ReadP.val_main_v200 (F := F) x0 x1 x2 x3 x4 x5 x6 x7 x8 x9 := by
  unfold tail112
  rw [after_cons]
  refine spec113 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v79; decide
  · rw [binary_result_ne]; exact h_v80; decide
  · rw [binary_result_ne]; exact h_v86; decide
  · rw [binary_result, h_v91, h_v90]; rfl

theorem spec111 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_16 : V (Proc.devRef .tc main_cst_16) = ReadP.val_main_cst_16 (F := F))
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v90 : V (Proc.devRef .tc main_v90) = ReadP.val_main_v90 (F := F) x0 x1 x2 x3 x4 x5) :
    after (tail111 (F := F)) V (Proc.devRef .tc main_v200) = ReadP.val_main_v200 (F := F) x0 x1 x2 x3 x4 x5 x6 x7 x8 x9 := by
  unfold tail111
  rw [after_cons]
  refine spec112 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v79; decide
  · rw [unary_result_ne]; exact h_v80; decide
  · rw [unary_result_ne]; exact h_v86; decide
  · rw [unary_result_ne]; exact h_v90; decide
  · rw [unary_result, h_cst_16]; rfl

theorem spec110 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v90 : V (Proc.devRef .tc main_v90) = ReadP.val_main_v90 (F := F) x0 x1 x2 x3 x4 x5) :
    after (tail110 (F := F)) V (Proc.devRef .tc main_v200) = ReadP.val_main_v200 (F := F) x0 x1 x2 x3 x4 x5 x6 x7 x8 x9 := by
  unfold tail110
  rw [after_cons]
  refine spec111 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v79; decide
  · rw [nullary_result_ne]; exact h_v80; decide
  · rw [nullary_result_ne]; exact h_v86; decide
  · rw [nullary_result_ne]; exact h_v90; decide

theorem spec109 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v88 : V (Proc.devRef .tc main_v88) = ReadP.val_main_v88 (F := F) x0 x1 x2 x3 x4 x5)
    (h_v89 : V (Proc.devRef .tc main_v89) = ReadP.val_main_v89 (F := F)) :
    after (tail109 (F := F)) V (Proc.devRef .tc main_v200) = ReadP.val_main_v200 (F := F) x0 x1 x2 x3 x4 x5 x6 x7 x8 x9 := by
  unfold tail109
  rw [after_cons]
  refine spec110 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v79; decide
  · rw [binary_result_ne]; exact h_v80; decide
  · rw [binary_result_ne]; exact h_v86; decide
  · rw [binary_result, h_v89, h_v88]; rfl

theorem spec108 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_15 : V (Proc.devRef .tc main_cst_15) = ReadP.val_main_cst_15 (F := F))
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v88 : V (Proc.devRef .tc main_v88) = ReadP.val_main_v88 (F := F) x0 x1 x2 x3 x4 x5) :
    after (tail108 (F := F)) V (Proc.devRef .tc main_v200) = ReadP.val_main_v200 (F := F) x0 x1 x2 x3 x4 x5 x6 x7 x8 x9 := by
  unfold tail108
  rw [after_cons]
  refine spec109 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v79; decide
  · rw [unary_result_ne]; exact h_v80; decide
  · rw [unary_result_ne]; exact h_v86; decide
  · rw [unary_result_ne]; exact h_v88; decide
  · rw [unary_result, h_cst_15]; rfl

theorem spec107 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v88 : V (Proc.devRef .tc main_v88) = ReadP.val_main_v88 (F := F) x0 x1 x2 x3 x4 x5) :
    after (tail107 (F := F)) V (Proc.devRef .tc main_v200) = ReadP.val_main_v200 (F := F) x0 x1 x2 x3 x4 x5 x6 x7 x8 x9 := by
  unfold tail107
  rw [after_cons]
  refine spec108 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v79; decide
  · rw [nullary_result_ne]; exact h_v80; decide
  · rw [nullary_result_ne]; exact h_v86; decide
  · rw [nullary_result_ne]; exact h_v88; decide

theorem spec106 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5)
    (h_v87 : V (Proc.devRef .tc main_v87) = ReadP.val_main_v87 (F := F) x0 x1 x2 x3 x4 x5) :
    after (tail106 (F := F)) V (Proc.devRef .tc main_v200) = ReadP.val_main_v200 (F := F) x0 x1 x2 x3 x4 x5 x6 x7 x8 x9 := by
  unfold tail106
  rw [after_cons]
  refine spec107 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v79; decide
  · rw [unary_result_ne]; exact h_v80; decide
  · rw [unary_result_ne]; exact h_v86; decide
  · rw [unary_result, h_v87]; rfl

theorem spec105 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v86 : V (Proc.devRef .tc main_v86) = ReadP.val_main_v86 (F := F) x0 x1 x2 x3 x4 x5) :
    after (tail105 (F := F)) V (Proc.devRef .tc main_v200) = ReadP.val_main_v200 (F := F) x0 x1 x2 x3 x4 x5 x6 x7 x8 x9 := by
  unfold tail105
  rw [after_cons]
  refine spec106 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v79; decide
  · rw [unary_result_ne]; exact h_v80; decide
  · rw [unary_result_ne]; exact h_v86; decide
  · rw [unary_result, h_v78]; rfl

theorem spec104 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v84 : V (Proc.devRef .tc main_v84) = ReadP.val_main_v84 (F := F) x0 x1 x2 x3 x4 x5)
    (h_v85 : V (Proc.devRef .tc main_v85) = ReadP.val_main_v85 (F := F)) :
    after (tail104 (F := F)) V (Proc.devRef .tc main_v200) = ReadP.val_main_v200 (F := F) x0 x1 x2 x3 x4 x5 x6 x7 x8 x9 := by
  unfold tail104
  rw [after_cons]
  refine spec105 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v78; decide
  · rw [binary_result_ne]; exact h_v79; decide
  · rw [binary_result_ne]; exact h_v80; decide
  · rw [binary_result, h_v85, h_v84]; rfl

theorem spec103 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_14 : V (Proc.devRef .tc main_cst_14) = ReadP.val_main_cst_14 (F := F))
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v84 : V (Proc.devRef .tc main_v84) = ReadP.val_main_v84 (F := F) x0 x1 x2 x3 x4 x5) :
    after (tail103 (F := F)) V (Proc.devRef .tc main_v200) = ReadP.val_main_v200 (F := F) x0 x1 x2 x3 x4 x5 x6 x7 x8 x9 := by
  unfold tail103
  rw [after_cons]
  refine spec104 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v78; decide
  · rw [unary_result_ne]; exact h_v79; decide
  · rw [unary_result_ne]; exact h_v80; decide
  · rw [unary_result_ne]; exact h_v84; decide
  · rw [unary_result, h_cst_14]; rfl

theorem spec102 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v84 : V (Proc.devRef .tc main_v84) = ReadP.val_main_v84 (F := F) x0 x1 x2 x3 x4 x5) :
    after (tail102 (F := F)) V (Proc.devRef .tc main_v200) = ReadP.val_main_v200 (F := F) x0 x1 x2 x3 x4 x5 x6 x7 x8 x9 := by
  unfold tail102
  rw [after_cons]
  refine spec103 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v78; decide
  · rw [nullary_result_ne]; exact h_v79; decide
  · rw [nullary_result_ne]; exact h_v80; decide
  · rw [nullary_result_ne]; exact h_v84; decide

theorem spec101 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v82 : V (Proc.devRef .tc main_v82) = ReadP.val_main_v82 (F := F) x0 x1 x2 x3 x4 x5)
    (h_v83 : V (Proc.devRef .tc main_v83) = ReadP.val_main_v83 (F := F)) :
    after (tail101 (F := F)) V (Proc.devRef .tc main_v200) = ReadP.val_main_v200 (F := F) x0 x1 x2 x3 x4 x5 x6 x7 x8 x9 := by
  unfold tail101
  rw [after_cons]
  refine spec102 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v78; decide
  · rw [binary_result_ne]; exact h_v79; decide
  · rw [binary_result_ne]; exact h_v80; decide
  · rw [binary_result, h_v83, h_v82]; rfl

theorem spec100 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_13 : V (Proc.devRef .tc main_cst_13) = ReadP.val_main_cst_13 (F := F))
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v82 : V (Proc.devRef .tc main_v82) = ReadP.val_main_v82 (F := F) x0 x1 x2 x3 x4 x5) :
    after (tail100 (F := F)) V (Proc.devRef .tc main_v200) = ReadP.val_main_v200 (F := F) x0 x1 x2 x3 x4 x5 x6 x7 x8 x9 := by
  unfold tail100
  rw [after_cons]
  refine spec101 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v78; decide
  · rw [unary_result_ne]; exact h_v79; decide
  · rw [unary_result_ne]; exact h_v80; decide
  · rw [unary_result_ne]; exact h_v82; decide
  · rw [unary_result, h_cst_13]; rfl

theorem spec99 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v82 : V (Proc.devRef .tc main_v82) = ReadP.val_main_v82 (F := F) x0 x1 x2 x3 x4 x5) :
    after (tail99 (F := F)) V (Proc.devRef .tc main_v200) = ReadP.val_main_v200 (F := F) x0 x1 x2 x3 x4 x5 x6 x7 x8 x9 := by
  unfold tail99
  rw [after_cons]
  refine spec100 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v78; decide
  · rw [nullary_result_ne]; exact h_v79; decide
  · rw [nullary_result_ne]; exact h_v80; decide
  · rw [nullary_result_ne]; exact h_v82; decide

theorem spec98 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5)
    (h_v81 : V (Proc.devRef .tc main_v81) = ReadP.val_main_v81 (F := F) x0 x1 x2 x3 x4 x5) :
    after (tail98 (F := F)) V (Proc.devRef .tc main_v200) = ReadP.val_main_v200 (F := F) x0 x1 x2 x3 x4 x5 x6 x7 x8 x9 := by
  unfold tail98
  rw [after_cons]
  refine spec99 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v78; decide
  · rw [unary_result_ne]; exact h_v79; decide
  · rw [unary_result_ne]; exact h_v80; decide
  · rw [unary_result, h_v81]; rfl

theorem spec97 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v77 : V (Proc.devRef .tc main_v77) = ReadP.val_main_v77 (F := F) x0 x1 x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5)
    (h_v80 : V (Proc.devRef .tc main_v80) = ReadP.val_main_v80 (F := F) x0 x1 x2 x3 x4 x5) :
    after (tail97 (F := F)) V (Proc.devRef .tc main_v200) = ReadP.val_main_v200 (F := F) x0 x1 x2 x3 x4 x5 x6 x7 x8 x9 := by
  unfold tail97
  rw [after_cons]
  refine spec98 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v78; decide
  · rw [unary_result_ne]; exact h_v79; decide
  · rw [unary_result_ne]; exact h_v80; decide
  · rw [unary_result, h_v77]; rfl

theorem spec96 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v76 : V (Proc.devRef .tc main_v76) = ReadP.val_main_v76 (F := F) x0 x1 x2 x3 x4 x5)
    (h_v77 : V (Proc.devRef .tc main_v77) = ReadP.val_main_v77 (F := F) x0 x1 x2 x3 x4 x5)
    (h_v78 : V (Proc.devRef .tc main_v78) = ReadP.val_main_v78 (F := F) x0 x1 x2 x3 x4 x5)
    (h_v79 : V (Proc.devRef .tc main_v79) = ReadP.val_main_v79 (F := F) x0 x1 x2 x3 x4 x5) :
    after (tail96 (F := F)) V (Proc.devRef .tc main_v200) = ReadP.val_main_v200 (F := F) x0 x1 x2 x3 x4 x5 x6 x7 x8 x9 := by
  unfold tail96
  rw [after_cons]
  refine spec97 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v77; decide
  · rw [unary_result_ne]; exact h_v78; decide
  · rw [unary_result_ne]; exact h_v79; decide
  · rw [unary_result, h_v76]; rfl

theorem spec95 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v76 : V (Proc.devRef .tc main_v76) = ReadP.val_main_v76 (F := F) x0 x1 x2 x3 x4 x5)
    (h_v77 : V (Proc.devRef .tc main_v77) = ReadP.val_main_v77 (F := F) x0 x1 x2 x3 x4 x5)
    (h_v78 : V (Proc.devRef .tc main_v78) = ReadP.val_main_v78 (F := F) x0 x1 x2 x3 x4 x5) :
    after (tail95 (F := F)) V (Proc.devRef .tc main_v200) = ReadP.val_main_v200 (F := F) x0 x1 x2 x3 x4 x5 x6 x7 x8 x9 := by
  unfold tail95
  rw [after_cons]
  refine spec96 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v76; decide
  · rw [unary_result_ne]; exact h_v77; decide
  · rw [unary_result_ne]; exact h_v78; decide
  · rw [unary_result, h_v76]; rfl

theorem spec94 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v76 : V (Proc.devRef .tc main_v76) = ReadP.val_main_v76 (F := F) x0 x1 x2 x3 x4 x5)
    (h_v77 : V (Proc.devRef .tc main_v77) = ReadP.val_main_v77 (F := F) x0 x1 x2 x3 x4 x5) :
    after (tail94 (F := F)) V (Proc.devRef .tc main_v200) = ReadP.val_main_v200 (F := F) x0 x1 x2 x3 x4 x5 x6 x7 x8 x9 := by
  unfold tail94
  rw [after_cons]
  refine spec95 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v76; decide
  · rw [unary_result_ne]; exact h_v77; decide
  · rw [unary_result, h_v76]; rfl

theorem spec93 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v76 : V (Proc.devRef .tc main_v76) = ReadP.val_main_v76 (F := F) x0 x1 x2 x3 x4 x5) :
    after (tail93 (F := F)) V (Proc.devRef .tc main_v200) = ReadP.val_main_v200 (F := F) x0 x1 x2 x3 x4 x5 x6 x7 x8 x9 := by
  unfold tail93
  rw [after_cons]
  refine spec94 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v76; decide
  · rw [unary_result, h_v76]; rfl

theorem spec92 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v73 : V (Proc.devRef .tc main_v73) = ReadP.val_main_v73 (F := F) x0 x1 x2 x3 x4 x5)
    (h_v75 : V (Proc.devRef .tc main_v75) = ReadP.val_main_v75 (F := F) x5) :
    after (tail92 (F := F)) V (Proc.devRef .tc main_v200) = ReadP.val_main_v200 (F := F) x0 x1 x2 x3 x4 x5 x6 x7 x8 x9 := by
  unfold tail92
  rw [after_cons]
  refine spec93 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result, h_v73, h_v75]; rfl

theorem spec91 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v73 : V (Proc.devRef .tc main_v73) = ReadP.val_main_v73 (F := F) x0 x1 x2 x3 x4 x5)
    (h_v74 : V (Proc.devRef .tc main_v74) = ReadP.val_main_v74 (F := F) x5) :
    after (tail91 (F := F)) V (Proc.devRef .tc main_v200) = ReadP.val_main_v200 (F := F) x0 x1 x2 x3 x4 x5 x6 x7 x8 x9 := by
  unfold tail91
  rw [after_cons]
  refine spec92 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v73; decide
  · rw [unary_result, h_v74]; rfl

theorem spec90 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v73 : V (Proc.devRef .tc main_v73) = ReadP.val_main_v73 (F := F) x0 x1 x2 x3 x4 x5) :
    after (tail90 (F := F)) V (Proc.devRef .tc main_v200) = ReadP.val_main_v200 (F := F) x0 x1 x2 x3 x4 x5 x6 x7 x8 x9 := by
  unfold tail90
  rw [after_cons]
  refine spec91 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v73; decide
  · rw [unary_result, h_arg5]; rfl

theorem spec89 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v70 : V (Proc.devRef .tc main_v70) = ReadP.val_main_v70 (F := F) x0 x1 x2 x3 x4 x5)
    (h_v72 : V (Proc.devRef .tc main_v72) = ReadP.val_main_v72 (F := F) x2 x3 x4 x5) :
    after (tail89 (F := F)) V (Proc.devRef .tc main_v200) = ReadP.val_main_v200 (F := F) x0 x1 x2 x3 x4 x5 x6 x7 x8 x9 := by
  unfold tail89
  rw [after_cons]
  refine spec90 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result, h_v70, h_v72]; rfl

theorem spec88 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v70 : V (Proc.devRef .tc main_v70) = ReadP.val_main_v70 (F := F) x0 x1 x2 x3 x4 x5)
    (h_v71 : V (Proc.devRef .tc main_v71) = ReadP.val_main_v71 (F := F) x3) :
    after (tail88 (F := F)) V (Proc.devRef .tc main_v200) = ReadP.val_main_v200 (F := F) x0 x1 x2 x3 x4 x5 x6 x7 x8 x9 := by
  unfold tail88
  rw [after_cons]
  refine spec89 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v70; decide
  · rw [binary_result, h_v42, h_v71]; rfl

theorem spec87 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v70 : V (Proc.devRef .tc main_v70) = ReadP.val_main_v70 (F := F) x0 x1 x2 x3 x4 x5) :
    after (tail87 (F := F)) V (Proc.devRef .tc main_v200) = ReadP.val_main_v200 (F := F) x0 x1 x2 x3 x4 x5 x6 x7 x8 x9 := by
  unfold tail87
  rw [after_cons]
  refine spec88 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v70; decide
  · rw [unary_result, h_arg3]; rfl

theorem spec86 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v67 : V (Proc.devRef .tc main_v67) = ReadP.val_main_v67 (F := F) x0 x1 x2 x3 x4 x5)
    (h_v69 : V (Proc.devRef .tc main_v69) = ReadP.val_main_v69 (F := F) x4) :
    after (tail86 (F := F)) V (Proc.devRef .tc main_v200) = ReadP.val_main_v200 (F := F) x0 x1 x2 x3 x4 x5 x6 x7 x8 x9 := by
  unfold tail86
  rw [after_cons]
  refine spec87 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v67, h_v69]; rfl

theorem spec85 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v67 : V (Proc.devRef .tc main_v67) = ReadP.val_main_v67 (F := F) x0 x1 x2 x3 x4 x5)
    (h_v68 : V (Proc.devRef .tc main_v68) = ReadP.val_main_v68 (F := F) x4) :
    after (tail85 (F := F)) V (Proc.devRef .tc main_v200) = ReadP.val_main_v200 (F := F) x0 x1 x2 x3 x4 x5 x6 x7 x8 x9 := by
  unfold tail85
  rw [after_cons]
  refine spec86 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v67; decide
  · rw [unary_result, h_v68]; rfl

theorem spec84 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v67 : V (Proc.devRef .tc main_v67) = ReadP.val_main_v67 (F := F) x0 x1 x2 x3 x4 x5) :
    after (tail84 (F := F)) V (Proc.devRef .tc main_v200) = ReadP.val_main_v200 (F := F) x0 x1 x2 x3 x4 x5 x6 x7 x8 x9 := by
  unfold tail84
  rw [after_cons]
  refine spec85 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v67; decide
  · rw [unary_result, h_arg4]; rfl

theorem spec83 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v65 : V (Proc.devRef .tc main_v65) = ReadP.val_main_v65 (F := F) x0 x1 x2 x3 x4 x5)
    (h_v66 : V (Proc.devRef .tc main_v66) = ReadP.val_main_v66 (F := F) x2) :
    after (tail83 (F := F)) V (Proc.devRef .tc main_v200) = ReadP.val_main_v200 (F := F) x0 x1 x2 x3 x4 x5 x6 x7 x8 x9 := by
  unfold tail83
  rw [after_cons]
  refine spec84 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v65, h_v66]; rfl

theorem spec82 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v65 : V (Proc.devRef .tc main_v65) = ReadP.val_main_v65 (F := F) x0 x1 x2 x3 x4 x5) :
    after (tail82 (F := F)) V (Proc.devRef .tc main_v200) = ReadP.val_main_v200 (F := F) x0 x1 x2 x3 x4 x5 x6 x7 x8 x9 := by
  unfold tail82
  rw [after_cons]
  refine spec83 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v65; decide
  · rw [unary_result, h_arg2]; rfl

theorem spec81 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v64 : V (Proc.devRef .tc main_v64) = ReadP.val_main_v64 (F := F) x0 x1 x2 x3 x4 x5) :
    after (tail81 (F := F)) V (Proc.devRef .tc main_v200) = ReadP.val_main_v200 (F := F) x0 x1 x2 x3 x4 x5 x6 x7 x8 x9 := by
  unfold tail81
  rw [after_cons]
  refine spec82 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v42, h_v64]; rfl

theorem spec80 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_12 : V (Proc.devRef .tc main_cst_12) = ReadP.val_main_cst_12 (F := F))
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v63 : V (Proc.devRef .tc main_v63) = ReadP.val_main_v63 (F := F) x0 x1 x2 x3 x4 x5) :
    after (tail80 (F := F)) V (Proc.devRef .tc main_v200) = ReadP.val_main_v200 (F := F) x0 x1 x2 x3 x4 x5 x6 x7 x8 x9 := by
  unfold tail80
  rw [after_cons]
  refine spec81 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v63, h_cst_12]; rfl

theorem spec79 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v63 : V (Proc.devRef .tc main_v63) = ReadP.val_main_v63 (F := F) x0 x1 x2 x3 x4 x5) :
    after (tail79 (F := F)) V (Proc.devRef .tc main_v200) = ReadP.val_main_v200 (F := F) x0 x1 x2 x3 x4 x5 x6 x7 x8 x9 := by
  unfold tail79
  rw [after_cons]
  refine spec80 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v42; decide
  · rw [nullary_result_ne]; exact h_v63; decide

theorem spec78 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v60 : V (Proc.devRef .tc main_v60) = ReadP.val_main_v60 (F := F) x0 x1 x2 x3 x4 x5)
    (h_v62 : V (Proc.devRef .tc main_v62) = ReadP.val_main_v62 (F := F) x1) :
    after (tail78 (F := F)) V (Proc.devRef .tc main_v200) = ReadP.val_main_v200 (F := F) x0 x1 x2 x3 x4 x5 x6 x7 x8 x9 := by
  unfold tail78
  rw [after_cons]
  refine spec79 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v60, h_v62]; rfl

theorem spec77 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v60 : V (Proc.devRef .tc main_v60) = ReadP.val_main_v60 (F := F) x0 x1 x2 x3 x4 x5)
    (h_v61 : V (Proc.devRef .tc main_v61) = ReadP.val_main_v61 (F := F) x1) :
    after (tail77 (F := F)) V (Proc.devRef .tc main_v200) = ReadP.val_main_v200 (F := F) x0 x1 x2 x3 x4 x5 x6 x7 x8 x9 := by
  unfold tail77
  rw [after_cons]
  refine spec78 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v60; decide
  · rw [unary_result, h_v61]; rfl

theorem spec76 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v60 : V (Proc.devRef .tc main_v60) = ReadP.val_main_v60 (F := F) x0 x1 x2 x3 x4 x5) :
    after (tail76 (F := F)) V (Proc.devRef .tc main_v200) = ReadP.val_main_v200 (F := F) x0 x1 x2 x3 x4 x5 x6 x7 x8 x9 := by
  unfold tail76
  rw [after_cons]
  refine spec77 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v60; decide
  · rw [unary_result, h_v0]; rfl

theorem spec75 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v59 : V (Proc.devRef .tc main_v59) = ReadP.val_main_v59 (F := F) x0 x1 x2 x3 x4 x5) :
    after (tail75 (F := F)) V (Proc.devRef .tc main_v200) = ReadP.val_main_v200 (F := F) x0 x1 x2 x3 x4 x5 x6 x7 x8 x9 := by
  unfold tail75
  rw [after_cons]
  refine spec76 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v59, h_arg0]; rfl

theorem spec74 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v58 : V (Proc.devRef .tc main_v58) = ReadP.val_main_v58 (F := F) x0 x1 x2 x3 x4 x5) :
    after (tail74 (F := F)) V (Proc.devRef .tc main_v200) = ReadP.val_main_v200 (F := F) x0 x1 x2 x3 x4 x5 x6 x7 x8 x9 := by
  unfold tail74
  rw [after_cons]
  refine spec75 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result, h_v58]; rfl

theorem spec73 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v57 : V (Proc.devRef .tc main_v57) = ReadP.val_main_v57 (F := F) x0 x1 x2 x3 x4 x5) :
    after (tail73 (F := F)) V (Proc.devRef .tc main_v200) = ReadP.val_main_v200 (F := F) x0 x1 x2 x3 x4 x5 x6 x7 x8 x9 := by
  unfold tail73
  rw [after_cons]
  refine spec74 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result, h_v57]; rfl

theorem spec72 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v53 : V (Proc.devRef .tc main_v53) = ReadP.val_main_v53 (F := F) x0 x1 x2 x3 x4 x5)
    (h_v56 : V (Proc.devRef .tc main_v56) = ReadP.val_main_v56 (F := F) x0 x1 x2 x3 x4 x5) :
    after (tail72 (F := F)) V (Proc.devRef .tc main_v200) = ReadP.val_main_v200 (F := F) x0 x1 x2 x3 x4 x5 x6 x7 x8 x9 := by
  unfold tail72
  rw [after_cons]
  refine spec73 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v53, h_v56]; rfl

theorem spec71 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v53 : V (Proc.devRef .tc main_v53) = ReadP.val_main_v53 (F := F) x0 x1 x2 x3 x4 x5)
    (h_v55 : V (Proc.devRef .tc main_v55) = ReadP.val_main_v55 (F := F) x0 x1 x2 x3 x4 x5) :
    after (tail71 (F := F)) V (Proc.devRef .tc main_v200) = ReadP.val_main_v200 (F := F) x0 x1 x2 x3 x4 x5 x6 x7 x8 x9 := by
  unfold tail71
  rw [after_cons]
  refine spec72 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v53; decide
  · rw [unary_result, h_v55]; rfl

theorem spec70 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v53 : V (Proc.devRef .tc main_v53) = ReadP.val_main_v53 (F := F) x0 x1 x2 x3 x4 x5)
    (h_v54 : V (Proc.devRef .tc main_v54) = ReadP.val_main_v54 (F := F) x0 x1 x2 x3 x4 x5) :
    after (tail70 (F := F)) V (Proc.devRef .tc main_v200) = ReadP.val_main_v200 (F := F) x0 x1 x2 x3 x4 x5 x6 x7 x8 x9 := by
  unfold tail70
  rw [after_cons]
  refine spec71 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v53; decide
  · rw [unary_result, h_v54]; rfl

theorem spec69 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_11 : V (Proc.devRef .tc main_cst_11) = ReadP.val_main_cst_11 (F := F))
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v53 : V (Proc.devRef .tc main_v53) = ReadP.val_main_v53 (F := F) x0 x1 x2 x3 x4 x5) :
    after (tail69 (F := F)) V (Proc.devRef .tc main_v200) = ReadP.val_main_v200 (F := F) x0 x1 x2 x3 x4 x5 x6 x7 x8 x9 := by
  unfold tail69
  rw [after_cons]
  refine spec70 x0 x1 x2 x3 x4 x5 x6 x7 x8 x9 _ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result_ne]; exact h_v53; decide
  · rw [binary_result, h_v53, h_cst_11]; rfl

theorem spec68 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v53 : V (Proc.devRef .tc main_v53) = ReadP.val_main_v53 (F := F) x0 x1 x2 x3 x4 x5) :
    after (tail68 (F := F)) V (Proc.devRef .tc main_v200) = ReadP.val_main_v200 (F := F) x0 x1 x2 x3 x4 x5 x6 x7 x8 x9 := by
  unfold tail68
  rw [after_cons]
  refine spec69 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v42; decide
  · rw [nullary_result_ne]; exact h_v53; decide

theorem spec67 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v52 : V (Proc.devRef .tc main_v52) = ReadP.val_main_v52 (F := F) x0 x1 x2 x3 x4 x5) :
    after (tail67 (F := F)) V (Proc.devRef .tc main_v200) = ReadP.val_main_v200 (F := F) x0 x1 x2 x3 x4 x5 x6 x7 x8 x9 := by
  unfold tail67
  rw [after_cons]
  refine spec68 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v52, h_v0]; rfl

theorem spec66 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v51 : V (Proc.devRef .tc main_v51) = ReadP.val_main_v51 (F := F) x0 x1 x2 x3 x4 x5) :
    after (tail66 (F := F)) V (Proc.devRef .tc main_v200) = ReadP.val_main_v200 (F := F) x0 x1 x2 x3 x4 x5 x6 x7 x8 x9 := by
  unfold tail66
  rw [after_cons]
  refine spec67 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result, h_v51]; rfl

theorem spec65 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v47 : V (Proc.devRef .tc main_v47) = ReadP.val_main_v47 (F := F) x0 x1 x2 x3 x4 x5)
    (h_v50 : V (Proc.devRef .tc main_v50) = ReadP.val_main_v50 (F := F) x0 x1 x2 x3 x4 x5) :
    after (tail65 (F := F)) V (Proc.devRef .tc main_v200) = ReadP.val_main_v200 (F := F) x0 x1 x2 x3 x4 x5 x6 x7 x8 x9 := by
  unfold tail65
  rw [after_cons]
  refine spec66 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v47, h_v50]; rfl

theorem spec64 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v47 : V (Proc.devRef .tc main_v47) = ReadP.val_main_v47 (F := F) x0 x1 x2 x3 x4 x5)
    (h_v49 : V (Proc.devRef .tc main_v49) = ReadP.val_main_v49 (F := F) x0 x1 x2 x3 x4 x5) :
    after (tail64 (F := F)) V (Proc.devRef .tc main_v200) = ReadP.val_main_v200 (F := F) x0 x1 x2 x3 x4 x5 x6 x7 x8 x9 := by
  unfold tail64
  rw [after_cons]
  refine spec65 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v47; decide
  · rw [unary_result, h_v49]; rfl

theorem spec63 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v47 : V (Proc.devRef .tc main_v47) = ReadP.val_main_v47 (F := F) x0 x1 x2 x3 x4 x5)
    (h_v48 : V (Proc.devRef .tc main_v48) = ReadP.val_main_v48 (F := F) x0 x1 x2 x3 x4 x5) :
    after (tail63 (F := F)) V (Proc.devRef .tc main_v200) = ReadP.val_main_v200 (F := F) x0 x1 x2 x3 x4 x5 x6 x7 x8 x9 := by
  unfold tail63
  rw [after_cons]
  refine spec64 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result_ne]; exact h_v47; decide
  · rw [unary_result, h_v48]; rfl

theorem spec62 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_10 : V (Proc.devRef .tc main_cst_10) = ReadP.val_main_cst_10 (F := F))
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v47 : V (Proc.devRef .tc main_v47) = ReadP.val_main_v47 (F := F) x0 x1 x2 x3 x4 x5) :
    after (tail62 (F := F)) V (Proc.devRef .tc main_v200) = ReadP.val_main_v200 (F := F) x0 x1 x2 x3 x4 x5 x6 x7 x8 x9 := by
  unfold tail62
  rw [after_cons]
  refine spec63 x0 x1 x2 x3 x4 x5 x6 x7 x8 x9 _ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result_ne]; exact h_v47; decide
  · rw [binary_result, h_v47, h_cst_10]; rfl

theorem spec61 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v47 : V (Proc.devRef .tc main_v47) = ReadP.val_main_v47 (F := F) x0 x1 x2 x3 x4 x5) :
    after (tail61 (F := F)) V (Proc.devRef .tc main_v200) = ReadP.val_main_v200 (F := F) x0 x1 x2 x3 x4 x5 x6 x7 x8 x9 := by
  unfold tail61
  rw [after_cons]
  refine spec62 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v42; decide
  · rw [nullary_result_ne]; exact h_v47; decide

theorem spec60 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_call0_v1 : V (Proc.devRef .tc main_call0_v1) = ReadP.val_main_call0_v1 (F := F))
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v46 : V (Proc.devRef .tc main_v46) = ReadP.val_main_v46 (F := F) x0 x2 x3 x4 x5) :
    after (tail60 (F := F)) V (Proc.devRef .tc main_v200) = ReadP.val_main_v200 (F := F) x0 x1 x2 x3 x4 x5 x6 x7 x8 x9 := by
  unfold tail60
  rw [after_cons]
  refine spec61 x0 x1 x2 x3 x4 x5 x6 x7 x8 x9 _ ?_ ?_ ?_ ?_ ?_ ?_ ?_ ?_ ?_ ?_ ?_ ?_ ?_ ?_
  · rw [ternary_result_ne]; exact h_arg0; decide
  · rw [ternary_result_ne]; exact h_arg1; decide
  · rw [ternary_result_ne]; exact h_arg2; decide
  · rw [ternary_result_ne]; exact h_arg3; decide
  · rw [ternary_result_ne]; exact h_arg4; decide
  · rw [ternary_result_ne]; exact h_arg5; decide
  · rw [ternary_result_ne]; exact h_arg6; decide
  · rw [ternary_result_ne]; exact h_arg7; decide
  · rw [ternary_result_ne]; exact h_arg8; decide
  · rw [ternary_result_ne]; exact h_arg9; decide
  · rw [ternary_result_ne]; exact h_v0; decide
  · rw [ternary_result_ne]; exact h_v40; decide
  · rw [ternary_result_ne]; exact h_v42; decide
  · rw [ternary_result, h_arg1, h_v46, h_call0_v1]; rfl

theorem spec59 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_call0_v0 : V (Proc.devRef .tc main_call0_v0) = ReadP.val_main_call0_v0 (F := F))
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v46 : V (Proc.devRef .tc main_v46) = ReadP.val_main_v46 (F := F) x0 x2 x3 x4 x5) :
    after (tail59 (F := F)) V (Proc.devRef .tc main_v200) = ReadP.val_main_v200 (F := F) x0 x1 x2 x3 x4 x5 x6 x7 x8 x9 := by
  unfold tail59
  rw [after_cons]
  refine spec60 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result, h_call0_v0]; rfl
  · rw [unary_result_ne]; exact h_v0; decide
  · rw [unary_result_ne]; exact h_v40; decide
  · rw [unary_result_ne]; exact h_v42; decide
  · rw [unary_result_ne]; exact h_v46; decide

theorem spec58 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_9 : V (Proc.devRef .tc main_cst_9) = ReadP.val_main_cst_9 (F := F))
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v46 : V (Proc.devRef .tc main_v46) = ReadP.val_main_v46 (F := F) x0 x2 x3 x4 x5) :
    after (tail58 (F := F)) V (Proc.devRef .tc main_v200) = ReadP.val_main_v200 (F := F) x0 x1 x2 x3 x4 x5 x6 x7 x8 x9 := by
  unfold tail58
  rw [after_cons]
  refine spec59 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result, h_cst_9]; rfl
  · rw [unary_result_ne]; exact h_v0; decide
  · rw [unary_result_ne]; exact h_v40; decide
  · rw [unary_result_ne]; exact h_v42; decide
  · rw [unary_result_ne]; exact h_v46; decide

theorem spec57 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v46 : V (Proc.devRef .tc main_v46) = ReadP.val_main_v46 (F := F) x0 x2 x3 x4 x5) :
    after (tail57 (F := F)) V (Proc.devRef .tc main_v200) = ReadP.val_main_v200 (F := F) x0 x1 x2 x3 x4 x5 x6 x7 x8 x9 := by
  unfold tail57
  rw [after_cons]
  refine spec58 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v42; decide
  · rw [nullary_result_ne]; exact h_v46; decide

theorem spec56 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_8 : V (Proc.devRef .tc main_cst_8) = ReadP.val_main_cst_8 (F := F))
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v45 : V (Proc.devRef .tc main_v45) = ReadP.val_main_v45 (F := F) x0 x2 x3 x4 x5) :
    after (tail56 (F := F)) V (Proc.devRef .tc main_v200) = ReadP.val_main_v200 (F := F) x0 x1 x2 x3 x4 x5 x6 x7 x8 x9 := by
  unfold tail56
  rw [after_cons]
  refine spec57 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_v45, h_cst_8]; rfl

theorem spec55 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v45 : V (Proc.devRef .tc main_v45) = ReadP.val_main_v45 (F := F) x0 x2 x3 x4 x5) :
    after (tail55 (F := F)) V (Proc.devRef .tc main_v200) = ReadP.val_main_v200 (F := F) x0 x1 x2 x3 x4 x5 x6 x7 x8 x9 := by
  unfold tail55
  rw [after_cons]
  refine spec56 x0 x1 x2 x3 x4 x5 x6 x7 x8 x9 _ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v40; decide
  · rw [nullary_result_ne]; exact h_v42; decide
  · rw [nullary_result_ne]; exact h_v45; decide

theorem spec54 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v44 : V (Proc.devRef .tc main_v44) = ReadP.val_main_v44 (F := F) x2 x3 x4 x5) :
    after (tail54 (F := F)) V (Proc.devRef .tc main_v200) = ReadP.val_main_v200 (F := F) x0 x1 x2 x3 x4 x5 x6 x7 x8 x9 := by
  unfold tail54
  rw [after_cons]
  refine spec55 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result_ne]; exact h_v42; decide
  · rw [binary_result, h_arg0, h_v44]; rfl

theorem spec53 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5)
    (h_v43 : V (Proc.devRef .tc main_v43) = ReadP.val_main_v43 (F := F) x2 x3 x4 x5) :
    after (tail53 (F := F)) V (Proc.devRef .tc main_v200) = ReadP.val_main_v200 (F := F) x0 x1 x2 x3 x4 x5 x6 x7 x8 x9 := by
  unfold tail53
  rw [after_cons]
  refine spec54 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result, h_v43]; rfl

theorem spec52 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v40 : V (Proc.devRef .tc main_v40) = ReadP.val_main_v40 (F := F) x2 x3 x4 x5)
    (h_v42 : V (Proc.devRef .tc main_v42) = ReadP.val_main_v42 (F := F) x2 x3 x4 x5) :
    after (tail52 (F := F)) V (Proc.devRef .tc main_v200) = ReadP.val_main_v200 (F := F) x0 x1 x2 x3 x4 x5 x6 x7 x8 x9 := by
  unfold tail52
  rw [after_cons]
  refine spec53 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v40; decide
  · rw [unary_result_ne]; exact h_v42; decide
  · rw [unary_result, h_v42]; rfl

theorem spec51 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v37 : V (Proc.devRef .tc main_v37) = ReadP.val_main_v37 (F := F) x2 x3 x4 x5)
    (h_v40 : V (Proc.devRef .tc main_v40) = ReadP.val_main_v40 (F := F) x2 x3 x4 x5)
    (h_v41 : V (Proc.devRef .tc main_v41) = ReadP.val_main_v41 (F := F) x2 x3 x4 x5) :
    after (tail51 (F := F)) V (Proc.devRef .tc main_v200) = ReadP.val_main_v200 (F := F) x0 x1 x2 x3 x4 x5 x6 x7 x8 x9 := by
  unfold tail51
  rw [after_cons]
  refine spec52 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v40; decide
  · rw [binary_result, h_v37, h_v41]; rfl

theorem spec50 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v37 : V (Proc.devRef .tc main_v37) = ReadP.val_main_v37 (F := F) x2 x3 x4 x5)
    (h_v40 : V (Proc.devRef .tc main_v40) = ReadP.val_main_v40 (F := F) x2 x3 x4 x5) :
    after (tail50 (F := F)) V (Proc.devRef .tc main_v200) = ReadP.val_main_v200 (F := F) x0 x1 x2 x3 x4 x5 x6 x7 x8 x9 := by
  unfold tail50
  rw [after_cons]
  refine spec51 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v37; decide
  · rw [unary_result_ne]; exact h_v40; decide
  · rw [unary_result, h_v40]; rfl

theorem spec49 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v37 : V (Proc.devRef .tc main_v37) = ReadP.val_main_v37 (F := F) x2 x3 x4 x5)
    (h_v38 : V (Proc.devRef .tc main_v38) = ReadP.val_main_v38 (F := F) x2 x3 x4 x5)
    (h_v39 : V (Proc.devRef .tc main_v39) = ReadP.val_main_v39 (F := F) x2 x3 x4 x5) :
    after (tail49 (F := F)) V (Proc.devRef .tc main_v200) = ReadP.val_main_v200 (F := F) x0 x1 x2 x3 x4 x5 x6 x7 x8 x9 := by
  unfold tail49
  rw [after_cons]
  refine spec50 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v37; decide
  · rw [binary_result, h_v38, h_v39]; rfl

theorem spec48 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v24 : V (Proc.devRef .tc main_v24) = ReadP.val_main_v24 (F := F) x2 x3 x4 x5)
    (h_v31 : V (Proc.devRef .tc main_v31) = ReadP.val_main_v31 (F := F) x2 x3 x4 x5)
    (h_v37 : V (Proc.devRef .tc main_v37) = ReadP.val_main_v37 (F := F) x2 x3 x4 x5)
    (h_v38 : V (Proc.devRef .tc main_v38) = ReadP.val_main_v38 (F := F) x2 x3 x4 x5) :
    after (tail48 (F := F)) V (Proc.devRef .tc main_v200) = ReadP.val_main_v200 (F := F) x0 x1 x2 x3 x4 x5 x6 x7 x8 x9 := by
  unfold tail48
  rw [after_cons]
  refine spec49 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v37; decide
  · rw [binary_result_ne]; exact h_v38; decide
  · rw [binary_result, h_v24, h_v31]; rfl

theorem spec47 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v37 : V (Proc.devRef .tc main_v37) = ReadP.val_main_v37 (F := F) x2 x3 x4 x5) :
    after (tail47 (F := F)) V (Proc.devRef .tc main_v200) = ReadP.val_main_v200 (F := F) x0 x1 x2 x3 x4 x5 x6 x7 x8 x9 := by
  unfold tail47
  rw [after_cons]
  refine spec48 x0 x1 x2 x3 x4 x5 x6 x7 x8 x9 _ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v24; decide
  · rw [binary_result_ne]; exact h_v31; decide
  · rw [binary_result_ne]; exact h_v37; decide
  · rw [binary_result, h_v30, h_v3]; rfl

theorem spec46 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v35 : V (Proc.devRef .tc main_v35) = ReadP.val_main_v35 (F := F) x2 x3 x4 x5)
    (h_v36 : V (Proc.devRef .tc main_v36) = ReadP.val_main_v36 (F := F)) :
    after (tail46 (F := F)) V (Proc.devRef .tc main_v200) = ReadP.val_main_v200 (F := F) x0 x1 x2 x3 x4 x5 x6 x7 x8 x9 := by
  unfold tail46
  rw [after_cons]
  refine spec47 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v24; decide
  · rw [binary_result_ne]; exact h_v3; decide
  · rw [binary_result_ne]; exact h_v30; decide
  · rw [binary_result_ne]; exact h_v31; decide
  · rw [binary_result, h_v36, h_v35]; rfl

theorem spec45 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_7 : V (Proc.devRef .tc main_cst_7) = ReadP.val_main_cst_7 (F := F))
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v35 : V (Proc.devRef .tc main_v35) = ReadP.val_main_v35 (F := F) x2 x3 x4 x5) :
    after (tail45 (F := F)) V (Proc.devRef .tc main_v200) = ReadP.val_main_v200 (F := F) x0 x1 x2 x3 x4 x5 x6 x7 x8 x9 := by
  unfold tail45
  rw [after_cons]
  refine spec46 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v24; decide
  · rw [unary_result_ne]; exact h_v3; decide
  · rw [unary_result_ne]; exact h_v30; decide
  · rw [unary_result_ne]; exact h_v31; decide
  · rw [unary_result_ne]; exact h_v35; decide
  · rw [unary_result, h_cst_7]; rfl

theorem spec44 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v35 : V (Proc.devRef .tc main_v35) = ReadP.val_main_v35 (F := F) x2 x3 x4 x5) :
    after (tail44 (F := F)) V (Proc.devRef .tc main_v200) = ReadP.val_main_v200 (F := F) x0 x1 x2 x3 x4 x5 x6 x7 x8 x9 := by
  unfold tail44
  rw [after_cons]
  refine spec45 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v24; decide
  · rw [nullary_result_ne]; exact h_v3; decide
  · rw [nullary_result_ne]; exact h_v30; decide
  · rw [nullary_result_ne]; exact h_v31; decide
  · rw [nullary_result_ne]; exact h_v35; decide

theorem spec43 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v33 : V (Proc.devRef .tc main_v33) = ReadP.val_main_v33 (F := F) x2 x3 x4 x5)
    (h_v34 : V (Proc.devRef .tc main_v34) = ReadP.val_main_v34 (F := F)) :
    after (tail43 (F := F)) V (Proc.devRef .tc main_v200) = ReadP.val_main_v200 (F := F) x0 x1 x2 x3 x4 x5 x6 x7 x8 x9 := by
  unfold tail43
  rw [after_cons]
  refine spec44 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v24; decide
  · rw [binary_result_ne]; exact h_v3; decide
  · rw [binary_result_ne]; exact h_v30; decide
  · rw [binary_result_ne]; exact h_v31; decide
  · rw [binary_result, h_v34, h_v33]; rfl

theorem spec42 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_6 : V (Proc.devRef .tc main_cst_6) = ReadP.val_main_cst_6 (F := F))
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v33 : V (Proc.devRef .tc main_v33) = ReadP.val_main_v33 (F := F) x2 x3 x4 x5) :
    after (tail42 (F := F)) V (Proc.devRef .tc main_v200) = ReadP.val_main_v200 (F := F) x0 x1 x2 x3 x4 x5 x6 x7 x8 x9 := by
  unfold tail42
  rw [after_cons]
  refine spec43 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v24; decide
  · rw [unary_result_ne]; exact h_v3; decide
  · rw [unary_result_ne]; exact h_v30; decide
  · rw [unary_result_ne]; exact h_v31; decide
  · rw [unary_result_ne]; exact h_v33; decide
  · rw [unary_result, h_cst_6]; rfl

theorem spec41 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v33 : V (Proc.devRef .tc main_v33) = ReadP.val_main_v33 (F := F) x2 x3 x4 x5) :
    after (tail41 (F := F)) V (Proc.devRef .tc main_v200) = ReadP.val_main_v200 (F := F) x0 x1 x2 x3 x4 x5 x6 x7 x8 x9 := by
  unfold tail41
  rw [after_cons]
  refine spec42 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v24; decide
  · rw [nullary_result_ne]; exact h_v3; decide
  · rw [nullary_result_ne]; exact h_v30; decide
  · rw [nullary_result_ne]; exact h_v31; decide
  · rw [nullary_result_ne]; exact h_v33; decide

theorem spec40 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5)
    (h_v32 : V (Proc.devRef .tc main_v32) = ReadP.val_main_v32 (F := F) x2 x3 x4 x5) :
    after (tail40 (F := F)) V (Proc.devRef .tc main_v200) = ReadP.val_main_v200 (F := F) x0 x1 x2 x3 x4 x5 x6 x7 x8 x9 := by
  unfold tail40
  rw [after_cons]
  refine spec41 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v24; decide
  · rw [unary_result_ne]; exact h_v3; decide
  · rw [unary_result_ne]; exact h_v30; decide
  · rw [unary_result_ne]; exact h_v31; decide
  · rw [unary_result, h_v32]; rfl

theorem spec39 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v18 : V (Proc.devRef .tc main_v18) = ReadP.val_main_v18 (F := F) x2 x3 x4 x5)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5)
    (h_v31 : V (Proc.devRef .tc main_v31) = ReadP.val_main_v31 (F := F) x2 x3 x4 x5) :
    after (tail39 (F := F)) V (Proc.devRef .tc main_v200) = ReadP.val_main_v200 (F := F) x0 x1 x2 x3 x4 x5 x6 x7 x8 x9 := by
  unfold tail39
  rw [after_cons]
  refine spec40 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v24; decide
  · rw [unary_result_ne]; exact h_v3; decide
  · rw [unary_result_ne]; exact h_v30; decide
  · rw [unary_result_ne]; exact h_v31; decide
  · rw [unary_result, h_v18]; rfl

theorem spec38 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v3 : V (Proc.devRef .tc main_v3) = ReadP.val_main_v3 (F := F))
    (h_v30 : V (Proc.devRef .tc main_v30) = ReadP.val_main_v30 (F := F) x2 x3 x4 x5) :
    after (tail38 (F := F)) V (Proc.devRef .tc main_v200) = ReadP.val_main_v200 (F := F) x0 x1 x2 x3 x4 x5 x6 x7 x8 x9 := by
  unfold tail38
  rw [after_cons]
  refine spec39 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v18; decide
  · rw [unary_result_ne]; exact h_v24; decide
  · rw [unary_result_ne]; exact h_v3; decide
  · rw [unary_result_ne]; exact h_v30; decide
  · rw [unary_result, h_v17]; rfl

theorem spec37 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v28 : V (Proc.devRef .tc main_v28) = ReadP.val_main_v28 (F := F) x2 x3 x4 x5)
    (h_v29 : V (Proc.devRef .tc main_v29) = ReadP.val_main_v29 (F := F))
    (h_v3 : V (Proc.devRef .tc main_v3) = ReadP.val_main_v3 (F := F)) :
    after (tail37 (F := F)) V (Proc.devRef .tc main_v200) = ReadP.val_main_v200 (F := F) x0 x1 x2 x3 x4 x5 x6 x7 x8 x9 := by
  unfold tail37
  rw [after_cons]
  refine spec38 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v17; decide
  · rw [binary_result_ne]; exact h_v18; decide
  · rw [binary_result_ne]; exact h_v24; decide
  · rw [binary_result_ne]; exact h_v3; decide
  · rw [binary_result, h_v29, h_v28]; rfl

theorem spec36 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_5 : V (Proc.devRef .tc main_cst_5) = ReadP.val_main_cst_5 (F := F))
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v28 : V (Proc.devRef .tc main_v28) = ReadP.val_main_v28 (F := F) x2 x3 x4 x5)
    (h_v3 : V (Proc.devRef .tc main_v3) = ReadP.val_main_v3 (F := F)) :
    after (tail36 (F := F)) V (Proc.devRef .tc main_v200) = ReadP.val_main_v200 (F := F) x0 x1 x2 x3 x4 x5 x6 x7 x8 x9 := by
  unfold tail36
  rw [after_cons]
  refine spec37 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v17; decide
  · rw [unary_result_ne]; exact h_v18; decide
  · rw [unary_result_ne]; exact h_v24; decide
  · rw [unary_result_ne]; exact h_v28; decide
  · rw [unary_result, h_cst_5]; rfl
  · rw [unary_result_ne]; exact h_v3; decide

theorem spec35 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v28 : V (Proc.devRef .tc main_v28) = ReadP.val_main_v28 (F := F) x2 x3 x4 x5)
    (h_v3 : V (Proc.devRef .tc main_v3) = ReadP.val_main_v3 (F := F)) :
    after (tail35 (F := F)) V (Proc.devRef .tc main_v200) = ReadP.val_main_v200 (F := F) x0 x1 x2 x3 x4 x5 x6 x7 x8 x9 := by
  unfold tail35
  rw [after_cons]
  refine spec36 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v17; decide
  · rw [nullary_result_ne]; exact h_v18; decide
  · rw [nullary_result_ne]; exact h_v24; decide
  · rw [nullary_result_ne]; exact h_v28; decide
  · rw [nullary_result_ne]; exact h_v3; decide

theorem spec34 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v26 : V (Proc.devRef .tc main_v26) = ReadP.val_main_v26 (F := F) x2 x3 x4 x5)
    (h_v27 : V (Proc.devRef .tc main_v27) = ReadP.val_main_v27 (F := F))
    (h_v3 : V (Proc.devRef .tc main_v3) = ReadP.val_main_v3 (F := F)) :
    after (tail34 (F := F)) V (Proc.devRef .tc main_v200) = ReadP.val_main_v200 (F := F) x0 x1 x2 x3 x4 x5 x6 x7 x8 x9 := by
  unfold tail34
  rw [after_cons]
  refine spec35 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v17; decide
  · rw [binary_result_ne]; exact h_v18; decide
  · rw [binary_result_ne]; exact h_v24; decide
  · rw [binary_result, h_v27, h_v26]; rfl
  · rw [binary_result_ne]; exact h_v3; decide

theorem spec33 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_4 : V (Proc.devRef .tc main_cst_4) = ReadP.val_main_cst_4 (F := F))
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v26 : V (Proc.devRef .tc main_v26) = ReadP.val_main_v26 (F := F) x2 x3 x4 x5)
    (h_v3 : V (Proc.devRef .tc main_v3) = ReadP.val_main_v3 (F := F)) :
    after (tail33 (F := F)) V (Proc.devRef .tc main_v200) = ReadP.val_main_v200 (F := F) x0 x1 x2 x3 x4 x5 x6 x7 x8 x9 := by
  unfold tail33
  rw [after_cons]
  refine spec34 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v17; decide
  · rw [unary_result_ne]; exact h_v18; decide
  · rw [unary_result_ne]; exact h_v24; decide
  · rw [unary_result_ne]; exact h_v26; decide
  · rw [unary_result, h_cst_4]; rfl
  · rw [unary_result_ne]; exact h_v3; decide

theorem spec32 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v26 : V (Proc.devRef .tc main_v26) = ReadP.val_main_v26 (F := F) x2 x3 x4 x5)
    (h_v3 : V (Proc.devRef .tc main_v3) = ReadP.val_main_v3 (F := F)) :
    after (tail32 (F := F)) V (Proc.devRef .tc main_v200) = ReadP.val_main_v200 (F := F) x0 x1 x2 x3 x4 x5 x6 x7 x8 x9 := by
  unfold tail32
  rw [after_cons]
  refine spec33 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v17; decide
  · rw [nullary_result_ne]; exact h_v18; decide
  · rw [nullary_result_ne]; exact h_v24; decide
  · rw [nullary_result_ne]; exact h_v26; decide
  · rw [nullary_result_ne]; exact h_v3; decide

theorem spec31 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v25 : V (Proc.devRef .tc main_v25) = ReadP.val_main_v25 (F := F) x2 x3 x4 x5)
    (h_v3 : V (Proc.devRef .tc main_v3) = ReadP.val_main_v3 (F := F)) :
    after (tail31 (F := F)) V (Proc.devRef .tc main_v200) = ReadP.val_main_v200 (F := F) x0 x1 x2 x3 x4 x5 x6 x7 x8 x9 := by
  unfold tail31
  rw [after_cons]
  refine spec32 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v17; decide
  · rw [unary_result_ne]; exact h_v18; decide
  · rw [unary_result_ne]; exact h_v24; decide
  · rw [unary_result, h_v25]; rfl
  · rw [unary_result_ne]; exact h_v3; decide

theorem spec30 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v24 : V (Proc.devRef .tc main_v24) = ReadP.val_main_v24 (F := F) x2 x3 x4 x5)
    (h_v3 : V (Proc.devRef .tc main_v3) = ReadP.val_main_v3 (F := F)) :
    after (tail30 (F := F)) V (Proc.devRef .tc main_v200) = ReadP.val_main_v200 (F := F) x0 x1 x2 x3 x4 x5 x6 x7 x8 x9 := by
  unfold tail30
  rw [after_cons]
  refine spec31 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v17; decide
  · rw [unary_result_ne]; exact h_v18; decide
  · rw [unary_result_ne]; exact h_v24; decide
  · rw [unary_result, h_v16]; rfl
  · rw [unary_result_ne]; exact h_v3; decide

theorem spec29 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v22 : V (Proc.devRef .tc main_v22) = ReadP.val_main_v22 (F := F) x2 x3 x4 x5)
    (h_v23 : V (Proc.devRef .tc main_v23) = ReadP.val_main_v23 (F := F))
    (h_v3 : V (Proc.devRef .tc main_v3) = ReadP.val_main_v3 (F := F)) :
    after (tail29 (F := F)) V (Proc.devRef .tc main_v200) = ReadP.val_main_v200 (F := F) x0 x1 x2 x3 x4 x5 x6 x7 x8 x9 := by
  unfold tail29
  rw [after_cons]
  refine spec30 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v16; decide
  · rw [binary_result_ne]; exact h_v17; decide
  · rw [binary_result_ne]; exact h_v18; decide
  · rw [binary_result, h_v23, h_v22]; rfl
  · rw [binary_result_ne]; exact h_v3; decide

theorem spec28 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_3 : V (Proc.devRef .tc main_cst_3) = ReadP.val_main_cst_3 (F := F))
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v22 : V (Proc.devRef .tc main_v22) = ReadP.val_main_v22 (F := F) x2 x3 x4 x5)
    (h_v3 : V (Proc.devRef .tc main_v3) = ReadP.val_main_v3 (F := F)) :
    after (tail28 (F := F)) V (Proc.devRef .tc main_v200) = ReadP.val_main_v200 (F := F) x0 x1 x2 x3 x4 x5 x6 x7 x8 x9 := by
  unfold tail28
  rw [after_cons]
  refine spec29 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v16; decide
  · rw [unary_result_ne]; exact h_v17; decide
  · rw [unary_result_ne]; exact h_v18; decide
  · rw [unary_result_ne]; exact h_v22; decide
  · rw [unary_result, h_cst_3]; rfl
  · rw [unary_result_ne]; exact h_v3; decide

theorem spec27 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v22 : V (Proc.devRef .tc main_v22) = ReadP.val_main_v22 (F := F) x2 x3 x4 x5)
    (h_v3 : V (Proc.devRef .tc main_v3) = ReadP.val_main_v3 (F := F)) :
    after (tail27 (F := F)) V (Proc.devRef .tc main_v200) = ReadP.val_main_v200 (F := F) x0 x1 x2 x3 x4 x5 x6 x7 x8 x9 := by
  unfold tail27
  rw [after_cons]
  refine spec28 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v16; decide
  · rw [nullary_result_ne]; exact h_v17; decide
  · rw [nullary_result_ne]; exact h_v18; decide
  · rw [nullary_result_ne]; exact h_v22; decide
  · rw [nullary_result_ne]; exact h_v3; decide

theorem spec26 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v20 : V (Proc.devRef .tc main_v20) = ReadP.val_main_v20 (F := F) x2 x3 x4 x5)
    (h_v21 : V (Proc.devRef .tc main_v21) = ReadP.val_main_v21 (F := F))
    (h_v3 : V (Proc.devRef .tc main_v3) = ReadP.val_main_v3 (F := F)) :
    after (tail26 (F := F)) V (Proc.devRef .tc main_v200) = ReadP.val_main_v200 (F := F) x0 x1 x2 x3 x4 x5 x6 x7 x8 x9 := by
  unfold tail26
  rw [after_cons]
  refine spec27 x0 x1 x2 x3 x4 x5 x6 x7 x8 x9 _ ?_ ?_ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v16; decide
  · rw [binary_result_ne]; exact h_v17; decide
  · rw [binary_result_ne]; exact h_v18; decide
  · rw [binary_result, h_v21, h_v20]; rfl
  · rw [binary_result_ne]; exact h_v3; decide

theorem spec25 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_2 : V (Proc.devRef .tc main_cst_2) = ReadP.val_main_cst_2 (F := F))
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v20 : V (Proc.devRef .tc main_v20) = ReadP.val_main_v20 (F := F) x2 x3 x4 x5)
    (h_v3 : V (Proc.devRef .tc main_v3) = ReadP.val_main_v3 (F := F)) :
    after (tail25 (F := F)) V (Proc.devRef .tc main_v200) = ReadP.val_main_v200 (F := F) x0 x1 x2 x3 x4 x5 x6 x7 x8 x9 := by
  unfold tail25
  rw [after_cons]
  refine spec26 x0 x1 x2 x3 x4 x5 x6 x7 x8 x9 _ ?_ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v16; decide
  · rw [unary_result_ne]; exact h_v17; decide
  · rw [unary_result_ne]; exact h_v18; decide
  · rw [unary_result_ne]; exact h_v20; decide
  · rw [unary_result, h_cst_2]; rfl
  · rw [unary_result_ne]; exact h_v3; decide

theorem spec24 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v20 : V (Proc.devRef .tc main_v20) = ReadP.val_main_v20 (F := F) x2 x3 x4 x5)
    (h_v3 : V (Proc.devRef .tc main_v3) = ReadP.val_main_v3 (F := F)) :
    after (tail24 (F := F)) V (Proc.devRef .tc main_v200) = ReadP.val_main_v200 (F := F) x0 x1 x2 x3 x4 x5 x6 x7 x8 x9 := by
  unfold tail24
  rw [after_cons]
  refine spec25 x0 x1 x2 x3 x4 x5 x6 x7 x8 x9 _ ?_ ?_ ?_ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v16; decide
  · rw [nullary_result_ne]; exact h_v17; decide
  · rw [nullary_result_ne]; exact h_v18; decide
  · rw [nullary_result_ne]; exact h_v20; decide
  · rw [nullary_result_ne]; exact h_v3; decide

theorem spec23 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v19 : V (Proc.devRef .tc main_v19) = ReadP.val_main_v19 (F := F) x2 x3 x4 x5)
    (h_v3 : V (Proc.devRef .tc main_v3) = ReadP.val_main_v3 (F := F)) :
    after (tail23 (F := F)) V (Proc.devRef .tc main_v200) = ReadP.val_main_v200 (F := F) x0 x1 x2 x3 x4 x5 x6 x7 x8 x9 := by
  unfold tail23
  rw [after_cons]
  refine spec24 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v16; decide
  · rw [unary_result_ne]; exact h_v17; decide
  · rw [unary_result_ne]; exact h_v18; decide
  · rw [unary_result, h_v19]; rfl
  · rw [unary_result_ne]; exact h_v3; decide

theorem spec22 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v15 : V (Proc.devRef .tc main_v15) = ReadP.val_main_v15 (F := F) x2 x3 x4 x5)
    (h_v16 : V (Proc.devRef .tc main_v16) = ReadP.val_main_v16 (F := F) x2 x3 x4 x5)
    (h_v17 : V (Proc.devRef .tc main_v17) = ReadP.val_main_v17 (F := F) x2 x3 x4 x5)
    (h_v18 : V (Proc.devRef .tc main_v18) = ReadP.val_main_v18 (F := F) x2 x3 x4 x5)
    (h_v3 : V (Proc.devRef .tc main_v3) = ReadP.val_main_v3 (F := F)) :
    after (tail22 (F := F)) V (Proc.devRef .tc main_v200) = ReadP.val_main_v200 (F := F) x0 x1 x2 x3 x4 x5 x6 x7 x8 x9 := by
  unfold tail22
  rw [after_cons]
  refine spec23 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v16; decide
  · rw [unary_result_ne]; exact h_v17; decide
  · rw [unary_result_ne]; exact h_v18; decide
  · rw [unary_result, h_v15]; rfl
  · rw [unary_result_ne]; exact h_v3; decide

theorem spec21 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v14 : V (Proc.devRef .tc main_v14) = ReadP.val_main_v14 (F := F) x2 x3 x4 x5)
    (h_v15 : V (Proc.devRef .tc main_v15) = ReadP.val_main_v15 (F := F) x2 x3 x4 x5)
    (h_v16 : V (Proc.devRef .tc main_v16) = ReadP.val_main_v16 (F := F) x2 x3 x4 x5)
    (h_v17 : V (Proc.devRef .tc main_v17) = ReadP.val_main_v17 (F := F) x2 x3 x4 x5)
    (h_v3 : V (Proc.devRef .tc main_v3) = ReadP.val_main_v3 (F := F)) :
    after (tail21 (F := F)) V (Proc.devRef .tc main_v200) = ReadP.val_main_v200 (F := F) x0 x1 x2 x3 x4 x5 x6 x7 x8 x9 := by
  unfold tail21
  rw [after_cons]
  refine spec22 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v15; decide
  · rw [unary_result_ne]; exact h_v16; decide
  · rw [unary_result_ne]; exact h_v17; decide
  · rw [unary_result, h_v14]; rfl
  · rw [unary_result_ne]; exact h_v3; decide

theorem spec20 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v14 : V (Proc.devRef .tc main_v14) = ReadP.val_main_v14 (F := F) x2 x3 x4 x5)
    (h_v15 : V (Proc.devRef .tc main_v15) = ReadP.val_main_v15 (F := F) x2 x3 x4 x5)
    (h_v16 : V (Proc.devRef .tc main_v16) = ReadP.val_main_v16 (F := F) x2 x3 x4 x5)
    (h_v3 : V (Proc.devRef .tc main_v3) = ReadP.val_main_v3 (F := F)) :
    after (tail20 (F := F)) V (Proc.devRef .tc main_v200) = ReadP.val_main_v200 (F := F) x0 x1 x2 x3 x4 x5 x6 x7 x8 x9 := by
  unfold tail20
  rw [after_cons]
  refine spec21 x0 x1 x2 x3 x4 x5 x6 x7 x8 x9 _ ?_ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v14; decide
  · rw [unary_result_ne]; exact h_v15; decide
  · rw [unary_result_ne]; exact h_v16; decide
  · rw [unary_result, h_v14]; rfl
  · rw [unary_result_ne]; exact h_v3; decide

theorem spec19 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v14 : V (Proc.devRef .tc main_v14) = ReadP.val_main_v14 (F := F) x2 x3 x4 x5)
    (h_v15 : V (Proc.devRef .tc main_v15) = ReadP.val_main_v15 (F := F) x2 x3 x4 x5)
    (h_v3 : V (Proc.devRef .tc main_v3) = ReadP.val_main_v3 (F := F)) :
    after (tail19 (F := F)) V (Proc.devRef .tc main_v200) = ReadP.val_main_v200 (F := F) x0 x1 x2 x3 x4 x5 x6 x7 x8 x9 := by
  unfold tail19
  rw [after_cons]
  refine spec20 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v14; decide
  · rw [unary_result_ne]; exact h_v15; decide
  · rw [unary_result, h_v14]; rfl
  · rw [unary_result_ne]; exact h_v3; decide

theorem spec18 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v14 : V (Proc.devRef .tc main_v14) = ReadP.val_main_v14 (F := F) x2 x3 x4 x5)
    (h_v3 : V (Proc.devRef .tc main_v3) = ReadP.val_main_v3 (F := F)) :
    after (tail18 (F := F)) V (Proc.devRef .tc main_v200) = ReadP.val_main_v200 (F := F) x0 x1 x2 x3 x4 x5 x6 x7 x8 x9 := by
  unfold tail18
  rw [after_cons]
  refine spec19 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v14; decide
  · rw [unary_result, h_v14]; rfl
  · rw [unary_result_ne]; exact h_v3; decide

theorem spec17 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v11 : V (Proc.devRef .tc main_v11) = ReadP.val_main_v11 (F := F) x2 x3 x4)
    (h_v13 : V (Proc.devRef .tc main_v13) = ReadP.val_main_v13 (F := F) x5)
    (h_v3 : V (Proc.devRef .tc main_v3) = ReadP.val_main_v3 (F := F)) :
    after (tail17 (F := F)) V (Proc.devRef .tc main_v200) = ReadP.val_main_v200 (F := F) x0 x1 x2 x3 x4 x5 x6 x7 x8 x9 := by
  unfold tail17
  rw [after_cons]
  refine spec18 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result, h_v11, h_v13]; rfl
  · rw [binary_result_ne]; exact h_v3; decide

theorem spec16 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v11 : V (Proc.devRef .tc main_v11) = ReadP.val_main_v11 (F := F) x2 x3 x4)
    (h_v12 : V (Proc.devRef .tc main_v12) = ReadP.val_main_v12 (F := F) x5)
    (h_v3 : V (Proc.devRef .tc main_v3) = ReadP.val_main_v3 (F := F)) :
    after (tail16 (F := F)) V (Proc.devRef .tc main_v200) = ReadP.val_main_v200 (F := F) x0 x1 x2 x3 x4 x5 x6 x7 x8 x9 := by
  unfold tail16
  rw [after_cons]
  refine spec17 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v11; decide
  · rw [unary_result, h_v12]; rfl
  · rw [unary_result_ne]; exact h_v3; decide

theorem spec15 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v11 : V (Proc.devRef .tc main_v11) = ReadP.val_main_v11 (F := F) x2 x3 x4)
    (h_v3 : V (Proc.devRef .tc main_v3) = ReadP.val_main_v3 (F := F)) :
    after (tail15 (F := F)) V (Proc.devRef .tc main_v200) = ReadP.val_main_v200 (F := F) x0 x1 x2 x3 x4 x5 x6 x7 x8 x9 := by
  unfold tail15
  rw [after_cons]
  refine spec16 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v11; decide
  · rw [unary_result, h_arg5]; rfl
  · rw [unary_result_ne]; exact h_v3; decide

theorem spec14 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v10 : V (Proc.devRef .tc main_v10) = ReadP.val_main_v10 (F := F) x3)
    (h_v3 : V (Proc.devRef .tc main_v3) = ReadP.val_main_v3 (F := F))
    (h_v8 : V (Proc.devRef .tc main_v8) = ReadP.val_main_v8 (F := F) x2 x4) :
    after (tail14 (F := F)) V (Proc.devRef .tc main_v200) = ReadP.val_main_v200 (F := F) x0 x1 x2 x3 x4 x5 x6 x7 x8 x9 := by
  unfold tail14
  rw [after_cons]
  refine spec15 x0 x1 x2 x3 x4 x5 x6 x7 x8 x9 _ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result, h_v8, h_v10]; rfl
  · rw [binary_result_ne]; exact h_v3; decide

theorem spec13 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v2 : V (Proc.devRef .tc main_v2) = ReadP.val_main_v2 (F := F))
    (h_v3 : V (Proc.devRef .tc main_v3) = ReadP.val_main_v3 (F := F))
    (h_v8 : V (Proc.devRef .tc main_v8) = ReadP.val_main_v8 (F := F) x2 x4)
    (h_v9 : V (Proc.devRef .tc main_v9) = ReadP.val_main_v9 (F := F) x3) :
    after (tail13 (F := F)) V (Proc.devRef .tc main_v200) = ReadP.val_main_v200 (F := F) x0 x1 x2 x3 x4 x5 x6 x7 x8 x9 := by
  unfold tail13
  rw [after_cons]
  refine spec14 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result, h_v2, h_v9]; rfl
  · rw [binary_result_ne]; exact h_v3; decide
  · rw [binary_result_ne]; exact h_v8; decide

theorem spec12 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v2 : V (Proc.devRef .tc main_v2) = ReadP.val_main_v2 (F := F))
    (h_v3 : V (Proc.devRef .tc main_v3) = ReadP.val_main_v3 (F := F))
    (h_v8 : V (Proc.devRef .tc main_v8) = ReadP.val_main_v8 (F := F) x2 x4) :
    after (tail12 (F := F)) V (Proc.devRef .tc main_v200) = ReadP.val_main_v200 (F := F) x0 x1 x2 x3 x4 x5 x6 x7 x8 x9 := by
  unfold tail12
  rw [after_cons]
  refine spec13 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v2; decide
  · rw [unary_result_ne]; exact h_v3; decide
  · rw [unary_result_ne]; exact h_v8; decide
  · rw [unary_result, h_arg3]; rfl

theorem spec11 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v2 : V (Proc.devRef .tc main_v2) = ReadP.val_main_v2 (F := F))
    (h_v3 : V (Proc.devRef .tc main_v3) = ReadP.val_main_v3 (F := F))
    (h_v5 : V (Proc.devRef .tc main_v5) = ReadP.val_main_v5 (F := F) x2)
    (h_v7 : V (Proc.devRef .tc main_v7) = ReadP.val_main_v7 (F := F) x4) :
    after (tail11 (F := F)) V (Proc.devRef .tc main_v200) = ReadP.val_main_v200 (F := F) x0 x1 x2 x3 x4 x5 x6 x7 x8 x9 := by
  unfold tail11
  rw [after_cons]
  refine spec12 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v2; decide
  · rw [binary_result_ne]; exact h_v3; decide
  · rw [binary_result, h_v5, h_v7]; rfl

theorem spec10 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v2 : V (Proc.devRef .tc main_v2) = ReadP.val_main_v2 (F := F))
    (h_v3 : V (Proc.devRef .tc main_v3) = ReadP.val_main_v3 (F := F))
    (h_v5 : V (Proc.devRef .tc main_v5) = ReadP.val_main_v5 (F := F) x2)
    (h_v6 : V (Proc.devRef .tc main_v6) = ReadP.val_main_v6 (F := F) x4) :
    after (tail10 (F := F)) V (Proc.devRef .tc main_v200) = ReadP.val_main_v200 (F := F) x0 x1 x2 x3 x4 x5 x6 x7 x8 x9 := by
  unfold tail10
  rw [after_cons]
  refine spec11 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v2; decide
  · rw [unary_result_ne]; exact h_v3; decide
  · rw [unary_result_ne]; exact h_v5; decide
  · rw [unary_result, h_v6]; rfl

theorem spec9 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v2 : V (Proc.devRef .tc main_v2) = ReadP.val_main_v2 (F := F))
    (h_v3 : V (Proc.devRef .tc main_v3) = ReadP.val_main_v3 (F := F))
    (h_v5 : V (Proc.devRef .tc main_v5) = ReadP.val_main_v5 (F := F) x2) :
    after (tail9 (F := F)) V (Proc.devRef .tc main_v200) = ReadP.val_main_v200 (F := F) x0 x1 x2 x3 x4 x5 x6 x7 x8 x9 := by
  unfold tail9
  rw [after_cons]
  refine spec10 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v2; decide
  · rw [unary_result_ne]; exact h_v3; decide
  · rw [unary_result_ne]; exact h_v5; decide
  · rw [unary_result, h_arg4]; rfl

theorem spec8 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v1 : V (Proc.devRef .tc main_v1) = ReadP.val_main_v1 (F := F))
    (h_v2 : V (Proc.devRef .tc main_v2) = ReadP.val_main_v2 (F := F))
    (h_v3 : V (Proc.devRef .tc main_v3) = ReadP.val_main_v3 (F := F))
    (h_v4 : V (Proc.devRef .tc main_v4) = ReadP.val_main_v4 (F := F) x2) :
    after (tail8 (F := F)) V (Proc.devRef .tc main_v200) = ReadP.val_main_v200 (F := F) x0 x1 x2 x3 x4 x5 x6 x7 x8 x9 := by
  unfold tail8
  rw [after_cons]
  refine spec9 x0 x1 x2 x3 x4 x5 x6 x7 x8 x9 _ ?_ ?_ ?_ ?_ ?_ ?_ ?_ ?_ ?_ ?_ ?_ ?_ ?_ ?_
  · rw [binary_result_ne]; exact h_arg0; decide
  · rw [binary_result_ne]; exact h_arg1; decide
  · rw [binary_result_ne]; exact h_arg2; decide
  · rw [binary_result_ne]; exact h_arg3; decide
  · rw [binary_result_ne]; exact h_arg4; decide
  · rw [binary_result_ne]; exact h_arg5; decide
  · rw [binary_result_ne]; exact h_arg6; decide
  · rw [binary_result_ne]; exact h_arg7; decide
  · rw [binary_result_ne]; exact h_arg8; decide
  · rw [binary_result_ne]; exact h_arg9; decide
  · rw [binary_result_ne]; exact h_v0; decide
  · rw [binary_result_ne]; exact h_v2; decide
  · rw [binary_result_ne]; exact h_v3; decide
  · rw [binary_result, h_v1, h_v4]; rfl

theorem spec7 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v1 : V (Proc.devRef .tc main_v1) = ReadP.val_main_v1 (F := F))
    (h_v2 : V (Proc.devRef .tc main_v2) = ReadP.val_main_v2 (F := F))
    (h_v3 : V (Proc.devRef .tc main_v3) = ReadP.val_main_v3 (F := F)) :
    after (tail7 (F := F)) V (Proc.devRef .tc main_v200) = ReadP.val_main_v200 (F := F) x0 x1 x2 x3 x4 x5 x6 x7 x8 x9 := by
  unfold tail7
  rw [after_cons]
  refine spec8 x0 x1 x2 x3 x4 x5 x6 x7 x8 x9 _ ?_ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v1; decide
  · rw [unary_result_ne]; exact h_v2; decide
  · rw [unary_result_ne]; exact h_v3; decide
  · rw [unary_result, h_arg2]; rfl

theorem spec6 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_1 : V (Proc.devRef .tc main_cst_1) = ReadP.val_main_cst_1 (F := F))
    (h_v0 : V (Proc.devRef .tc main_v0) = ReadP.val_main_v0 (F := F) x1)
    (h_v1 : V (Proc.devRef .tc main_v1) = ReadP.val_main_v1 (F := F))
    (h_v2 : V (Proc.devRef .tc main_v2) = ReadP.val_main_v2 (F := F)) :
    after (tail6 (F := F)) V (Proc.devRef .tc main_v200) = ReadP.val_main_v200 (F := F) x0 x1 x2 x3 x4 x5 x6 x7 x8 x9 := by
  unfold tail6
  rw [after_cons]
  refine spec7 x0 x1 x2 x3 x4 x5 x6 x7 x8 x9 _ ?_ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v1; decide
  · rw [unary_result_ne]; exact h_v2; decide
  · rw [unary_result, h_cst_1]; rfl

theorem spec5 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v1 : V (Proc.devRef .tc main_v1) = ReadP.val_main_v1 (F := F))
    (h_v2 : V (Proc.devRef .tc main_v2) = ReadP.val_main_v2 (F := F)) :
    after (tail5 (F := F)) V (Proc.devRef .tc main_v200) = ReadP.val_main_v200 (F := F) x0 x1 x2 x3 x4 x5 x6 x7 x8 x9 := by
  unfold tail5
  rw [after_cons]
  refine spec6 x0 x1 x2 x3 x4 x5 x6 x7 x8 x9 _ ?_ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v1; decide
  · rw [nullary_result_ne]; exact h_v2; decide

theorem spec4 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst_0 : V (Proc.devRef .tc main_cst_0) = ReadP.val_main_cst_0 (F := F))
    (h_v0 : V (Proc.devRef .tc main_v0) = ReadP.val_main_v0 (F := F) x1)
    (h_v1 : V (Proc.devRef .tc main_v1) = ReadP.val_main_v1 (F := F)) :
    after (tail4 (F := F)) V (Proc.devRef .tc main_v200) = ReadP.val_main_v200 (F := F) x0 x1 x2 x3 x4 x5 x6 x7 x8 x9 := by
  unfold tail4
  rw [after_cons]
  refine spec5 x0 x1 x2 x3 x4 x5 x6 x7 x8 x9 _ ?_ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result_ne]; exact h_v1; decide
  · rw [unary_result, h_cst_0]; rfl

theorem spec3 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1)
    (h_v1 : V (Proc.devRef .tc main_v1) = ReadP.val_main_v1 (F := F)) :
    after (tail3 (F := F)) V (Proc.devRef .tc main_v200) = ReadP.val_main_v200 (F := F) x0 x1 x2 x3 x4 x5 x6 x7 x8 x9 := by
  unfold tail3
  rw [after_cons]
  refine spec4 x0 x1 x2 x3 x4 x5 x6 x7 x8 x9 _ ?_ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide
  · rw [nullary_result_ne]; exact h_v1; decide

theorem spec2 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_cst : V (Proc.devRef .tc main_cst) = ReadP.val_main_cst (F := F))
    (h_v0 : V (Proc.devRef .tc main_v0) = ReadP.val_main_v0 (F := F) x1) :
    after (tail2 (F := F)) V (Proc.devRef .tc main_v200) = ReadP.val_main_v200 (F := F) x0 x1 x2 x3 x4 x5 x6 x7 x8 x9 := by
  unfold tail2
  rw [after_cons]
  refine spec3 x0 x1 x2 x3 x4 x5 x6 x7 x8 x9 _ ?_ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result_ne]; exact h_v0; decide
  · rw [unary_result, h_cst]; rfl

theorem spec1 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9)
    (h_v0 : V (Proc.devRef .tc main_v0) = ReadP.val_main_v0 (F := F) x1) :
    after (tail1 (F := F)) V (Proc.devRef .tc main_v200) = ReadP.val_main_v200 (F := F) x0 x1 x2 x3 x4 x5 x6 x7 x8 x9 := by
  unfold tail1
  rw [after_cons]
  refine spec2 x0 x1 x2 x3 x4 x5 x6 x7 x8 x9 _ ?_ ?_ ?_ ?_ ?_ ?_ ?_ ?_ ?_ ?_ ?_ ?_
  · rw [nullary_result_ne]; exact h_arg0; decide
  · rw [nullary_result_ne]; exact h_arg1; decide
  · rw [nullary_result_ne]; exact h_arg2; decide
  · rw [nullary_result_ne]; exact h_arg3; decide
  · rw [nullary_result_ne]; exact h_arg4; decide
  · rw [nullary_result_ne]; exact h_arg5; decide
  · rw [nullary_result_ne]; exact h_arg6; decide
  · rw [nullary_result_ne]; exact h_arg7; decide
  · rw [nullary_result_ne]; exact h_arg8; decide
  · rw [nullary_result_ne]; exact h_arg9; decide
  · rw [nullary_result]; rfl
  · rw [nullary_result_ne]; exact h_v0; decide

theorem spec0 (x0 : (⟨S128x1024x128, .f32⟩ : BufTy).Contents (Elt F)) (x1 : (⟨S128x1024, .i1⟩ : BufTy).Contents (Elt F)) (x2 : (⟨S512x256, .f32⟩ : BufTy).Contents (Elt F)) (x3 : (⟨S512x128, .f32⟩ : BufTy).Contents (Elt F)) (x4 : (⟨S512, .f32⟩ : BufTy).Contents (Elt F)) (x5 : (⟨S512, .f32⟩ : BufTy).Contents (Elt F)) (x6 : (⟨S1x256, .f32⟩ : BufTy).Contents (Elt F)) (x7 : (⟨S1, .f32⟩ : BufTy).Contents (Elt F)) (x8 : (⟨S1, .f32⟩ : BufTy).Contents (Elt F)) (x9 : (⟨S1, .f32⟩ : BufTy).Contents (Elt F))
    (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (tail0 (F := F)) V (Proc.devRef .tc main_v200) = ReadP.val_main_v200 (F := F) x0 x1 x2 x3 x4 x5 x6 x7 x8 x9 := by
  unfold tail0
  rw [after_cons]
  refine spec1 x0 x1 x2 x3 x4 x5 x6 x7 x8 x9 _ ?_ ?_ ?_ ?_ ?_ ?_ ?_ ?_ ?_ ?_ ?_
  · rw [unary_result_ne]; exact h_arg0; decide
  · rw [unary_result_ne]; exact h_arg1; decide
  · rw [unary_result_ne]; exact h_arg2; decide
  · rw [unary_result_ne]; exact h_arg3; decide
  · rw [unary_result_ne]; exact h_arg4; decide
  · rw [unary_result_ne]; exact h_arg5; decide
  · rw [unary_result_ne]; exact h_arg6; decide
  · rw [unary_result_ne]; exact h_arg7; decide
  · rw [unary_result_ne]; exact h_arg8; decide
  · rw [unary_result_ne]; exact h_arg9; decide
  · rw [unary_result, h_arg1]; rfl

/-! ## The arguments after each suffix -/

/-- The ten argument references. -/
abbrev argRefs : List (Ref sig .tc) := [main_arg0, main_arg1, main_arg2, main_arg3, main_arg4, main_arg5, main_arg6, main_arg7, main_arg8, main_arg9]

theorem keep243 (V : Valuation τ sig (Elt F)) (r : Ref sig .tc) (hr : r ∈ argRefs) :
    after (tail243 (F := F)) V (Proc.devRef .tc r) = V (Proc.devRef .tc r) := rfl

theorem keep242 (V : Valuation τ sig (Elt F)) (r : Ref sig .tc) (hr : r ∈ argRefs) :
    after (tail242 (F := F)) V (Proc.devRef .tc r) = V (Proc.devRef .tc r) := by
  have hne : r ≠ main_v200 := fun e => absurd (e ▸ hr) (by decide)
  unfold tail242
  rw [after_cons, keep243 _ r hr, binary_result_ne (h := hne)]

theorem keep241 (V : Valuation τ sig (Elt F)) (r : Ref sig .tc) (hr : r ∈ argRefs) :
    after (tail241 (F := F)) V (Proc.devRef .tc r) = V (Proc.devRef .tc r) := by
  have hne : r ≠ main_v199 := fun e => absurd (e ▸ hr) (by decide)
  unfold tail241
  rw [after_cons, keep242 _ r hr, unary_result_ne (h := hne)]

theorem keep240 (V : Valuation τ sig (Elt F)) (r : Ref sig .tc) (hr : r ∈ argRefs) :
    after (tail240 (F := F)) V (Proc.devRef .tc r) = V (Proc.devRef .tc r) := by
  have hne : r ≠ main_v198 := fun e => absurd (e ▸ hr) (by decide)
  unfold tail240
  rw [after_cons, keep241 _ r hr, unary_result_ne (h := hne)]

theorem keep239 (V : Valuation τ sig (Elt F)) (r : Ref sig .tc) (hr : r ∈ argRefs) :
    after (tail239 (F := F)) V (Proc.devRef .tc r) = V (Proc.devRef .tc r) := by
  have hne : r ≠ main_v197 := fun e => absurd (e ▸ hr) (by decide)
  unfold tail239
  rw [after_cons, keep240 _ r hr, binary_result_ne (h := hne)]

theorem keep238 (V : Valuation τ sig (Elt F)) (r : Ref sig .tc) (hr : r ∈ argRefs) :
    after (tail238 (F := F)) V (Proc.devRef .tc r) = V (Proc.devRef .tc r) := by
  have hne : r ≠ main_v196 := fun e => absurd (e ▸ hr) (by decide)
  unfold tail238
  rw [after_cons, keep239 _ r hr, unary_result_ne (h := hne)]

theorem keep237 (V : Valuation τ sig (Elt F)) (r : Ref sig .tc) (hr : r ∈ argRefs) :
    after (tail237 (F := F)) V (Proc.devRef .tc r) = V (Proc.devRef .tc r) := by
  have hne : r ≠ main_v195 := fun e => absurd (e ▸ hr) (by decide)
  unfold tail237
  rw [after_cons, keep238 _ r hr, unary_result_ne (h := hne)]

theorem keep236 (V : Valuation τ sig (Elt F)) (r : Ref sig .tc) (hr : r ∈ argRefs) :
    after (tail236 (F := F)) V (Proc.devRef .tc r) = V (Proc.devRef .tc r) := by
  have hne : r ≠ main_v194 := fun e => absurd (e ▸ hr) (by decide)
  unfold tail236
  rw [after_cons, keep237 _ r hr, binary_result_ne (h := hne)]

theorem keep235 (V : Valuation τ sig (Elt F)) (r : Ref sig .tc) (hr : r ∈ argRefs) :
    after (tail235 (F := F)) V (Proc.devRef .tc r) = V (Proc.devRef .tc r) := by
  have hne : r ≠ main_v193 := fun e => absurd (e ▸ hr) (by decide)
  unfold tail235
  rw [after_cons, keep236 _ r hr, unary_result_ne (h := hne)]

theorem keep234 (V : Valuation τ sig (Elt F)) (r : Ref sig .tc) (hr : r ∈ argRefs) :
    after (tail234 (F := F)) V (Proc.devRef .tc r) = V (Proc.devRef .tc r) := by
  have hne : r ≠ main_v192 := fun e => absurd (e ▸ hr) (by decide)
  unfold tail234
  rw [after_cons, keep235 _ r hr, unary_result_ne (h := hne)]

theorem keep233 (V : Valuation τ sig (Elt F)) (r : Ref sig .tc) (hr : r ∈ argRefs) :
    after (tail233 (F := F)) V (Proc.devRef .tc r) = V (Proc.devRef .tc r) := by
  have hne : r ≠ main_v191 := fun e => absurd (e ▸ hr) (by decide)
  unfold tail233
  rw [after_cons, keep234 _ r hr, binary_result_ne (h := hne)]

theorem keep232 (V : Valuation τ sig (Elt F)) (r : Ref sig .tc) (hr : r ∈ argRefs) :
    after (tail232 (F := F)) V (Proc.devRef .tc r) = V (Proc.devRef .tc r) := by
  have hne : r ≠ main_v190 := fun e => absurd (e ▸ hr) (by decide)
  unfold tail232
  rw [after_cons, keep233 _ r hr, unary_result_ne (h := hne)]

theorem keep231 (V : Valuation τ sig (Elt F)) (r : Ref sig .tc) (hr : r ∈ argRefs) :
    after (tail231 (F := F)) V (Proc.devRef .tc r) = V (Proc.devRef .tc r) := by
  have hne : r ≠ main_v189 := fun e => absurd (e ▸ hr) (by decide)
  unfold tail231
  rw [after_cons, keep232 _ r hr, binary_result_ne (h := hne)]

theorem keep230 (V : Valuation τ sig (Elt F)) (r : Ref sig .tc) (hr : r ∈ argRefs) :
    after (tail230 (F := F)) V (Proc.devRef .tc r) = V (Proc.devRef .tc r) := by
  have hne : r ≠ main_v188 := fun e => absurd (e ▸ hr) (by decide)
  unfold tail230
  rw [after_cons, keep231 _ r hr, binary_result_ne (h := hne)]

theorem keep229 (V : Valuation τ sig (Elt F)) (r : Ref sig .tc) (hr : r ∈ argRefs) :
    after (tail229 (F := F)) V (Proc.devRef .tc r) = V (Proc.devRef .tc r) := by
  have hne : r ≠ main_cst_34 := fun e => absurd (e ▸ hr) (by decide)
  unfold tail229
  rw [after_cons, keep230 _ r hr, nullary_result_ne (h := hne)]

theorem keep228 (V : Valuation τ sig (Elt F)) (r : Ref sig .tc) (hr : r ∈ argRefs) :
    after (tail228 (F := F)) V (Proc.devRef .tc r) = V (Proc.devRef .tc r) := by
  have hne : r ≠ main_v187 := fun e => absurd (e ▸ hr) (by decide)
  unfold tail228
  rw [after_cons, keep229 _ r hr, binary_result_ne (h := hne)]

theorem keep227 (V : Valuation τ sig (Elt F)) (r : Ref sig .tc) (hr : r ∈ argRefs) :
    after (tail227 (F := F)) V (Proc.devRef .tc r) = V (Proc.devRef .tc r) := by
  have hne : r ≠ main_v186 := fun e => absurd (e ▸ hr) (by decide)
  unfold tail227
  rw [after_cons, keep228 _ r hr, unary_result_ne (h := hne)]

theorem keep226 (V : Valuation τ sig (Elt F)) (r : Ref sig .tc) (hr : r ∈ argRefs) :
    after (tail226 (F := F)) V (Proc.devRef .tc r) = V (Proc.devRef .tc r) := by
  have hne : r ≠ main_v185 := fun e => absurd (e ▸ hr) (by decide)
  unfold tail226
  rw [after_cons, keep227 _ r hr, unary_result_ne (h := hne)]

theorem keep225 (V : Valuation τ sig (Elt F)) (r : Ref sig .tc) (hr : r ∈ argRefs) :
    after (tail225 (F := F)) V (Proc.devRef .tc r) = V (Proc.devRef .tc r) := by
  have hne : r ≠ main_v184 := fun e => absurd (e ▸ hr) (by decide)
  unfold tail225
  rw [after_cons, keep226 _ r hr, binary_result_ne (h := hne)]

theorem keep224 (V : Valuation τ sig (Elt F)) (r : Ref sig .tc) (hr : r ∈ argRefs) :
    after (tail224 (F := F)) V (Proc.devRef .tc r) = V (Proc.devRef .tc r) := by
  have hne : r ≠ main_v183 := fun e => absurd (e ▸ hr) (by decide)
  unfold tail224
  rw [after_cons, keep225 _ r hr, unary_result_ne (h := hne)]

theorem keep223 (V : Valuation τ sig (Elt F)) (r : Ref sig .tc) (hr : r ∈ argRefs) :
    after (tail223 (F := F)) V (Proc.devRef .tc r) = V (Proc.devRef .tc r) := by
  have hne : r ≠ main_v182 := fun e => absurd (e ▸ hr) (by decide)
  unfold tail223
  rw [after_cons, keep224 _ r hr, unary_result_ne (h := hne)]

theorem keep222 (V : Valuation τ sig (Elt F)) (r : Ref sig .tc) (hr : r ∈ argRefs) :
    after (tail222 (F := F)) V (Proc.devRef .tc r) = V (Proc.devRef .tc r) := by
  have hne : r ≠ main_v181 := fun e => absurd (e ▸ hr) (by decide)
  unfold tail222
  rw [after_cons, keep223 _ r hr, binary_result_ne (h := hne)]

theorem keep221 (V : Valuation τ sig (Elt F)) (r : Ref sig .tc) (hr : r ∈ argRefs) :
    after (tail221 (F := F)) V (Proc.devRef .tc r) = V (Proc.devRef .tc r) := by
  have hne : r ≠ main_v180 := fun e => absurd (e ▸ hr) (by decide)
  unfold tail221
  rw [after_cons, keep222 _ r hr, unary_result_ne (h := hne)]

theorem keep220 (V : Valuation τ sig (Elt F)) (r : Ref sig .tc) (hr : r ∈ argRefs) :
    after (tail220 (F := F)) V (Proc.devRef .tc r) = V (Proc.devRef .tc r) := by
  have hne : r ≠ main_v179 := fun e => absurd (e ▸ hr) (by decide)
  unfold tail220
  rw [after_cons, keep221 _ r hr, unary_result_ne (h := hne)]

theorem keep219 (V : Valuation τ sig (Elt F)) (r : Ref sig .tc) (hr : r ∈ argRefs) :
    after (tail219 (F := F)) V (Proc.devRef .tc r) = V (Proc.devRef .tc r) := by
  have hne : r ≠ main_v178 := fun e => absurd (e ▸ hr) (by decide)
  unfold tail219
  rw [after_cons, keep220 _ r hr, binary_result_ne (h := hne)]

theorem keep218 (V : Valuation τ sig (Elt F)) (r : Ref sig .tc) (hr : r ∈ argRefs) :
    after (tail218 (F := F)) V (Proc.devRef .tc r) = V (Proc.devRef .tc r) := by
  have hne : r ≠ main_cst_33 := fun e => absurd (e ▸ hr) (by decide)
  unfold tail218
  rw [after_cons, keep219 _ r hr, nullary_result_ne (h := hne)]

theorem keep217 (V : Valuation τ sig (Elt F)) (r : Ref sig .tc) (hr : r ∈ argRefs) :
    after (tail217 (F := F)) V (Proc.devRef .tc r) = V (Proc.devRef .tc r) := by
  have hne : r ≠ main_v177 := fun e => absurd (e ▸ hr) (by decide)
  unfold tail217
  rw [after_cons, keep218 _ r hr, binary_result_ne (h := hne)]

theorem keep216 (V : Valuation τ sig (Elt F)) (r : Ref sig .tc) (hr : r ∈ argRefs) :
    after (tail216 (F := F)) V (Proc.devRef .tc r) = V (Proc.devRef .tc r) := by
  have hne : r ≠ main_v176 := fun e => absurd (e ▸ hr) (by decide)
  unfold tail216
  rw [after_cons, keep217 _ r hr, unary_result_ne (h := hne)]

theorem keep215 (V : Valuation τ sig (Elt F)) (r : Ref sig .tc) (hr : r ∈ argRefs) :
    after (tail215 (F := F)) V (Proc.devRef .tc r) = V (Proc.devRef .tc r) := by
  have hne : r ≠ main_v175 := fun e => absurd (e ▸ hr) (by decide)
  unfold tail215
  rw [after_cons, keep216 _ r hr, binary_result_ne (h := hne)]

theorem keep214 (V : Valuation τ sig (Elt F)) (r : Ref sig .tc) (hr : r ∈ argRefs) :
    after (tail214 (F := F)) V (Proc.devRef .tc r) = V (Proc.devRef .tc r) := by
  have hne : r ≠ main_v174 := fun e => absurd (e ▸ hr) (by decide)
  unfold tail214
  rw [after_cons, keep215 _ r hr, unary_result_ne (h := hne)]

theorem keep213 (V : Valuation τ sig (Elt F)) (r : Ref sig .tc) (hr : r ∈ argRefs) :
    after (tail213 (F := F)) V (Proc.devRef .tc r) = V (Proc.devRef .tc r) := by
  have hne : r ≠ main_v173 := fun e => absurd (e ▸ hr) (by decide)
  unfold tail213
  rw [after_cons, keep214 _ r hr, unary_result_ne (h := hne)]

theorem keep212 (V : Valuation τ sig (Elt F)) (r : Ref sig .tc) (hr : r ∈ argRefs) :
    after (tail212 (F := F)) V (Proc.devRef .tc r) = V (Proc.devRef .tc r) := by
  have hne : r ≠ main_v172 := fun e => absurd (e ▸ hr) (by decide)
  unfold tail212
  rw [after_cons, keep213 _ r hr, binary_result_ne (h := hne)]

theorem keep211 (V : Valuation τ sig (Elt F)) (r : Ref sig .tc) (hr : r ∈ argRefs) :
    after (tail211 (F := F)) V (Proc.devRef .tc r) = V (Proc.devRef .tc r) := by
  have hne : r ≠ main_cst_32 := fun e => absurd (e ▸ hr) (by decide)
  unfold tail211
  rw [after_cons, keep212 _ r hr, nullary_result_ne (h := hne)]

theorem keep210 (V : Valuation τ sig (Elt F)) (r : Ref sig .tc) (hr : r ∈ argRefs) :
    after (tail210 (F := F)) V (Proc.devRef .tc r) = V (Proc.devRef .tc r) := by
  have hne : r ≠ main_v171 := fun e => absurd (e ▸ hr) (by decide)
  unfold tail210
  rw [after_cons, keep211 _ r hr, ternary_result_ne (h := hne)]

theorem keep209 (V : Valuation τ sig (Elt F)) (r : Ref sig .tc) (hr : r ∈ argRefs) :
    after (tail209 (F := F)) V (Proc.devRef .tc r) = V (Proc.devRef .tc r) := by
  have hne : r ≠ main_call2_v1 := fun e => absurd (e ▸ hr) (by decide)
  unfold tail209
  rw [after_cons, keep210 _ r hr, unary_result_ne (h := hne)]

theorem keep208 (V : Valuation τ sig (Elt F)) (r : Ref sig .tc) (hr : r ∈ argRefs) :
    after (tail208 (F := F)) V (Proc.devRef .tc r) = V (Proc.devRef .tc r) := by
  have hne : r ≠ main_call2_v0 := fun e => absurd (e ▸ hr) (by decide)
  unfold tail208
  rw [after_cons, keep209 _ r hr, unary_result_ne (h := hne)]

theorem keep207 (V : Valuation τ sig (Elt F)) (r : Ref sig .tc) (hr : r ∈ argRefs) :
    after (tail207 (F := F)) V (Proc.devRef .tc r) = V (Proc.devRef .tc r) := by
  have hne : r ≠ main_cst_31 := fun e => absurd (e ▸ hr) (by decide)
  unfold tail207
  rw [after_cons, keep208 _ r hr, nullary_result_ne (h := hne)]

theorem keep206 (V : Valuation τ sig (Elt F)) (r : Ref sig .tc) (hr : r ∈ argRefs) :
    after (tail206 (F := F)) V (Proc.devRef .tc r) = V (Proc.devRef .tc r) := by
  have hne : r ≠ main_v170 := fun e => absurd (e ▸ hr) (by decide)
  unfold tail206
  rw [after_cons, keep207 _ r hr, binary_result_ne (h := hne)]

theorem keep205 (V : Valuation τ sig (Elt F)) (r : Ref sig .tc) (hr : r ∈ argRefs) :
    after (tail205 (F := F)) V (Proc.devRef .tc r) = V (Proc.devRef .tc r) := by
  have hne : r ≠ main_cst_30 := fun e => absurd (e ▸ hr) (by decide)
  unfold tail205
  rw [after_cons, keep206 _ r hr, nullary_result_ne (h := hne)]

theorem keep204 (V : Valuation τ sig (Elt F)) (r : Ref sig .tc) (hr : r ∈ argRefs) :
    after (tail204 (F := F)) V (Proc.devRef .tc r) = V (Proc.devRef .tc r) := by
  have hne : r ≠ main_v169 := fun e => absurd (e ▸ hr) (by decide)
  unfold tail204
  rw [after_cons, keep205 _ r hr, binary_result_ne (h := hne)]

theorem keep203 (V : Valuation τ sig (Elt F)) (r : Ref sig .tc) (hr : r ∈ argRefs) :
    after (tail203 (F := F)) V (Proc.devRef .tc r) = V (Proc.devRef .tc r) := by
  have hne : r ≠ main_v168 := fun e => absurd (e ▸ hr) (by decide)
  unfold tail203
  rw [after_cons, keep204 _ r hr, unary_result_ne (h := hne)]

theorem keep202 (V : Valuation τ sig (Elt F)) (r : Ref sig .tc) (hr : r ∈ argRefs) :
    after (tail202 (F := F)) V (Proc.devRef .tc r) = V (Proc.devRef .tc r) := by
  have hne : r ≠ main_v167 := fun e => absurd (e ▸ hr) (by decide)
  unfold tail202
  rw [after_cons, keep203 _ r hr, unary_result_ne (h := hne)]

theorem keep201 (V : Valuation τ sig (Elt F)) (r : Ref sig .tc) (hr : r ∈ argRefs) :
    after (tail201 (F := F)) V (Proc.devRef .tc r) = V (Proc.devRef .tc r) := by
  have hne : r ≠ main_v166 := fun e => absurd (e ▸ hr) (by decide)
  unfold tail201
  rw [after_cons, keep202 _ r hr, binary_result_ne (h := hne)]

theorem keep200 (V : Valuation τ sig (Elt F)) (r : Ref sig .tc) (hr : r ∈ argRefs) :
    after (tail200 (F := F)) V (Proc.devRef .tc r) = V (Proc.devRef .tc r) := by
  have hne : r ≠ main_v165 := fun e => absurd (e ▸ hr) (by decide)
  unfold tail200
  rw [after_cons, keep201 _ r hr, unary_result_ne (h := hne)]

theorem keep199 (V : Valuation τ sig (Elt F)) (r : Ref sig .tc) (hr : r ∈ argRefs) :
    after (tail199 (F := F)) V (Proc.devRef .tc r) = V (Proc.devRef .tc r) := by
  have hne : r ≠ main_v164 := fun e => absurd (e ▸ hr) (by decide)
  unfold tail199
  rw [after_cons, keep200 _ r hr, binary_result_ne (h := hne)]

theorem keep198 (V : Valuation τ sig (Elt F)) (r : Ref sig .tc) (hr : r ∈ argRefs) :
    after (tail198 (F := F)) V (Proc.devRef .tc r) = V (Proc.devRef .tc r) := by
  have hne : r ≠ main_v163 := fun e => absurd (e ▸ hr) (by decide)
  unfold tail198
  rw [after_cons, keep199 _ r hr, binary_result_ne (h := hne)]

theorem keep197 (V : Valuation τ sig (Elt F)) (r : Ref sig .tc) (hr : r ∈ argRefs) :
    after (tail197 (F := F)) V (Proc.devRef .tc r) = V (Proc.devRef .tc r) := by
  have hne : r ≠ main_v162 := fun e => absurd (e ▸ hr) (by decide)
  unfold tail197
  rw [after_cons, keep198 _ r hr, binary_result_ne (h := hne)]

theorem keep196 (V : Valuation τ sig (Elt F)) (r : Ref sig .tc) (hr : r ∈ argRefs) :
    after (tail196 (F := F)) V (Proc.devRef .tc r) = V (Proc.devRef .tc r) := by
  have hne : r ≠ main_v161 := fun e => absurd (e ▸ hr) (by decide)
  unfold tail196
  rw [after_cons, keep197 _ r hr, binary_result_ne (h := hne)]

theorem keep195 (V : Valuation τ sig (Elt F)) (r : Ref sig .tc) (hr : r ∈ argRefs) :
    after (tail195 (F := F)) V (Proc.devRef .tc r) = V (Proc.devRef .tc r) := by
  have hne : r ≠ main_v160 := fun e => absurd (e ▸ hr) (by decide)
  unfold tail195
  rw [after_cons, keep196 _ r hr, unary_result_ne (h := hne)]

theorem keep194 (V : Valuation τ sig (Elt F)) (r : Ref sig .tc) (hr : r ∈ argRefs) :
    after (tail194 (F := F)) V (Proc.devRef .tc r) = V (Proc.devRef .tc r) := by
  have hne : r ≠ main_cst_29 := fun e => absurd (e ▸ hr) (by decide)
  unfold tail194
  rw [after_cons, keep195 _ r hr, nullary_result_ne (h := hne)]

theorem keep193 (V : Valuation τ sig (Elt F)) (r : Ref sig .tc) (hr : r ∈ argRefs) :
    after (tail193 (F := F)) V (Proc.devRef .tc r) = V (Proc.devRef .tc r) := by
  have hne : r ≠ main_v159 := fun e => absurd (e ▸ hr) (by decide)
  unfold tail193
  rw [after_cons, keep194 _ r hr, binary_result_ne (h := hne)]

theorem keep192 (V : Valuation τ sig (Elt F)) (r : Ref sig .tc) (hr : r ∈ argRefs) :
    after (tail192 (F := F)) V (Proc.devRef .tc r) = V (Proc.devRef .tc r) := by
  have hne : r ≠ main_v158 := fun e => absurd (e ▸ hr) (by decide)
  unfold tail192
  rw [after_cons, keep193 _ r hr, unary_result_ne (h := hne)]

theorem keep191 (V : Valuation τ sig (Elt F)) (r : Ref sig .tc) (hr : r ∈ argRefs) :
    after (tail191 (F := F)) V (Proc.devRef .tc r) = V (Proc.devRef .tc r) := by
  have hne : r ≠ main_cst_28 := fun e => absurd (e ▸ hr) (by decide)
  unfold tail191
  rw [after_cons, keep192 _ r hr, nullary_result_ne (h := hne)]

theorem keep190 (V : Valuation τ sig (Elt F)) (r : Ref sig .tc) (hr : r ∈ argRefs) :
    after (tail190 (F := F)) V (Proc.devRef .tc r) = V (Proc.devRef .tc r) := by
  have hne : r ≠ main_v157 := fun e => absurd (e ▸ hr) (by decide)
  unfold tail190
  rw [after_cons, keep191 _ r hr, unary_result_ne (h := hne)]

theorem keep189 (V : Valuation τ sig (Elt F)) (r : Ref sig .tc) (hr : r ∈ argRefs) :
    after (tail189 (F := F)) V (Proc.devRef .tc r) = V (Proc.devRef .tc r) := by
  have hne : r ≠ main_v156 := fun e => absurd (e ▸ hr) (by decide)
  unfold tail189
  rw [after_cons, keep190 _ r hr, unary_result_ne (h := hne)]

theorem keep188 (V : Valuation τ sig (Elt F)) (r : Ref sig .tc) (hr : r ∈ argRefs) :
    after (tail188 (F := F)) V (Proc.devRef .tc r) = V (Proc.devRef .tc r) := by
  have hne : r ≠ main_v155 := fun e => absurd (e ▸ hr) (by decide)
  unfold tail188
  rw [after_cons, keep189 _ r hr, unary_result_ne (h := hne)]

theorem keep187 (V : Valuation τ sig (Elt F)) (r : Ref sig .tc) (hr : r ∈ argRefs) :
    after (tail187 (F := F)) V (Proc.devRef .tc r) = V (Proc.devRef .tc r) := by
  have hne : r ≠ main_v154 := fun e => absurd (e ▸ hr) (by decide)
  unfold tail187
  rw [after_cons, keep188 _ r hr, binary_result_ne (h := hne)]

theorem keep186 (V : Valuation τ sig (Elt F)) (r : Ref sig .tc) (hr : r ∈ argRefs) :
    after (tail186 (F := F)) V (Proc.devRef .tc r) = V (Proc.devRef .tc r) := by
  have hne : r ≠ main_v153 := fun e => absurd (e ▸ hr) (by decide)
  unfold tail186
  rw [after_cons, keep187 _ r hr, unary_result_ne (h := hne)]

theorem keep185 (V : Valuation τ sig (Elt F)) (r : Ref sig .tc) (hr : r ∈ argRefs) :
    after (tail185 (F := F)) V (Proc.devRef .tc r) = V (Proc.devRef .tc r) := by
  have hne : r ≠ main_cst_27 := fun e => absurd (e ▸ hr) (by decide)
  unfold tail185
  rw [after_cons, keep186 _ r hr, nullary_result_ne (h := hne)]

theorem keep184 (V : Valuation τ sig (Elt F)) (r : Ref sig .tc) (hr : r ∈ argRefs) :
    after (tail184 (F := F)) V (Proc.devRef .tc r) = V (Proc.devRef .tc r) := by
  have hne : r ≠ main_v152 := fun e => absurd (e ▸ hr) (by decide)
  unfold tail184
  rw [after_cons, keep185 _ r hr, binary_result_ne (h := hne)]

theorem keep183 (V : Valuation τ sig (Elt F)) (r : Ref sig .tc) (hr : r ∈ argRefs) :
    after (tail183 (F := F)) V (Proc.devRef .tc r) = V (Proc.devRef .tc r) := by
  have hne : r ≠ main_v151 := fun e => absurd (e ▸ hr) (by decide)
  unfold tail183
  rw [after_cons, keep184 _ r hr, unary_result_ne (h := hne)]

theorem keep182 (V : Valuation τ sig (Elt F)) (r : Ref sig .tc) (hr : r ∈ argRefs) :
    after (tail182 (F := F)) V (Proc.devRef .tc r) = V (Proc.devRef .tc r) := by
  have hne : r ≠ main_cst_26 := fun e => absurd (e ▸ hr) (by decide)
  unfold tail182
  rw [after_cons, keep183 _ r hr, nullary_result_ne (h := hne)]

theorem keep181 (V : Valuation τ sig (Elt F)) (r : Ref sig .tc) (hr : r ∈ argRefs) :
    after (tail181 (F := F)) V (Proc.devRef .tc r) = V (Proc.devRef .tc r) := by
  have hne : r ≠ main_v150 := fun e => absurd (e ▸ hr) (by decide)
  unfold tail181
  rw [after_cons, keep182 _ r hr, unary_result_ne (h := hne)]

theorem keep180 (V : Valuation τ sig (Elt F)) (r : Ref sig .tc) (hr : r ∈ argRefs) :
    after (tail180 (F := F)) V (Proc.devRef .tc r) = V (Proc.devRef .tc r) := by
  have hne : r ≠ main_v149 := fun e => absurd (e ▸ hr) (by decide)
  unfold tail180
  rw [after_cons, keep181 _ r hr, unary_result_ne (h := hne)]

theorem keep179 (V : Valuation τ sig (Elt F)) (r : Ref sig .tc) (hr : r ∈ argRefs) :
    after (tail179 (F := F)) V (Proc.devRef .tc r) = V (Proc.devRef .tc r) := by
  have hne : r ≠ main_v148 := fun e => absurd (e ▸ hr) (by decide)
  unfold tail179
  rw [after_cons, keep180 _ r hr, binary_result_ne (h := hne)]

theorem keep178 (V : Valuation τ sig (Elt F)) (r : Ref sig .tc) (hr : r ∈ argRefs) :
    after (tail178 (F := F)) V (Proc.devRef .tc r) = V (Proc.devRef .tc r) := by
  have hne : r ≠ main_v147 := fun e => absurd (e ▸ hr) (by decide)
  unfold tail178
  rw [after_cons, keep179 _ r hr, unary_result_ne (h := hne)]

theorem keep177 (V : Valuation τ sig (Elt F)) (r : Ref sig .tc) (hr : r ∈ argRefs) :
    after (tail177 (F := F)) V (Proc.devRef .tc r) = V (Proc.devRef .tc r) := by
  have hne : r ≠ main_cst_25 := fun e => absurd (e ▸ hr) (by decide)
  unfold tail177
  rw [after_cons, keep178 _ r hr, nullary_result_ne (h := hne)]

theorem keep176 (V : Valuation τ sig (Elt F)) (r : Ref sig .tc) (hr : r ∈ argRefs) :
    after (tail176 (F := F)) V (Proc.devRef .tc r) = V (Proc.devRef .tc r) := by
  have hne : r ≠ main_v146 := fun e => absurd (e ▸ hr) (by decide)
  unfold tail176
  rw [after_cons, keep177 _ r hr, binary_result_ne (h := hne)]

theorem keep175 (V : Valuation τ sig (Elt F)) (r : Ref sig .tc) (hr : r ∈ argRefs) :
    after (tail175 (F := F)) V (Proc.devRef .tc r) = V (Proc.devRef .tc r) := by
  have hne : r ≠ main_v145 := fun e => absurd (e ▸ hr) (by decide)
  unfold tail175
  rw [after_cons, keep176 _ r hr, unary_result_ne (h := hne)]

theorem keep174 (V : Valuation τ sig (Elt F)) (r : Ref sig .tc) (hr : r ∈ argRefs) :
    after (tail174 (F := F)) V (Proc.devRef .tc r) = V (Proc.devRef .tc r) := by
  have hne : r ≠ main_cst_24 := fun e => absurd (e ▸ hr) (by decide)
  unfold tail174
  rw [after_cons, keep175 _ r hr, nullary_result_ne (h := hne)]

theorem keep173 (V : Valuation τ sig (Elt F)) (r : Ref sig .tc) (hr : r ∈ argRefs) :
    after (tail173 (F := F)) V (Proc.devRef .tc r) = V (Proc.devRef .tc r) := by
  have hne : r ≠ main_v144 := fun e => absurd (e ▸ hr) (by decide)
  unfold tail173
  rw [after_cons, keep174 _ r hr, unary_result_ne (h := hne)]

theorem keep172 (V : Valuation τ sig (Elt F)) (r : Ref sig .tc) (hr : r ∈ argRefs) :
    after (tail172 (F := F)) V (Proc.devRef .tc r) = V (Proc.devRef .tc r) := by
  have hne : r ≠ main_v143 := fun e => absurd (e ▸ hr) (by decide)
  unfold tail172
  rw [after_cons, keep173 _ r hr, unary_result_ne (h := hne)]

theorem keep171 (V : Valuation τ sig (Elt F)) (r : Ref sig .tc) (hr : r ∈ argRefs) :
    after (tail171 (F := F)) V (Proc.devRef .tc r) = V (Proc.devRef .tc r) := by
  have hne : r ≠ main_v142 := fun e => absurd (e ▸ hr) (by decide)
  unfold tail171
  rw [after_cons, keep172 _ r hr, unary_result_ne (h := hne)]

theorem keep170 (V : Valuation τ sig (Elt F)) (r : Ref sig .tc) (hr : r ∈ argRefs) :
    after (tail170 (F := F)) V (Proc.devRef .tc r) = V (Proc.devRef .tc r) := by
  have hne : r ≠ main_v141 := fun e => absurd (e ▸ hr) (by decide)
  unfold tail170
  rw [after_cons, keep171 _ r hr, unary_result_ne (h := hne)]

theorem keep169 (V : Valuation τ sig (Elt F)) (r : Ref sig .tc) (hr : r ∈ argRefs) :
    after (tail169 (F := F)) V (Proc.devRef .tc r) = V (Proc.devRef .tc r) := by
  have hne : r ≠ main_v140 := fun e => absurd (e ▸ hr) (by decide)
  unfold tail169
  rw [after_cons, keep170 _ r hr, unary_result_ne (h := hne)]

theorem keep168 (V : Valuation τ sig (Elt F)) (r : Ref sig .tc) (hr : r ∈ argRefs) :
    after (tail168 (F := F)) V (Proc.devRef .tc r) = V (Proc.devRef .tc r) := by
  have hne : r ≠ main_v139 := fun e => absurd (e ▸ hr) (by decide)
  unfold tail168
  rw [after_cons, keep169 _ r hr, unary_result_ne (h := hne)]

theorem keep167 (V : Valuation τ sig (Elt F)) (r : Ref sig .tc) (hr : r ∈ argRefs) :
    after (tail167 (F := F)) V (Proc.devRef .tc r) = V (Proc.devRef .tc r) := by
  have hne : r ≠ main_v138 := fun e => absurd (e ▸ hr) (by decide)
  unfold tail167
  rw [after_cons, keep168 _ r hr, binary_result_ne (h := hne)]

theorem keep166 (V : Valuation τ sig (Elt F)) (r : Ref sig .tc) (hr : r ∈ argRefs) :
    after (tail166 (F := F)) V (Proc.devRef .tc r) = V (Proc.devRef .tc r) := by
  have hne : r ≠ main_v137 := fun e => absurd (e ▸ hr) (by decide)
  unfold tail166
  rw [after_cons, keep167 _ r hr, unary_result_ne (h := hne)]

theorem keep165 (V : Valuation τ sig (Elt F)) (r : Ref sig .tc) (hr : r ∈ argRefs) :
    after (tail165 (F := F)) V (Proc.devRef .tc r) = V (Proc.devRef .tc r) := by
  have hne : r ≠ main_v136 := fun e => absurd (e ▸ hr) (by decide)
  unfold tail165
  rw [after_cons, keep166 _ r hr, unary_result_ne (h := hne)]

theorem keep164 (V : Valuation τ sig (Elt F)) (r : Ref sig .tc) (hr : r ∈ argRefs) :
    after (tail164 (F := F)) V (Proc.devRef .tc r) = V (Proc.devRef .tc r) := by
  have hne : r ≠ main_v135 := fun e => absurd (e ▸ hr) (by decide)
  unfold tail164
  rw [after_cons, keep165 _ r hr, binary_result_ne (h := hne)]

theorem keep163 (V : Valuation τ sig (Elt F)) (r : Ref sig .tc) (hr : r ∈ argRefs) :
    after (tail163 (F := F)) V (Proc.devRef .tc r) = V (Proc.devRef .tc r) := by
  have hne : r ≠ main_v134 := fun e => absurd (e ▸ hr) (by decide)
  unfold tail163
  rw [after_cons, keep164 _ r hr, binary_result_ne (h := hne)]

theorem keep162 (V : Valuation τ sig (Elt F)) (r : Ref sig .tc) (hr : r ∈ argRefs) :
    after (tail162 (F := F)) V (Proc.devRef .tc r) = V (Proc.devRef .tc r) := by
  have hne : r ≠ main_v133 := fun e => absurd (e ▸ hr) (by decide)
  unfold tail162
  rw [after_cons, keep163 _ r hr, unary_result_ne (h := hne)]

theorem keep161 (V : Valuation τ sig (Elt F)) (r : Ref sig .tc) (hr : r ∈ argRefs) :
    after (tail161 (F := F)) V (Proc.devRef .tc r) = V (Proc.devRef .tc r) := by
  have hne : r ≠ main_v132 := fun e => absurd (e ▸ hr) (by decide)
  unfold tail161
  rw [after_cons, keep162 _ r hr, binary_result_ne (h := hne)]

theorem keep160 (V : Valuation τ sig (Elt F)) (r : Ref sig .tc) (hr : r ∈ argRefs) :
    after (tail160 (F := F)) V (Proc.devRef .tc r) = V (Proc.devRef .tc r) := by
  have hne : r ≠ main_v131 := fun e => absurd (e ▸ hr) (by decide)
  unfold tail160
  rw [after_cons, keep161 _ r hr, unary_result_ne (h := hne)]

theorem keep159 (V : Valuation τ sig (Elt F)) (r : Ref sig .tc) (hr : r ∈ argRefs) :
    after (tail159 (F := F)) V (Proc.devRef .tc r) = V (Proc.devRef .tc r) := by
  have hne : r ≠ main_v130 := fun e => absurd (e ▸ hr) (by decide)
  unfold tail159
  rw [after_cons, keep160 _ r hr, unary_result_ne (h := hne)]

theorem keep158 (V : Valuation τ sig (Elt F)) (r : Ref sig .tc) (hr : r ∈ argRefs) :
    after (tail158 (F := F)) V (Proc.devRef .tc r) = V (Proc.devRef .tc r) := by
  have hne : r ≠ main_v129 := fun e => absurd (e ▸ hr) (by decide)
  unfold tail158
  rw [after_cons, keep159 _ r hr, binary_result_ne (h := hne)]

theorem keep157 (V : Valuation τ sig (Elt F)) (r : Ref sig .tc) (hr : r ∈ argRefs) :
    after (tail157 (F := F)) V (Proc.devRef .tc r) = V (Proc.devRef .tc r) := by
  have hne : r ≠ main_v128 := fun e => absurd (e ▸ hr) (by decide)
  unfold tail157
  rw [after_cons, keep158 _ r hr, unary_result_ne (h := hne)]

theorem keep156 (V : Valuation τ sig (Elt F)) (r : Ref sig .tc) (hr : r ∈ argRefs) :
    after (tail156 (F := F)) V (Proc.devRef .tc r) = V (Proc.devRef .tc r) := by
  have hne : r ≠ main_v127 := fun e => absurd (e ▸ hr) (by decide)
  unfold tail156
  rw [after_cons, keep157 _ r hr, binary_result_ne (h := hne)]

theorem keep155 (V : Valuation τ sig (Elt F)) (r : Ref sig .tc) (hr : r ∈ argRefs) :
    after (tail155 (F := F)) V (Proc.devRef .tc r) = V (Proc.devRef .tc r) := by
  have hne : r ≠ main_v126 := fun e => absurd (e ▸ hr) (by decide)
  unfold tail155
  rw [after_cons, keep156 _ r hr, binary_result_ne (h := hne)]

theorem keep154 (V : Valuation τ sig (Elt F)) (r : Ref sig .tc) (hr : r ∈ argRefs) :
    after (tail154 (F := F)) V (Proc.devRef .tc r) = V (Proc.devRef .tc r) := by
  have hne : r ≠ main_cst_23 := fun e => absurd (e ▸ hr) (by decide)
  unfold tail154
  rw [after_cons, keep155 _ r hr, nullary_result_ne (h := hne)]

theorem keep153 (V : Valuation τ sig (Elt F)) (r : Ref sig .tc) (hr : r ∈ argRefs) :
    after (tail153 (F := F)) V (Proc.devRef .tc r) = V (Proc.devRef .tc r) := by
  have hne : r ≠ main_v125 := fun e => absurd (e ▸ hr) (by decide)
  unfold tail153
  rw [after_cons, keep154 _ r hr, binary_result_ne (h := hne)]

theorem keep152 (V : Valuation τ sig (Elt F)) (r : Ref sig .tc) (hr : r ∈ argRefs) :
    after (tail152 (F := F)) V (Proc.devRef .tc r) = V (Proc.devRef .tc r) := by
  have hne : r ≠ main_v124 := fun e => absurd (e ▸ hr) (by decide)
  unfold tail152
  rw [after_cons, keep153 _ r hr, unary_result_ne (h := hne)]

theorem keep151 (V : Valuation τ sig (Elt F)) (r : Ref sig .tc) (hr : r ∈ argRefs) :
    after (tail151 (F := F)) V (Proc.devRef .tc r) = V (Proc.devRef .tc r) := by
  have hne : r ≠ main_v123 := fun e => absurd (e ▸ hr) (by decide)
  unfold tail151
  rw [after_cons, keep152 _ r hr, unary_result_ne (h := hne)]

theorem keep150 (V : Valuation τ sig (Elt F)) (r : Ref sig .tc) (hr : r ∈ argRefs) :
    after (tail150 (F := F)) V (Proc.devRef .tc r) = V (Proc.devRef .tc r) := by
  have hne : r ≠ main_v122 := fun e => absurd (e ▸ hr) (by decide)
  unfold tail150
  rw [after_cons, keep151 _ r hr, binary_result_ne (h := hne)]

theorem keep149 (V : Valuation τ sig (Elt F)) (r : Ref sig .tc) (hr : r ∈ argRefs) :
    after (tail149 (F := F)) V (Proc.devRef .tc r) = V (Proc.devRef .tc r) := by
  have hne : r ≠ main_v121 := fun e => absurd (e ▸ hr) (by decide)
  unfold tail149
  rw [after_cons, keep150 _ r hr, unary_result_ne (h := hne)]

theorem keep148 (V : Valuation τ sig (Elt F)) (r : Ref sig .tc) (hr : r ∈ argRefs) :
    after (tail148 (F := F)) V (Proc.devRef .tc r) = V (Proc.devRef .tc r) := by
  have hne : r ≠ main_v120 := fun e => absurd (e ▸ hr) (by decide)
  unfold tail148
  rw [after_cons, keep149 _ r hr, unary_result_ne (h := hne)]

theorem keep147 (V : Valuation τ sig (Elt F)) (r : Ref sig .tc) (hr : r ∈ argRefs) :
    after (tail147 (F := F)) V (Proc.devRef .tc r) = V (Proc.devRef .tc r) := by
  have hne : r ≠ main_v119 := fun e => absurd (e ▸ hr) (by decide)
  unfold tail147
  rw [after_cons, keep148 _ r hr, binary_result_ne (h := hne)]

theorem keep146 (V : Valuation τ sig (Elt F)) (r : Ref sig .tc) (hr : r ∈ argRefs) :
    after (tail146 (F := F)) V (Proc.devRef .tc r) = V (Proc.devRef .tc r) := by
  have hne : r ≠ main_v118 := fun e => absurd (e ▸ hr) (by decide)
  unfold tail146
  rw [after_cons, keep147 _ r hr, unary_result_ne (h := hne)]

theorem keep145 (V : Valuation τ sig (Elt F)) (r : Ref sig .tc) (hr : r ∈ argRefs) :
    after (tail145 (F := F)) V (Proc.devRef .tc r) = V (Proc.devRef .tc r) := by
  have hne : r ≠ main_v117 := fun e => absurd (e ▸ hr) (by decide)
  unfold tail145
  rw [after_cons, keep146 _ r hr, unary_result_ne (h := hne)]

theorem keep144 (V : Valuation τ sig (Elt F)) (r : Ref sig .tc) (hr : r ∈ argRefs) :
    after (tail144 (F := F)) V (Proc.devRef .tc r) = V (Proc.devRef .tc r) := by
  have hne : r ≠ main_v116 := fun e => absurd (e ▸ hr) (by decide)
  unfold tail144
  rw [after_cons, keep145 _ r hr, binary_result_ne (h := hne)]

theorem keep143 (V : Valuation τ sig (Elt F)) (r : Ref sig .tc) (hr : r ∈ argRefs) :
    after (tail143 (F := F)) V (Proc.devRef .tc r) = V (Proc.devRef .tc r) := by
  have hne : r ≠ main_cst_22 := fun e => absurd (e ▸ hr) (by decide)
  unfold tail143
  rw [after_cons, keep144 _ r hr, nullary_result_ne (h := hne)]

theorem keep142 (V : Valuation τ sig (Elt F)) (r : Ref sig .tc) (hr : r ∈ argRefs) :
    after (tail142 (F := F)) V (Proc.devRef .tc r) = V (Proc.devRef .tc r) := by
  have hne : r ≠ main_v115 := fun e => absurd (e ▸ hr) (by decide)
  unfold tail142
  rw [after_cons, keep143 _ r hr, binary_result_ne (h := hne)]

theorem keep141 (V : Valuation τ sig (Elt F)) (r : Ref sig .tc) (hr : r ∈ argRefs) :
    after (tail141 (F := F)) V (Proc.devRef .tc r) = V (Proc.devRef .tc r) := by
  have hne : r ≠ main_v114 := fun e => absurd (e ▸ hr) (by decide)
  unfold tail141
  rw [after_cons, keep142 _ r hr, unary_result_ne (h := hne)]

theorem keep140 (V : Valuation τ sig (Elt F)) (r : Ref sig .tc) (hr : r ∈ argRefs) :
    after (tail140 (F := F)) V (Proc.devRef .tc r) = V (Proc.devRef .tc r) := by
  have hne : r ≠ main_v113 := fun e => absurd (e ▸ hr) (by decide)
  unfold tail140
  rw [after_cons, keep141 _ r hr, binary_result_ne (h := hne)]

theorem keep139 (V : Valuation τ sig (Elt F)) (r : Ref sig .tc) (hr : r ∈ argRefs) :
    after (tail139 (F := F)) V (Proc.devRef .tc r) = V (Proc.devRef .tc r) := by
  have hne : r ≠ main_v112 := fun e => absurd (e ▸ hr) (by decide)
  unfold tail139
  rw [after_cons, keep140 _ r hr, unary_result_ne (h := hne)]

theorem keep138 (V : Valuation τ sig (Elt F)) (r : Ref sig .tc) (hr : r ∈ argRefs) :
    after (tail138 (F := F)) V (Proc.devRef .tc r) = V (Proc.devRef .tc r) := by
  have hne : r ≠ main_v111 := fun e => absurd (e ▸ hr) (by decide)
  unfold tail138
  rw [after_cons, keep139 _ r hr, unary_result_ne (h := hne)]

theorem keep137 (V : Valuation τ sig (Elt F)) (r : Ref sig .tc) (hr : r ∈ argRefs) :
    after (tail137 (F := F)) V (Proc.devRef .tc r) = V (Proc.devRef .tc r) := by
  have hne : r ≠ main_v110 := fun e => absurd (e ▸ hr) (by decide)
  unfold tail137
  rw [after_cons, keep138 _ r hr, binary_result_ne (h := hne)]

theorem keep136 (V : Valuation τ sig (Elt F)) (r : Ref sig .tc) (hr : r ∈ argRefs) :
    after (tail136 (F := F)) V (Proc.devRef .tc r) = V (Proc.devRef .tc r) := by
  have hne : r ≠ main_cst_21 := fun e => absurd (e ▸ hr) (by decide)
  unfold tail136
  rw [after_cons, keep137 _ r hr, nullary_result_ne (h := hne)]

theorem keep135 (V : Valuation τ sig (Elt F)) (r : Ref sig .tc) (hr : r ∈ argRefs) :
    after (tail135 (F := F)) V (Proc.devRef .tc r) = V (Proc.devRef .tc r) := by
  have hne : r ≠ main_v109 := fun e => absurd (e ▸ hr) (by decide)
  unfold tail135
  rw [after_cons, keep136 _ r hr, ternary_result_ne (h := hne)]

theorem keep134 (V : Valuation τ sig (Elt F)) (r : Ref sig .tc) (hr : r ∈ argRefs) :
    after (tail134 (F := F)) V (Proc.devRef .tc r) = V (Proc.devRef .tc r) := by
  have hne : r ≠ main_call1_v1 := fun e => absurd (e ▸ hr) (by decide)
  unfold tail134
  rw [after_cons, keep135 _ r hr, unary_result_ne (h := hne)]

theorem keep133 (V : Valuation τ sig (Elt F)) (r : Ref sig .tc) (hr : r ∈ argRefs) :
    after (tail133 (F := F)) V (Proc.devRef .tc r) = V (Proc.devRef .tc r) := by
  have hne : r ≠ main_call1_v0 := fun e => absurd (e ▸ hr) (by decide)
  unfold tail133
  rw [after_cons, keep134 _ r hr, unary_result_ne (h := hne)]

theorem keep132 (V : Valuation τ sig (Elt F)) (r : Ref sig .tc) (hr : r ∈ argRefs) :
    after (tail132 (F := F)) V (Proc.devRef .tc r) = V (Proc.devRef .tc r) := by
  have hne : r ≠ main_cst_20 := fun e => absurd (e ▸ hr) (by decide)
  unfold tail132
  rw [after_cons, keep133 _ r hr, nullary_result_ne (h := hne)]

theorem keep131 (V : Valuation τ sig (Elt F)) (r : Ref sig .tc) (hr : r ∈ argRefs) :
    after (tail131 (F := F)) V (Proc.devRef .tc r) = V (Proc.devRef .tc r) := by
  have hne : r ≠ main_v108 := fun e => absurd (e ▸ hr) (by decide)
  unfold tail131
  rw [after_cons, keep132 _ r hr, binary_result_ne (h := hne)]

theorem keep130 (V : Valuation τ sig (Elt F)) (r : Ref sig .tc) (hr : r ∈ argRefs) :
    after (tail130 (F := F)) V (Proc.devRef .tc r) = V (Proc.devRef .tc r) := by
  have hne : r ≠ main_cst_19 := fun e => absurd (e ▸ hr) (by decide)
  unfold tail130
  rw [after_cons, keep131 _ r hr, nullary_result_ne (h := hne)]

theorem keep129 (V : Valuation τ sig (Elt F)) (r : Ref sig .tc) (hr : r ∈ argRefs) :
    after (tail129 (F := F)) V (Proc.devRef .tc r) = V (Proc.devRef .tc r) := by
  have hne : r ≠ main_v107 := fun e => absurd (e ▸ hr) (by decide)
  unfold tail129
  rw [after_cons, keep130 _ r hr, binary_result_ne (h := hne)]

theorem keep128 (V : Valuation τ sig (Elt F)) (r : Ref sig .tc) (hr : r ∈ argRefs) :
    after (tail128 (F := F)) V (Proc.devRef .tc r) = V (Proc.devRef .tc r) := by
  have hne : r ≠ main_v106 := fun e => absurd (e ▸ hr) (by decide)
  unfold tail128
  rw [after_cons, keep129 _ r hr, unary_result_ne (h := hne)]

theorem keep127 (V : Valuation τ sig (Elt F)) (r : Ref sig .tc) (hr : r ∈ argRefs) :
    after (tail127 (F := F)) V (Proc.devRef .tc r) = V (Proc.devRef .tc r) := by
  have hne : r ≠ main_v105 := fun e => absurd (e ▸ hr) (by decide)
  unfold tail127
  rw [after_cons, keep128 _ r hr, unary_result_ne (h := hne)]

theorem keep126 (V : Valuation τ sig (Elt F)) (r : Ref sig .tc) (hr : r ∈ argRefs) :
    after (tail126 (F := F)) V (Proc.devRef .tc r) = V (Proc.devRef .tc r) := by
  have hne : r ≠ main_v104 := fun e => absurd (e ▸ hr) (by decide)
  unfold tail126
  rw [after_cons, keep127 _ r hr, binary_result_ne (h := hne)]

theorem keep125 (V : Valuation τ sig (Elt F)) (r : Ref sig .tc) (hr : r ∈ argRefs) :
    after (tail125 (F := F)) V (Proc.devRef .tc r) = V (Proc.devRef .tc r) := by
  have hne : r ≠ main_v103 := fun e => absurd (e ▸ hr) (by decide)
  unfold tail125
  rw [after_cons, keep126 _ r hr, unary_result_ne (h := hne)]

theorem keep124 (V : Valuation τ sig (Elt F)) (r : Ref sig .tc) (hr : r ∈ argRefs) :
    after (tail124 (F := F)) V (Proc.devRef .tc r) = V (Proc.devRef .tc r) := by
  have hne : r ≠ main_v102 := fun e => absurd (e ▸ hr) (by decide)
  unfold tail124
  rw [after_cons, keep125 _ r hr, binary_result_ne (h := hne)]

theorem keep123 (V : Valuation τ sig (Elt F)) (r : Ref sig .tc) (hr : r ∈ argRefs) :
    after (tail123 (F := F)) V (Proc.devRef .tc r) = V (Proc.devRef .tc r) := by
  have hne : r ≠ main_v101 := fun e => absurd (e ▸ hr) (by decide)
  unfold tail123
  rw [after_cons, keep124 _ r hr, binary_result_ne (h := hne)]

theorem keep122 (V : Valuation τ sig (Elt F)) (r : Ref sig .tc) (hr : r ∈ argRefs) :
    after (tail122 (F := F)) V (Proc.devRef .tc r) = V (Proc.devRef .tc r) := by
  have hne : r ≠ main_v100 := fun e => absurd (e ▸ hr) (by decide)
  unfold tail122
  rw [after_cons, keep123 _ r hr, binary_result_ne (h := hne)]

theorem keep121 (V : Valuation τ sig (Elt F)) (r : Ref sig .tc) (hr : r ∈ argRefs) :
    after (tail121 (F := F)) V (Proc.devRef .tc r) = V (Proc.devRef .tc r) := by
  have hne : r ≠ main_v99 := fun e => absurd (e ▸ hr) (by decide)
  unfold tail121
  rw [after_cons, keep122 _ r hr, binary_result_ne (h := hne)]

theorem keep120 (V : Valuation τ sig (Elt F)) (r : Ref sig .tc) (hr : r ∈ argRefs) :
    after (tail120 (F := F)) V (Proc.devRef .tc r) = V (Proc.devRef .tc r) := by
  have hne : r ≠ main_v98 := fun e => absurd (e ▸ hr) (by decide)
  unfold tail120
  rw [after_cons, keep121 _ r hr, unary_result_ne (h := hne)]

theorem keep119 (V : Valuation τ sig (Elt F)) (r : Ref sig .tc) (hr : r ∈ argRefs) :
    after (tail119 (F := F)) V (Proc.devRef .tc r) = V (Proc.devRef .tc r) := by
  have hne : r ≠ main_cst_18 := fun e => absurd (e ▸ hr) (by decide)
  unfold tail119
  rw [after_cons, keep120 _ r hr, nullary_result_ne (h := hne)]

theorem keep118 (V : Valuation τ sig (Elt F)) (r : Ref sig .tc) (hr : r ∈ argRefs) :
    after (tail118 (F := F)) V (Proc.devRef .tc r) = V (Proc.devRef .tc r) := by
  have hne : r ≠ main_v97 := fun e => absurd (e ▸ hr) (by decide)
  unfold tail118
  rw [after_cons, keep119 _ r hr, binary_result_ne (h := hne)]

theorem keep117 (V : Valuation τ sig (Elt F)) (r : Ref sig .tc) (hr : r ∈ argRefs) :
    after (tail117 (F := F)) V (Proc.devRef .tc r) = V (Proc.devRef .tc r) := by
  have hne : r ≠ main_v96 := fun e => absurd (e ▸ hr) (by decide)
  unfold tail117
  rw [after_cons, keep118 _ r hr, unary_result_ne (h := hne)]

theorem keep116 (V : Valuation τ sig (Elt F)) (r : Ref sig .tc) (hr : r ∈ argRefs) :
    after (tail116 (F := F)) V (Proc.devRef .tc r) = V (Proc.devRef .tc r) := by
  have hne : r ≠ main_cst_17 := fun e => absurd (e ▸ hr) (by decide)
  unfold tail116
  rw [after_cons, keep117 _ r hr, nullary_result_ne (h := hne)]

theorem keep115 (V : Valuation τ sig (Elt F)) (r : Ref sig .tc) (hr : r ∈ argRefs) :
    after (tail115 (F := F)) V (Proc.devRef .tc r) = V (Proc.devRef .tc r) := by
  have hne : r ≠ main_v95 := fun e => absurd (e ▸ hr) (by decide)
  unfold tail115
  rw [after_cons, keep116 _ r hr, unary_result_ne (h := hne)]

theorem keep114 (V : Valuation τ sig (Elt F)) (r : Ref sig .tc) (hr : r ∈ argRefs) :
    after (tail114 (F := F)) V (Proc.devRef .tc r) = V (Proc.devRef .tc r) := by
  have hne : r ≠ main_v94 := fun e => absurd (e ▸ hr) (by decide)
  unfold tail114
  rw [after_cons, keep115 _ r hr, unary_result_ne (h := hne)]

theorem keep113 (V : Valuation τ sig (Elt F)) (r : Ref sig .tc) (hr : r ∈ argRefs) :
    after (tail113 (F := F)) V (Proc.devRef .tc r) = V (Proc.devRef .tc r) := by
  have hne : r ≠ main_v93 := fun e => absurd (e ▸ hr) (by decide)
  unfold tail113
  rw [after_cons, keep114 _ r hr, unary_result_ne (h := hne)]

theorem keep112 (V : Valuation τ sig (Elt F)) (r : Ref sig .tc) (hr : r ∈ argRefs) :
    after (tail112 (F := F)) V (Proc.devRef .tc r) = V (Proc.devRef .tc r) := by
  have hne : r ≠ main_v92 := fun e => absurd (e ▸ hr) (by decide)
  unfold tail112
  rw [after_cons, keep113 _ r hr, binary_result_ne (h := hne)]

theorem keep111 (V : Valuation τ sig (Elt F)) (r : Ref sig .tc) (hr : r ∈ argRefs) :
    after (tail111 (F := F)) V (Proc.devRef .tc r) = V (Proc.devRef .tc r) := by
  have hne : r ≠ main_v91 := fun e => absurd (e ▸ hr) (by decide)
  unfold tail111
  rw [after_cons, keep112 _ r hr, unary_result_ne (h := hne)]

theorem keep110 (V : Valuation τ sig (Elt F)) (r : Ref sig .tc) (hr : r ∈ argRefs) :
    after (tail110 (F := F)) V (Proc.devRef .tc r) = V (Proc.devRef .tc r) := by
  have hne : r ≠ main_cst_16 := fun e => absurd (e ▸ hr) (by decide)
  unfold tail110
  rw [after_cons, keep111 _ r hr, nullary_result_ne (h := hne)]

theorem keep109 (V : Valuation τ sig (Elt F)) (r : Ref sig .tc) (hr : r ∈ argRefs) :
    after (tail109 (F := F)) V (Proc.devRef .tc r) = V (Proc.devRef .tc r) := by
  have hne : r ≠ main_v90 := fun e => absurd (e ▸ hr) (by decide)
  unfold tail109
  rw [after_cons, keep110 _ r hr, binary_result_ne (h := hne)]

theorem keep108 (V : Valuation τ sig (Elt F)) (r : Ref sig .tc) (hr : r ∈ argRefs) :
    after (tail108 (F := F)) V (Proc.devRef .tc r) = V (Proc.devRef .tc r) := by
  have hne : r ≠ main_v89 := fun e => absurd (e ▸ hr) (by decide)
  unfold tail108
  rw [after_cons, keep109 _ r hr, unary_result_ne (h := hne)]

theorem keep107 (V : Valuation τ sig (Elt F)) (r : Ref sig .tc) (hr : r ∈ argRefs) :
    after (tail107 (F := F)) V (Proc.devRef .tc r) = V (Proc.devRef .tc r) := by
  have hne : r ≠ main_cst_15 := fun e => absurd (e ▸ hr) (by decide)
  unfold tail107
  rw [after_cons, keep108 _ r hr, nullary_result_ne (h := hne)]

theorem keep106 (V : Valuation τ sig (Elt F)) (r : Ref sig .tc) (hr : r ∈ argRefs) :
    after (tail106 (F := F)) V (Proc.devRef .tc r) = V (Proc.devRef .tc r) := by
  have hne : r ≠ main_v88 := fun e => absurd (e ▸ hr) (by decide)
  unfold tail106
  rw [after_cons, keep107 _ r hr, unary_result_ne (h := hne)]

theorem keep105 (V : Valuation τ sig (Elt F)) (r : Ref sig .tc) (hr : r ∈ argRefs) :
    after (tail105 (F := F)) V (Proc.devRef .tc r) = V (Proc.devRef .tc r) := by
  have hne : r ≠ main_v87 := fun e => absurd (e ▸ hr) (by decide)
  unfold tail105
  rw [after_cons, keep106 _ r hr, unary_result_ne (h := hne)]

theorem keep104 (V : Valuation τ sig (Elt F)) (r : Ref sig .tc) (hr : r ∈ argRefs) :
    after (tail104 (F := F)) V (Proc.devRef .tc r) = V (Proc.devRef .tc r) := by
  have hne : r ≠ main_v86 := fun e => absurd (e ▸ hr) (by decide)
  unfold tail104
  rw [after_cons, keep105 _ r hr, binary_result_ne (h := hne)]

theorem keep103 (V : Valuation τ sig (Elt F)) (r : Ref sig .tc) (hr : r ∈ argRefs) :
    after (tail103 (F := F)) V (Proc.devRef .tc r) = V (Proc.devRef .tc r) := by
  have hne : r ≠ main_v85 := fun e => absurd (e ▸ hr) (by decide)
  unfold tail103
  rw [after_cons, keep104 _ r hr, unary_result_ne (h := hne)]

theorem keep102 (V : Valuation τ sig (Elt F)) (r : Ref sig .tc) (hr : r ∈ argRefs) :
    after (tail102 (F := F)) V (Proc.devRef .tc r) = V (Proc.devRef .tc r) := by
  have hne : r ≠ main_cst_14 := fun e => absurd (e ▸ hr) (by decide)
  unfold tail102
  rw [after_cons, keep103 _ r hr, nullary_result_ne (h := hne)]

theorem keep101 (V : Valuation τ sig (Elt F)) (r : Ref sig .tc) (hr : r ∈ argRefs) :
    after (tail101 (F := F)) V (Proc.devRef .tc r) = V (Proc.devRef .tc r) := by
  have hne : r ≠ main_v84 := fun e => absurd (e ▸ hr) (by decide)
  unfold tail101
  rw [after_cons, keep102 _ r hr, binary_result_ne (h := hne)]

theorem keep100 (V : Valuation τ sig (Elt F)) (r : Ref sig .tc) (hr : r ∈ argRefs) :
    after (tail100 (F := F)) V (Proc.devRef .tc r) = V (Proc.devRef .tc r) := by
  have hne : r ≠ main_v83 := fun e => absurd (e ▸ hr) (by decide)
  unfold tail100
  rw [after_cons, keep101 _ r hr, unary_result_ne (h := hne)]

theorem keep99 (V : Valuation τ sig (Elt F)) (r : Ref sig .tc) (hr : r ∈ argRefs) :
    after (tail99 (F := F)) V (Proc.devRef .tc r) = V (Proc.devRef .tc r) := by
  have hne : r ≠ main_cst_13 := fun e => absurd (e ▸ hr) (by decide)
  unfold tail99
  rw [after_cons, keep100 _ r hr, nullary_result_ne (h := hne)]

theorem keep98 (V : Valuation τ sig (Elt F)) (r : Ref sig .tc) (hr : r ∈ argRefs) :
    after (tail98 (F := F)) V (Proc.devRef .tc r) = V (Proc.devRef .tc r) := by
  have hne : r ≠ main_v82 := fun e => absurd (e ▸ hr) (by decide)
  unfold tail98
  rw [after_cons, keep99 _ r hr, unary_result_ne (h := hne)]

theorem keep97 (V : Valuation τ sig (Elt F)) (r : Ref sig .tc) (hr : r ∈ argRefs) :
    after (tail97 (F := F)) V (Proc.devRef .tc r) = V (Proc.devRef .tc r) := by
  have hne : r ≠ main_v81 := fun e => absurd (e ▸ hr) (by decide)
  unfold tail97
  rw [after_cons, keep98 _ r hr, unary_result_ne (h := hne)]

theorem keep96 (V : Valuation τ sig (Elt F)) (r : Ref sig .tc) (hr : r ∈ argRefs) :
    after (tail96 (F := F)) V (Proc.devRef .tc r) = V (Proc.devRef .tc r) := by
  have hne : r ≠ main_v80 := fun e => absurd (e ▸ hr) (by decide)
  unfold tail96
  rw [after_cons, keep97 _ r hr, unary_result_ne (h := hne)]

theorem keep95 (V : Valuation τ sig (Elt F)) (r : Ref sig .tc) (hr : r ∈ argRefs) :
    after (tail95 (F := F)) V (Proc.devRef .tc r) = V (Proc.devRef .tc r) := by
  have hne : r ≠ main_v79 := fun e => absurd (e ▸ hr) (by decide)
  unfold tail95
  rw [after_cons, keep96 _ r hr, unary_result_ne (h := hne)]

theorem keep94 (V : Valuation τ sig (Elt F)) (r : Ref sig .tc) (hr : r ∈ argRefs) :
    after (tail94 (F := F)) V (Proc.devRef .tc r) = V (Proc.devRef .tc r) := by
  have hne : r ≠ main_v78 := fun e => absurd (e ▸ hr) (by decide)
  unfold tail94
  rw [after_cons, keep95 _ r hr, unary_result_ne (h := hne)]

theorem keep93 (V : Valuation τ sig (Elt F)) (r : Ref sig .tc) (hr : r ∈ argRefs) :
    after (tail93 (F := F)) V (Proc.devRef .tc r) = V (Proc.devRef .tc r) := by
  have hne : r ≠ main_v77 := fun e => absurd (e ▸ hr) (by decide)
  unfold tail93
  rw [after_cons, keep94 _ r hr, unary_result_ne (h := hne)]

theorem keep92 (V : Valuation τ sig (Elt F)) (r : Ref sig .tc) (hr : r ∈ argRefs) :
    after (tail92 (F := F)) V (Proc.devRef .tc r) = V (Proc.devRef .tc r) := by
  have hne : r ≠ main_v76 := fun e => absurd (e ▸ hr) (by decide)
  unfold tail92
  rw [after_cons, keep93 _ r hr, binary_result_ne (h := hne)]

theorem keep91 (V : Valuation τ sig (Elt F)) (r : Ref sig .tc) (hr : r ∈ argRefs) :
    after (tail91 (F := F)) V (Proc.devRef .tc r) = V (Proc.devRef .tc r) := by
  have hne : r ≠ main_v75 := fun e => absurd (e ▸ hr) (by decide)
  unfold tail91
  rw [after_cons, keep92 _ r hr, unary_result_ne (h := hne)]

theorem keep90 (V : Valuation τ sig (Elt F)) (r : Ref sig .tc) (hr : r ∈ argRefs) :
    after (tail90 (F := F)) V (Proc.devRef .tc r) = V (Proc.devRef .tc r) := by
  have hne : r ≠ main_v74 := fun e => absurd (e ▸ hr) (by decide)
  unfold tail90
  rw [after_cons, keep91 _ r hr, unary_result_ne (h := hne)]

theorem keep89 (V : Valuation τ sig (Elt F)) (r : Ref sig .tc) (hr : r ∈ argRefs) :
    after (tail89 (F := F)) V (Proc.devRef .tc r) = V (Proc.devRef .tc r) := by
  have hne : r ≠ main_v73 := fun e => absurd (e ▸ hr) (by decide)
  unfold tail89
  rw [after_cons, keep90 _ r hr, binary_result_ne (h := hne)]

theorem keep88 (V : Valuation τ sig (Elt F)) (r : Ref sig .tc) (hr : r ∈ argRefs) :
    after (tail88 (F := F)) V (Proc.devRef .tc r) = V (Proc.devRef .tc r) := by
  have hne : r ≠ main_v72 := fun e => absurd (e ▸ hr) (by decide)
  unfold tail88
  rw [after_cons, keep89 _ r hr, binary_result_ne (h := hne)]

theorem keep87 (V : Valuation τ sig (Elt F)) (r : Ref sig .tc) (hr : r ∈ argRefs) :
    after (tail87 (F := F)) V (Proc.devRef .tc r) = V (Proc.devRef .tc r) := by
  have hne : r ≠ main_v71 := fun e => absurd (e ▸ hr) (by decide)
  unfold tail87
  rw [after_cons, keep88 _ r hr, unary_result_ne (h := hne)]

theorem keep86 (V : Valuation τ sig (Elt F)) (r : Ref sig .tc) (hr : r ∈ argRefs) :
    after (tail86 (F := F)) V (Proc.devRef .tc r) = V (Proc.devRef .tc r) := by
  have hne : r ≠ main_v70 := fun e => absurd (e ▸ hr) (by decide)
  unfold tail86
  rw [after_cons, keep87 _ r hr, binary_result_ne (h := hne)]

theorem keep85 (V : Valuation τ sig (Elt F)) (r : Ref sig .tc) (hr : r ∈ argRefs) :
    after (tail85 (F := F)) V (Proc.devRef .tc r) = V (Proc.devRef .tc r) := by
  have hne : r ≠ main_v69 := fun e => absurd (e ▸ hr) (by decide)
  unfold tail85
  rw [after_cons, keep86 _ r hr, unary_result_ne (h := hne)]

theorem keep84 (V : Valuation τ sig (Elt F)) (r : Ref sig .tc) (hr : r ∈ argRefs) :
    after (tail84 (F := F)) V (Proc.devRef .tc r) = V (Proc.devRef .tc r) := by
  have hne : r ≠ main_v68 := fun e => absurd (e ▸ hr) (by decide)
  unfold tail84
  rw [after_cons, keep85 _ r hr, unary_result_ne (h := hne)]

theorem keep83 (V : Valuation τ sig (Elt F)) (r : Ref sig .tc) (hr : r ∈ argRefs) :
    after (tail83 (F := F)) V (Proc.devRef .tc r) = V (Proc.devRef .tc r) := by
  have hne : r ≠ main_v67 := fun e => absurd (e ▸ hr) (by decide)
  unfold tail83
  rw [after_cons, keep84 _ r hr, binary_result_ne (h := hne)]

theorem keep82 (V : Valuation τ sig (Elt F)) (r : Ref sig .tc) (hr : r ∈ argRefs) :
    after (tail82 (F := F)) V (Proc.devRef .tc r) = V (Proc.devRef .tc r) := by
  have hne : r ≠ main_v66 := fun e => absurd (e ▸ hr) (by decide)
  unfold tail82
  rw [after_cons, keep83 _ r hr, unary_result_ne (h := hne)]

theorem keep81 (V : Valuation τ sig (Elt F)) (r : Ref sig .tc) (hr : r ∈ argRefs) :
    after (tail81 (F := F)) V (Proc.devRef .tc r) = V (Proc.devRef .tc r) := by
  have hne : r ≠ main_v65 := fun e => absurd (e ▸ hr) (by decide)
  unfold tail81
  rw [after_cons, keep82 _ r hr, binary_result_ne (h := hne)]

theorem keep80 (V : Valuation τ sig (Elt F)) (r : Ref sig .tc) (hr : r ∈ argRefs) :
    after (tail80 (F := F)) V (Proc.devRef .tc r) = V (Proc.devRef .tc r) := by
  have hne : r ≠ main_v64 := fun e => absurd (e ▸ hr) (by decide)
  unfold tail80
  rw [after_cons, keep81 _ r hr, binary_result_ne (h := hne)]

theorem keep79 (V : Valuation τ sig (Elt F)) (r : Ref sig .tc) (hr : r ∈ argRefs) :
    after (tail79 (F := F)) V (Proc.devRef .tc r) = V (Proc.devRef .tc r) := by
  have hne : r ≠ main_cst_12 := fun e => absurd (e ▸ hr) (by decide)
  unfold tail79
  rw [after_cons, keep80 _ r hr, nullary_result_ne (h := hne)]

theorem keep78 (V : Valuation τ sig (Elt F)) (r : Ref sig .tc) (hr : r ∈ argRefs) :
    after (tail78 (F := F)) V (Proc.devRef .tc r) = V (Proc.devRef .tc r) := by
  have hne : r ≠ main_v63 := fun e => absurd (e ▸ hr) (by decide)
  unfold tail78
  rw [after_cons, keep79 _ r hr, binary_result_ne (h := hne)]

theorem keep77 (V : Valuation τ sig (Elt F)) (r : Ref sig .tc) (hr : r ∈ argRefs) :
    after (tail77 (F := F)) V (Proc.devRef .tc r) = V (Proc.devRef .tc r) := by
  have hne : r ≠ main_v62 := fun e => absurd (e ▸ hr) (by decide)
  unfold tail77
  rw [after_cons, keep78 _ r hr, unary_result_ne (h := hne)]

theorem keep76 (V : Valuation τ sig (Elt F)) (r : Ref sig .tc) (hr : r ∈ argRefs) :
    after (tail76 (F := F)) V (Proc.devRef .tc r) = V (Proc.devRef .tc r) := by
  have hne : r ≠ main_v61 := fun e => absurd (e ▸ hr) (by decide)
  unfold tail76
  rw [after_cons, keep77 _ r hr, unary_result_ne (h := hne)]

theorem keep75 (V : Valuation τ sig (Elt F)) (r : Ref sig .tc) (hr : r ∈ argRefs) :
    after (tail75 (F := F)) V (Proc.devRef .tc r) = V (Proc.devRef .tc r) := by
  have hne : r ≠ main_v60 := fun e => absurd (e ▸ hr) (by decide)
  unfold tail75
  rw [after_cons, keep76 _ r hr, binary_result_ne (h := hne)]

theorem keep74 (V : Valuation τ sig (Elt F)) (r : Ref sig .tc) (hr : r ∈ argRefs) :
    after (tail74 (F := F)) V (Proc.devRef .tc r) = V (Proc.devRef .tc r) := by
  have hne : r ≠ main_v59 := fun e => absurd (e ▸ hr) (by decide)
  unfold tail74
  rw [after_cons, keep75 _ r hr, unary_result_ne (h := hne)]

theorem keep73 (V : Valuation τ sig (Elt F)) (r : Ref sig .tc) (hr : r ∈ argRefs) :
    after (tail73 (F := F)) V (Proc.devRef .tc r) = V (Proc.devRef .tc r) := by
  have hne : r ≠ main_v58 := fun e => absurd (e ▸ hr) (by decide)
  unfold tail73
  rw [after_cons, keep74 _ r hr, unary_result_ne (h := hne)]

theorem keep72 (V : Valuation τ sig (Elt F)) (r : Ref sig .tc) (hr : r ∈ argRefs) :
    after (tail72 (F := F)) V (Proc.devRef .tc r) = V (Proc.devRef .tc r) := by
  have hne : r ≠ main_v57 := fun e => absurd (e ▸ hr) (by decide)
  unfold tail72
  rw [after_cons, keep73 _ r hr, binary_result_ne (h := hne)]

theorem keep71 (V : Valuation τ sig (Elt F)) (r : Ref sig .tc) (hr : r ∈ argRefs) :
    after (tail71 (F := F)) V (Proc.devRef .tc r) = V (Proc.devRef .tc r) := by
  have hne : r ≠ main_v56 := fun e => absurd (e ▸ hr) (by decide)
  unfold tail71
  rw [after_cons, keep72 _ r hr, unary_result_ne (h := hne)]

theorem keep70 (V : Valuation τ sig (Elt F)) (r : Ref sig .tc) (hr : r ∈ argRefs) :
    after (tail70 (F := F)) V (Proc.devRef .tc r) = V (Proc.devRef .tc r) := by
  have hne : r ≠ main_v55 := fun e => absurd (e ▸ hr) (by decide)
  unfold tail70
  rw [after_cons, keep71 _ r hr, unary_result_ne (h := hne)]

theorem keep69 (V : Valuation τ sig (Elt F)) (r : Ref sig .tc) (hr : r ∈ argRefs) :
    after (tail69 (F := F)) V (Proc.devRef .tc r) = V (Proc.devRef .tc r) := by
  have hne : r ≠ main_v54 := fun e => absurd (e ▸ hr) (by decide)
  unfold tail69
  rw [after_cons, keep70 _ r hr, binary_result_ne (h := hne)]

theorem keep68 (V : Valuation τ sig (Elt F)) (r : Ref sig .tc) (hr : r ∈ argRefs) :
    after (tail68 (F := F)) V (Proc.devRef .tc r) = V (Proc.devRef .tc r) := by
  have hne : r ≠ main_cst_11 := fun e => absurd (e ▸ hr) (by decide)
  unfold tail68
  rw [after_cons, keep69 _ r hr, nullary_result_ne (h := hne)]

theorem keep67 (V : Valuation τ sig (Elt F)) (r : Ref sig .tc) (hr : r ∈ argRefs) :
    after (tail67 (F := F)) V (Proc.devRef .tc r) = V (Proc.devRef .tc r) := by
  have hne : r ≠ main_v53 := fun e => absurd (e ▸ hr) (by decide)
  unfold tail67
  rw [after_cons, keep68 _ r hr, binary_result_ne (h := hne)]

theorem keep66 (V : Valuation τ sig (Elt F)) (r : Ref sig .tc) (hr : r ∈ argRefs) :
    after (tail66 (F := F)) V (Proc.devRef .tc r) = V (Proc.devRef .tc r) := by
  have hne : r ≠ main_v52 := fun e => absurd (e ▸ hr) (by decide)
  unfold tail66
  rw [after_cons, keep67 _ r hr, unary_result_ne (h := hne)]

theorem keep65 (V : Valuation τ sig (Elt F)) (r : Ref sig .tc) (hr : r ∈ argRefs) :
    after (tail65 (F := F)) V (Proc.devRef .tc r) = V (Proc.devRef .tc r) := by
  have hne : r ≠ main_v51 := fun e => absurd (e ▸ hr) (by decide)
  unfold tail65
  rw [after_cons, keep66 _ r hr, binary_result_ne (h := hne)]

theorem keep64 (V : Valuation τ sig (Elt F)) (r : Ref sig .tc) (hr : r ∈ argRefs) :
    after (tail64 (F := F)) V (Proc.devRef .tc r) = V (Proc.devRef .tc r) := by
  have hne : r ≠ main_v50 := fun e => absurd (e ▸ hr) (by decide)
  unfold tail64
  rw [after_cons, keep65 _ r hr, unary_result_ne (h := hne)]

theorem keep63 (V : Valuation τ sig (Elt F)) (r : Ref sig .tc) (hr : r ∈ argRefs) :
    after (tail63 (F := F)) V (Proc.devRef .tc r) = V (Proc.devRef .tc r) := by
  have hne : r ≠ main_v49 := fun e => absurd (e ▸ hr) (by decide)
  unfold tail63
  rw [after_cons, keep64 _ r hr, unary_result_ne (h := hne)]

theorem keep62 (V : Valuation τ sig (Elt F)) (r : Ref sig .tc) (hr : r ∈ argRefs) :
    after (tail62 (F := F)) V (Proc.devRef .tc r) = V (Proc.devRef .tc r) := by
  have hne : r ≠ main_v48 := fun e => absurd (e ▸ hr) (by decide)
  unfold tail62
  rw [after_cons, keep63 _ r hr, binary_result_ne (h := hne)]

theorem keep61 (V : Valuation τ sig (Elt F)) (r : Ref sig .tc) (hr : r ∈ argRefs) :
    after (tail61 (F := F)) V (Proc.devRef .tc r) = V (Proc.devRef .tc r) := by
  have hne : r ≠ main_cst_10 := fun e => absurd (e ▸ hr) (by decide)
  unfold tail61
  rw [after_cons, keep62 _ r hr, nullary_result_ne (h := hne)]

theorem keep60 (V : Valuation τ sig (Elt F)) (r : Ref sig .tc) (hr : r ∈ argRefs) :
    after (tail60 (F := F)) V (Proc.devRef .tc r) = V (Proc.devRef .tc r) := by
  have hne : r ≠ main_v47 := fun e => absurd (e ▸ hr) (by decide)
  unfold tail60
  rw [after_cons, keep61 _ r hr, ternary_result_ne (h := hne)]

theorem keep59 (V : Valuation τ sig (Elt F)) (r : Ref sig .tc) (hr : r ∈ argRefs) :
    after (tail59 (F := F)) V (Proc.devRef .tc r) = V (Proc.devRef .tc r) := by
  have hne : r ≠ main_call0_v1 := fun e => absurd (e ▸ hr) (by decide)
  unfold tail59
  rw [after_cons, keep60 _ r hr, unary_result_ne (h := hne)]

theorem keep58 (V : Valuation τ sig (Elt F)) (r : Ref sig .tc) (hr : r ∈ argRefs) :
    after (tail58 (F := F)) V (Proc.devRef .tc r) = V (Proc.devRef .tc r) := by
  have hne : r ≠ main_call0_v0 := fun e => absurd (e ▸ hr) (by decide)
  unfold tail58
  rw [after_cons, keep59 _ r hr, unary_result_ne (h := hne)]

theorem keep57 (V : Valuation τ sig (Elt F)) (r : Ref sig .tc) (hr : r ∈ argRefs) :
    after (tail57 (F := F)) V (Proc.devRef .tc r) = V (Proc.devRef .tc r) := by
  have hne : r ≠ main_cst_9 := fun e => absurd (e ▸ hr) (by decide)
  unfold tail57
  rw [after_cons, keep58 _ r hr, nullary_result_ne (h := hne)]

theorem keep56 (V : Valuation τ sig (Elt F)) (r : Ref sig .tc) (hr : r ∈ argRefs) :
    after (tail56 (F := F)) V (Proc.devRef .tc r) = V (Proc.devRef .tc r) := by
  have hne : r ≠ main_v46 := fun e => absurd (e ▸ hr) (by decide)
  unfold tail56
  rw [after_cons, keep57 _ r hr, binary_result_ne (h := hne)]

theorem keep55 (V : Valuation τ sig (Elt F)) (r : Ref sig .tc) (hr : r ∈ argRefs) :
    after (tail55 (F := F)) V (Proc.devRef .tc r) = V (Proc.devRef .tc r) := by
  have hne : r ≠ main_cst_8 := fun e => absurd (e ▸ hr) (by decide)
  unfold tail55
  rw [after_cons, keep56 _ r hr, nullary_result_ne (h := hne)]

theorem keep54 (V : Valuation τ sig (Elt F)) (r : Ref sig .tc) (hr : r ∈ argRefs) :
    after (tail54 (F := F)) V (Proc.devRef .tc r) = V (Proc.devRef .tc r) := by
  have hne : r ≠ main_v45 := fun e => absurd (e ▸ hr) (by decide)
  unfold tail54
  rw [after_cons, keep55 _ r hr, binary_result_ne (h := hne)]

theorem keep53 (V : Valuation τ sig (Elt F)) (r : Ref sig .tc) (hr : r ∈ argRefs) :
    after (tail53 (F := F)) V (Proc.devRef .tc r) = V (Proc.devRef .tc r) := by
  have hne : r ≠ main_v44 := fun e => absurd (e ▸ hr) (by decide)
  unfold tail53
  rw [after_cons, keep54 _ r hr, unary_result_ne (h := hne)]

theorem keep52 (V : Valuation τ sig (Elt F)) (r : Ref sig .tc) (hr : r ∈ argRefs) :
    after (tail52 (F := F)) V (Proc.devRef .tc r) = V (Proc.devRef .tc r) := by
  have hne : r ≠ main_v43 := fun e => absurd (e ▸ hr) (by decide)
  unfold tail52
  rw [after_cons, keep53 _ r hr, unary_result_ne (h := hne)]

theorem keep51 (V : Valuation τ sig (Elt F)) (r : Ref sig .tc) (hr : r ∈ argRefs) :
    after (tail51 (F := F)) V (Proc.devRef .tc r) = V (Proc.devRef .tc r) := by
  have hne : r ≠ main_v42 := fun e => absurd (e ▸ hr) (by decide)
  unfold tail51
  rw [after_cons, keep52 _ r hr, binary_result_ne (h := hne)]

theorem keep50 (V : Valuation τ sig (Elt F)) (r : Ref sig .tc) (hr : r ∈ argRefs) :
    after (tail50 (F := F)) V (Proc.devRef .tc r) = V (Proc.devRef .tc r) := by
  have hne : r ≠ main_v41 := fun e => absurd (e ▸ hr) (by decide)
  unfold tail50
  rw [after_cons, keep51 _ r hr, unary_result_ne (h := hne)]

theorem keep49 (V : Valuation τ sig (Elt F)) (r : Ref sig .tc) (hr : r ∈ argRefs) :
    after (tail49 (F := F)) V (Proc.devRef .tc r) = V (Proc.devRef .tc r) := by
  have hne : r ≠ main_v40 := fun e => absurd (e ▸ hr) (by decide)
  unfold tail49
  rw [after_cons, keep50 _ r hr, binary_result_ne (h := hne)]

theorem keep48 (V : Valuation τ sig (Elt F)) (r : Ref sig .tc) (hr : r ∈ argRefs) :
    after (tail48 (F := F)) V (Proc.devRef .tc r) = V (Proc.devRef .tc r) := by
  have hne : r ≠ main_v39 := fun e => absurd (e ▸ hr) (by decide)
  unfold tail48
  rw [after_cons, keep49 _ r hr, binary_result_ne (h := hne)]

theorem keep47 (V : Valuation τ sig (Elt F)) (r : Ref sig .tc) (hr : r ∈ argRefs) :
    after (tail47 (F := F)) V (Proc.devRef .tc r) = V (Proc.devRef .tc r) := by
  have hne : r ≠ main_v38 := fun e => absurd (e ▸ hr) (by decide)
  unfold tail47
  rw [after_cons, keep48 _ r hr, binary_result_ne (h := hne)]

theorem keep46 (V : Valuation τ sig (Elt F)) (r : Ref sig .tc) (hr : r ∈ argRefs) :
    after (tail46 (F := F)) V (Proc.devRef .tc r) = V (Proc.devRef .tc r) := by
  have hne : r ≠ main_v37 := fun e => absurd (e ▸ hr) (by decide)
  unfold tail46
  rw [after_cons, keep47 _ r hr, binary_result_ne (h := hne)]

theorem keep45 (V : Valuation τ sig (Elt F)) (r : Ref sig .tc) (hr : r ∈ argRefs) :
    after (tail45 (F := F)) V (Proc.devRef .tc r) = V (Proc.devRef .tc r) := by
  have hne : r ≠ main_v36 := fun e => absurd (e ▸ hr) (by decide)
  unfold tail45
  rw [after_cons, keep46 _ r hr, unary_result_ne (h := hne)]

theorem keep44 (V : Valuation τ sig (Elt F)) (r : Ref sig .tc) (hr : r ∈ argRefs) :
    after (tail44 (F := F)) V (Proc.devRef .tc r) = V (Proc.devRef .tc r) := by
  have hne : r ≠ main_cst_7 := fun e => absurd (e ▸ hr) (by decide)
  unfold tail44
  rw [after_cons, keep45 _ r hr, nullary_result_ne (h := hne)]

theorem keep43 (V : Valuation τ sig (Elt F)) (r : Ref sig .tc) (hr : r ∈ argRefs) :
    after (tail43 (F := F)) V (Proc.devRef .tc r) = V (Proc.devRef .tc r) := by
  have hne : r ≠ main_v35 := fun e => absurd (e ▸ hr) (by decide)
  unfold tail43
  rw [after_cons, keep44 _ r hr, binary_result_ne (h := hne)]

theorem keep42 (V : Valuation τ sig (Elt F)) (r : Ref sig .tc) (hr : r ∈ argRefs) :
    after (tail42 (F := F)) V (Proc.devRef .tc r) = V (Proc.devRef .tc r) := by
  have hne : r ≠ main_v34 := fun e => absurd (e ▸ hr) (by decide)
  unfold tail42
  rw [after_cons, keep43 _ r hr, unary_result_ne (h := hne)]

theorem keep41 (V : Valuation τ sig (Elt F)) (r : Ref sig .tc) (hr : r ∈ argRefs) :
    after (tail41 (F := F)) V (Proc.devRef .tc r) = V (Proc.devRef .tc r) := by
  have hne : r ≠ main_cst_6 := fun e => absurd (e ▸ hr) (by decide)
  unfold tail41
  rw [after_cons, keep42 _ r hr, nullary_result_ne (h := hne)]

theorem keep40 (V : Valuation τ sig (Elt F)) (r : Ref sig .tc) (hr : r ∈ argRefs) :
    after (tail40 (F := F)) V (Proc.devRef .tc r) = V (Proc.devRef .tc r) := by
  have hne : r ≠ main_v33 := fun e => absurd (e ▸ hr) (by decide)
  unfold tail40
  rw [after_cons, keep41 _ r hr, unary_result_ne (h := hne)]

theorem keep39 (V : Valuation τ sig (Elt F)) (r : Ref sig .tc) (hr : r ∈ argRefs) :
    after (tail39 (F := F)) V (Proc.devRef .tc r) = V (Proc.devRef .tc r) := by
  have hne : r ≠ main_v32 := fun e => absurd (e ▸ hr) (by decide)
  unfold tail39
  rw [after_cons, keep40 _ r hr, unary_result_ne (h := hne)]

theorem keep38 (V : Valuation τ sig (Elt F)) (r : Ref sig .tc) (hr : r ∈ argRefs) :
    after (tail38 (F := F)) V (Proc.devRef .tc r) = V (Proc.devRef .tc r) := by
  have hne : r ≠ main_v31 := fun e => absurd (e ▸ hr) (by decide)
  unfold tail38
  rw [after_cons, keep39 _ r hr, unary_result_ne (h := hne)]

theorem keep37 (V : Valuation τ sig (Elt F)) (r : Ref sig .tc) (hr : r ∈ argRefs) :
    after (tail37 (F := F)) V (Proc.devRef .tc r) = V (Proc.devRef .tc r) := by
  have hne : r ≠ main_v30 := fun e => absurd (e ▸ hr) (by decide)
  unfold tail37
  rw [after_cons, keep38 _ r hr, binary_result_ne (h := hne)]

theorem keep36 (V : Valuation τ sig (Elt F)) (r : Ref sig .tc) (hr : r ∈ argRefs) :
    after (tail36 (F := F)) V (Proc.devRef .tc r) = V (Proc.devRef .tc r) := by
  have hne : r ≠ main_v29 := fun e => absurd (e ▸ hr) (by decide)
  unfold tail36
  rw [after_cons, keep37 _ r hr, unary_result_ne (h := hne)]

theorem keep35 (V : Valuation τ sig (Elt F)) (r : Ref sig .tc) (hr : r ∈ argRefs) :
    after (tail35 (F := F)) V (Proc.devRef .tc r) = V (Proc.devRef .tc r) := by
  have hne : r ≠ main_cst_5 := fun e => absurd (e ▸ hr) (by decide)
  unfold tail35
  rw [after_cons, keep36 _ r hr, nullary_result_ne (h := hne)]

theorem keep34 (V : Valuation τ sig (Elt F)) (r : Ref sig .tc) (hr : r ∈ argRefs) :
    after (tail34 (F := F)) V (Proc.devRef .tc r) = V (Proc.devRef .tc r) := by
  have hne : r ≠ main_v28 := fun e => absurd (e ▸ hr) (by decide)
  unfold tail34
  rw [after_cons, keep35 _ r hr, binary_result_ne (h := hne)]

theorem keep33 (V : Valuation τ sig (Elt F)) (r : Ref sig .tc) (hr : r ∈ argRefs) :
    after (tail33 (F := F)) V (Proc.devRef .tc r) = V (Proc.devRef .tc r) := by
  have hne : r ≠ main_v27 := fun e => absurd (e ▸ hr) (by decide)
  unfold tail33
  rw [after_cons, keep34 _ r hr, unary_result_ne (h := hne)]

theorem keep32 (V : Valuation τ sig (Elt F)) (r : Ref sig .tc) (hr : r ∈ argRefs) :
    after (tail32 (F := F)) V (Proc.devRef .tc r) = V (Proc.devRef .tc r) := by
  have hne : r ≠ main_cst_4 := fun e => absurd (e ▸ hr) (by decide)
  unfold tail32
  rw [after_cons, keep33 _ r hr, nullary_result_ne (h := hne)]

theorem keep31 (V : Valuation τ sig (Elt F)) (r : Ref sig .tc) (hr : r ∈ argRefs) :
    after (tail31 (F := F)) V (Proc.devRef .tc r) = V (Proc.devRef .tc r) := by
  have hne : r ≠ main_v26 := fun e => absurd (e ▸ hr) (by decide)
  unfold tail31
  rw [after_cons, keep32 _ r hr, unary_result_ne (h := hne)]

theorem keep30 (V : Valuation τ sig (Elt F)) (r : Ref sig .tc) (hr : r ∈ argRefs) :
    after (tail30 (F := F)) V (Proc.devRef .tc r) = V (Proc.devRef .tc r) := by
  have hne : r ≠ main_v25 := fun e => absurd (e ▸ hr) (by decide)
  unfold tail30
  rw [after_cons, keep31 _ r hr, unary_result_ne (h := hne)]

theorem keep29 (V : Valuation τ sig (Elt F)) (r : Ref sig .tc) (hr : r ∈ argRefs) :
    after (tail29 (F := F)) V (Proc.devRef .tc r) = V (Proc.devRef .tc r) := by
  have hne : r ≠ main_v24 := fun e => absurd (e ▸ hr) (by decide)
  unfold tail29
  rw [after_cons, keep30 _ r hr, binary_result_ne (h := hne)]

theorem keep28 (V : Valuation τ sig (Elt F)) (r : Ref sig .tc) (hr : r ∈ argRefs) :
    after (tail28 (F := F)) V (Proc.devRef .tc r) = V (Proc.devRef .tc r) := by
  have hne : r ≠ main_v23 := fun e => absurd (e ▸ hr) (by decide)
  unfold tail28
  rw [after_cons, keep29 _ r hr, unary_result_ne (h := hne)]

theorem keep27 (V : Valuation τ sig (Elt F)) (r : Ref sig .tc) (hr : r ∈ argRefs) :
    after (tail27 (F := F)) V (Proc.devRef .tc r) = V (Proc.devRef .tc r) := by
  have hne : r ≠ main_cst_3 := fun e => absurd (e ▸ hr) (by decide)
  unfold tail27
  rw [after_cons, keep28 _ r hr, nullary_result_ne (h := hne)]

theorem keep26 (V : Valuation τ sig (Elt F)) (r : Ref sig .tc) (hr : r ∈ argRefs) :
    after (tail26 (F := F)) V (Proc.devRef .tc r) = V (Proc.devRef .tc r) := by
  have hne : r ≠ main_v22 := fun e => absurd (e ▸ hr) (by decide)
  unfold tail26
  rw [after_cons, keep27 _ r hr, binary_result_ne (h := hne)]

theorem keep25 (V : Valuation τ sig (Elt F)) (r : Ref sig .tc) (hr : r ∈ argRefs) :
    after (tail25 (F := F)) V (Proc.devRef .tc r) = V (Proc.devRef .tc r) := by
  have hne : r ≠ main_v21 := fun e => absurd (e ▸ hr) (by decide)
  unfold tail25
  rw [after_cons, keep26 _ r hr, unary_result_ne (h := hne)]

theorem keep24 (V : Valuation τ sig (Elt F)) (r : Ref sig .tc) (hr : r ∈ argRefs) :
    after (tail24 (F := F)) V (Proc.devRef .tc r) = V (Proc.devRef .tc r) := by
  have hne : r ≠ main_cst_2 := fun e => absurd (e ▸ hr) (by decide)
  unfold tail24
  rw [after_cons, keep25 _ r hr, nullary_result_ne (h := hne)]

theorem keep23 (V : Valuation τ sig (Elt F)) (r : Ref sig .tc) (hr : r ∈ argRefs) :
    after (tail23 (F := F)) V (Proc.devRef .tc r) = V (Proc.devRef .tc r) := by
  have hne : r ≠ main_v20 := fun e => absurd (e ▸ hr) (by decide)
  unfold tail23
  rw [after_cons, keep24 _ r hr, unary_result_ne (h := hne)]

theorem keep22 (V : Valuation τ sig (Elt F)) (r : Ref sig .tc) (hr : r ∈ argRefs) :
    after (tail22 (F := F)) V (Proc.devRef .tc r) = V (Proc.devRef .tc r) := by
  have hne : r ≠ main_v19 := fun e => absurd (e ▸ hr) (by decide)
  unfold tail22
  rw [after_cons, keep23 _ r hr, unary_result_ne (h := hne)]

theorem keep21 (V : Valuation τ sig (Elt F)) (r : Ref sig .tc) (hr : r ∈ argRefs) :
    after (tail21 (F := F)) V (Proc.devRef .tc r) = V (Proc.devRef .tc r) := by
  have hne : r ≠ main_v18 := fun e => absurd (e ▸ hr) (by decide)
  unfold tail21
  rw [after_cons, keep22 _ r hr, unary_result_ne (h := hne)]

theorem keep20 (V : Valuation τ sig (Elt F)) (r : Ref sig .tc) (hr : r ∈ argRefs) :
    after (tail20 (F := F)) V (Proc.devRef .tc r) = V (Proc.devRef .tc r) := by
  have hne : r ≠ main_v17 := fun e => absurd (e ▸ hr) (by decide)
  unfold tail20
  rw [after_cons, keep21 _ r hr, unary_result_ne (h := hne)]

theorem keep19 (V : Valuation τ sig (Elt F)) (r : Ref sig .tc) (hr : r ∈ argRefs) :
    after (tail19 (F := F)) V (Proc.devRef .tc r) = V (Proc.devRef .tc r) := by
  have hne : r ≠ main_v16 := fun e => absurd (e ▸ hr) (by decide)
  unfold tail19
  rw [after_cons, keep20 _ r hr, unary_result_ne (h := hne)]

theorem keep18 (V : Valuation τ sig (Elt F)) (r : Ref sig .tc) (hr : r ∈ argRefs) :
    after (tail18 (F := F)) V (Proc.devRef .tc r) = V (Proc.devRef .tc r) := by
  have hne : r ≠ main_v15 := fun e => absurd (e ▸ hr) (by decide)
  unfold tail18
  rw [after_cons, keep19 _ r hr, unary_result_ne (h := hne)]

theorem keep17 (V : Valuation τ sig (Elt F)) (r : Ref sig .tc) (hr : r ∈ argRefs) :
    after (tail17 (F := F)) V (Proc.devRef .tc r) = V (Proc.devRef .tc r) := by
  have hne : r ≠ main_v14 := fun e => absurd (e ▸ hr) (by decide)
  unfold tail17
  rw [after_cons, keep18 _ r hr, binary_result_ne (h := hne)]

theorem keep16 (V : Valuation τ sig (Elt F)) (r : Ref sig .tc) (hr : r ∈ argRefs) :
    after (tail16 (F := F)) V (Proc.devRef .tc r) = V (Proc.devRef .tc r) := by
  have hne : r ≠ main_v13 := fun e => absurd (e ▸ hr) (by decide)
  unfold tail16
  rw [after_cons, keep17 _ r hr, unary_result_ne (h := hne)]

theorem keep15 (V : Valuation τ sig (Elt F)) (r : Ref sig .tc) (hr : r ∈ argRefs) :
    after (tail15 (F := F)) V (Proc.devRef .tc r) = V (Proc.devRef .tc r) := by
  have hne : r ≠ main_v12 := fun e => absurd (e ▸ hr) (by decide)
  unfold tail15
  rw [after_cons, keep16 _ r hr, unary_result_ne (h := hne)]

theorem keep14 (V : Valuation τ sig (Elt F)) (r : Ref sig .tc) (hr : r ∈ argRefs) :
    after (tail14 (F := F)) V (Proc.devRef .tc r) = V (Proc.devRef .tc r) := by
  have hne : r ≠ main_v11 := fun e => absurd (e ▸ hr) (by decide)
  unfold tail14
  rw [after_cons, keep15 _ r hr, binary_result_ne (h := hne)]

theorem keep13 (V : Valuation τ sig (Elt F)) (r : Ref sig .tc) (hr : r ∈ argRefs) :
    after (tail13 (F := F)) V (Proc.devRef .tc r) = V (Proc.devRef .tc r) := by
  have hne : r ≠ main_v10 := fun e => absurd (e ▸ hr) (by decide)
  unfold tail13
  rw [after_cons, keep14 _ r hr, binary_result_ne (h := hne)]

theorem keep12 (V : Valuation τ sig (Elt F)) (r : Ref sig .tc) (hr : r ∈ argRefs) :
    after (tail12 (F := F)) V (Proc.devRef .tc r) = V (Proc.devRef .tc r) := by
  have hne : r ≠ main_v9 := fun e => absurd (e ▸ hr) (by decide)
  unfold tail12
  rw [after_cons, keep13 _ r hr, unary_result_ne (h := hne)]

theorem keep11 (V : Valuation τ sig (Elt F)) (r : Ref sig .tc) (hr : r ∈ argRefs) :
    after (tail11 (F := F)) V (Proc.devRef .tc r) = V (Proc.devRef .tc r) := by
  have hne : r ≠ main_v8 := fun e => absurd (e ▸ hr) (by decide)
  unfold tail11
  rw [after_cons, keep12 _ r hr, binary_result_ne (h := hne)]

theorem keep10 (V : Valuation τ sig (Elt F)) (r : Ref sig .tc) (hr : r ∈ argRefs) :
    after (tail10 (F := F)) V (Proc.devRef .tc r) = V (Proc.devRef .tc r) := by
  have hne : r ≠ main_v7 := fun e => absurd (e ▸ hr) (by decide)
  unfold tail10
  rw [after_cons, keep11 _ r hr, unary_result_ne (h := hne)]

theorem keep9 (V : Valuation τ sig (Elt F)) (r : Ref sig .tc) (hr : r ∈ argRefs) :
    after (tail9 (F := F)) V (Proc.devRef .tc r) = V (Proc.devRef .tc r) := by
  have hne : r ≠ main_v6 := fun e => absurd (e ▸ hr) (by decide)
  unfold tail9
  rw [after_cons, keep10 _ r hr, unary_result_ne (h := hne)]

theorem keep8 (V : Valuation τ sig (Elt F)) (r : Ref sig .tc) (hr : r ∈ argRefs) :
    after (tail8 (F := F)) V (Proc.devRef .tc r) = V (Proc.devRef .tc r) := by
  have hne : r ≠ main_v5 := fun e => absurd (e ▸ hr) (by decide)
  unfold tail8
  rw [after_cons, keep9 _ r hr, binary_result_ne (h := hne)]

theorem keep7 (V : Valuation τ sig (Elt F)) (r : Ref sig .tc) (hr : r ∈ argRefs) :
    after (tail7 (F := F)) V (Proc.devRef .tc r) = V (Proc.devRef .tc r) := by
  have hne : r ≠ main_v4 := fun e => absurd (e ▸ hr) (by decide)
  unfold tail7
  rw [after_cons, keep8 _ r hr, unary_result_ne (h := hne)]

theorem keep6 (V : Valuation τ sig (Elt F)) (r : Ref sig .tc) (hr : r ∈ argRefs) :
    after (tail6 (F := F)) V (Proc.devRef .tc r) = V (Proc.devRef .tc r) := by
  have hne : r ≠ main_v3 := fun e => absurd (e ▸ hr) (by decide)
  unfold tail6
  rw [after_cons, keep7 _ r hr, unary_result_ne (h := hne)]

theorem keep5 (V : Valuation τ sig (Elt F)) (r : Ref sig .tc) (hr : r ∈ argRefs) :
    after (tail5 (F := F)) V (Proc.devRef .tc r) = V (Proc.devRef .tc r) := by
  have hne : r ≠ main_cst_1 := fun e => absurd (e ▸ hr) (by decide)
  unfold tail5
  rw [after_cons, keep6 _ r hr, nullary_result_ne (h := hne)]

theorem keep4 (V : Valuation τ sig (Elt F)) (r : Ref sig .tc) (hr : r ∈ argRefs) :
    after (tail4 (F := F)) V (Proc.devRef .tc r) = V (Proc.devRef .tc r) := by
  have hne : r ≠ main_v2 := fun e => absurd (e ▸ hr) (by decide)
  unfold tail4
  rw [after_cons, keep5 _ r hr, unary_result_ne (h := hne)]

theorem keep3 (V : Valuation τ sig (Elt F)) (r : Ref sig .tc) (hr : r ∈ argRefs) :
    after (tail3 (F := F)) V (Proc.devRef .tc r) = V (Proc.devRef .tc r) := by
  have hne : r ≠ main_cst_0 := fun e => absurd (e ▸ hr) (by decide)
  unfold tail3
  rw [after_cons, keep4 _ r hr, nullary_result_ne (h := hne)]

theorem keep2 (V : Valuation τ sig (Elt F)) (r : Ref sig .tc) (hr : r ∈ argRefs) :
    after (tail2 (F := F)) V (Proc.devRef .tc r) = V (Proc.devRef .tc r) := by
  have hne : r ≠ main_v1 := fun e => absurd (e ▸ hr) (by decide)
  unfold tail2
  rw [after_cons, keep3 _ r hr, unary_result_ne (h := hne)]

theorem keep1 (V : Valuation τ sig (Elt F)) (r : Ref sig .tc) (hr : r ∈ argRefs) :
    after (tail1 (F := F)) V (Proc.devRef .tc r) = V (Proc.devRef .tc r) := by
  have hne : r ≠ main_cst := fun e => absurd (e ▸ hr) (by decide)
  unfold tail1
  rw [after_cons, keep2 _ r hr, nullary_result_ne (h := hne)]

theorem keep0 (V : Valuation τ sig (Elt F)) (r : Ref sig .tc) (hr : r ∈ argRefs) :
    after (tail0 (F := F)) V (Proc.devRef .tc r) = V (Proc.devRef .tc r) := by
  have hne : r ≠ main_v0 := fun e => absurd (e ▸ hr) (by decide)
  unfold tail0
  rw [after_cons, keep1 _ r hr, unary_result_ne (h := hne)]

/-! ## The run -/

set_option maxRecDepth 8192 in
/-- The line is its suffix from operation 0. -/
theorem ops_eq_tail0 : (ops : List (HloOp τ sig (Elt F))) = tail0 (F := F) := rfl

/-- From the contents at launch, the result buffer ends at the named value of the result, at the arguments. -/
theorem value (m : (ℓ : Loc nD τ sig) → Buf (Elt F) ℓ) (c : Dev nD) :
    after (ops (F := F)) (launchContents m c) (Proc.devRef .tc main_v200)
      = ReadP.val_main_v200 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_eq_tail0]
  exact spec0 _ _ _ _ _ _ _ _ _ _ (launchContents m c) rfl rfl rfl rfl rfl rfl rfl rfl rfl rfl

/-- From the contents at launch, an argument buffer ends as it was. -/
theorem arg_kept (m : (ℓ : Loc nD τ sig) → Buf (Elt F) ℓ) (c : Dev nD) (r : Ref sig .tc) (hr : r ∈ argRefs) :
    after (ops (F := F)) (launchContents m c) (Proc.devRef .tc r) = launchContents m c (Proc.devRef .tc r) := by
  rw [ops_eq_tail0]
  exact keep0 _ r hr

/-- On every device, for any float values, from any memory with zero counters: every weakly fair execution of
    the main function terminates with the result at its named value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v200)
        = ReadP.val_main_v200 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v200).trans (value m c),
      (h c main_arg0).trans ((arg_kept m c main_arg0 (by decide)).trans rfl),
      (h c main_arg1).trans ((arg_kept m c main_arg1 (by decide)).trans rfl),
      (h c main_arg2).trans ((arg_kept m c main_arg2 (by decide)).trans rfl),
      (h c main_arg3).trans ((arg_kept m c main_arg3 (by decide)).trans rfl),
      (h c main_arg4).trans ((arg_kept m c main_arg4 (by decide)).trans rfl),
      (h c main_arg5).trans ((arg_kept m c main_arg5 (by decide)).trans rfl),
      (h c main_arg6).trans ((arg_kept m c main_arg6 (by decide)).trans rfl),
      (h c main_arg7).trans ((arg_kept m c main_arg7 (by decide)).trans rfl),
      (h c main_arg8).trans ((arg_kept m c main_arg8 (by decide)).trans rfl),
      (h c main_arg9).trans ((arg_kept m c main_arg9 (by decide)).trans rfl)⟩)
    (run_seq scopedRefs_eq scopedSems_eq defs main (fun _ => ops) main_eq (fun _ => ops_sub) m ρ)

end Cert.ReferenceIdeal.RunP

end
-- ==== Proof.RefRow.lean ====
/-
  The reference program's result at one row, as that row's formulas.

  The reference computes all 128 rows at once: three rounds of an LSTM cell (a query of 256 numbers and a hidden state of
  128 through two weight matrices and two bias rows into four blocks of 128 gate pre-activations, the four summands grouped
  as ((q·W_ih + b_ih) + h·W_hh) + b_hh; the sigmoid spelt 1 / (1 + exp (-x))), each followed by an attention over the row's
  1024 atoms: the scores are the features times the hidden state summed along the features, minus infinity where the mask
  bit is not set; they are shifted by the row's maximum, exponentiated, multiplied by the mask as a number and divided by
  their sum along the atoms; the pooled vector is the weighted sum of the features, each term multiplied once more by the
  mask; the next query is the hidden state followed by the pooled vector. The result is the third query through the
  output layer, times one number, plus another.

  Every operation acts row by row, so each of these arrays, read at row `b`, is the row's own formula: first for any
  arrays of the right shapes (the matrix products, the repeated rows and columns, the sums along an axis, the maximum along
  the atoms, the concatenation, each read at an entry of row `b`), then for the program's arrays round by round. Two
  facts about the extended reals are used: the four summands of a gate may be regrouped, and multiplying a weighted
  feature once more by the atom's mask changes nothing when the row's features are real and some atom is unmasked.
-/
import proofs.«112316_g16243566313856_cont_week2b_871_2_alg».proof.Proof.RefRead
import proofs.«112316_g16243566313856_cont_week2b_871_2_alg».proof.Proof.RowSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.Pooling.R

open Idealize.ShloMosaic Idealize.ShloMosaic.ValueIdx Cert.ReferenceIdeal Cert.ReferenceIdeal.Gen Cert.ReferenceIdeal.ReadP Cert.Pooling

/-! ## The matrix products at a row -/

theorem dotA (lhs : S128x256.Idx → EReal) (rhs : S256x512.Idx → EReal) (b : Fin 128) (j : Fin 512) :
    Host.dotGeneral (F := Ideal) (φ₁ := .f32) (φ₂ := .f32) dot_S128x256_S256x512_S128x512_1_0_0_1_n_n none lhs rhs (ix2 b j) = ∑ k : Fin 256, lhs (ix2 b k) * rhs (ix2 k j) := by
  simp only [Host.dotGeneral]
  rw [Ideal.dotGeneral_apply, ← Equiv.sum_comp (ValueIdx.contrEquiv1 dot_S128x256_S256x512_S128x512_1_0_0_1_n_n 256 rfl rfl).symm]
  refine Finset.sum_congr rfl fun k _ => ?_
  have hk := ValueIdx.contrEquiv1_symm_val dot_S128x256_S256x512_S128x512_1_0_0_1_n_n 256 rfl rfl k
  have el : dot_S128x256_S256x512_S128x512_1_0_0_1_n_n.lhsIdx (ix2 b j) ((ValueIdx.contrEquiv1 dot_S128x256_S256x512_S128x512_1_0_0_1_n_n 256 rfl rfl).symm k) = ix2 b k := funext fun a => Fin.ext (by
    match a with
    | ⟨0, _⟩ => exact lhs_main_v5_0 _ _
    | ⟨1, _⟩ => exact (lhs_main_v5_1 _ _).trans hk)
  have er : dot_S128x256_S256x512_S128x512_1_0_0_1_n_n.rhsIdx (ix2 b j) ((ValueIdx.contrEquiv1 dot_S128x256_S256x512_S128x512_1_0_0_1_n_n 256 rfl rfl).symm k) = ix2 k j := funext fun a => Fin.ext (by
    match a with
    | ⟨0, _⟩ => exact (rhs_main_v5_0 _ _).trans hk
    | ⟨1, _⟩ => exact rhs_main_v5_1 _ _)
  rw [el, er]

theorem dotB (lhs : S128x128.Idx → EReal) (rhs : S128x512.Idx → EReal) (b : Fin 128) (j : Fin 512) :
    Host.dotGeneral (F := Ideal) (φ₁ := .f32) (φ₂ := .f32) dot_S128x128_S128x512_S128x512_1_0_0_1_n_n none lhs rhs (ix2 b j) = ∑ k : Fin 128, lhs (ix2 b k) * rhs (ix2 k j) := by
  simp only [Host.dotGeneral]
  rw [Ideal.dotGeneral_apply, ← Equiv.sum_comp (ValueIdx.contrEquiv1 dot_S128x128_S128x512_S128x512_1_0_0_1_n_n 128 rfl rfl).symm]
  refine Finset.sum_congr rfl fun k _ => ?_
  have hk := ValueIdx.contrEquiv1_symm_val dot_S128x128_S128x512_S128x512_1_0_0_1_n_n 128 rfl rfl k
  have el : dot_S128x128_S128x512_S128x512_1_0_0_1_n_n.lhsIdx (ix2 b j) ((ValueIdx.contrEquiv1 dot_S128x128_S128x512_S128x512_1_0_0_1_n_n 128 rfl rfl).symm k) = ix2 b k := funext fun a => Fin.ext (by
    match a with
    | ⟨0, _⟩ => exact lhs_main_v10_0 _ _
    | ⟨1, _⟩ => exact (lhs_main_v10_1 _ _).trans hk)
  have er : dot_S128x128_S128x512_S128x512_1_0_0_1_n_n.rhsIdx (ix2 b j) ((ValueIdx.contrEquiv1 dot_S128x128_S128x512_S128x512_1_0_0_1_n_n 128 rfl rfl).symm k) = ix2 k j := funext fun a => Fin.ext (by
    match a with
    | ⟨0, _⟩ => exact (rhs_main_v10_0 _ _).trans hk
    | ⟨1, _⟩ => exact rhs_main_v10_1 _ _)
  rw [el, er]

theorem dotC (lhs : S128x256.Idx → EReal) (rhs : S256x1.Idx → EReal) (b : Fin 128) (j : Fin 1) :
    Host.dotGeneral (F := Ideal) (φ₁ := .f32) (φ₂ := .f32) dot_S128x256_S256x1_S128x1_1_0_0_1_n_n none lhs rhs (ix2 b j) = ∑ k : Fin 256, lhs (ix2 b k) * rhs (ix2 k j) := by
  simp only [Host.dotGeneral]
  rw [Ideal.dotGeneral_apply, ← Equiv.sum_comp (ValueIdx.contrEquiv1 dot_S128x256_S256x1_S128x1_1_0_0_1_n_n 256 rfl rfl).symm]
  refine Finset.sum_congr rfl fun k _ => ?_
  have hk := ValueIdx.contrEquiv1_symm_val dot_S128x256_S256x1_S128x1_1_0_0_1_n_n 256 rfl rfl k
  have el : dot_S128x256_S256x1_S128x1_1_0_0_1_n_n.lhsIdx (ix2 b j) ((ValueIdx.contrEquiv1 dot_S128x256_S256x1_S128x1_1_0_0_1_n_n 256 rfl rfl).symm k) = ix2 b k := funext fun a => Fin.ext (by
    match a with
    | ⟨0, _⟩ => exact lhs_main_v191_0 _ _
    | ⟨1, _⟩ => exact (lhs_main_v191_1 _ _).trans hk)
  have er : dot_S128x256_S256x1_S128x1_1_0_0_1_n_n.rhsIdx (ix2 b j) ((ValueIdx.contrEquiv1 dot_S128x256_S256x1_S128x1_1_0_0_1_n_n 256 rfl rfl).symm k) = ix2 k j := funext fun a => Fin.ext (by
    match a with
    | ⟨0, _⟩ => exact (rhs_main_v191_0 _ _).trans hk
    | ⟨1, _⟩ => exact rhs_main_v191_1 _ _)
  rw [el, er]

/-! ## Layout operations at a row -/

/-- A vector of 512 as one row, repeated down 128 rows, reads the vector at the column. -/
theorem bias_row (x : S512.Idx → EReal) (b : Fin 128) (j : Fin 512) :
    broadcastInDim S128x512 ![0, 1] bcast_S1x512_S128x512_0_1 (broadcastInDim S1x512 ![1] bcast_S512_S1x512_1 x) (ix2 b j) = x (ix1 j) := by
  refine (broadcastInDim_apply _ _ _ (ix2 b j) (ix2 (0 : Fin 1) j) fun a => ?_).trans
    (broadcastInDim_apply _ _ _ _ (ix1 j) fun a => ?_)
  · match a with
    | ⟨0, _⟩ => rfl
    | ⟨1, _⟩ => show j.val = if (512 : Nat) = 1 then 0 else j.val; rw [if_neg (by decide)]
  · match a with
    | ⟨0, _⟩ => show j.val = if (512 : Nat) = 1 then 0 else j.val; rw [if_neg (by decide)]

/-- A scalar constant repeated over a [128, 128] array reads the constant. -/
theorem const_sq (v : S_.Idx → EReal) (i : S128x128.Idx) :
    broadcastInDim S128x128 ![] bcast_S_S128x128 v i = v (fun a => a.elim0) :=
  broadcastInDim_apply _ bcast_S_S128x128 v i (fun a => a.elim0) (fun a => a.elim0)

/-- The gate pre-activations of row `b`: the reference groups the four summands as ((q·Wih + bih) + h·Whh) + bhh. -/
theorem gates_row (q : S128x256.Idx → EReal) (h : S128x128.Idx → EReal) (x2 : S512x256.Idx → EReal) (x3 : S512x128.Idx → EReal)
    (x4 x5 : S512.Idx → EReal) (b : Fin 128) (j : Fin 512) :
    addf (F := Ideal) (φ := .f32) (addf (F := Ideal) (φ := .f32) (addf (F := Ideal) (φ := .f32)
          (Host.dotGeneral (F := Ideal) (φ₁ := .f32) (φ₂ := .f32) dot_S128x256_S256x512_S128x512_1_0_0_1_n_n none q (transpose S256x512 [1, 0] x2 transposes_S512x256_S256x512_1_0))
          (broadcastInDim S128x512 ![0, 1] bcast_S1x512_S128x512_0_1 (broadcastInDim S1x512 ![1] bcast_S512_S1x512_1 x4)))
        (Host.dotGeneral (F := Ideal) (φ₁ := .f32) (φ₂ := .f32) dot_S128x128_S128x512_S128x512_1_0_0_1_n_n none h (transpose S128x512 [1, 0] x3 transposes_S512x128_S128x512_1_0)))
      (broadcastInDim S128x512 ![0, 1] bcast_S1x512_S128x512_0_1 (broadcastInDim S1x512 ![1] bcast_S512_S1x512_1 x5)) (ix2 b j)
    = gates (fun j k => x2 (ix2 j k)) (fun j k => x3 (ix2 j k)) (fun j => x4 (ix1 j)) (fun j => x5 (ix1 j))
        (fun k => q (ix2 b k)) (fun k => h (ix2 b k)) j := by
  rw [addf_apply, addf_apply, addf_apply, dotA, dotB, bias_row, bias_row]
  refine (congrArg₂ (fun s t : EReal => s + x4 (ix1 j) + t + x5 (ix1 j))
    (Finset.sum_congr rfl fun k _ => congrArg (q (ix2 b k) * ·) (transpose_ix2_apply x2 transposes_S512x256_S256x512_1_0 k j))
    (Finset.sum_congr rfl fun k _ => congrArg (h (ix2 b k) * ·) (transpose_ix2_apply x3 transposes_S512x128_S128x512_1_0 k j))).trans ?_
  exact gates_regroup (fun j k => x2 (ix2 j k)) (fun j k => x3 (ix2 j k)) (fun j => x4 (ix1 j)) (fun j => x5 (ix1 j))
    (fun k => q (ix2 b k)) (fun k => h (ix2 b k)) j

/-- Block `o / 128` of the gates. -/
theorem blk_row (o : ℕ) (ho : o + 128 ≤ 512) (g : S128x512.Idx → EReal) (hs : S128x512.Slices ![0, o] S128x128) (b : Fin 128) (d : Fin 128) :
    extractStridedSlice S128x128 ![0, o] g hs (ix2 b d) = blk o ho (fun j => g (ix2 b j)) d :=
  slice2_axis1_apply o g hs b d ⟨o + d.val, by have := d.isLt; omega⟩ rfl

/-- The sigmoid as the reference spells it, 1 / (1 + exp (-x)), with the two ones any arrays that read 1. -/
theorem sigmoid_row (v one1 one2 : S128x128.Idx → EReal) (h1 : ∀ i, one1 i = 1) (h2 : ∀ i, one2 i = 1) (i : S128x128.Idx) :
    Host.divf (F := Ideal) (φ := .f32) one2 (addf (F := Ideal) (φ := .f32) one1 (Host.exp (F := Ideal) (φ := .f32) (Host.negf (F := Ideal) (φ := .f32) v))) i
      = Ideal.logistic (v i) := by
  show Ideal.div (one2 i) (one1 i + Ideal.exp (-(v i))) = _
  rw [h1, h2]
  rfl

/-- The constant one, repeated. -/
theorem one_sq (i : S128x128.Idx) :
    broadcastInDim S128x128 ![] bcast_S_S128x128 (constant (F := Ideal) S_ .f32 0x3F800000#32) i = 1 := by
  rw [const_sq]
  exact Ideal.ofBits_one_f32

/-- The constant zero, repeated. -/
theorem zero_sq (i : S128x128.Idx) :
    broadcastInDim S128x128 ![] bcast_S_S128x128 (constant (F := Ideal) S_ .f32 0x00000000#32) i = 0 := by
  rw [const_sq]
  exact Ideal.ofBits_zero_f32

/-- The hyperbolic tangent at an entry. -/
theorem tanh_row (v : S128x128.Idx → EReal) (i : S128x128.Idx) : Host.tanh (F := Ideal) (φ := .f32) v i = Ideal.tanh (v i) := rfl

/-- The new cell state of row `b`. -/
theorem cellC_row (g : S128x512.Idx → EReal) (c : S128x128.Idx → EReal) (o1 o2 o3 o4 : S128x128.Idx → EReal)
    (h1 : ∀ i, o1 i = 1) (h2 : ∀ i, o2 i = 1) (h3 : ∀ i, o3 i = 1) (h4 : ∀ i, o4 i = 1)
    (hs0 : S128x512.Slices ![0, 0] S128x128) (hs1 : S128x512.Slices ![0, 128] S128x128) (hs2 : S128x512.Slices ![0, 256] S128x128)
    (b : Fin 128) (d : Fin 128) :
    addf (F := Ideal) (φ := .f32) (mulf (F := Ideal) (φ := .f32) (Host.divf (F := Ideal) (φ := .f32) o2 (addf (F := Ideal) (φ := .f32) o1 (Host.exp (F := Ideal) (φ := .f32) (Host.negf (F := Ideal) (φ := .f32) (extractStridedSlice S128x128 ![0, 128] g hs1))))) c)
      (mulf (F := Ideal) (φ := .f32) (Host.divf (F := Ideal) (φ := .f32) o4 (addf (F := Ideal) (φ := .f32) o3 (Host.exp (F := Ideal) (φ := .f32) (Host.negf (F := Ideal) (φ := .f32) (extractStridedSlice S128x128 ![0, 0] g hs0)))))
        (Host.tanh (F := Ideal) (φ := .f32) (extractStridedSlice S128x128 ![0, 256] g hs2))) (ix2 b d)
    = cellC (fun j => g (ix2 b j)) (fun d => c (ix2 b d)) d := by
  rw [addf_apply, mulf_apply, mulf_apply, sigmoid_row _ _ _ h1 h2, sigmoid_row _ _ _ h3 h4, tanh_row,
    blk_row 128 (by decide), blk_row 0 (by decide), blk_row 256 (by decide)]
  rfl

/-- The new hidden state of row `b`. -/
theorem cellH_row (g : S128x512.Idx → EReal) (c' : S128x128.Idx → EReal) (o1 o2 : S128x128.Idx → EReal)
    (h1 : ∀ i, o1 i = 1) (h2 : ∀ i, o2 i = 1) (hs3 : S128x512.Slices ![0, 384] S128x128) (b : Fin 128) (d : Fin 128) :
    mulf (F := Ideal) (φ := .f32) (Host.divf (F := Ideal) (φ := .f32) o2 (addf (F := Ideal) (φ := .f32) o1 (Host.exp (F := Ideal) (φ := .f32) (Host.negf (F := Ideal) (φ := .f32) (extractStridedSlice S128x128 ![0, 384] g hs3)))))
      (Host.tanh (F := Ideal) (φ := .f32) c') (ix2 b d)
    = cellH (fun j => g (ix2 b j)) (fun d => c' (ix2 b d)) d := by
  rw [mulf_apply, sigmoid_row _ _ _ h1 h2, tanh_row, blk_row 384 (by decide)]
  rfl

/-! ## The attention over the atoms at a row -/

/-- A [128, 128] array given a unit middle axis and repeated along the 1024 atoms reads, at (b, n, d), the array at (b, d). -/
theorem hid_bcast (v : S128x128.Idx → EReal) (b : Fin 128) (n : Fin 1024) (d : Fin 128) :
    (broadcastInDim S128x1024x128 ![0, 1, 2] bcast_S128x1x128_S128x1024x128_0_1_2 (broadcastInDim S128x1x128 ![0, 2] bcast_S128x128_S128x1x128_0_2 v)) (ix3 b n d) = v (ix2 b d) := by
  refine (broadcastInDim_apply _ _ _ (ix3 b n d) (ix3 b (0 : Fin 1) d) fun a => ?_).trans
    (broadcastInDim_apply _ _ _ _ (ix2 b d) fun a => ?_)
  · match a with
    | ⟨0, _⟩ => show b.val = if (128 : Nat) = 1 then 0 else b.val; rw [if_neg (by decide)]
    | ⟨1, _⟩ => rfl
    | ⟨2, _⟩ => show d.val = if (128 : Nat) = 1 then 0 else d.val; rw [if_neg (by decide)]
  · match a with
    | ⟨0, _⟩ => show b.val = if (128 : Nat) = 1 then 0 else b.val; rw [if_neg (by decide)]
    | ⟨1, _⟩ => show d.val = if (128 : Nat) = 1 then 0 else d.val; rw [if_neg (by decide)]

/-- A vector of 128 as a column, repeated along the 1024 atoms, reads the vector at the row. -/
theorem col2_row (M : S128.Idx → EReal) (b : Fin 128) (n : Fin 1024) :
    (broadcastInDim S128x1024 ![0, 1] bcast_S128x1_S128x1024_0_1 (broadcastInDim S128x1 ![0] bcast_S128_S128x1_0 M)) (ix2 b n) = M (ix1 b) := by
  refine (broadcastInDim_apply _ _ _ (ix2 b n) (ix2 b (0 : Fin 1)) fun a => ?_).trans
    (broadcastInDim_apply _ _ _ _ (ix1 b) fun a => ?_)
  · match a with
    | ⟨0, _⟩ => show b.val = if (128 : Nat) = 1 then 0 else b.val; rw [if_neg (by decide)]
    | ⟨1, _⟩ => rfl
  · match a with
    | ⟨0, _⟩ => show b.val = if (128 : Nat) = 1 then 0 else b.val; rw [if_neg (by decide)]

/-- A [128, 1024] array given a unit last axis and repeated along the 128 features reads, at (b, n, d), the array at (b, n). -/
theorem wt_bcast (a : S128x1024.Idx → EReal) (b : Fin 128) (n : Fin 1024) (d : Fin 128) :
    (broadcastInDim S128x1024x128 ![0, 1, 2] bcast_S128x1024x1_S128x1024x128_0_1_2 (broadcastInDim S128x1024x1 ![0, 1] bcast_S128x1024_S128x1024x1_0_1 a)) (ix3 b n d) = a (ix2 b n) := by
  refine (broadcastInDim_apply _ _ _ (ix3 b n d) (ix3 b n (0 : Fin 1)) fun ax => ?_).trans
    (broadcastInDim_apply _ _ _ _ (ix2 b n) fun ax => ?_)
  · match ax with
    | ⟨0, _⟩ => show b.val = if (128 : Nat) = 1 then 0 else b.val; rw [if_neg (by decide)]
    | ⟨1, _⟩ => show n.val = if (1024 : Nat) = 1 then 0 else n.val; rw [if_neg (by decide)]
    | ⟨2, _⟩ => rfl
  · match ax with
    | ⟨0, _⟩ => show b.val = if (128 : Nat) = 1 then 0 else b.val; rw [if_neg (by decide)]
    | ⟨1, _⟩ => show n.val = if (1024 : Nat) = 1 then 0 else n.val; rw [if_neg (by decide)]

/-- The sum along the features of a [128, 1024, 128] array from zero, at (b, n). -/
theorem featsum_row (v : S128x1024x128.Idx → EReal) (b : Fin 128) (n : Fin 1024) :
    Host.reduceAdd (F := Ideal) (φ := .f32) v (constant (F := Ideal) S_ .f32 0x00000000#32) reducesTo_S128x1024x128_S128x1024_d2 h_S_ (ix2 b n) = ∑ d : Fin 128, v (ix3 b n d) := by
  simp only [Host.reduceAdd, Ideal.hostReduceAdd_def]
  rw [Ideal.hostReduceAdd_single reducesTo_S128x1024x128_S128x1024_d2 (by decide)]
  refine (congrArg (· + _) Ideal.ofBits_zero_f32).trans ((zero_add _).trans (Finset.sum_congr rfl fun k _ => ?_))
  exact congrArg v (funext fun a => Fin.ext (by match a with | ⟨0, _⟩ => rfl | ⟨1, _⟩ => rfl | ⟨2, _⟩ => rfl))

/-- The sum along the atoms of a [128, 1024] array from zero, at b. -/
theorem atomsum_row (w : S128x1024.Idx → EReal) (b : Fin 128) :
    Host.reduceAdd (F := Ideal) (φ := .f32) w (constant (F := Ideal) S_ .f32 0x00000000#32) reducesTo_S128x1024_S128_d1 h_S_ (ix1 b) = ∑ n : Fin 1024, w (ix2 b n) := by
  simp only [Host.reduceAdd, Ideal.hostReduceAdd_def]
  rw [Ideal.hostReduceAdd_single reducesTo_S128x1024_S128_d1 (by decide)]
  refine (congrArg (· + _) Ideal.ofBits_zero_f32).trans ((zero_add _).trans (Finset.sum_congr rfl fun k _ => ?_))
  exact congrArg w (funext fun a => Fin.ext (by match a with | ⟨0, _⟩ => rfl | ⟨1, _⟩ => rfl))

/-- The sum along the atoms of a [128, 1024, 128] array from zero, at (b, d). -/
theorem atomsum3_row (v : S128x1024x128.Idx → EReal) (b : Fin 128) (d : Fin 128) :
    Host.reduceAdd (F := Ideal) (φ := .f32) v (constant (F := Ideal) S_ .f32 0x00000000#32) reducesTo_S128x1024x128_S128x128_d1 h_S_ (ix2 b d) = ∑ n : Fin 1024, v (ix3 b n d) := by
  simp only [Host.reduceAdd, Ideal.hostReduceAdd_def]
  rw [Ideal.hostReduceAdd_single reducesTo_S128x1024x128_S128x128_d1 (by decide)]
  refine (congrArg (· + _) Ideal.ofBits_zero_f32).trans ((zero_add _).trans (Finset.sum_congr rfl fun k _ => ?_))
  exact congrArg v (funext fun a => Fin.ext (by match a with | ⟨0, _⟩ => rfl | ⟨1, _⟩ => rfl | ⟨2, _⟩ => rfl))

/-- The masked scores of row `b`: the features times the hidden state summed along the features, minus infinity where the
    mask bit is not set. -/
theorem score_row (x0 : S128x1024x128.Idx → EReal) (x1 : S128x1024.Idx → BitVec 1) (h : S128x128.Idx → EReal) (b : Fin 128) (n : Fin 1024) :
    select x1 (Host.reduceAdd (F := Ideal) (φ := .f32) (mulf (F := Ideal) (φ := .f32) x0 (broadcastInDim S128x1024x128 ![0, 1, 2] bcast_S128x1x128_S128x1024x128_0_1_2 (broadcastInDim S128x1x128 ![0, 2] bcast_S128x128_S128x1x128_0_2 h))) (constant (F := Ideal) S_ .f32 0x00000000#32) reducesTo_S128x1024x128_S128x1024_d2 h_S_)
      (broadcastInDim S128x1024 ![] bcast_S_S128x1024 (id (constant (F := Ideal) S_ .f32 0xFF800000#32))) (ix2 b n)
    = score (fun n d => x0 (ix3 b n d)) (fun n => x1 (ix2 b n)) (fun d => h (ix2 b d)) n := by
  rw [select_apply, featsum_row,
    broadcastInDim_apply _ bcast_S_S128x1024 (id (constant (F := Ideal) S_ .f32 0xFF800000#32)) (ix2 b n) (fun a => a.elim0) (fun a => a.elim0)]
  unfold score
  refine congrArg₂ (Scalar.select (x1 (ix2 b n))) (Finset.sum_congr rfl fun d _ => ?_) neg_inf_bits
  rw [mulf_apply, hid_bcast]

/-- The largest score of row `b`. -/
theorem top_row (e : S128x1024.Idx → EReal) (b : Fin 128) :
    Host.reduce (FloatOps.maximumf (F := Ideal) (φ := .f32)) e (constant (F := Ideal) S_ .f32 0xFF800000#32) reducesTo_S128x1024_S128_d1 h_S_ (ix1 b) = top (fun n => e (ix2 b n)) := by
  have hr : S128x1024.Reduces [1] S128 := by decide
  rw [Host.reduce_eq_fold_single (FloatOps.maximumf (F := Ideal) (φ := .f32)) e (constant (F := Ideal) S_ .f32 0xFF800000#32) reducesTo_S128x1024_S128_d1 hr h_S_ (ix1 b)]
  show (Finset.univ : Finset (Fin 1024)).fold max (Ideal.ofBits .f32 0xFF800000#32) (e ∘ hr.lift (ix1 b)) = _
  rw [neg_inf_bits]
  unfold top
  congr 1
  funext n
  refine congrArg e (funext fun c => Fin.ext ?_)
  rw [hr.lift_val]
  match c with
  | ⟨0, _⟩ => rfl
  | ⟨1, _⟩ => rfl

/-- The shifted scores. -/
theorem shift_row (e : S128x1024.Idx → EReal) (M : S128.Idx → EReal) (b : Fin 128) (n : Fin 1024) :
    subf (F := Ideal) (φ := .f32) e (broadcastInDim S128x1024 ![0, 1] bcast_S128x1_S128x1024_0_1 (broadcastInDim S128x1 ![0] bcast_S128_S128x1_0 M)) (ix2 b n) = e (ix2 b n) - M (ix1 b) := by
  rw [subf_apply, col2_row]

/-- The pooled vector of row `b` as the reference spells it: each weighted feature multiplied once more by the mask. -/
theorem pool_row (x0 : S128x1024x128.Idx → EReal) (x1 : S128x1024.Idx → BitVec 1) (W : S128x1024.Idx → EReal) (b : Fin 128) (d : Fin 128) :
    Host.reduceAdd (F := Ideal) (φ := .f32)
      (mulf (F := Ideal) (φ := .f32) (mulf (F := Ideal) (φ := .f32) (broadcastInDim S128x1024x128 ![0, 1, 2] bcast_S128x1024x1_S128x1024x128_0_1_2 (broadcastInDim S128x1024x1 ![0, 1] bcast_S128x1024_S128x1024x1_0_1 (Host.divf (F := Ideal) (φ := .f32) W (broadcastInDim S128x1024 ![0, 1] bcast_S128x1_S128x1024_0_1 (broadcastInDim S128x1 ![0] bcast_S128_S128x1_0 (Host.reduceAdd (F := Ideal) (φ := .f32) W (constant (F := Ideal) S_ .f32 0x00000000#32) reducesTo_S128x1024_S128_d1 h_S_)))))) x0)
        (broadcastInDim S128x1024x128 ![0, 1, 2] bcast_S128x1024x1_S128x1024x128_0_1_2 (broadcastInDim S128x1024x1 ![0, 1] bcast_S128x1024_S128x1024x1_0_1 (uitofp (F := Ideal) .f32 x1))))
      (constant (F := Ideal) S_ .f32 0x00000000#32) reducesTo_S128x1024x128_S128x128_d1 h_S_ (ix2 b d)
    = ∑ n : Fin 1024, attn (fun n => W (ix2 b n)) n * x0 (ix3 b n d) * bitR (x1 (ix2 b n)) := by
  rw [atomsum3_row]
  refine Finset.sum_congr rfl fun n _ => ?_
  rw [mulf_apply, mulf_apply, wt_bcast, wt_bcast]
  show Ideal.div (W (ix2 b n)) ((broadcastInDim S128x1024 ![0, 1] bcast_S128x1_S128x1024_0_1 (broadcastInDim S128x1 ![0] bcast_S128_S128x1_0 (Host.reduceAdd (F := Ideal) (φ := .f32) W (constant (F := Ideal) S_ .f32 0x00000000#32) reducesTo_S128x1024_S128_d1 h_S_))) (ix2 b n)) * _ * _ = _
  rw [col2_row, atomsum_row]
  rfl

/-- The hidden state followed by the pooled vector. -/
theorem cat_row (h r : S128x128.Idx → EReal) (hc : Shape.Concatenates [S128x128, S128x128] S128x256 1) (b : Fin 128) (k : Fin 256) :
    concatenate S128x256 1 [⟨S128x128, h⟩, ⟨S128x128, r⟩] hc (ix2 b k) = cat (fun d => h (ix2 b d)) (fun d => r (ix2 b d)) k := by
  unfold cat
  by_cases hk : k.val < 128
  · rw [dif_pos hk]
    exact concatenate_pair_apply_left (1 : Fin S128x256.rank) h r hc (ix2 b k) rfl (ix2 b ⟨k.val, hk⟩) fun a => by
      match a with
      | ⟨0, _⟩ => rfl
      | ⟨1, _⟩ => rfl
  · rw [dif_neg hk]
    exact concatenate_pair_apply_right (1 : Fin S128x256.rank) h r hc (ix2 b k) rfl rfl (ix2 b ⟨k.val - 128, by have := k.isLt; omega⟩)
      (fun a ha => by
        match a with
        | ⟨0, _⟩ => rfl
        | ⟨1, _⟩ => exact absurd rfl ha)
      (by show (k.val - 128) + 128 = k.val; omega)

/-! ## The output layer at a row -/

/-- One number as a [1, 1] array, repeated down 128 rows, reads that number. -/
theorem bcast2_row (x : S1.Idx → EReal) (i : S128x1.Idx) : (broadcastInDim S128x1 ![0, 1] bcast_S1x1_S128x1_0_1 (broadcastInDim S1x1 ![1] bcast_S1_S1x1_1 x)) i = x (ix1 (0 : Fin 1)) := by
  refine (broadcastInDim_apply _ _ _ i (ix2 (0 : Fin 1) (0 : Fin 1)) fun a => ?_).trans
    (broadcastInDim_apply _ _ _ _ (ix1 (0 : Fin 1)) fun a => ?_)
  · match a with
    | ⟨0, _⟩ => rfl
    | ⟨1, _⟩ => rfl
  · match a with
    | ⟨0, _⟩ => rfl

/-- The output layer, the scale and the shift of row `b`. -/
theorem out_row (q : S128x256.Idx → EReal) (x6 : S1x256.Idx → EReal) (x7 x8 x9 : S1.Idx → EReal) (b : Fin 128) :
    addf (F := Ideal) (φ := .f32) (mulf (F := Ideal) (φ := .f32) (addf (F := Ideal) (φ := .f32)
        (Host.dotGeneral (F := Ideal) (φ₁ := .f32) (φ₂ := .f32) dot_S128x256_S256x1_S128x1_1_0_0_1_n_n none q (transpose S256x1 [1, 0] x6 transposes_S1x256_S256x1_1_0))
        (broadcastInDim S128x1 ![0, 1] bcast_S1x1_S128x1_0_1 (broadcastInDim S1x1 ![1] bcast_S1_S1x1_1 x7))) (broadcastInDim S128x1 ![0, 1] bcast_S1x1_S128x1_0_1 (broadcastInDim S1x1 ![1] bcast_S1_S1x1_1 x9))) (broadcastInDim S128x1 ![0, 1] bcast_S1x1_S128x1_0_1 (broadcastInDim S1x1 ![1] bcast_S1_S1x1_1 x8)) (ix2 b (0 : Fin 1))
    = (∑ k : Fin 256, q (ix2 b k) * x6 (ix2 (0 : Fin 1) k) + x7 (ix1 (0 : Fin 1))) * x9 (ix1 (0 : Fin 1)) + x8 (ix1 (0 : Fin 1)) := by
  rw [addf_apply, mulf_apply, addf_apply, dotC, bcast2_row, bcast2_row, bcast2_row]
  exact congrArg (fun s : EReal => (s + x7 (ix1 (0 : Fin 1))) * x9 (ix1 (0 : Fin 1)) + x8 (ix1 (0 : Fin 1)))
    (Finset.sum_congr rfl fun k _ => congrArg (q (ix2 b k) * ·) (transpose_ix2_apply x6 transposes_S1x256_S256x1_1_0 k (0 : Fin 1)))

/-! ## One row of the reference -/

/-- Row `b`'s features. -/
abbrev xr (x0 : (⟨S128x1024x128, .f32⟩ : BufTy).Contents (Elt Ideal)) (b : Fin 128) : Fin 1024 → Fin 128 → EReal := fun n d => x0 (ix3 b n d)
/-- Row `b`'s mask bits. -/
abbrev mb (x1 : (⟨S128x1024, .i1⟩ : BufTy).Contents (Elt Ideal)) (b : Fin 128) : Fin 1024 → BitVec 1 := fun n => x1 (ix2 b n)
/-- The two weight matrices and the two bias rows, by coordinates. -/
abbrev Wih (x2 : (⟨S512x256, .f32⟩ : BufTy).Contents (Elt Ideal)) : Fin 512 → Fin 256 → EReal := fun j k => x2 (ix2 j k)
abbrev Whh (x3 : (⟨S512x128, .f32⟩ : BufTy).Contents (Elt Ideal)) : Fin 512 → Fin 128 → EReal := fun j k => x3 (ix2 j k)
abbrev bih (x4 : (⟨S512, .f32⟩ : BufTy).Contents (Elt Ideal)) : Fin 512 → EReal := fun j => x4 (ix1 j)
abbrev bhh (x5 : (⟨S512, .f32⟩ : BufTy).Contents (Elt Ideal)) : Fin 512 → EReal := fun j => x5 (ix1 j)

section Row

variable {x0 : (⟨S128x1024x128, .f32⟩ : BufTy).Contents (Elt Ideal)} {x1 : (⟨S128x1024, .i1⟩ : BufTy).Contents (Elt Ideal)}
  {x2 : (⟨S512x256, .f32⟩ : BufTy).Contents (Elt Ideal)} {x3 : (⟨S512x128, .f32⟩ : BufTy).Contents (Elt Ideal)} {x4 x5 : (⟨S512, .f32⟩ : BufTy).Contents (Elt Ideal)}
  {x6 : (⟨S1x256, .f32⟩ : BufTy).Contents (Elt Ideal)} {x7 x8 x9 : (⟨S1, .f32⟩ : BufTy).Contents (Elt Ideal)} {b : Fin 128}

/-! ## Round 1 -/

/-- The gate pre-activations of round 1. -/
theorem g1 (j : Fin 512) : (val_main_v14 (F := Ideal) x2 x3 x4 x5) (ix2 b j) = G1 (Wih x2) (Whh x3) (bih x4) (bhh x5) j := by
  refine (gates_row (val_main_v1 (F := Ideal)) (val_main_v2 (F := Ideal)) x2 x3 x4 x5 b j).trans ?_
  exact congrArg₂ (fun q h => gates (Wih x2) (Whh x3) (bih x4) (bhh x5) q h j) (funext fun k => (val_main_v1_apply _).trans Ideal.ofBits_zero_f32) (funext fun k => (val_main_v2_apply _).trans Ideal.ofBits_zero_f32)

/-- The cell state of round 1. -/
theorem c1 (d : Fin 128) : (val_main_v40 (F := Ideal) x2 x3 x4 x5) (ix2 b d) = C1 (Wih x2) (Whh x3) (bih x4) (bhh x5) d := by
  refine (cellC_row (val_main_v14 (F := Ideal) x2 x3 x4 x5) (val_main_v3 (F := Ideal)) (val_main_v27 (F := Ideal)) (val_main_v29 (F := Ideal)) (val_main_v21 (F := Ideal)) (val_main_v23 (F := Ideal))
    (fun i => one_sq i) (fun i => one_sq i) (fun i => one_sq i) (fun i => one_sq i) _ _ _ b d).trans ?_
  exact congrArg₂ (fun g c => cellC g c d) (funext fun j => g1 j) (funext fun d => (val_main_v3_apply _).trans Ideal.ofBits_zero_f32)

/-- The hidden state of round 1. -/
theorem h1 (d : Fin 128) : (val_main_v42 (F := Ideal) x2 x3 x4 x5) (ix2 b d) = H1 (Wih x2) (Whh x3) (bih x4) (bhh x5) d := by
  refine (cellH_row (val_main_v14 (F := Ideal) x2 x3 x4 x5) (val_main_v40 (F := Ideal) x2 x3 x4 x5) (val_main_v34 (F := Ideal)) (val_main_v36 (F := Ideal)) (fun i => one_sq i) (fun i => one_sq i) _ b d).trans ?_
  exact congrArg₂ (fun g c => cellH g c d) (funext fun j => g1 j) (funext fun d => c1 d)

/-- The masked scores of round 1. -/
theorem s1 (n : Fin 1024) : (val_main_v47 (F := Ideal) x0 x1 x2 x3 x4 x5) (ix2 b n) = score (xr x0 b) (mb x1 b) (H1 (Wih x2) (Whh x3) (bih x4) (bhh x5)) n := by
  refine (score_row x0 x1 (val_main_v42 (F := Ideal) x2 x3 x4 x5) b n).trans ?_
  exact congrArg (fun h => score (xr x0 b) (mb x1 b) h n) (funext fun d => h1 d)

/-- The largest score of round 1. -/
theorem m1 : (val_main_v48 (F := Ideal) x0 x1 x2 x3 x4 x5) (ix1 b) = top (score (xr x0 b) (mb x1 b) (H1 (Wih x2) (Whh x3) (bih x4) (bhh x5))) := by
  refine (top_row (val_main_v47 (F := Ideal) x0 x1 x2 x3 x4 x5) b).trans ?_
  exact congrArg top (funext fun n => s1 n)

/-- The unnormalised weights of round 1. -/
theorem w1 (n : Fin 1024) : (val_main_v53 (F := Ideal) x0 x1 x2 x3 x4 x5) (ix2 b n) = wts (mb x1 b) (score (xr x0 b) (mb x1 b) (H1 (Wih x2) (Whh x3) (bih x4) (bhh x5))) n := by
  show Ideal.exp ((val_main_v51 (F := Ideal) x0 x1 x2 x3 x4 x5) (ix2 b n)) * bitR (x1 (ix2 b n)) = _
  rw [show (val_main_v51 (F := Ideal) x0 x1 x2 x3 x4 x5) (ix2 b n) = (val_main_v47 (F := Ideal) x0 x1 x2 x3 x4 x5) (ix2 b n) - (val_main_v48 (F := Ideal) x0 x1 x2 x3 x4 x5) (ix1 b) from shift_row _ _ b n, s1, m1]
  rfl

/-- The pooled vector of round 1. -/
theorem r1 (hx : ∀ n d, IsR (x0 (ix3 b n d))) (hrow : ∃ n, x1 (ix2 b n) = 1#1) (d : Fin 128) : (val_main_v64 (F := Ideal) x0 x1 x2 x3 x4 x5) (ix2 b d) = R1 (xr x0 b) (mb x1 b) (Wih x2) (Whh x3) (bih x4) (bhh x5) d := by
  refine (pool_row x0 x1 (val_main_v53 (F := Ideal) x0 x1 x2 x3 x4 x5) b d).trans ?_
  rw [show (fun n => (val_main_v53 (F := Ideal) x0 x1 x2 x3 x4 x5) (ix2 b n)) = wts (mb x1 b) (score (xr x0 b) (mb x1 b) (H1 (Wih x2) (Whh x3) (bih x4) (bhh x5))) from funext fun n => w1 n]
  exact Finset.sum_congr rfl fun n _ => attn_mul_mask (xr x0 b) (mb x1 b) (H1 (Wih x2) (Whh x3) (bih x4) (bhh x5)) hx (isR_H1 (Wih x2) (Whh x3) (bih x4) (bhh x5)) hrow n d

/-- The next query of round 1: the hidden state followed by the pooled vector. -/
theorem q1 (hx : ∀ n d, IsR (x0 (ix3 b n d))) (hrow : ∃ n, x1 (ix2 b n) = 1#1) (k : Fin 256) : (val_main_v65 (F := Ideal) x0 x1 x2 x3 x4 x5) (ix2 b k) = Q1 (xr x0 b) (mb x1 b) (Wih x2) (Whh x3) (bih x4) (bhh x5) k := by
  refine (cat_row (val_main_v42 (F := Ideal) x2 x3 x4 x5) (val_main_v64 (F := Ideal) x0 x1 x2 x3 x4 x5) _ b k).trans ?_
  exact congrArg₂ (fun h r => cat h r k) (funext fun d => h1 d) (funext fun d => r1 hx hrow d)

/-! ## Round 2 -/

/-- The gate pre-activations of round 2. -/
theorem g2 (hx : ∀ n d, IsR (x0 (ix3 b n d))) (hrow : ∃ n, x1 (ix2 b n) = 1#1) (j : Fin 512) : (val_main_v76 (F := Ideal) x0 x1 x2 x3 x4 x5) (ix2 b j) = G2 (xr x0 b) (mb x1 b) (Wih x2) (Whh x3) (bih x4) (bhh x5) j := by
  refine (gates_row (val_main_v65 (F := Ideal) x0 x1 x2 x3 x4 x5) (val_main_v42 (F := Ideal) x2 x3 x4 x5) x2 x3 x4 x5 b j).trans ?_
  exact congrArg₂ (fun q h => gates (Wih x2) (Whh x3) (bih x4) (bhh x5) q h j) (funext fun k => q1 hx hrow k) (funext fun k => h1 k)

/-- The cell state of round 2. -/
theorem c2 (hx : ∀ n d, IsR (x0 (ix3 b n d))) (hrow : ∃ n, x1 (ix2 b n) = 1#1) (d : Fin 128) : (val_main_v102 (F := Ideal) x0 x1 x2 x3 x4 x5) (ix2 b d) = C2 (xr x0 b) (mb x1 b) (Wih x2) (Whh x3) (bih x4) (bhh x5) d := by
  refine (cellC_row (val_main_v76 (F := Ideal) x0 x1 x2 x3 x4 x5) (val_main_v40 (F := Ideal) x2 x3 x4 x5) (val_main_v89 (F := Ideal)) (val_main_v91 (F := Ideal)) (val_main_v83 (F := Ideal)) (val_main_v85 (F := Ideal))
    (fun i => one_sq i) (fun i => one_sq i) (fun i => one_sq i) (fun i => one_sq i) _ _ _ b d).trans ?_
  exact congrArg₂ (fun g c => cellC g c d) (funext fun j => g2 hx hrow j) (funext fun d => c1 d)

/-- The hidden state of round 2. -/
theorem h2 (hx : ∀ n d, IsR (x0 (ix3 b n d))) (hrow : ∃ n, x1 (ix2 b n) = 1#1) (d : Fin 128) : (val_main_v104 (F := Ideal) x0 x1 x2 x3 x4 x5) (ix2 b d) = H2 (xr x0 b) (mb x1 b) (Wih x2) (Whh x3) (bih x4) (bhh x5) d := by
  refine (cellH_row (val_main_v76 (F := Ideal) x0 x1 x2 x3 x4 x5) (val_main_v102 (F := Ideal) x0 x1 x2 x3 x4 x5) (val_main_v96 (F := Ideal)) (val_main_v98 (F := Ideal)) (fun i => one_sq i) (fun i => one_sq i) _ b d).trans ?_
  exact congrArg₂ (fun g c => cellH g c d) (funext fun j => g2 hx hrow j) (funext fun d => c2 hx hrow d)

/-- The masked scores of round 2. -/
theorem s2 (hx : ∀ n d, IsR (x0 (ix3 b n d))) (hrow : ∃ n, x1 (ix2 b n) = 1#1) (n : Fin 1024) : (val_main_v109 (F := Ideal) x0 x1 x2 x3 x4 x5) (ix2 b n) = score (xr x0 b) (mb x1 b) (H2 (xr x0 b) (mb x1 b) (Wih x2) (Whh x3) (bih x4) (bhh x5)) n := by
  refine (score_row x0 x1 (val_main_v104 (F := Ideal) x0 x1 x2 x3 x4 x5) b n).trans ?_
  exact congrArg (fun h => score (xr x0 b) (mb x1 b) h n) (funext fun d => h2 hx hrow d)

/-- The largest score of round 2. -/
theorem m2 (hx : ∀ n d, IsR (x0 (ix3 b n d))) (hrow : ∃ n, x1 (ix2 b n) = 1#1) : (val_main_v110 (F := Ideal) x0 x1 x2 x3 x4 x5) (ix1 b) = top (score (xr x0 b) (mb x1 b) (H2 (xr x0 b) (mb x1 b) (Wih x2) (Whh x3) (bih x4) (bhh x5))) := by
  refine (top_row (val_main_v109 (F := Ideal) x0 x1 x2 x3 x4 x5) b).trans ?_
  exact congrArg top (funext fun n => s2 hx hrow n)

/-- The unnormalised weights of round 2. -/
theorem w2 (hx : ∀ n d, IsR (x0 (ix3 b n d))) (hrow : ∃ n, x1 (ix2 b n) = 1#1) (n : Fin 1024) : (val_main_v115 (F := Ideal) x0 x1 x2 x3 x4 x5) (ix2 b n) = wts (mb x1 b) (score (xr x0 b) (mb x1 b) (H2 (xr x0 b) (mb x1 b) (Wih x2) (Whh x3) (bih x4) (bhh x5))) n := by
  show Ideal.exp ((val_main_v113 (F := Ideal) x0 x1 x2 x3 x4 x5) (ix2 b n)) * bitR (x1 (ix2 b n)) = _
  rw [show (val_main_v113 (F := Ideal) x0 x1 x2 x3 x4 x5) (ix2 b n) = (val_main_v109 (F := Ideal) x0 x1 x2 x3 x4 x5) (ix2 b n) - (val_main_v110 (F := Ideal) x0 x1 x2 x3 x4 x5) (ix1 b) from shift_row _ _ b n, s2 hx hrow, m2 hx hrow]
  rfl

/-- The pooled vector of round 2. -/
theorem r2 (hx : ∀ n d, IsR (x0 (ix3 b n d))) (hrow : ∃ n, x1 (ix2 b n) = 1#1) (d : Fin 128) : (val_main_v126 (F := Ideal) x0 x1 x2 x3 x4 x5) (ix2 b d) = R2 (xr x0 b) (mb x1 b) (Wih x2) (Whh x3) (bih x4) (bhh x5) d := by
  refine (pool_row x0 x1 (val_main_v115 (F := Ideal) x0 x1 x2 x3 x4 x5) b d).trans ?_
  rw [show (fun n => (val_main_v115 (F := Ideal) x0 x1 x2 x3 x4 x5) (ix2 b n)) = wts (mb x1 b) (score (xr x0 b) (mb x1 b) (H2 (xr x0 b) (mb x1 b) (Wih x2) (Whh x3) (bih x4) (bhh x5))) from funext fun n => w2 hx hrow n]
  exact Finset.sum_congr rfl fun n _ => attn_mul_mask (xr x0 b) (mb x1 b) (H2 (xr x0 b) (mb x1 b) (Wih x2) (Whh x3) (bih x4) (bhh x5)) hx (isR_H2 (xr x0 b) (mb x1 b) (Wih x2) (Whh x3) (bih x4) (bhh x5)) hrow n d

/-- The next query of round 2: the hidden state followed by the pooled vector. -/
theorem q2 (hx : ∀ n d, IsR (x0 (ix3 b n d))) (hrow : ∃ n, x1 (ix2 b n) = 1#1) (k : Fin 256) : (val_main_v127 (F := Ideal) x0 x1 x2 x3 x4 x5) (ix2 b k) = Q2 (xr x0 b) (mb x1 b) (Wih x2) (Whh x3) (bih x4) (bhh x5) k := by
  refine (cat_row (val_main_v104 (F := Ideal) x0 x1 x2 x3 x4 x5) (val_main_v126 (F := Ideal) x0 x1 x2 x3 x4 x5) _ b k).trans ?_
  exact congrArg₂ (fun h r => cat h r k) (funext fun d => h2 hx hrow d) (funext fun d => r2 hx hrow d)

/-! ## Round 3 -/

/-- The gate pre-activations of round 3. -/
theorem g3 (hx : ∀ n d, IsR (x0 (ix3 b n d))) (hrow : ∃ n, x1 (ix2 b n) = 1#1) (j : Fin 512) : (val_main_v138 (F := Ideal) x0 x1 x2 x3 x4 x5) (ix2 b j) = G3 (xr x0 b) (mb x1 b) (Wih x2) (Whh x3) (bih x4) (bhh x5) j := by
  refine (gates_row (val_main_v127 (F := Ideal) x0 x1 x2 x3 x4 x5) (val_main_v104 (F := Ideal) x0 x1 x2 x3 x4 x5) x2 x3 x4 x5 b j).trans ?_
  exact congrArg₂ (fun q h => gates (Wih x2) (Whh x3) (bih x4) (bhh x5) q h j) (funext fun k => q2 hx hrow k) (funext fun k => h2 hx hrow k)

/-- The cell state of round 3. -/
theorem c3 (hx : ∀ n d, IsR (x0 (ix3 b n d))) (hrow : ∃ n, x1 (ix2 b n) = 1#1) (d : Fin 128) : (val_main_v164 (F := Ideal) x0 x1 x2 x3 x4 x5) (ix2 b d) = C3 (xr x0 b) (mb x1 b) (Wih x2) (Whh x3) (bih x4) (bhh x5) d := by
  refine (cellC_row (val_main_v138 (F := Ideal) x0 x1 x2 x3 x4 x5) (val_main_v102 (F := Ideal) x0 x1 x2 x3 x4 x5) (val_main_v151 (F := Ideal)) (val_main_v153 (F := Ideal)) (val_main_v145 (F := Ideal)) (val_main_v147 (F := Ideal))
    (fun i => one_sq i) (fun i => one_sq i) (fun i => one_sq i) (fun i => one_sq i) _ _ _ b d).trans ?_
  exact congrArg₂ (fun g c => cellC g c d) (funext fun j => g3 hx hrow j) (funext fun d => c2 hx hrow d)

/-- The hidden state of round 3. -/
theorem h3 (hx : ∀ n d, IsR (x0 (ix3 b n d))) (hrow : ∃ n, x1 (ix2 b n) = 1#1) (d : Fin 128) : (val_main_v166 (F := Ideal) x0 x1 x2 x3 x4 x5) (ix2 b d) = H3 (xr x0 b) (mb x1 b) (Wih x2) (Whh x3) (bih x4) (bhh x5) d := by
  refine (cellH_row (val_main_v138 (F := Ideal) x0 x1 x2 x3 x4 x5) (val_main_v164 (F := Ideal) x0 x1 x2 x3 x4 x5) (val_main_v158 (F := Ideal)) (val_main_v160 (F := Ideal)) (fun i => one_sq i) (fun i => one_sq i) _ b d).trans ?_
  exact congrArg₂ (fun g c => cellH g c d) (funext fun j => g3 hx hrow j) (funext fun d => c3 hx hrow d)

/-- The masked scores of round 3. -/
theorem s3 (hx : ∀ n d, IsR (x0 (ix3 b n d))) (hrow : ∃ n, x1 (ix2 b n) = 1#1) (n : Fin 1024) : (val_main_v171 (F := Ideal) x0 x1 x2 x3 x4 x5) (ix2 b n) = score (xr x0 b) (mb x1 b) (H3 (xr x0 b) (mb x1 b) (Wih x2) (Whh x3) (bih x4) (bhh x5)) n := by
  refine (score_row x0 x1 (val_main_v166 (F := Ideal) x0 x1 x2 x3 x4 x5) b n).trans ?_
  exact congrArg (fun h => score (xr x0 b) (mb x1 b) h n) (funext fun d => h3 hx hrow d)

/-- The largest score of round 3. -/
theorem m3 (hx : ∀ n d, IsR (x0 (ix3 b n d))) (hrow : ∃ n, x1 (ix2 b n) = 1#1) : (val_main_v172 (F := Ideal) x0 x1 x2 x3 x4 x5) (ix1 b) = top (score (xr x0 b) (mb x1 b) (H3 (xr x0 b) (mb x1 b) (Wih x2) (Whh x3) (bih x4) (bhh x5))) := by
  refine (top_row (val_main_v171 (F := Ideal) x0 x1 x2 x3 x4 x5) b).trans ?_
  exact congrArg top (funext fun n => s3 hx hrow n)

/-- The unnormalised weights of round 3. -/
theorem w3 (hx : ∀ n d, IsR (x0 (ix3 b n d))) (hrow : ∃ n, x1 (ix2 b n) = 1#1) (n : Fin 1024) : (val_main_v177 (F := Ideal) x0 x1 x2 x3 x4 x5) (ix2 b n) = wts (mb x1 b) (score (xr x0 b) (mb x1 b) (H3 (xr x0 b) (mb x1 b) (Wih x2) (Whh x3) (bih x4) (bhh x5))) n := by
  show Ideal.exp ((val_main_v175 (F := Ideal) x0 x1 x2 x3 x4 x5) (ix2 b n)) * bitR (x1 (ix2 b n)) = _
  rw [show (val_main_v175 (F := Ideal) x0 x1 x2 x3 x4 x5) (ix2 b n) = (val_main_v171 (F := Ideal) x0 x1 x2 x3 x4 x5) (ix2 b n) - (val_main_v172 (F := Ideal) x0 x1 x2 x3 x4 x5) (ix1 b) from shift_row _ _ b n, s3 hx hrow, m3 hx hrow]
  rfl

/-- The pooled vector of round 3. -/
theorem r3 (hx : ∀ n d, IsR (x0 (ix3 b n d))) (hrow : ∃ n, x1 (ix2 b n) = 1#1) (d : Fin 128) : (val_main_v188 (F := Ideal) x0 x1 x2 x3 x4 x5) (ix2 b d) = R3 (xr x0 b) (mb x1 b) (Wih x2) (Whh x3) (bih x4) (bhh x5) d := by
  refine (pool_row x0 x1 (val_main_v177 (F := Ideal) x0 x1 x2 x3 x4 x5) b d).trans ?_
  rw [show (fun n => (val_main_v177 (F := Ideal) x0 x1 x2 x3 x4 x5) (ix2 b n)) = wts (mb x1 b) (score (xr x0 b) (mb x1 b) (H3 (xr x0 b) (mb x1 b) (Wih x2) (Whh x3) (bih x4) (bhh x5))) from funext fun n => w3 hx hrow n]
  exact Finset.sum_congr rfl fun n _ => attn_mul_mask (xr x0 b) (mb x1 b) (H3 (xr x0 b) (mb x1 b) (Wih x2) (Whh x3) (bih x4) (bhh x5)) hx (isR_H3 (xr x0 b) (mb x1 b) (Wih x2) (Whh x3) (bih x4) (bhh x5)) hrow n d

/-- The next query of round 3: the hidden state followed by the pooled vector. -/
theorem q3 (hx : ∀ n d, IsR (x0 (ix3 b n d))) (hrow : ∃ n, x1 (ix2 b n) = 1#1) (k : Fin 256) : (val_main_v189 (F := Ideal) x0 x1 x2 x3 x4 x5) (ix2 b k) = Q3 (xr x0 b) (mb x1 b) (Wih x2) (Whh x3) (bih x4) (bhh x5) k := by
  refine (cat_row (val_main_v166 (F := Ideal) x0 x1 x2 x3 x4 x5) (val_main_v188 (F := Ideal) x0 x1 x2 x3 x4 x5) _ b k).trans ?_
  exact congrArg₂ (fun h r => cat h r k) (funext fun d => h3 hx hrow d) (funext fun d => r3 hx hrow d)

/-! ## The result at a row -/

/-- THE REFERENCE'S RESULT AT ROW `b`: the third query through the output layer, times the last argument's number plus the ninth's. -/
theorem y_at (hx : ∀ n d, IsR (x0 (ix3 b n d))) (hrow : ∃ n, x1 (ix2 b n) = 1#1) :
    (val_main_v200 (F := Ideal) x0 x1 x2 x3 x4 x5 x6 x7 x8 x9) (ix2 b (0 : Fin 1))
      = Yrow (xr x0 b) (mb x1 b) (Wih x2) (Whh x3) (bih x4) (bhh x5) (fun k => x6 (ix2 (0 : Fin 1) k)) (x7 (ix1 (0 : Fin 1))) * x9 (ix1 (0 : Fin 1)) + x8 (ix1 (0 : Fin 1)) := by
  refine (out_row (val_main_v189 (F := Ideal) x0 x1 x2 x3 x4 x5) x6 x7 x8 x9 b).trans ?_
  exact congrArg (fun s : EReal => (s + x7 (ix1 (0 : Fin 1))) * x9 (ix1 (0 : Fin 1)) + x8 (ix1 (0 : Fin 1)))
    (Finset.sum_congr rfl fun k _ => congrArg (· * x6 (ix2 (0 : Fin 1) k)) (q3 hx hrow k))

end Row

end Cert.Pooling.R

end
-- ==== Proof.lean ====
/-
  The certificate of the set-to-set pooling kernel against its reference, on the extended reals.

  Both programs compute, for each of the 128 molecules (rows) independently, three rounds of an LSTM cell followed by a
  masked softmax over the row's 1024 atoms and a weighted sum of their features, then an output layer, a scale and a shift.
  The kernel does so block by block (sixteen rows per grid point, the weights resident), the reference on whole arrays;
  they differ in how the four summands of a gate pre-activation are grouped (immaterial: addition of extended reals is
  commutative and associative) and in that the reference multiplies each weighted feature once more by the atom's mask
  (immaterial where the features are finite and the row has an unmasked atom: RowSpec.lean, `attn_mul_mask`). The
  precondition supplies exactly those two facts (PreDecode.lean). The kernel's frame is the generated one; its value is
  read off that frame (KernelArray.lean: blocks to array and the host lines around the region; KernelRow.lean: the body
  at one row; Bridge.lean: a block's row is the array's row); the reference's run is staged operation by operation
  (RefRun.lean) and read at a row (RefRow.lean). No rewrite was applied when the kernel was idealized, so the
  idealization's conjunct is trivial.
-/
import proofs.«112316_g16243566313856_cont_week2b_871_2_alg».proof.Defs
import proofs.«112316_g16243566313856_cont_week2b_871_2_alg».proof.Proof.Gen.Kernel
import proofs.«112316_g16243566313856_cont_week2b_871_2_alg».proof.Proof.Gen.Kernel.Skeleton
import proofs.«112316_g16243566313856_cont_week2b_871_2_alg».proof.Proof.Gen.Kernel.Launch
import proofs.«112316_g16243566313856_cont_week2b_871_2_alg».proof.Proof.Gen.Kernel.Points
import proofs.«112316_g16243566313856_cont_week2b_871_2_alg».proof.Proof.Gen.Kernel.Frame
import proofs.«112316_g16243566313856_cont_week2b_871_2_alg».proof.Proof.Gen.KernelIdeal
import proofs.«112316_g16243566313856_cont_week2b_871_2_alg».proof.Proof.Gen.KernelIdeal.Skeleton
import proofs.«112316_g16243566313856_cont_week2b_871_2_alg».proof.Proof.Gen.KernelIdeal.Launch
import proofs.«112316_g16243566313856_cont_week2b_871_2_alg».proof.Proof.Gen.KernelIdeal.Points
import proofs.«112316_g16243566313856_cont_week2b_871_2_alg».proof.Proof.Gen.KernelIdeal.Frame
import proofs.«112316_g16243566313856_cont_week2b_871_2_alg».proof.Proof.Gen.ReferenceIdeal
import proofs.«112316_g16243566313856_cont_week2b_871_2_alg».proof.Proof.Gen.Pre_finite_inputs
import proofs.«112316_g16243566313856_cont_week2b_871_2_alg».proof.Proof.PreDecode
import proofs.«112316_g16243566313856_cont_week2b_871_2_alg».proof.Proof.Bridge
import proofs.«112316_g16243566313856_cont_week2b_871_2_alg».proof.Proof.RefRun
import proofs.«112316_g16243566313856_cont_week2b_871_2_alg».proof.Proof.RefRow
import Idealize.ShloMosaic.Adequacy
import Idealize.ShloMosaic.Init

noncomputable section

namespace Cert.Proof

open Idealize.ShloMosaic Idealize.ShloMosaic.ValueIdx Idealize.ShloMosaic.TcCoe Idealize.SL.Sem Cert.Pooling

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- Run from memories that agree on the arguments, the two idealized programs end with the same result: at row b, the
    row's output formula times the scale plus the shift. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i : Cert.KernelIdeal.S128x1.Idx =>
      @HAdd.hAdd EReal EReal EReal instHAdd (@HMul.hMul EReal EReal EReal instHMul
        (rowOf m c ⟨(i 0).val, idx2_lt0 i⟩)
        ((m ((c.tc : Thread Cert.KernelIdeal.nD Cert.KernelIdeal.τ).loc Cert.KernelIdeal.main_arg9) : Cert.KernelIdeal.S1.Idx → EReal) (ix1 (0 : Fin 1)))) ((m ((c.tc : Thread Cert.KernelIdeal.nD Cert.KernelIdeal.τ).loc Cert.KernelIdeal.main_arg8) : Cert.KernelIdeal.S1.Idx → EReal) (ix1 (0 : Fin 1)))), ?_, ?_⟩
  · exact Cert.KernelIdeal.ArrayValue.run_of m ρ (fun c b => rowOf m c b) (fun c t p => kernel_row m c t p)
  · refine (θ_run Cert.ReferenceIdeal.defs _ _).mono (fun _ h c => ⟨(h c).1.trans ?_, (h c).2⟩)
      (Cert.ReferenceIdeal.RunP.run (F := Ideal) m' ρ')
    obtain ⟨a0, a1, a2, a3, a4, a5, a6, a7, a8, a9⟩ := hagree c
    rw [a0, a1, a2, a3, a4, a5, a6, a7, a8, a9]
    funext i
    obtain ⟨b, z, rfl⟩ : ∃ (b : Fin 128) (z : Fin 1), i = ix2 b z := ⟨i 0, i 1, eq_ix2 i⟩
    obtain rfl : z = 0 := Subsingleton.elim _ _
    have hx : ∀ n d, IsR ((m ((c.tc : Thread Cert.KernelIdeal.nD Cert.KernelIdeal.τ).loc Cert.KernelIdeal.main_arg0) : Cert.KernelIdeal.S128x1024x128.Idx → EReal) (ix3 b n d)) := fun n d => Cert.PreDecode.rep_finite m hpre c _
    have hrow : ∃ n, (m ((c.tc : Thread Cert.KernelIdeal.nD Cert.KernelIdeal.τ).loc Cert.KernelIdeal.main_arg1) : Cert.KernelIdeal.S128x1024.Idx → BitVec 1) (ix2 b n) = 1#1 := Cert.PreDecode.row_has_atom m hpre c b
    exact (Cert.Pooling.R.y_at hx hrow).trans rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
